-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S5x64x64 : Shape := ⟨3, ![5, 64, 64]⟩
abbrev S5x64 : Shape := ⟨2, ![5, 64]⟩
abbrev S384x40 : Shape := ⟨2, ![384, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S384x40 : S_.BroadcastsInDim S384x40 (![] : Fin 0 → Fin S384x40.rank)
  reducesTo_S384x40_S_d0_1 : S384x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S5x64x64 .f32) (main_arg6 : FVec F S5x64 .f32) (main_arg7 : FVec F S384x40 .f32) (main_arg8 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S5x64x64 .f32 := Host.absf main_arg5
  let main_cst_6 : FVec F S_ .f32 := constant S_ .f32 0x7F800000#32
  let main_v20 : FVec F S5x64x64 .f32 := broadcastInDim S5x64x64 ![] bcast_S_S5x64x64 main_cst_6
  let main_v21 : IVec S5x64x64 1 := cmpf .olt main_v19 main_v20
  let main_c_7 : IVec S_ 1 := constantI S_ 1 1#1
  let main_v22 : IVec S_ 1 := (fun x v => Host.reduce IntOp.andi x v reducesTo_S5x64x64_S_d0_1_2 h_S_) main_v21 main_c_7
  let main_v23 : IVec S_ 1 := andi main_v18 main_v22
  let main_v24 : FVec F S5x64 .f32 := Host.absf main_arg6
  let main_cst_8 : FVec F S_ .f32 := constant S_ .f32 0x7F800000#32
  let main_v25 : FVec F S5x64 .f32 := broadcastInDim S5x64 ![] bcast_S_S5x64 main_cst_8
  let main_v26 : IVec S5x64 1 := cmpf .olt main_v24 main_v25
  let main_c_9 : IVec S_ 1 := constantI S_ 1 1#1
  let main_v27 : IVec S_ 1 := (fun x v => Host.reduce IntOp.andi x v reducesTo_S5x64_S_d0_1 h_S_) main_v26 main_c_9
  let main_v28 : IVec S_ 1 := andi main_v23 main_v27
  let main_v29 : FVec F S384x40 .f32 := Host.absf main_arg7
  let main_cst_10 : FVec F S_ .f32 := constant S_ .f32 0x7F800000#32
  let main_v30 : FVec F S384x40 .f32 := broadcastInDim S384x40 ![] bcast_S_S384x40 main_cst_10
  let main_v31 : IVec S384x40 1 := cmpf .olt main_v29 main_v30
  let main_c_11 : IVec S_ 1 := constantI S_ 1 1#1
  let main_v32 : IVec S_ 1 := (fun x v => Host.reduce IntOp.andi x v reducesTo_S384x40_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x64 .f32) (main_arg4 : FVec F S64 .f32) (main_arg5 : FVec F S5x64x64 .f32) (main_arg6 : FVec F S5x64 .f32) (main_arg7 : FVec F S384x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S5x64x64 : Shape := ⟨3, ![5, 64, 64]⟩
abbrev S5x64 : Shape := ⟨2, ![5, 64]⟩
abbrev S384x40 : Shape := ⟨2, ![384, 40]⟩
abbrev S40 : Shape := ⟨1, ![40]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S1x64x64 : Shape := ⟨3, ![1, 64, 64]⟩
abbrev S64x64 : Shape := ⟨2, ![64, 64]⟩
abbrev S64x40 : Shape := ⟨2, ![64, 40]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 203
  | .vmem => 66
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x64, .f32⟩
  | 4 => ⟨S64, .f32⟩
  | 5 => ⟨S5x64x64, .f32⟩
  | 6 => ⟨S5x64, .f32⟩
  | 7 => ⟨S384x40, .f32⟩
  | 8 => ⟨S40, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x64, .bf16⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .bf16⟩
  | 61 => ⟨S850000x64, .f32⟩
  | 62 => ⟨S850000x1, .f32⟩
  | 63 => ⟨S850000x64, .f32⟩
  | 64 => ⟨S850000x64, .f32⟩
  | 65 => ⟨S_, .f32⟩
  | 66 => ⟨S50000x64, .f32⟩
  | 67 => ⟨S850000x1, .i32⟩
  | 68 => ⟨S50000x64, .f32⟩
  | 69 => ⟨S1x64, .f32⟩
  | 70 => ⟨S64, .f32⟩
  | 71 => ⟨S1x64, .f32⟩
  | 72 => ⟨S64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S64, .f32⟩
  | 79 => ⟨S1x64x64, .f32⟩
  | 80 => ⟨S64x64, .f32⟩
  | 81 => ⟨S1x64x64, .f32⟩
  | 82 => ⟨S64x64, .f32⟩
  | 83 => ⟨S1x64x64, .f32⟩
  | 84 => ⟨S64x64, .f32⟩
  | 85 => ⟨S1x64x64, .f32⟩
  | 86 => ⟨S64x64, .f32⟩
  | 87 => ⟨S1x64x64, .f32⟩
  | 88 => ⟨S64x64, .f32⟩
  | 89 => ⟨S1x64, .f32⟩
  | 90 => ⟨S50000x64, .f32⟩
  | 91 => ⟨S50000x64, .bf16⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .bf16⟩
  | 101 => ⟨S850000x64, .f32⟩
  | 102 => ⟨S850000x1, .f32⟩
  | 103 => ⟨S850000x64, .f32⟩
  | 104 => ⟨S850000x64, .f32⟩
  | 105 => ⟨S_, .f32⟩
  | 106 => ⟨S50000x64, .f32⟩
  | 107 => ⟨S850000x1, .i32⟩
  | 108 => ⟨S50000x64, .f32⟩
  | 109 => ⟨S1x64, .f32⟩
  | 110 => ⟨S50000x64, .f32⟩
  | 111 => ⟨S50000x64, .bf16⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .bf16⟩
  | 121 => ⟨S850000x64, .f32⟩
  | 122 => ⟨S850000x1, .f32⟩
  | 123 => ⟨S850000x64, .f32⟩
  | 124 => ⟨S850000x64, .f32⟩
  | 125 => ⟨S_, .f32⟩
  | 126 => ⟨S50000x64, .f32⟩
  | 127 => ⟨S850000x1, .i32⟩
  | _ => ⟨S50000x128, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .bf16⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x64, .bf16⟩
  | 13 => ⟨S850000x64, .f32⟩
  | 14 => ⟨S850000x1, .f32⟩
  | 15 => ⟨S850000x64, .f32⟩
  | 16 => ⟨S850000x64, .f32⟩
  | 17 => ⟨S_, .f32⟩
  | 18 => ⟨S50000x64, .f32⟩
  | 19 => ⟨S850000x1, .i32⟩
  | 20 => ⟨S50000x64, .f32⟩
  | 21 => ⟨S1x64, .f32⟩
  | 22 => ⟨S50000x64, .f32⟩
  | 23 => ⟨S50000x64, .bf16⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x64, .bf16⟩
  | 33 => ⟨S850000x64, .f32⟩
  | 34 => ⟨S850000x1, .f32⟩
  | 35 => ⟨S850000x64, .f32⟩
  | 36 => ⟨S850000x64, .f32⟩
  | 37 => ⟨S_, .f32⟩
  | 38 => ⟨S50000x64, .f32⟩
  | 39 => ⟨S850000x1, .i32⟩
  | 40 => ⟨S50000x64, .f32⟩
  | 41 => ⟨S1x64, .f32⟩
  | 42 => ⟨S50000x64, .f32⟩
  | 43 => ⟨S50000x64, .bf16⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x64, .bf16⟩
  | 53 => ⟨S850000x64, .f32⟩
  | 54 => ⟨S850000x1, .f32⟩
  | 55 => ⟨S850000x64, .f32⟩
  | 56 => ⟨S850000x64, .f32⟩
  | 57 => ⟨S_, .f32⟩
  | 58 => ⟨S50000x64, .f32⟩
  | 59 => ⟨S850000x1, .i32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S64x40, .f32⟩
  | 68 => ⟨S64x40, .f32⟩
  | 69 => ⟨S64x40, .f32⟩
  | 70 => ⟨S64x40, .f32⟩
  | 71 => ⟨S64x40, .f32⟩
  | 72 => ⟨S64x40, .f32⟩
  | 73 => ⟨S1x40, .f32⟩
  | 74 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .bf16⟩
  | .local _ .vmem, ⟨4, _⟩ => ⟨S2000x64, .bf16⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | .local _ .vmem, ⟨11, _⟩ => ⟨S2000x64, .bf16⟩
  | .local _ .vmem, ⟨12, _⟩ => ⟨S2000x64, .bf16⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S64x64, .f32⟩
  | .local _ .vmem, ⟨17, _⟩ => ⟨S2000x64, .f32⟩
  | .local _ .vmem, ⟨18, _⟩ => ⟨S2000x64, .f32⟩
  | .local _ .vmem, ⟨19, _⟩ => ⟨S2000x64, .bf16⟩
  | .local _ .vmem, ⟨20, _⟩ => ⟨S2000x64, .bf16⟩
  | .local _ .vmem, ⟨21, _⟩ => ⟨S2000x64, .f32⟩
  | .local _ .vmem, ⟨22, _⟩ => ⟨S2000x64, .f32⟩
  | .local _ .vmem, ⟨23, _⟩ => ⟨S1x64, .f32⟩
  | .local _ .vmem, ⟨24, _⟩ => ⟨S64x64, .f32⟩
  | .local _ .vmem, ⟨25, _⟩ => ⟨S2000x64, .f32⟩
  | .local _ .vmem, ⟨26, _⟩ => ⟨S2000x64, .f32⟩
  | .local _ .vmem, ⟨27, _⟩ => ⟨S2000x64, .bf16⟩
  | .local _ .vmem, ⟨28, _⟩ => ⟨S2000x64, .bf16⟩
  | .local _ .vmem, ⟨29, _⟩ => ⟨S2000x64, .f32⟩
  | .local _ .vmem, ⟨30, _⟩ => ⟨S2000x64, .f32⟩
  | .local _ .vmem, ⟨31, _⟩ => ⟨S1x64, .f32⟩
  | .local _ .vmem, ⟨32, _⟩ => ⟨S64x64, .f32⟩
  | .local _ .vmem, ⟨33, _⟩ => ⟨S2000x64, .f32⟩
  | .local _ .vmem, ⟨34, _⟩ => ⟨S2000x64, .f32⟩
  | .local _ .vmem, ⟨35, _⟩ => ⟨S2000x64, .bf16⟩
  | .local _ .vmem, ⟨36, _⟩ => ⟨S2000x64, .bf16⟩
  | .local _ .vmem, ⟨37, _⟩ => ⟨S2000x64, .f32⟩
  | .local _ .vmem, ⟨38, _⟩ => ⟨S2000x64, .f32⟩
  | .local _ .vmem, ⟨39, _⟩ => ⟨S1x64, .f32⟩
  | .local _ .vmem, ⟨40, _⟩ => ⟨S64x64, .f32⟩
  | .local _ .vmem, ⟨41, _⟩ => ⟨S2000x64, .f32⟩
  | .local _ .vmem, ⟨42, _⟩ => ⟨S2000x64, .f32⟩
  | .local _ .vmem, ⟨43, _⟩ => ⟨S2000x64, .bf16⟩
  | .local _ .vmem, ⟨44, _⟩ => ⟨S2000x64, .bf16⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S64x40, .f32⟩
  | .local _ .vmem, ⟨58, _⟩ => ⟨S64x40, .f32⟩
  | .local _ .vmem, ⟨59, _⟩ => ⟨S64x40, .f32⟩
  | .local _ .vmem, ⟨60, _⟩ => ⟨S64x40, .f32⟩
  | .local _ .vmem, ⟨61, _⟩ => ⟨S64x40, .f32⟩
  | .local _ .vmem, ⟨62, _⟩ => ⟨S64x40, .f32⟩
  | .local _ .vmem, ⟨63, _⟩ => ⟨S1x40, .f32⟩
  | .local _ .vmem, ⟨64, _⟩ => ⟨S2000x40, .f32⟩
  | .local _ .vmem, ⟨65, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68_0 : Ref sig .tc := ⟨.hbm, 90, rfl⟩
abbrev main_v68_1 : Ref sig .tc := ⟨.hbm, 91, rfl⟩
abbrev main_c_9 : Ref sig .tc := ⟨.hbm, 92, rfl⟩
abbrev main_v69 : Ref sig .tc := ⟨.hbm, 93, rfl⟩
abbrev main_v70 : Ref sig .tc := ⟨.hbm, 94, rfl⟩
abbrev main_c_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_11 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84_0 : Ref sig .tc := ⟨.hbm, 110, rfl⟩
abbrev main_v84_1 : Ref sig .tc := ⟨.hbm, 111, rfl⟩
abbrev main_c_12 : Ref sig .tc := ⟨.hbm, 112, rfl⟩
abbrev main_v85 : Ref sig .tc := ⟨.hbm, 113, rfl⟩
abbrev main_v86 : Ref sig .tc := ⟨.hbm, 114, rfl⟩
abbrev main_c_13 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100_0 : Ref sig .tc := ⟨.hbm, 130, rfl⟩
abbrev main_v100_1 : Ref sig .tc := ⟨.hbm, 131, rfl⟩
abbrev main_c_15 : Ref sig .tc := ⟨.hbm, 132, rfl⟩
abbrev main_v101 : Ref sig .tc := ⟨.hbm, 133, rfl⟩
abbrev main_v102 : Ref sig .tc := ⟨.hbm, 134, rfl⟩
abbrev main_c_16 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_17 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116_0 : Ref sig .tc := ⟨.hbm, 150, rfl⟩
abbrev main_v116_1 : Ref sig .tc := ⟨.hbm, 151, rfl⟩
abbrev main_c_18 : Ref sig .tc := ⟨.hbm, 152, rfl⟩
abbrev main_v117 : Ref sig .tc := ⟨.hbm, 153, rfl⟩
abbrev main_v118 : Ref sig .tc := ⟨.hbm, 154, rfl⟩
abbrev main_c_19 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_20 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132_0 : Ref sig .tc := ⟨.hbm, 170, rfl⟩
abbrev main_v132_1 : Ref sig .tc := ⟨.hbm, 171, rfl⟩
abbrev main_c_21 : Ref sig .tc := ⟨.hbm, 172, rfl⟩
abbrev main_v133 : Ref sig .tc := ⟨.hbm, 173, rfl⟩
abbrev main_v134 : Ref sig .tc := ⟨.hbm, 174, rfl⟩
abbrev main_c_22 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_23 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_call1_cst : Ref sig .tc := ⟨.hbm, 192, rfl⟩
abbrev main_call1_v0 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg3_1 : Ref sig .tc := ⟨.vmem, 52, rfl⟩
abbrev cc6_stg4_0 : Ref sig .tc := ⟨.vmem, 53, rfl⟩
abbrev cc6_stg4_1 : Ref sig .tc := ⟨.vmem, 54, rfl⟩
abbrev cc6_stg5_0 : Ref sig .tc := ⟨.vmem, 55, rfl⟩
abbrev cc6_stg5_1 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg8_0 : Ref sig .tc := ⟨.vmem, 59, rfl⟩
abbrev cc6_stg9_0 : Ref sig .tc := ⟨.vmem, 60, rfl⟩
abbrev cc6_stg10_0 : Ref sig .tc := ⟨.vmem, 61, rfl⟩
abbrev cc6_stg11_0 : Ref sig .tc := ⟨.vmem, 62, rfl⟩
abbrev cc6_stg12_0 : Ref sig .tc := ⟨.vmem, 63, rfl⟩
abbrev cc6_stg13_0 : Ref sig .tc := ⟨.vmem, 64, rfl⟩
abbrev cc6_stg13_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34
abbrev cc4_sem4_0 : DmaSem sig := 35
abbrev cc4_sem4_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem3_1 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem3_1 : DmaSem sig := 52
abbrev cc6_sem4_0 : DmaSem sig := 53
abbrev cc6_sem4_1 : DmaSem sig := 54
abbrev cc6_sem5_0 : DmaSem sig := 55
abbrev cc6_sem5_1 : DmaSem sig := 56
abbrev cc6_sem6_0 : DmaSem sig := 57
abbrev cc6_sem7_0 : DmaSem sig := 58
abbrev cc6_sem8_0 : DmaSem sig := 59
abbrev cc6_sem9_0 : DmaSem sig := 60
abbrev cc6_sem10_0 : DmaSem sig := 61
abbrev cc6_sem11_0 : DmaSem sig := 62
abbrev cc6_sem12_0 : DmaSem sig := 63
abbrev cc6_sem13_0 : DmaSem sig := 64
abbrev cc6_sem13_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S64x40 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x40 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S64x40 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S64x40 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S64x40 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S64x40 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x40 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 2 → Memref sig .tc .vmem S2000x40 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  slices_S5x64_S1x64_0_0 : S5x64.Slices ![0, 0] S1x64
  shapeCasts_S1x64_S64 : S1x64.ShapeCasts S64
  slices_S5x64_S1x64_1_0 : S5x64.Slices ![1, 0] S1x64
  slices_S5x64_S1x64_2_0 : S5x64.Slices ![2, 0] S1x64
  slices_S5x64_S1x64_3_0 : S5x64.Slices ![3, 0] S1x64
  slices_S5x64_S1x64_4_0 : S5x64.Slices ![4, 0] S1x64
  slices_S5x64x64_S1x64x64_0_0_0 : S5x64x64.Slices ![0, 0, 0] S1x64x64
  shapeCasts_S1x64x64_S64x64 : S1x64x64.ShapeCasts S64x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1x64_S50000x64_0_1 : S1x64.BroadcastsInDim S50000x64 (![0, 1] : Fin 2 → Fin S50000x64.rank)
  slices_S384x40_S64x40_0_0 : S384x40.Slices ![0, 0] S64x40
  slices_S384x40_S64x40_64_0 : S384x40.Slices ![64, 0] S64x40
  slices_S384x40_S64x40_128_0 : S384x40.Slices ![128, 0] S64x40
  slices_S384x40_S64x40_192_0 : S384x40.Slices ![192, 0] S64x40
  slices_S384x40_S64x40_256_0 : S384x40.Slices ![256, 0] S64x40
  slices_S384x40_S64x40_320_0 : S384x40.Slices ![320, 0] S64x40
  shapeCasts_S40_S1x40 : S40.ShapeCasts S1x40
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .bf16 = 32 ∨ (Rect.block (s := S50000x64) S2000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .bf16 = 32 ∨ (Rect.block (s := S50000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .bf16 = 32 ∨ (Rect.block (s := S50000x64) S2000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .bf16 = 32 ∨ (Rect.block (s := S50000x64) S2000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S50000x64.size a
  hwx4_4 : ∀ i : grid4.Coords, EltTy.bits .bf16 = 32 ∨ (Rect.block (s := S50000x64) S2000x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .bf16 = 32 ∨ (Rect.block (s := S50000x64) S2000x64.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S50000x64.size a
  hwx6_5 : ∀ i : grid6.Coords, EltTy.bits .f32 = 32 ∨ (Rect.block (s := S50000x64) S2000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x40.size a ≤ S64x40.size a
  hwx6_6 : ∀ i : grid6.Coords, EltTy.bits .f32 = 32 ∨ (Rect.block (s := S64x40) S64x40.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x40.size a ≤ S64x40.size a
  hwx6_7 : ∀ i : grid6.Coords, EltTy.bits .f32 = 32 ∨ (Rect.block (s := S64x40) S64x40.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S64x40.size a ≤ S64x40.size a
  hwx6_8 : ∀ i : grid6.Coords, EltTy.bits .f32 = 32 ∨ (Rect.block (s := S64x40) S64x40.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S64x40.size a ≤ S64x40.size a
  hwx6_9 : ∀ i : grid6.Coords, EltTy.bits .f32 = 32 ∨ (Rect.block (s := S64x40) S64x40.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S64x40.size a ≤ S64x40.size a
  hwx6_10 : ∀ i : grid6.Coords, EltTy.bits .f32 = 32 ∨ (Rect.block (s := S64x40) S64x40.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S64x40.size a ≤ S64x40.size a
  hwx6_11 : ∀ i : grid6.Coords, EltTy.bits .f32 = 32 ∨ (Rect.block (s := S64x40) S64x40.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1x40.size a ≤ S1x40.size a
  hwx6_12 : ∀ i : grid6.Coords, EltTy.bits .f32 = 32 ∨ (Rect.block (s := S1x40) S1x40.size (cc6_transform_12 i) (hinb6_12 i)).WholeWords (EltTy.packing .f32)
  hstage6_13 : ∀ j, (stage6_13 j).IsWhole
  nbuf6_13 : grid6.bufCount reads6_13 false = 2
  hreads6_13 : ∀ i i' : grid6.Coords, (∀ a, reads6_13 a = true → i a = i' a) → cc6_transform_13 i = cc6_transform_13 i'
  hinb6_13 : ∀ (i : grid6.Coords) a, (cc6_transform_13 i a + 1) * S2000x40.size a ≤ S50000x40.size a
  hwx6_13 : ∀ i : grid6.Coords, EltTy.bits .f32 = 32 ∨ (Rect.block (s := S50000x40) S2000x40.size (cc6_transform_13 i) (hinb6_13 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68_0) S2000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v68_1) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v82) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v84_1) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v98) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v99) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100_0) S2000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v100_1) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v114) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v115) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v116_0) S2000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v116_1) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v130) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v131) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v132_0) S2000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v132_1) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v68_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84_0) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v100_0) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v116_0) S2000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v132_0) S2000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v150) S2000x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v151) S64x40.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v152) S64x40.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v153) S64x40.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v154) S64x40.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v155) S64x40.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v156) S64x40.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v157) S1x40.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v158) S2000x40.size cc6_transform_13 reads6_13 true false 2 stage6_13 sem6_13
    hrank6 hreads6_13 hinb6_13 nbuf6_13 (Memref.isWhole_whole _) hwx6_13 hstage6_13

abbrev win6 : Fin 14 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | ⟨_ + 14, h⟩ => absurd h (Nat.not_lt.2 (Nat.le_add_left _ _))
abbrev spec6 : Fin 14 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S5x64x64 : Shape := ⟨3, ![5, 64, 64]⟩
abbrev S5x64 : Shape := ⟨2, ![5, 64]⟩
abbrev S384x40 : Shape := ⟨2, ![384, 40]⟩
abbrev S40 : Shape := ⟨1, ![40]⟩
abbrev S50000 : Shape := ⟨1, ![50000]⟩
abbrev S1x800000 : Shape := ⟨2, ![1, 800000]⟩
abbrev S850000 : Shape := ⟨1, ![850000]⟩
abbrev S_ : Shape := ⟨0, ![]⟩
abbrev S50000x64 : Shape := ⟨2, ![50000, 64]⟩
abbrev S850000x1 : Shape := ⟨2, ![850000, 1]⟩
abbrev S850000x64 : Shape := ⟨2, ![850000, 64]⟩
abbrev S1x64 : Shape := ⟨2, ![1, 64]⟩
abbrev S1x64x64 : Shape := ⟨3, ![1, 64, 64]⟩
abbrev S64x64 : Shape := ⟨2, ![64, 64]⟩
abbrev S50000x384 : Shape := ⟨2, ![50000, 384]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 389
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x64, .f32⟩
  | 4 => ⟨S64, .f32⟩
  | 5 => ⟨S5x64x64, .f32⟩
  | 6 => ⟨S5x64, .f32⟩
  | 7 => ⟨S384x40, .f32⟩
  | 8 => ⟨S40, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S50000x64, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x1, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S1x64x64, .f32⟩
  | 75 => ⟨S64x64, .f32⟩
  | 76 => ⟨S1x64, .f32⟩
  | 77 => ⟨S64, .f32⟩
  | 78 => ⟨S50000x64, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S50000x64, .f32⟩
  | 4 => ⟨S50000x64, .f32⟩
  | 5 => ⟨S1x64x64, .f32⟩
  | 6 => ⟨S64x64, .f32⟩
  | 7 => ⟨S1x64, .f32⟩
  | 8 => ⟨S64, .f32⟩
  | 9 => ⟨S50000x64, .f32⟩
  | 10 => ⟨S_, .f32⟩
  | 11 => ⟨S50000, .f32⟩
  | 12 => ⟨S850000x1, .i32⟩
  | 13 => ⟨S50000, .f32⟩
  | 14 => ⟨S_, .f32⟩
  | 15 => ⟨S50000, .f32⟩
  | 16 => ⟨S50000, .i1⟩
  | 17 => ⟨S50000, .f32⟩
  | 18 => ⟨S_, .f32⟩
  | 19 => ⟨S_, .f32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x64, .f32⟩
  | 51 => ⟨S850000x1, .f32⟩
  | 52 => ⟨S850000x64, .f32⟩
  | 53 => ⟨S850000x64, .f32⟩
  | 54 => ⟨S_, .f32⟩
  | 55 => ⟨S50000x64, .f32⟩
  | 56 => ⟨S850000x1, .i32⟩
  | 57 => ⟨S50000x64, .f32⟩
  | 58 => ⟨S1x64, .f32⟩
  | 59 => ⟨S50000x64, .f32⟩
  | 60 => ⟨S50000x64, .f32⟩
  | 61 => ⟨S_, .f32⟩
  | 62 => ⟨S50000x64, .f32⟩
  | 63 => ⟨S50000x64, .f32⟩
  | 64 => ⟨S1x64x64, .f32⟩
  | 65 => ⟨S64x64, .f32⟩
  | 66 => ⟨S1x64, .f32⟩
  | 67 => ⟨S64, .f32⟩
  | 68 => ⟨S50000x64, .f32⟩
  | 69 => ⟨S_, .f32⟩
  | 70 => ⟨S50000, .f32⟩
  | 71 => ⟨S850000x1, .i32⟩
  | 72 => ⟨S50000, .f32⟩
  | 73 => ⟨S_, .f32⟩
  | 74 => ⟨S50000, .f32⟩
  | 75 => ⟨S50000, .i1⟩
  | 76 => ⟨S50000, .f32⟩
  | 77 => ⟨S_, .f32⟩
  | 78 => ⟨S_, .f32⟩
  | 79 => ⟨S50000, .f32⟩
  | 80 => ⟨S50000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x64, .f32⟩
  | 110 => ⟨S850000x1, .f32⟩
  | 111 => ⟨S850000x64, .f32⟩
  | 112 => ⟨S850000x64, .f32⟩
  | 113 => ⟨S_, .f32⟩
  | 114 => ⟨S50000x64, .f32⟩
  | 115 => ⟨S850000x1, .i32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S1x64x64, .f32⟩
  | 124 => ⟨S64x64, .f32⟩
  | 125 => ⟨S1x64, .f32⟩
  | 126 => ⟨S64, .f32⟩
  | 127 => ⟨S50000x64, .f32⟩
  | _ => ⟨S50000x128, .f32⟩

abbrev hbmTy0_2 (i : Nat) : BufTy := match i % 128 with
  | 0 => ⟨S_, .f32⟩
  | 1 => ⟨S50000, .f32⟩
  | 2 => ⟨S850000x1, .i32⟩
  | 3 => ⟨S50000, .f32⟩
  | 4 => ⟨S_, .f32⟩
  | 5 => ⟨S50000, .f32⟩
  | 6 => ⟨S50000, .i1⟩
  | 7 => ⟨S50000, .f32⟩
  | 8 => ⟨S_, .f32⟩
  | 9 => ⟨S_, .f32⟩
  | 10 => ⟨S50000, .f32⟩
  | 11 => ⟨S50000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S850000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000x64, .f32⟩
  | 41 => ⟨S850000x1, .f32⟩
  | 42 => ⟨S850000x64, .f32⟩
  | 43 => ⟨S850000x64, .f32⟩
  | 44 => ⟨S_, .f32⟩
  | 45 => ⟨S50000x64, .f32⟩
  | 46 => ⟨S850000x1, .i32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S1x64x64, .f32⟩
  | 55 => ⟨S64x64, .f32⟩
  | 56 => ⟨S1x64, .f32⟩
  | 57 => ⟨S64, .f32⟩
  | 58 => ⟨S50000x64, .f32⟩
  | 59 => ⟨S_, .f32⟩
  | 60 => ⟨S50000, .f32⟩
  | 61 => ⟨S850000x1, .i32⟩
  | 62 => ⟨S50000, .f32⟩
  | 63 => ⟨S_, .f32⟩
  | 64 => ⟨S50000, .f32⟩
  | 65 => ⟨S50000, .i1⟩
  | 66 => ⟨S50000, .f32⟩
  | 67 => ⟨S_, .f32⟩
  | 68 => ⟨S_, .f32⟩
  | 69 => ⟨S50000, .f32⟩
  | 70 => ⟨S50000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x64, .f32⟩
  | 100 => ⟨S850000x1, .f32⟩
  | 101 => ⟨S850000x64, .f32⟩
  | 102 => ⟨S850000x64, .f32⟩
  | 103 => ⟨S_, .f32⟩
  | 104 => ⟨S50000x64, .f32⟩
  | 105 => ⟨S850000x1, .i32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x384, .f32⟩
  | 114 => ⟨S50000x40, .f32⟩
  | 115 => ⟨S1x40, .f32⟩
  | 116 => ⟨S50000x40, .f32⟩
  | 117 => ⟨S50000x40, .f32⟩
  | 118 => ⟨S_, .f32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x40, .f32⟩
  | 125 => ⟨S50000x40, .f32⟩
  | 126 => ⟨S50000x40, .f32⟩
  | 127 => ⟨S_, .f32⟩
  | _ => ⟨S50000x128, .f32⟩

abbrev hbmTy0_3 (i : Nat) : BufTy := match i % 128 with
  | 0 => ⟨S50000, .f32⟩
  | 1 => ⟨S50000x1, .f32⟩
  | 2 => ⟨S50000x1, .f32⟩
  | 3 => ⟨S50000x40, .f32⟩
  | 4 => ⟨S50000x40, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_call3_cst : Ref sig .tc := ⟨.hbm, 130, rfl⟩
abbrev main_call3_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_19 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_20 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_21 : Ref sig .tc := ⟨.hbm, 146, rfl⟩
abbrev main_call4_v0 : Ref sig .tc := ⟨.hbm, 147, rfl⟩
abbrev main_call4_v1 : Ref sig .tc := ⟨.hbm, 148, rfl⟩
abbrev main_v106 : Ref sig .tc := ⟨.hbm, 149, rfl⟩
abbrev main_c_22 : Ref sig .tc := ⟨.hbm, 150, rfl⟩
abbrev main_v107 : Ref sig .tc := ⟨.hbm, 151, rfl⟩
abbrev main_v108 : Ref sig .tc := ⟨.hbm, 152, rfl⟩
abbrev main_c_23 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_24 : Ref sig .tc := ⟨.hbm, 160, rfl⟩
abbrev main_v115 : Ref sig .tc := ⟨.hbm, 161, rfl⟩
abbrev main_v116 : Ref sig .tc := ⟨.hbm, 162, rfl⟩
abbrev main_c_25 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_c_26 : Ref sig .tc := ⟨.hbm, 170, rfl⟩
abbrev main_v123 : Ref sig .tc := ⟨.hbm, 171, rfl⟩
abbrev main_v124 : Ref sig .tc := ⟨.hbm, 172, rfl⟩
abbrev main_c_27 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_28 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_call5_cst : Ref sig .tc := ⟨.hbm, 189, rfl⟩
abbrev main_call5_v0 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_29 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_30 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_31 : Ref sig .tc := ⟨.hbm, 205, rfl⟩
abbrev main_call6_v0 : Ref sig .tc := ⟨.hbm, 206, rfl⟩
abbrev main_call6_v1 : Ref sig .tc := ⟨.hbm, 207, rfl⟩
abbrev main_v151 : Ref sig .tc := ⟨.hbm, 208, rfl⟩
abbrev main_c_32 : Ref sig .tc := ⟨.hbm, 209, rfl⟩
abbrev main_v152 : Ref sig .tc := ⟨.hbm, 210, rfl⟩
abbrev main_v153 : Ref sig .tc := ⟨.hbm, 211, rfl⟩
abbrev main_c_33 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_c_34 : Ref sig .tc := ⟨.hbm, 219, rfl⟩
abbrev main_v160 : Ref sig .tc := ⟨.hbm, 220, rfl⟩
abbrev main_v161 : Ref sig .tc := ⟨.hbm, 221, rfl⟩
abbrev main_c_35 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_c_36 : Ref sig .tc := ⟨.hbm, 229, rfl⟩
abbrev main_v168 : Ref sig .tc := ⟨.hbm, 230, rfl⟩
abbrev main_v169 : Ref sig .tc := ⟨.hbm, 231, rfl⟩
abbrev main_c_37 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_38 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_call7_cst : Ref sig .tc := ⟨.hbm, 248, rfl⟩
abbrev main_call7_v0 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_cst_39 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_cst_40 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_41 : Ref sig .tc := ⟨.hbm, 264, rfl⟩
abbrev main_call8_v0 : Ref sig .tc := ⟨.hbm, 265, rfl⟩
abbrev main_call8_v1 : Ref sig .tc := ⟨.hbm, 266, rfl⟩
abbrev main_v196 : Ref sig .tc := ⟨.hbm, 267, rfl⟩
abbrev main_c_42 : Ref sig .tc := ⟨.hbm, 268, rfl⟩
abbrev main_v197 : Ref sig .tc := ⟨.hbm, 269, rfl⟩
abbrev main_v198 : Ref sig .tc := ⟨.hbm, 270, rfl⟩
abbrev main_c_43 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_c_44 : Ref sig .tc := ⟨.hbm, 278, rfl⟩
abbrev main_v205 : Ref sig .tc := ⟨.hbm, 279, rfl⟩
abbrev main_v206 : Ref sig .tc := ⟨.hbm, 280, rfl⟩
abbrev main_c_45 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_c_46 : Ref sig .tc := ⟨.hbm, 288, rfl⟩
abbrev main_v213 : Ref sig .tc := ⟨.hbm, 289, rfl⟩
abbrev main_v214 : Ref sig .tc := ⟨.hbm, 290, rfl⟩
abbrev main_c_47 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_cst_48 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_call9_cst : Ref sig .tc := ⟨.hbm, 307, rfl⟩
abbrev main_call9_v0 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_cst_49 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_cst_50 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_cst_51 : Ref sig .tc := ⟨.hbm, 323, rfl⟩
abbrev main_call10_v0 : Ref sig .tc := ⟨.hbm, 324, rfl⟩
abbrev main_call10_v1 : Ref sig .tc := ⟨.hbm, 325, rfl⟩
abbrev main_v241 : Ref sig .tc := ⟨.hbm, 326, rfl⟩
abbrev main_c_52 : Ref sig .tc := ⟨.hbm, 327, rfl⟩
abbrev main_v242 : Ref sig .tc := ⟨.hbm, 328, rfl⟩
abbrev main_v243 : Ref sig .tc := ⟨.hbm, 329, rfl⟩
abbrev main_c_53 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_c_54 : Ref sig .tc := ⟨.hbm, 337, rfl⟩
abbrev main_v250 : Ref sig .tc := ⟨.hbm, 338, rfl⟩
abbrev main_v251 : Ref sig .tc := ⟨.hbm, 339, rfl⟩
abbrev main_c_55 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_c_56 : Ref sig .tc := ⟨.hbm, 347, rfl⟩
abbrev main_v258 : Ref sig .tc := ⟨.hbm, 348, rfl⟩
abbrev main_v259 : Ref sig .tc := ⟨.hbm, 349, rfl⟩
abbrev main_c_57 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_cst_58 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_call11_cst : Ref sig .tc := ⟨.hbm, 366, rfl⟩
abbrev main_call11_v0 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_call12_cst : Ref sig .tc := ⟨.hbm, 374, rfl⟩
abbrev main_call12_v0 : Ref sig .tc := ⟨.hbm, 375, rfl⟩
abbrev main_call12_cst_0 : Ref sig .tc := ⟨.hbm, 376, rfl⟩
abbrev main_call12_v1 : Ref sig .tc := ⟨.hbm, 377, rfl⟩
abbrev main_call12_v2 : Ref sig .tc := ⟨.hbm, 378, rfl⟩
abbrev main_call12_v3 : Ref sig .tc := ⟨.hbm, 379, rfl⟩
abbrev main_call12_v4 : Ref sig .tc := ⟨.hbm, 380, rfl⟩
abbrev main_call12_v5 : Ref sig .tc := ⟨.hbm, 381, rfl⟩
abbrev main_call12_v6 : Ref sig .tc := ⟨.hbm, 382, rfl⟩
abbrev main_call12_cst_1 : Ref sig .tc := ⟨.hbm, 383, rfl⟩
abbrev main_call12_v7 : Ref sig .tc := ⟨.hbm, 384, rfl⟩
abbrev main_call12_v8 : Ref sig .tc := ⟨.hbm, 385, rfl⟩
abbrev main_call12_v9 : Ref sig .tc := ⟨.hbm, 386, rfl⟩
abbrev main_call12_v10 : Ref sig .tc := ⟨.hbm, 387, rfl⟩
abbrev main_v280 : Ref sig .tc := ⟨.hbm, 388, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  concatenates_S50000x64_S50000x64_S50000x64_S50000x64_S50000x64_S50000x64_S50000x384_d1 : Shape.Concatenates [S50000x64, S50000x64, S50000x64, S50000x64, S50000x64, S50000x64] S50000x384 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x384_S384x40_S50000x40_1_0_0_1_n_n_wf : DotDims.WF S50000x384 S384x40 S50000x40 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x384_S384x40_S50000x40_1_0_0_1_n_n : DotDims S50000x384 S384x40 S50000x40 where
  lhsContracting := [1]
  rhsContracting := [0]
  lhsNonContracting := [0]
  rhsNonContracting := [1]
  lhsBatch := []
  rhsBatch := []
  wf := dot_S50000x384_S384x40_S50000x40_1_0_0_1_n_n_wf

class Facts : Prop extends Facts₀ where

variable [Facts]
-- ==== Proof.RunVal.lean ====
/-
  The idealized kernel's run with its result named.  Every weakly fair execution of the kernel program ends, nothing
  faulting, with the result array at the contents the last region's write-backs leave (the fold of the buffer
  contents through the host stretches and the seven regions) and with the nine argument arrays as launched.
-/
import proofs.«168511_j27419071218301_2_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the seven regions and the host stretches between them, read at the result buffer: the final memory
    holds there what the fold of the buffer contents holds, and the arguments are as launched. -/
theorem run : θ_run defs (onTc (τ := τ) (main (F := F))) ⟨m, fun _ => 0, ρ⟩ (fun r => ∀ c : Dev nD,
      r.2.mem ((c.tc : Thread nD τ).loc main_v158) = W18 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v158 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c)⟩)

end Cert.KernelIdeal.RunVal

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.Spec.lean ====
/-
  The mathematics of the two programs, entry by entry, over the extended reals.

  Both programs compute a six-layer graph network followed by a linear classifier and a row-wise log-softmax.
  A layer multiplies the node features by a weight matrix, aggregates the products over the edges, adds a bias row
  and clamps at zero.  The classifier multiplies the six layers' outputs, laid side by side, by a 384-row matrix;
  computed in six 64-row slices and summed it is the same number, because a sum over 384 = 6 · 64 terms may be
  taken slice by slice (addition of extended reals is commutative and associative).  The functions here name
  those entrywise values; nothing in this file mentions either program.
-/
import Idealize.ShloMosaic.Lib.ValueIdx
import Idealize.ShloMosaic.PureOps.Ideal.Laws
import proofs.«168511_j27419071218301_2_alg».proof.Proof.LibRowDot

noncomputable section

open scoped BigOperators

namespace Cert.JK

open Idealize.ShloMosaic Idealize.ShloMosaic.ValueIdx Cert.RowDot

/-- An M×N array of extended reals. -/
abbrev Mat (M N : Nat) := (⟨2, ![M, N]⟩ : Shape).Idx → EReal

/-- The product of an M×K and a K×N array: entry (p, q) is row p of the left times column q of the right. -/
def mm {M K N : Nat} (l : Mat M K) (r : Mat K N) : Mat M N := fun i => rowDot (rowOf l (i 0)) r (i 1)

/-- The float zero word's value. -/
def zeroF : EReal := Ideal.ofBits .f32 0x00000000#32

/-- The float minus-infinity word's value. -/
def negInfF : EReal := Ideal.ofBits .f32 0xFF800000#32

/-- A layer's output: the aggregate plus the bias of its column, clamped below at zero. -/
def reluRow {M N : Nat} (a : Mat M N) (b : Fin N → EReal) : Mat M N := fun i => max (a i + b (i 1)) zeroF

/-- The largest entry of a row, from minus infinity. -/
def rowMax {N : Nat} (z : Fin N → EReal) : EReal := (Finset.univ : Finset (Fin N)).fold max negInfF z

/-- The log-softmax of a row at a column: the entry less the row's maximum, less the logarithm of the sum of the
    exponentials of the row's entries less the maximum. -/
def lsm {N : Nat} (z : Fin N → EReal) (q : Fin N) : EReal :=
  (z q - rowMax z) - Ideal.log (∑ k : Fin N, Ideal.exp (z k - rowMax z))

/-- Row 64·j + k of a 384-row array. -/
def idx384 (j : Fin 6) (k : Fin 64) : Fin 384 := ⟨64 * j.val + k.val, by have := j.isLt; have := k.isLt; omega⟩

/-- Rows 64·j … 64·j + 63 of a 384-row matrix. -/
def slice64 {N : Nat} (W : Mat 384 N) (j : Fin 6) : Mat 64 N := fun i => W (ix2 (idx384 j (i 0)) (i 1))

/-- The 64-column piece a column of the side-by-side array lies in. -/
def piece (k : Fin 384) : Fin 6 := ⟨k.val / 64, by have := k.isLt; omega⟩

/-- The column's place inside its piece. -/
def within (k : Fin 384) : Fin 64 := ⟨k.val % 64, Nat.mod_lt _ (by decide)⟩

/-- Six M×64 arrays side by side: column k of the result is column k mod 64 of array k / 64. -/
def sideBySide {M : Nat} (hs : Fin 6 → Mat M 64) : Mat M 384 := fun i => hs (piece (i 1)) (ix2 (i 0) (within (i 1)))

theorem piece_idx384 (j : Fin 6) (k : Fin 64) : piece (idx384 j k) = j :=
  Fin.ext (by show (64 * j.val + k.val) / 64 = j.val; have := k.isLt; omega)

theorem within_idx384 (j : Fin 6) (k : Fin 64) : within (idx384 j k) = k :=
  Fin.ext (by show (64 * j.val + k.val) % 64 = k.val; have := k.isLt; omega)

/-- A sum over 384 terms taken as six sums of 64. -/
theorem sum_384 (f : Fin 384 → EReal) : ∑ k : Fin 384, f k = ∑ j : Fin 6, ∑ k : Fin 64, f (idx384 j k) :=
  calc ∑ k : Fin 384, f k
      = ∑ x : Fin 6 × Fin 64, f (finProdFinEquiv x) := ((finProdFinEquiv (m := 6) (n := 64)).sum_comp f).symm
    _ = ∑ j : Fin 6, ∑ k : Fin 64, f (finProdFinEquiv (j, k)) := Fintype.sum_prod_type _
    _ = ∑ j : Fin 6, ∑ k : Fin 64, f (idx384 j k) :=
        Finset.sum_congr rfl fun j _ => Finset.sum_congr rfl fun k _ => congrArg f (Fin.ext (by
          show k.val + 64 * j.val = 64 * j.val + k.val
          omega))

/-- The classifier's product of the side-by-side array is the sum of the six slices' products. -/
theorem mm_sideBySide {M N : Nat} (hs : Fin 6 → Mat M 64) (W : Mat 384 N) (i : (⟨2, ![M, N]⟩ : Shape).Idx) :
    mm (sideBySide hs) W i = ∑ j : Fin 6, mm (hs j) (slice64 W j) i := by
  unfold mm rowDot rowOf
  rw [sum_384]
  refine Finset.sum_congr rfl fun j _ => Finset.sum_congr rfl fun k _ => ?_
  have e1 : sideBySide hs (ix2 (i 0) (idx384 j k)) = hs j (ix2 (i 0) k) := by
    show hs (piece (idx384 j k)) (ix2 (i 0) (within (idx384 j k))) = _
    rw [piece_idx384, within_idx384]
  have e2 : slice64 W j (ix2 k (i 1)) = W (ix2 (idx384 j k) (i 1)) := rfl
  rw [e1, e2]

/-- The classifier's output formed slice by slice: the six products added left to right, plus the bias of the column. -/
def zK {M : Nat} (h0 h1 h2 h3 h4 h5 : Mat M 64) (w0 w1 w2 w3 w4 w5 : Mat 64 40) (b : Fin 40 → EReal) : Mat M 40 :=
  fun i => (((((mm h0 w0 i + mm h1 w1 i) + mm h2 w2 i) + mm h3 w3 i) + mm h4 w4 i) + mm h5 w5 i) + b (i 1)

/-- Six terms added left to right. -/
theorem sum_six (g : Fin 6 → EReal) : ∑ j : Fin 6, g j = ((((g 0 + g 1) + g 2) + g 3) + g 4) + g 5 := Fin.sum_univ_six g

end Cert.JK

end
-- ==== Proof.Layout.lean ====
/-
  Two layout operations read at an index: a vector cast to a one-column array, and a one-column array
  repeated along the columns.  (A row's maximum or sum kept as a column and subtracted from every entry of the row.)
-/
import Idealize.ShloMosaic.Lib.ValueLayout
import Idealize.ShloMosaic.Lib.Pipeline.Value

noncomputable section

namespace Cert.JK.Layout

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (i, c), the operand's one column at row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Cert.JK.Layout

end
-- ==== Proof.Pay.lean ====
/-
  What each kernel body stores, read at an entry, at the exact values.

  The first kernel stores a block of rows of x · W.  The layer kernel stores, for a block of rows, the
  aggregate plus the bias row clamped at zero, and that block times the next weight matrix.  The last kernel
  stores the row-wise log-softmax of the sum of six products plus the bias row.  A change of float format is the
  identity on the extended reals, a matrix product into a zero accumulator is the plain sum of products, a lane
  reduction is the sum (or the maximum from minus infinity) over the row.
-/
import proofs.«168511_j27419071218301_2_alg».proof.Proof.Gen.KernelIdeal.Skeleton
import proofs.«168511_j27419071218301_2_alg».proof.Proof.Spec
import proofs.«168511_j27419071218301_2_alg».proof.Proof.Layout

noncomputable section

open scoped BigOperators

namespace Cert.JK.Pay

open Idealize.ShloMosaic Idealize.ShloMosaic.ValueIdx Cert.RowDot Cert.JK Cert.JK.Layout Cert.KernelIdeal Cert.KernelIdeal.Gen

/-- The first kernel's block: rows of x times W. -/
theorem pay0 (x : FVec Ideal S2000x128 .f32) (w : FVec Ideal S128x64 .f32) (j : S2000x64.Idx) :
    k0_pay1 (F := Ideal) x w j = mm (M := 2000) (K := 128) (N := 64) x w j := by
  unfold k0_pay1
  exact matmul_plain_zero_apply (M := 2000) (K := 128) (N := 64) none (truncf .bf16 x bitsLt_bf16_f32) (truncf .bf16 w bitsLt_bf16_f32) j

/-- The layer kernel's first store: the aggregate plus the bias of the column, clamped at zero. -/
theorem pay1a (a : FVec Ideal S2000x64 .f32) (b : FVec Ideal S1x64 .f32) (p : Fin 2000) (q : Fin 64) :
    k1_pay1 (F := Ideal) a b (ix2 p q) = reluRow (M := 2000) (N := 64) a (fun q => b (ix2 (0 : Fin 1) q)) (ix2 p q) := by
  have e1 : shapeCast S2000x64 a shapeCasts_S2000x64_S2000x64 = a := shapeCast_self _ _
  have e2 : shapeCast S1x64 b shapeCasts_S1x64_S1x64 = b := shapeCast_self _ _
  have e3 : broadcastTo S2000x64 b broadcasts_S1x64_S2000x64 (ix2 p q) = b (ix2 (0 : Fin 1) q) := broadcastTo_1b_ab_apply b _ p q
  show max (shapeCast S2000x64 a shapeCasts_S2000x64_S2000x64 (ix2 p q)
      + broadcastTo S2000x64 (shapeCast S1x64 b shapeCasts_S1x64_S1x64) broadcasts_S1x64_S2000x64 (ix2 p q)) (Ideal.ofBits .f32 0x00000000#32) = _
  rw [e1, e2, e3]
  rfl

/-- The same as an array. -/
theorem pay1a_fun (a : FVec Ideal S2000x64 .f32) (b : FVec Ideal S1x64 .f32) :
    k1_pay1 (F := Ideal) a b = reluRow (M := 2000) (N := 64) a (fun q => b (ix2 (0 : Fin 1) q)) := funext fun i => by
  obtain ⟨p, q, rfl⟩ : ∃ (p : Fin 2000) (q : Fin 64), i = ix2 p q := ⟨i 0, i 1, eq_ix2 i⟩
  exact pay1a a b p q

/-- The layer kernel's second store: that block times the next weight matrix. -/
theorem pay1b (a : FVec Ideal S2000x64 .f32) (b : FVec Ideal S1x64 .f32) (w : FVec Ideal S64x64 .f32) (j : S2000x64.Idx) :
    k1_pay2 (F := Ideal) a b w j
      = mm (M := 2000) (K := 64) (N := 64) (reluRow (M := 2000) (N := 64) a (fun q => b (ix2 (0 : Fin 1) q))) w j := by
  have e3 : shapeCast S64x64 w shapeCasts_S64x64_S64x64 = w := shapeCast_self _ _
  unfold k1_pay2
  rw [pay1a_fun, e3]
  exact matmul_plain_zero_apply (M := 2000) (K := 64) (N := 64) (φ₁ := .bf16) (φ₂ := .bf16) none _ _ j

/-! ## The last kernel -/

/-- The reduced index p with the coordinate k put back on axis 1 is (p, k). -/
theorem lift_row (p : Fin 2000) (k : Fin (S2000x40.size 1)) :
    reduces_S2000x40_S2000.lift (ix1 p) k = ix2 p (⟨k.val, k.isLt⟩ : Fin 40) := by
  funext c; apply Fin.ext
  fin_cases c <;> rfl

/-- A lane sum over the 40 columns, at row p. -/
theorem rowSum_apply (X : FVec Ideal S2000x40 .f32) (hφ : FKind.Formats FTy.f32)
    (hacc : (0x00000000#32 : BitVec FTy.f32.bits) = FKind.add.neutral .f32 hφ) (p : Fin 2000) :
    multiReduction .add [1] S2000 X 0x00000000#32 reduces_S2000x40_S2000 hφ hacc (ix1 p) = ∑ k : Fin 40, X (ix2 p k) :=
  (Ideal.multiReduction_add_single X 0x00000000#32 reduces_S2000x40_S2000 hφ hacc (ix1 p)).trans
    (Finset.sum_congr rfl fun k _ => congrArg X (lift_row p k))

/-- A lane maximum over the 40 columns, at row p, from minus infinity. -/
theorem rowMax_apply (X : FVec Ideal S2000x40 .f32) (hφ : FKind.Formats FTy.f32)
    (hacc : (0xFF800000#32 : BitVec FTy.f32.bits) = FKind.maximumf.neutral .f32 hφ) (p : Fin 2000) :
    multiReduction .maximumf [1] S2000 X 0xFF800000#32 reduces_S2000x40_S2000 hφ hacc (ix1 p) = rowMax (fun k : Fin 40 => X (ix2 p k)) :=
  (Ideal.multiReduction_maximumf_single X 0xFF800000#32 reduces_S2000x40_S2000 hφ hacc (ix1 p)).trans
    (congrArg (Finset.univ.fold max (Ideal.ofBits .f32 0xFF800000#32)) (funext fun k => congrArg X (lift_row p k)))

/-- The operations the last kernel applies to the classifier's output Z: the row-wise log-softmax. -/
def softTail (Z : FVec Ideal S2000x40 .f32) : FVec Ideal S2000x40 .f32 :=
  have v51 : FVec Ideal S2000 .f32 := multiReduction .maximumf [1] S2000 Z 0xFF800000#32 reduces_S2000x40_S2000 (.inl rfl) rfl
  have v52 : FVec Ideal S2000x1 .f32 := shapeCast S2000x1 v51 shapeCasts_S2000_S2000x1
  have v53 : FVec Ideal S2000x40 .f32 := broadcastTo S2000x40 v52 broadcasts_S2000x1_S2000x40
  have v54 : FVec Ideal S2000x40 .f32 := subf Z v53
  have v55 : FVec Ideal S2000x40 .f32 := exp v54
  have v56 : FVec Ideal S2000 .f32 := multiReduction .add [1] S2000 v55 0x00000000#32 reduces_S2000x40_S2000 (.inl rfl) rfl
  have v57 : FVec Ideal S2000x1 .f32 := shapeCast S2000x1 v56 shapeCasts_S2000_S2000x1
  have v58 : FVec Ideal S2000x1 .f32 := log v57
  have v59 : FVec Ideal S2000x40 .f32 := broadcastTo S2000x40 v58 broadcasts_S2000x1_S2000x40
  subf v54 v59

/-- Read at an entry it is the log-softmax of Z's row. -/
theorem softTail_apply (Z : FVec Ideal S2000x40 .f32) (p : Fin 2000) (q : Fin 40) :
    softTail Z (ix2 p q) = lsm (fun k : Fin 40 => Z (ix2 p k)) q := by
  have hM : ∀ c : Fin 40, broadcastTo S2000x40 (shapeCast S2000x1 (multiReduction .maximumf [1] S2000 Z 0xFF800000#32 reduces_S2000x40_S2000 (.inl rfl) rfl)
      shapeCasts_S2000_S2000x1) broadcasts_S2000x1_S2000x40 (ix2 p c) = rowMax (fun k : Fin 40 => Z (ix2 p k)) := fun c =>
    (broadcastTo_a1_ab_apply _ broadcasts_S2000x1_S2000x40 p c).trans
      ((shapeCast_a_a1_apply _ shapeCasts_S2000_S2000x1 p 0).trans (rowMax_apply Z _ _ p))
  show (Z (ix2 p q) - broadcastTo S2000x40 (shapeCast S2000x1 (multiReduction .maximumf [1] S2000 Z 0xFF800000#32 reduces_S2000x40_S2000 (.inl rfl) rfl)
      shapeCasts_S2000_S2000x1) broadcasts_S2000x1_S2000x40 (ix2 p q))
    - broadcastTo S2000x40 (log (shapeCast S2000x1 (multiReduction .add [1] S2000 (exp (subf Z (broadcastTo S2000x40 (shapeCast S2000x1
        (multiReduction .maximumf [1] S2000 Z 0xFF800000#32 reduces_S2000x40_S2000 (.inl rfl) rfl) shapeCasts_S2000_S2000x1) broadcasts_S2000x1_S2000x40)))
        0x00000000#32 reduces_S2000x40_S2000 (.inl rfl) rfl) shapeCasts_S2000_S2000x1)) broadcasts_S2000x1_S2000x40 (ix2 p q) = _
  rw [hM q]
  refine congrArg (fun t => (Z (ix2 p q) - rowMax (fun k : Fin 40 => Z (ix2 p k))) - t) ?_
  refine (broadcastTo_a1_ab_apply _ broadcasts_S2000x1_S2000x40 p q).trans ?_
  show Ideal.log (shapeCast S2000x1 (multiReduction .add [1] S2000 (exp (subf Z (broadcastTo S2000x40 (shapeCast S2000x1
        (multiReduction .maximumf [1] S2000 Z 0xFF800000#32 reduces_S2000x40_S2000 (.inl rfl) rfl) shapeCasts_S2000_S2000x1) broadcasts_S2000x1_S2000x40)))
        0x00000000#32 reduces_S2000x40_S2000 (.inl rfl) rfl) shapeCasts_S2000_S2000x1 (ix2 p (0 : Fin 1))) = _
  refine congrArg Ideal.log ?_
  refine (shapeCast_a_a1_apply _ shapeCasts_S2000_S2000x1 p 0).trans ?_
  refine (rowSum_apply _ _ _ p).trans ?_
  refine Finset.sum_congr rfl fun k _ => ?_
  show Ideal.exp (Z (ix2 p k) - broadcastTo S2000x40 (shapeCast S2000x1 (multiReduction .maximumf [1] S2000 Z 0xFF800000#32 reduces_S2000x40_S2000 (.inl rfl) rfl)
      shapeCasts_S2000_S2000x1) broadcasts_S2000x1_S2000x40 (ix2 p k)) = _
  rw [hM k]

/-- The last kernel's store is the row-wise log-softmax of that output. -/
theorem pay6 (h0 h1 h2 h3 h4 h5 : FVec Ideal S2000x64 .f32) (w0 w1 w2 w3 w4 w5 : FVec Ideal S64x40 .f32) (b : FVec Ideal S1x40 .f32)
    (p : Fin 2000) (q : Fin 40) :
    k6_pay1 (F := Ideal) (k6_pay2 h0 w0 h1 w1 h2 w2 h3 w3) (k6_pay3 h4) w4 h5 w5 b (ix2 p q)
      = lsm (fun k : Fin 40 => zK (M := 2000) h0 h1 h2 h3 h4 h5 w0 w1 w2 w3 w4 w5 (fun c => b (ix2 (0 : Fin 1) c)) (ix2 p k)) q := by
  have hZ : (addf (addf (addf (k6_pay2 (F := Ideal) h0 w0 h1 w1 h2 w2 h3 w3)
        (matmul dot_S2000x64_S64x40_S2000x40_1_0_0_1_n_n none (k6_pay3 (F := Ideal) h4) (truncf .bf16 (shapeCast S64x40 w4 shapeCasts_S64x40_S64x40) bitsLt_bf16_f32) (constant S2000x40 .f32 0x00000000#32)))
        (matmul dot_S2000x64_S64x40_S2000x40_1_0_0_1_n_n none (truncf .bf16 (shapeCast S2000x64 h5 shapeCasts_S2000x64_S2000x64) bitsLt_bf16_f32) (truncf .bf16 (shapeCast S64x40 w5 shapeCasts_S64x40_S64x40) bitsLt_bf16_f32) (constant S2000x40 .f32 0x00000000#32)))
        (broadcastTo S2000x40 (shapeCast S1x40 b shapeCasts_S1x40_S1x40) broadcasts_S1x40_S2000x40) : FVec Ideal S2000x40 .f32)
      = zK (M := 2000) h0 h1 h2 h3 h4 h5 w0 w1 w2 w3 w4 w5 (fun c => b (ix2 (0 : Fin 1) c)) := by
    funext i
    obtain ⟨r, c, rfl⟩ : ∃ (r : Fin 2000) (c : Fin 40), i = ix2 r c := ⟨i 0, i 1, eq_ix2 i⟩
    have s0 : shapeCast S2000x64 h0 shapeCasts_S2000x64_S2000x64 = h0 := shapeCast_self _ _
    have s1 : shapeCast S2000x64 h1 shapeCasts_S2000x64_S2000x64 = h1 := shapeCast_self _ _
    have s2 : shapeCast S2000x64 h2 shapeCasts_S2000x64_S2000x64 = h2 := shapeCast_self _ _
    have s3 : shapeCast S2000x64 h3 shapeCasts_S2000x64_S2000x64 = h3 := shapeCast_self _ _
    have s4 : shapeCast S2000x64 h4 shapeCasts_S2000x64_S2000x64 = h4 := shapeCast_self _ _
    have s5 : shapeCast S2000x64 h5 shapeCasts_S2000x64_S2000x64 = h5 := shapeCast_self _ _
    have t0 : shapeCast S64x40 w0 shapeCasts_S64x40_S64x40 = w0 := shapeCast_self _ _
    have t1 : shapeCast S64x40 w1 shapeCasts_S64x40_S64x40 = w1 := shapeCast_self _ _
    have t2 : shapeCast S64x40 w2 shapeCasts_S64x40_S64x40 = w2 := shapeCast_self _ _
    have t3 : shapeCast S64x40 w3 shapeCasts_S64x40_S64x40 = w3 := shapeCast_self _ _
    have t4 : shapeCast S64x40 w4 shapeCasts_S64x40_S64x40 = w4 := shapeCast_self _ _
    have t5 : shapeCast S64x40 w5 shapeCasts_S64x40_S64x40 = w5 := shapeCast_self _ _
    have u : shapeCast S1x40 b shapeCasts_S1x40_S1x40 = b := shapeCast_self _ _
    have hb : broadcastTo S2000x40 b broadcasts_S1x40_S2000x40 (ix2 r c) = b (ix2 (0 : Fin 1) c) := broadcastTo_1b_ab_apply b _ r c
    unfold k6_pay2 k6_pay3
    rw [s0, s1, s2, s3, s4, s5, t0, t1, t2, t3, t4, t5, u]
    have m0 := matmul_plain_zero_apply (M := 2000) (K := 64) (N := 40) none (truncf .bf16 h0 bitsLt_bf16_f32) (truncf .bf16 w0 bitsLt_bf16_f32) (ix2 r c)
    have m1 := matmul_plain_zero_apply (M := 2000) (K := 64) (N := 40) none (truncf .bf16 h1 bitsLt_bf16_f32) (truncf .bf16 w1 bitsLt_bf16_f32) (ix2 r c)
    have m2 := matmul_plain_zero_apply (M := 2000) (K := 64) (N := 40) none (truncf .bf16 h2 bitsLt_bf16_f32) (truncf .bf16 w2 bitsLt_bf16_f32) (ix2 r c)
    have m3 := matmul_plain_zero_apply (M := 2000) (K := 64) (N := 40) none (truncf .bf16 h3 bitsLt_bf16_f32) (truncf .bf16 w3 bitsLt_bf16_f32) (ix2 r c)
    have m4 := matmul_plain_zero_apply (M := 2000) (K := 64) (N := 40) none (truncf .bf16 h4 bitsLt_bf16_f32) (truncf .bf16 w4 bitsLt_bf16_f32) (ix2 r c)
    have m5 := matmul_plain_zero_apply (M := 2000) (K := 64) (N := 40) none (truncf .bf16 h5 bitsLt_bf16_f32) (truncf .bf16 w5 bitsLt_bf16_f32) (ix2 r c)
    show (((((FloatOps.matmul (DotDims.plain 2000 64 40) none (truncf .bf16 h0 bitsLt_bf16_f32) (truncf .bf16 w0 bitsLt_bf16_f32) (constant (F := Ideal) S2000x40 .f32 0x00000000#32) (ix2 r c)
        + FloatOps.matmul (DotDims.plain 2000 64 40) none (truncf .bf16 h1 bitsLt_bf16_f32) (truncf .bf16 w1 bitsLt_bf16_f32) (constant (F := Ideal) S2000x40 .f32 0x00000000#32) (ix2 r c))
        + FloatOps.matmul (DotDims.plain 2000 64 40) none (truncf .bf16 h2 bitsLt_bf16_f32) (truncf .bf16 w2 bitsLt_bf16_f32) (constant (F := Ideal) S2000x40 .f32 0x00000000#32) (ix2 r c))
        + FloatOps.matmul (DotDims.plain 2000 64 40) none (truncf .bf16 h3 bitsLt_bf16_f32) (truncf .bf16 w3 bitsLt_bf16_f32) (constant (F := Ideal) S2000x40 .f32 0x00000000#32) (ix2 r c))
        + FloatOps.matmul (DotDims.plain 2000 64 40) none (truncf .bf16 h4 bitsLt_bf16_f32) (truncf .bf16 w4 bitsLt_bf16_f32) (constant (F := Ideal) S2000x40 .f32 0x00000000#32) (ix2 r c))
        + FloatOps.matmul (DotDims.plain 2000 64 40) none (truncf .bf16 h5 bitsLt_bf16_f32) (truncf .bf16 w5 bitsLt_bf16_f32) (constant (F := Ideal) S2000x40 .f32 0x00000000#32) (ix2 r c))
        + broadcastTo S2000x40 b broadcasts_S1x40_S2000x40 (ix2 r c) = _
    rw [m0, m1, m2, m3, m4, m5, hb]
    rfl
  have hk : k6_pay1 (F := Ideal) (k6_pay2 h0 w0 h1 w1 h2 w2 h3 w3) (k6_pay3 h4) w4 h5 w5 b
      = softTail (zK (M := 2000) h0 h1 h2 h3 h4 h5 w0 w1 w2 w3 w4 w5 (fun c => b (ix2 (0 : Fin 1) c))) := by
    rw [← hZ]
    rfl
  rw [hk]
  exact softTail_apply _ p q

end Cert.JK.Pay

end
-- ==== Proof.Region0.lean ====
/-
  The first region, whole: the array its 25 grid points write is x · W.

  Point t stages rows 2000·t … 2000·t + 1999 of x and all of W, stores that block of rows of the product, and
  writes it back to the same rows of the result; the 25 blocks are disjoint and cover the 50000 rows.
-/
import proofs.«168511_j27419071218301_2_alg».proof.Proof.Gen.KernelIdeal.Frame
import proofs.«168511_j27419071218301_2_alg».proof.Proof.Pay

set_option maxRecDepth 16384

noncomputable section

open scoped BigOperators

namespace Cert.JK.Region0

open Cert.KernelIdeal Cert.KernelIdeal.Gen Cert.JK Cert.RowDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block of x and of the result is the point's number; W is staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The region's first operand as it finds it: x. -/
abbrev X (c : Dev nD) : Mat 50000 128 := V c main_arg0
/-- Its second operand: W. -/
abbrev Wt (c : Dev nD) : Mat 128 64 := V c main_arg3

/-- The whole array the region leaves in its output. -/
abbrev G (c : Dev nD) : S50000x64.Idx → EReal :=
  mm (M := 50000) (K := 128) (N := 64) (X V c) (Wt V c)

/-- What point t writes back is block t of x · W. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts t
  funext j
  refine (Pay.pay0 (iblk0 V c 0 t) (iblk0 V c 1 t) j).trans ?_
  show ∑ k : Fin 128, X V c (((cfg0.win 0).blk t).view.emb (ix2 (j 0) k)) * Wt V c (((cfg0.win 1).blk t).view.emb (ix2 k (j 1)))
    = ∑ k : Fin 128, X V c (ix2 ((((cfg0.win 2).blk t).view.emb j) 0) k) * Wt V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]
  rfl

/-- An index of the result is in point t's block iff each coordinate is in the block's range. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- Every row of the result lies in the block of the point that is the row's number over 2000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  let t : Fin cfg0.N := ⟨(i 0).val / 2000, by show (i 0).val / 2000 < 25; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The region's output array after its 25 points: x · W, whatever the buffers held at entry. -/
theorem final (c : Dev nD) : (dat0 V c).arrAt 2 cfg0.N = G V c :=
  (dat0 V c).arrAt_eq_of_cover 2 (G V c) (fun t _ => flushed_eq V c t) (cover)

end Cert.JK.Region0

end
-- ==== Proof.HostOps.lean ====
/-
  Host operations of both programs read at an entry, at the exact values, over arrays of any extents.

  A bias row laid under every row of an array (the reference through two broadcasts, the kernel program through a
  cast and a broadcast), the clamp at zero, a plain matrix product, six arrays laid side by side, a 64-row slice
  of a matrix, and the row-wise log-softmax the reference writes with two reductions over the columns.
-/
import Idealize.ShloMosaic.Lib.ValueLayout
import Idealize.ShloMosaic.Lib.Pipeline.Value
import Idealize.ShloMosaic.PureOps.Reduce
import proofs.«168511_j27419071218301_2_alg».proof.Proof.Spec

noncomputable section

open scoped BigOperators

namespace Cert.JK.HostOps

open Idealize.ShloMosaic Idealize.ShloMosaic.ValueIdx Cert.RowDot Cert.JK

/-- A vector broadcast to one row and that row to M rows reads, at (p, q), the vector at q. -/
theorem bcastRow_two {α : Type} {M N : Nat} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- A 64-vector cast to one row and that row broadcast to 50000 rows reads, at (p, q), the vector at q. -/
theorem bcastRow_cast {α : Type} (b : (⟨1, ![64]⟩ : Shape).Idx → α)
    (h1 : (⟨1, ![64]⟩ : Shape).ShapeCasts ⟨2, ![1, 64]⟩) (h2 : (⟨2, ![1, 64]⟩ : Shape).BroadcastsInDim ⟨2, ![50000, 64]⟩ ![0, 1])
    (p : Fin 50000) (q : Fin 64) :
    broadcastInDim ⟨2, ![50000, 64]⟩ ![0, 1] h2 (shapeCast ⟨2, ![1, 64]⟩ b h1) (ix2 p q) = b (ix1 q) := by
  have e1 : broadcastInDim ⟨2, ![50000, 64]⟩ ![0, 1] h2 (shapeCast ⟨2, ![1, 64]⟩ b h1) (ix2 p q)
      = shapeCast ⟨2, ![1, 64]⟩ b h1 (ix2 (0 : Fin 1) q) :=
    broadcastInDim_apply ![0, 1] h2 _ (ix2 p q) (ix2 (0 : Fin 1) q) fun a => by
      match a with
      | ⟨0, _⟩ => rfl
      | ⟨1, _⟩ => rfl
  exact e1.trans (shapeCast_a_1a_apply b h1 0 q)

/-- The layer's output as the reference writes it: the aggregate plus the twice-broadcast bias, against the zero splat. -/
theorem relu_two {M N : Nat} (agg : FVec Ideal (⟨2, ![M, N]⟩ : Shape) .f32) (b : FVec Ideal (⟨1, ![N]⟩ : Shape) .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) :
    maximumf (addf agg (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluRow (M := M) (N := N) agg (fun q => b (ix1 q)) := funext fun i => by
  obtain ⟨p, q, rfl⟩ : ∃ (p : Fin M) (q : Fin N), i = ix2 p q := ⟨i 0, i 1, eq_ix2 i⟩
  exact congrArg₂ max (congrArg (agg (ix2 p q) + ·) (bcastRow_two b h1 h2 p q)) rfl

/-- The same with the bias cast to one row first (the kernel program's last layer). -/
theorem relu_cast (agg : FVec Ideal (⟨2, ![50000, 64]⟩ : Shape) .f32) (b : FVec Ideal (⟨1, ![64]⟩ : Shape) .f32)
    (h1 : (⟨1, ![64]⟩ : Shape).ShapeCasts ⟨2, ![1, 64]⟩) (h2 : (⟨2, ![1, 64]⟩ : Shape).BroadcastsInDim ⟨2, ![50000, 64]⟩ ![0, 1])
    (h0 : (⟨0, ![]⟩ : Shape).BroadcastsInDim ⟨2, ![50000, 64]⟩ ![]) :
    maximumf (addf agg (broadcastInDim ⟨2, ![50000, 64]⟩ ![0, 1] h2 (shapeCast ⟨2, ![1, 64]⟩ b h1)))
        (broadcastInDim ⟨2, ![50000, 64]⟩ ![] h0 (constant (F := Ideal) ⟨0, ![]⟩ .f32 0x00000000#32))
      = reluRow (M := 50000) (N := 64) agg (fun q => b (ix1 q)) := funext fun i => by
  obtain ⟨p, q, rfl⟩ : ∃ (p : Fin 50000) (q : Fin 64), i = ix2 p q := ⟨i 0, i 1, eq_ix2 i⟩
  exact congrArg₂ max (congrArg (agg (ix2 p q) + ·) (bcastRow_cast b h1 h2 p q)) rfl

/-- The host's plain product is the product. -/
theorem dot_eq_mm {M K N : Nat} (prec : Option ContractPrecision) (l : FVec Ideal (⟨2, ![M, K]⟩ : Shape) .f32) (r : FVec Ideal (⟨2, ![K, N]⟩ : Shape) .f32) :
    Host.dotGeneral (DotDims.plain M K N) prec l r = mm (M := M) (K := K) (N := N) l r := funext fun i => by
  simp only [Host.dotGeneral]
  exact dotGeneral_plain_apply prec _ l r i

/-- A 64-row slice of the classifier's matrix from row 64·j. -/
theorem slice_eq {N : Nat} (W : Mat 384 N) (j : Fin 6) (h : (⟨2, ![384, N]⟩ : Shape).Slices ![64 * j.val, 0] ⟨2, ![64, N]⟩) :
    extractStridedSlice ⟨2, ![64, N]⟩ ![64 * j.val, 0] W h = slice64 W j := funext fun i => by
  obtain ⟨r, q, rfl⟩ : ∃ (r : Fin 64) (q : Fin N), i = ix2 r q := ⟨i 0, i 1, eq_ix2 i⟩
  exact slice2_axis0_apply (64 * j.val) W h r q (idx384 j r) rfl

end Cert.JK.HostOps

end
-- ==== Proof.HostSoft.lean ====
/-
  The reference's row-wise log-softmax and its side-by-side join, read at an entry, at the exact values.

  The reference takes a row's maximum by a reduction over the columns from minus infinity (and once more against
  minus infinity, which changes nothing), subtracts it, sums the exponentials by a reduction from zero, and
  subtracts the logarithm of the sum: at every entry that is the log-softmax of the entry's row.
-/
import Idealize.ShloMosaic.Lib.ValueLayout
import Idealize.ShloMosaic.Lib.Pipeline.Value
import Idealize.ShloMosaic.PureOps.Reduce
import proofs.«168511_j27419071218301_2_alg».proof.Proof.Spec

noncomputable section

open scoped BigOperators

namespace Cert.JK.HostSoft

open Idealize.ShloMosaic Idealize.ShloMosaic.ValueIdx Cert.RowDot Cert.JK

/-- The shapes of the classifier's output, of a column of it, of a vector of its rows, and of a scalar. -/
abbrev SZ : Shape := ⟨2, ![50000, 40]⟩
abbrev SC : Shape := ⟨2, ![50000, 1]⟩
abbrev SR : Shape := ⟨1, ![50000]⟩
abbrev S0 : Shape := ⟨0, ![]⟩

/-- The reduced index p with the coordinate k put back on axis 1 is (p, k). -/
theorem lift_row (h : SZ.Reduces [1] SR) (p : Fin 50000) (k : Fin (SZ.size 1)) :
    h.lift (ix1 p) k = ix2 p (⟨k.val, k.isLt⟩ : Fin 40) := by
  funext c; apply Fin.ext
  fin_cases c <;> rfl

/-- Minus infinity is below everything. -/
theorem max_negInf (y : EReal) : max (Ideal.ofBits .f32 0xFF800000#32) y = y := by
  simp [Ideal.ofBits, Ideal.ieee]

/-- The host's maximum over the columns from minus infinity, at row p. -/
theorem hostRowMax (Z : FVec Ideal SZ .f32) (h' : SZ.ReducesTo [1] SR) (hu : 0 < S0.numel) (p : Fin 50000) :
    Host.reduce FloatOps.maximumf Z (constant (F := Ideal) S0 .f32 0xFF800000#32) h' hu (ix1 p) = rowMax (fun k : Fin 40 => Z (ix2 p k)) := by
  have h : SZ.Reduces [1] SR := by decide
  rw [Host.reduce_eq_fold_single FloatOps.maximumf Z _ h' h hu]
  exact congrArg (Finset.univ.fold max (Ideal.ofBits .f32 0xFF800000#32)) (funext fun k => congrArg Z (lift_row h p k))

/-- The host's sum over the columns from zero, at row p. -/
theorem hostRowSum (E : FVec Ideal SZ .f32) (h' : SZ.ReducesTo [1] SR) (hu : 0 < S0.numel) (p : Fin 50000) :
    Host.reduceAdd E (constant (F := Ideal) S0 .f32 0x00000000#32) h' hu (ix1 p) = ∑ k : Fin 40, E (ix2 p k) := by
  have h : SZ.Reduces [1] SR := by decide
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg E (lift_row h p k)

/-- A vector of the rows laid as a column and the column repeated along the columns reads, at (p, q), the vector at p. -/
theorem bcastCol {α : Type} (v : SR.Idx → α) (b1 : SR.BroadcastsInDim SC ![0]) (b2 : SC.BroadcastsInDim SZ ![0, 1]) (p : Fin 50000) (q : Fin 40) :
    broadcastInDim SZ ![0, 1] b2 (broadcastInDim SC ![0] b1 v) (ix2 p q) = v (ix1 p) := by
  refine (broadcastInDim_apply ![0, 1] b2 _ (ix2 p q) (ix2 p (0 : Fin 1)) fun a => ?_).trans
    (broadcastInDim_apply ![0] b1 v (ix2 p (0 : Fin 1)) (ix1 p) fun a => ?_)
  · match a with
    | ⟨0, _⟩ => show p.val = if (50000 : Nat) = 1 then 0 else p.val; rw [if_neg (by decide)]
    | ⟨1, _⟩ => rfl
  · match a with
    | ⟨0, _⟩ => show p.val = if (50000 : Nat) = 1 then 0 else p.val; rw [if_neg (by decide)]

/-- The same for one broadcast to a column, read at the column's one entry of row p. -/
theorem bcastCol1 {α : Type} (v : SR.Idx → α) (b1 : SR.BroadcastsInDim SC ![0]) (p : Fin 50000) (u : Fin 1) :
    broadcastInDim SC ![0] b1 v (ix2 p u) = v (ix1 p) :=
  broadcastInDim_apply ![0] b1 v (ix2 p u) (ix1 p) fun a => by
    match a with
    | ⟨0, _⟩ => show p.val = if (50000 : Nat) = 1 then 0 else p.val; rw [if_neg (by decide)]

/-- One column repeated along the columns reads, at (p, q), the column at row p. -/
theorem bcastCol2 {α : Type} (v : SC.Idx → α) (b2 : SC.BroadcastsInDim SZ ![0, 1]) (p : Fin 50000) (q : Fin 40) :
    broadcastInDim SZ ![0, 1] b2 v (ix2 p q) = v (ix2 p (0 : Fin 1)) :=
  broadcastInDim_apply ![0, 1] b2 v (ix2 p q) (ix2 p (0 : Fin 1)) fun a => by
    match a with
    | ⟨0, _⟩ => show p.val = if (50000 : Nat) = 1 then 0 else p.val; rw [if_neg (by decide)]
    | ⟨1, _⟩ => rfl

/-- The row maxima as the reference forms them, repeated along the columns. -/
def maxB (Z : FVec Ideal SZ .f32) (h' : SZ.ReducesTo [1] SR) (hu : 0 < S0.numel) (b0 : S0.BroadcastsInDim SR ![])
    (b1 : SR.BroadcastsInDim SC ![0]) (b2 : SC.BroadcastsInDim SZ ![0, 1]) : FVec Ideal SZ .f32 :=
  broadcastInDim SZ ![0, 1] b2 (broadcastInDim SC ![0] b1
    (maximumf (broadcastInDim SR ![] b0 (constant (F := Ideal) S0 .f32 0xFF800000#32))
      (Host.reduce FloatOps.maximumf Z (constant (F := Ideal) S0 .f32 0xFF800000#32) h' hu)))

theorem maxB_apply (Z : FVec Ideal SZ .f32) (h' : SZ.ReducesTo [1] SR) (hu : 0 < S0.numel) (b0 : S0.BroadcastsInDim SR ![])
    (b1 : SR.BroadcastsInDim SC ![0]) (b2 : SC.BroadcastsInDim SZ ![0, 1]) (p : Fin 50000) (q : Fin 40) :
    maxB Z h' hu b0 b1 b2 (ix2 p q) = rowMax (fun k : Fin 40 => Z (ix2 p k)) := by
  unfold maxB
  refine (bcastCol _ b1 b2 p q).trans ?_
  refine (maximumf_apply _ _ (ix1 p)).trans ?_
  rw [broadcastInDim_apply ![] b0 _ (ix1 p) ix0 (fun a => a.elim0), constant_apply, max_negInf]
  exact hostRowMax Z h' hu p

/-- The host's logarithm and exponential are entrywise. -/
theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl

/-- The reference's log-softmax of an array Z, as its operations compose. -/
def hostSoft (Z : FVec Ideal SZ .f32) (h' : SZ.ReducesTo [1] SR) (hu : 0 < S0.numel) (b0 : S0.BroadcastsInDim SR ![])
    (b1 : SR.BroadcastsInDim SC ![0]) (b2 : SC.BroadcastsInDim SZ ![0, 1]) : FVec Ideal SZ .f32 :=
  subf (subf Z (maxB Z h' hu b0 b1 b2))
    (broadcastInDim SZ ![0, 1] b2 (Host.log (broadcastInDim SC ![0] b1
      (Host.reduceAdd (Host.exp (subf Z (maxB Z h' hu b0 b1 b2))) (constant (F := Ideal) S0 .f32 0x00000000#32) h' hu))))

/-- Read at an entry it is the log-softmax of Z's row. -/
theorem hostSoft_apply (Z : FVec Ideal SZ .f32) (h' : SZ.ReducesTo [1] SR) (hu : 0 < S0.numel) (b0 : S0.BroadcastsInDim SR ![])
    (b1 : SR.BroadcastsInDim SC ![0]) (b2 : SC.BroadcastsInDim SZ ![0, 1]) (p : Fin 50000) (q : Fin 40) :
    hostSoft Z h' hu b0 b1 b2 (ix2 p q) = lsm (fun k : Fin 40 => Z (ix2 p k)) q := by
  unfold hostSoft
  rw [subf_apply, subf_apply, maxB_apply]
  refine congrArg (fun t => (Z (ix2 p q) - rowMax (fun k : Fin 40 => Z (ix2 p k))) - t) ?_
  refine (bcastCol2 _ b2 p q).trans ?_
  rw [hostLog_apply]
  refine congrArg Ideal.log ?_
  refine (bcastCol1 _ b1 p 0).trans ?_
  refine (hostRowSum _ h' hu p).trans ?_
  refine Finset.sum_congr rfl fun k _ => ?_
  rw [hostExp_apply, subf_apply, maxB_apply]

/-- Six arrays joined along the columns are the six side by side. -/
theorem concat_eq (h0 h1 h2 h3 h4 h5 : Mat 50000 64)
    (hc : Shape.Concatenates (([⟨⟨2, ![50000, 64]⟩, h0⟩, ⟨⟨2, ![50000, 64]⟩, h1⟩, ⟨⟨2, ![50000, 64]⟩, h2⟩, ⟨⟨2, ![50000, 64]⟩, h3⟩, ⟨⟨2, ![50000, 64]⟩, h4⟩, ⟨⟨2, ![50000, 64]⟩, h5⟩] :
      List ((s : Shape) × (s.Idx → EReal))).map (·.1)) ⟨2, ![50000, 384]⟩ 1) :
    concatenate ⟨2, ![50000, 384]⟩ 1 [⟨⟨2, ![50000, 64]⟩, h0⟩, ⟨⟨2, ![50000, 64]⟩, h1⟩, ⟨⟨2, ![50000, 64]⟩, h2⟩, ⟨⟨2, ![50000, 64]⟩, h3⟩, ⟨⟨2, ![50000, 64]⟩, h4⟩, ⟨⟨2, ![50000, 64]⟩, h5⟩] hc
      = sideBySide (M := 50000) ![h0, h1, h2, h3, h4, h5] := funext fun i => by
  obtain ⟨p, k, rfl⟩ : ∃ (p : Fin 50000) (k : Fin 384), i = ix2 p k := ⟨i 0, i 1, eq_ix2 i⟩
  exact concatenate_ofFn_apply (t := ⟨2, ![50000, 384]⟩) (s₁ := ⟨2, ![50000, 64]⟩) 1 (N := 6) ![h0, h1, h2, h3, h4, h5] hc rfl 64 rfl (ix2 p k)
    (piece k) rfl (ix2 p (within k)) rfl (fun b hb => by
      match b with
      | ⟨0, _⟩ => rfl
      | ⟨1, _⟩ => exact absurd rfl hb)

end Cert.JK.HostSoft

end
-- ==== Proof.RefStages.lean ====
/-
  The reference's stages as mathematics: each layer's product, each layer's output, the classifier's output and
  the final log-softmax, as the functions of Spec.lean applied to the stages before them.
-/
import proofs.«168511_j27419071218301_2_alg».proof.Proof.RefRead
import proofs.«168511_j27419071218301_2_alg».proof.Proof.HostOps
import proofs.«168511_j27419071218301_2_alg».proof.Proof.HostSoft

noncomputable section

open scoped BigOperators

namespace Cert.JK.RefStages

open Cert.ReferenceIdeal Cert.ReferenceIdeal.Gen Cert.ReferenceIdeal.ReadP Idealize.ShloMosaic Idealize.ShloMosaic.ValueIdx Cert.RowDot Cert.JK

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x64, .f32⟩ : BufTy).Contents (Elt Ideal))
  (x4 : (⟨S64, .f32⟩ : BufTy).Contents (Elt Ideal)) (x5 : (⟨S5x64x64, .f32⟩ : BufTy).Contents (Elt Ideal))
  (x6 : (⟨S5x64, .f32⟩ : BufTy).Contents (Elt Ideal)) (x7 : (⟨S384x40, .f32⟩ : BufTy).Contents (Elt Ideal))
  (x8 : (⟨S40, .f32⟩ : BufTy).Contents (Elt Ideal))

/-- The first layer's product is x · W0. -/
theorem dot0 : val_main_v9 (F := Ideal) x0 x3 = mm (M := 50000) (K := 128) (N := 64) x0 x3 := by
  unfold val_main_v9
  exact HostOps.dot_eq_mm none x0 x3

/-- The first layer's output: the aggregate plus b0, clamped at zero. -/
theorem relu0 : val_main_v49 (F := Ideal) x0 x1 x2 x3 x4
    = reluRow (M := 50000) (N := 64) (val_main_v45 (F := Ideal) x0 x1 x2 x3) (fun q => x4 (ix1 q)) := by
  unfold val_main_v49 val_main_v48 val_main_v47 val_main_v46 val_main_call1_v0 val_main_call1_cst
  exact HostOps.relu_two _ x4 _ _ _

/-- Layer 1's product: the previous layer's output times its weight matrix. -/
theorem dot1 : val_main_v54 (F := Ideal) x0 x1 x2 x3 x4 x5
    = mm (M := 50000) (K := 64) (N := 64) (val_main_v49 (F := Ideal) x0 x1 x2 x3 x4) (val_main_v51 (F := Ideal) x5) := by
  unfold val_main_v54
  exact HostOps.dot_eq_mm none _ _

/-- Layer 1's output: its aggregate plus its bias, clamped at zero. -/
theorem relu1 : val_main_v94 (F := Ideal) x0 x1 x2 x3 x4 x5 x6
    = reluRow (M := 50000) (N := 64) (val_main_v90 (F := Ideal) x0 x1 x2 x3 x4 x5) (fun q => val_main_v53 (F := Ideal) x6 (ix1 q)) := by
  unfold val_main_v94 val_main_v93 val_main_v92 val_main_v91 val_main_call3_v0 val_main_call3_cst
  exact HostOps.relu_two _ _ _ _ _

/-- Layer 2's product: the previous layer's output times its weight matrix. -/
theorem dot2 : val_main_v99 (F := Ideal) x0 x1 x2 x3 x4 x5 x6
    = mm (M := 50000) (K := 64) (N := 64) (val_main_v94 (F := Ideal) x0 x1 x2 x3 x4 x5 x6) (val_main_v96 (F := Ideal) x5) := by
  unfold val_main_v99
  exact HostOps.dot_eq_mm none _ _

/-- Layer 2's output: its aggregate plus its bias, clamped at zero. -/
theorem relu2 : val_main_v139 (F := Ideal) x0 x1 x2 x3 x4 x5 x6
    = reluRow (M := 50000) (N := 64) (val_main_v135 (F := Ideal) x0 x1 x2 x3 x4 x5 x6) (fun q => val_main_v98 (F := Ideal) x6 (ix1 q)) := by
  unfold val_main_v139 val_main_v138 val_main_v137 val_main_v136 val_main_call5_v0 val_main_call5_cst
  exact HostOps.relu_two _ _ _ _ _

/-- Layer 3's product: the previous layer's output times its weight matrix. -/
theorem dot3 : val_main_v144 (F := Ideal) x0 x1 x2 x3 x4 x5 x6
    = mm (M := 50000) (K := 64) (N := 64) (val_main_v139 (F := Ideal) x0 x1 x2 x3 x4 x5 x6) (val_main_v141 (F := Ideal) x5) := by
  unfold val_main_v144
  exact HostOps.dot_eq_mm none _ _

/-- Layer 3's output: its aggregate plus its bias, clamped at zero. -/
theorem relu3 : val_main_v184 (F := Ideal) x0 x1 x2 x3 x4 x5 x6
    = reluRow (M := 50000) (N := 64) (val_main_v180 (F := Ideal) x0 x1 x2 x3 x4 x5 x6) (fun q => val_main_v143 (F := Ideal) x6 (ix1 q)) := by
  unfold val_main_v184 val_main_v183 val_main_v182 val_main_v181 val_main_call7_v0 val_main_call7_cst
  exact HostOps.relu_two _ _ _ _ _

/-- Layer 4's product: the previous layer's output times its weight matrix. -/
theorem dot4 : val_main_v189 (F := Ideal) x0 x1 x2 x3 x4 x5 x6
    = mm (M := 50000) (K := 64) (N := 64) (val_main_v184 (F := Ideal) x0 x1 x2 x3 x4 x5 x6) (val_main_v186 (F := Ideal) x5) := by
  unfold val_main_v189
  exact HostOps.dot_eq_mm none _ _

/-- Layer 4's output: its aggregate plus its bias, clamped at zero. -/
theorem relu4 : val_main_v229 (F := Ideal) x0 x1 x2 x3 x4 x5 x6
    = reluRow (M := 50000) (N := 64) (val_main_v225 (F := Ideal) x0 x1 x2 x3 x4 x5 x6) (fun q => val_main_v188 (F := Ideal) x6 (ix1 q)) := by
  unfold val_main_v229 val_main_v228 val_main_v227 val_main_v226 val_main_call9_v0 val_main_call9_cst
  exact HostOps.relu_two _ _ _ _ _

/-- Layer 5's product: the previous layer's output times its weight matrix. -/
theorem dot5 : val_main_v234 (F := Ideal) x0 x1 x2 x3 x4 x5 x6
    = mm (M := 50000) (K := 64) (N := 64) (val_main_v229 (F := Ideal) x0 x1 x2 x3 x4 x5 x6) (val_main_v231 (F := Ideal) x5) := by
  unfold val_main_v234
  exact HostOps.dot_eq_mm none _ _

/-- Layer 5's output: its aggregate plus its bias, clamped at zero. -/
theorem relu5 : val_main_v274 (F := Ideal) x0 x1 x2 x3 x4 x5 x6
    = reluRow (M := 50000) (N := 64) (val_main_v270 (F := Ideal) x0 x1 x2 x3 x4 x5 x6) (fun q => val_main_v233 (F := Ideal) x6 (ix1 q)) := by
  unfold val_main_v274 val_main_v273 val_main_v272 val_main_v271 val_main_call11_v0 val_main_call11_cst
  exact HostOps.relu_two _ _ _ _ _

end Cert.JK.RefStages

end
-- ==== Proof.ChainA.lean ====
/-
  The buffer contents of the kernel program up to the first layer region's entry, as stages of the reference.

  Before the first region the kernel program forms the edge lists with the self-loops, the degrees and the
  normalisation exactly as the reference does; the first region leaves x · W0, the reference's first product; the
  stretch after it aggregates that product over the edges, as the reference does, and cuts the biases and the weight
  matrices out of their stacked arguments.
-/
import proofs.«168511_j27419071218301_2_alg».proof.Proof.Gen.KernelIdeal.Frame
import proofs.«168511_j27419071218301_2_alg».proof.Proof.RefRead
import proofs.«168511_j27419071218301_2_alg».proof.Proof.Region0
import proofs.«168511_j27419071218301_2_alg».proof.Proof.RefStages
import proofs.«168511_j27419071218301_2_alg».proof.Proof.HostOps

set_option maxRecDepth 16384

noncomputable section

open scoped BigOperators

namespace Cert.JK.Chain

open Cert.KernelIdeal Cert.KernelIdeal.Gen Cert.ReferenceIdeal.ReadP Cert.JK Cert.RowDot
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)
/-- Argument 0 as launched. -/
abbrev A0 : Buf (Elt Ideal) ((c : Thread nD τ).loc main_arg0) := m ((c : Thread nD τ).loc main_arg0)
/-- Argument 1 as launched. -/
abbrev A1 : Buf (Elt Ideal) ((c : Thread nD τ).loc main_arg1) := m ((c : Thread nD τ).loc main_arg1)
/-- Argument 2 as launched. -/
abbrev A2 : Buf (Elt Ideal) ((c : Thread nD τ).loc main_arg2) := m ((c : Thread nD τ).loc main_arg2)
/-- Argument 3 as launched. -/
abbrev A3 : Buf (Elt Ideal) ((c : Thread nD τ).loc main_arg3) := m ((c : Thread nD τ).loc main_arg3)
/-- Argument 4 as launched. -/
abbrev A4 : Buf (Elt Ideal) ((c : Thread nD τ).loc main_arg4) := m ((c : Thread nD τ).loc main_arg4)
/-- Argument 5 as launched. -/
abbrev A5 : Buf (Elt Ideal) ((c : Thread nD τ).loc main_arg5) := m ((c : Thread nD τ).loc main_arg5)
/-- Argument 6 as launched. -/
abbrev A6 : Buf (Elt Ideal) ((c : Thread nD τ).loc main_arg6) := m ((c : Thread nD τ).loc main_arg6)
/-- Argument 7 as launched. -/
abbrev A7 : Buf (Elt Ideal) ((c : Thread nD τ).loc main_arg7) := m ((c : Thread nD τ).loc main_arg7)
/-- Argument 8 as launched. -/
abbrev A8 : Buf (Elt Ideal) ((c : Thread nD τ).loc main_arg8) := m ((c : Thread nD τ).loc main_arg8)

/-- A buffer none of a stretch's operations writes keeps its contents across the stretch. -/
macro "host_pass" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Up to the first region -/

theorem B1_v3 : W1 m ρ c (Proc.devRef .tc main_v3) = val_main_v3 (F := Ideal) (A1 m c) := by
  show StableHlo.after hostOps0 (W0 m ρ c) (Proc.devRef .tc main_v3) = _
  after_results_simp <;> rfl

theorem B1_v6 : W1 m ρ c (Proc.devRef .tc main_v6) = val_main_v6 (F := Ideal) (A1 m c) := by
  show StableHlo.after hostOps0 (W0 m ρ c) (Proc.devRef .tc main_v6) = _
  after_results_simp <;> rfl

theorem B1_v8 : W1 m ρ c (Proc.devRef .tc main_v8) = val_main_v8 (F := Ideal) (A2 m c) := by
  show StableHlo.after hostOps0 (W0 m ρ c) (Proc.devRef .tc main_v8) = _
  after_results_simp <;> rfl

theorem B1_v13 : W1 m ρ c (Proc.devRef .tc main_v13) = val_main_v14 (F := Ideal) (A1 m c) (A2 m c) := by
  show StableHlo.after hostOps0 (W0 m ρ c) (Proc.devRef .tc main_v13) = _
  after_results_simp <;> rfl

theorem B1_v14 : W1 m ρ c (Proc.devRef .tc main_v14) = val_main_v15 (F := Ideal) (A1 m c) (A2 m c) := by
  show StableHlo.after hostOps0 (W0 m ρ c) (Proc.devRef .tc main_v14) = _
  after_results_simp <;> rfl

theorem B1_cst_2 : W1 m ρ c (Proc.devRef .tc main_cst_2) = val_main_cst_2 (F := Ideal) := by
  show StableHlo.after hostOps0 (W0 m ρ c) (Proc.devRef .tc main_cst_2) = _
  after_results_simp <;> rfl

/-- A value written through a typed reference and read back through it is the value. -/
theorem ofBuf_toBuf {T : BufTy} (x : TRef sig T) (v : T.Contents (Elt Ideal)) : x.ofBuf (x.toBuf v) = v := by
  unfold TRef.ofBuf TRef.toBuf
  exact eq_of_heq ((cast_heq _ _).trans (cast_heq _ _))

theorem B2_v15 : W2 m ρ c (Proc.devRef .tc main_v15) = val_main_v16 (F := Ideal) (A1 m c) (A2 m c) := by
  have h13 := B1_v13 m ρ c
  have h14 := B1_v14 m ρ c
  have hc := B1_cst_2 m ρ c
  show StableHlo.after hostOps0_1 (W1 m ρ c) (Proc.devRef .tc main_v15) = _
  generalize W1 m ρ c = V at h13 h14 hc ⊢
  after_results_simp
  refine eq_of_heq ((cast_heq _ _).trans (heq_of_eq ?_))
  unfold val_main_v16 val_main_call0_v1 val_main_call0_v0
  refine congr (congr (congrArg select ?_) ?_) ?_
  · exact eq_of_heq ((cast_heq _ _).trans (heq_of_eq h13))
  · exact eq_of_heq ((cast_heq _ _).trans (heq_of_eq h14))
  · exact (ofBuf_toBuf _ _).trans (congrArg (broadcastInDim S50000 ![] bcast_S_S50000)
      ((ofBuf_toBuf _ _).trans (congrArg id (eq_of_heq ((cast_heq _ _).trans (heq_of_eq hc))))))

theorem B2_v3 : W2 m ρ c (Proc.devRef .tc main_v3) = val_main_v3 (F := Ideal) (A1 m c) :=
  (by host_pass hostOps0_1 : W2 m ρ c (Proc.devRef .tc main_v3) = W1 m ρ c (Proc.devRef .tc main_v3)).trans (B1_v3 m ρ c)
theorem B2_v6 : W2 m ρ c (Proc.devRef .tc main_v6) = val_main_v6 (F := Ideal) (A1 m c) :=
  (by host_pass hostOps0_1 : W2 m ρ c (Proc.devRef .tc main_v6) = W1 m ρ c (Proc.devRef .tc main_v6)).trans (B1_v6 m ρ c)
theorem B2_v8 : W2 m ρ c (Proc.devRef .tc main_v8) = val_main_v8 (F := Ideal) (A2 m c) :=
  (by host_pass hostOps0_1 : W2 m ρ c (Proc.devRef .tc main_v8) = W1 m ρ c (Proc.devRef .tc main_v8)).trans (B1_v8 m ρ c)

theorem B3_v31 : W3 m ρ c (Proc.devRef .tc main_v31) = val_main_v32 (F := Ideal) (A1 m c) (A2 m c) := by
  have h15 := B2_v15 m ρ c
  have h3 := B2_v3 m ρ c
  have h6 := B2_v6 m ρ c
  have h8 := B2_v8 m ρ c
  show StableHlo.after hostOps0_2 (W2 m ρ c) (Proc.devRef .tc main_v31) = _
  generalize W2 m ρ c = V at h15 h3 h6 h8 ⊢
  after_results_simp
  rw [h15, h3, h6, h8]
  rfl

theorem B3_v3 : W3 m ρ c (Proc.devRef .tc main_v3) = val_main_v3 (F := Ideal) (A1 m c) :=
  (by host_pass hostOps0_2 : W3 m ρ c (Proc.devRef .tc main_v3) = W2 m ρ c (Proc.devRef .tc main_v3)).trans (B2_v3 m ρ c)
theorem B3_v6 : W3 m ρ c (Proc.devRef .tc main_v6) = val_main_v6 (F := Ideal) (A1 m c) :=
  (by host_pass hostOps0_2 : W3 m ρ c (Proc.devRef .tc main_v6) = W2 m ρ c (Proc.devRef .tc main_v6)).trans (B2_v6 m ρ c)

theorem B3_arg0 : W3 m ρ c (Proc.devRef .tc main_arg0) = A0 m c := by
  show StableHlo.after hostOps0_2 (StableHlo.after hostOps0_1 (StableHlo.after hostOps0 (W0 m ρ c))) (Proc.devRef .tc main_arg0) = _
  after_results_simp <;> rfl

theorem B3_arg3 : W3 m ρ c (Proc.devRef .tc main_arg3) = A3 m c := by
  show StableHlo.after hostOps0_2 (StableHlo.after hostOps0_1 (StableHlo.after hostOps0 (W0 m ρ c))) (Proc.devRef .tc main_arg3) = _
  after_results_simp <;> rfl

theorem B3_arg4 : W3 m ρ c (Proc.devRef .tc main_arg4) = A4 m c := by
  show StableHlo.after hostOps0_2 (StableHlo.after hostOps0_1 (StableHlo.after hostOps0 (W0 m ρ c))) (Proc.devRef .tc main_arg4) = _
  after_results_simp <;> rfl

theorem B3_arg5 : W3 m ρ c (Proc.devRef .tc main_arg5) = A5 m c := by
  show StableHlo.after hostOps0_2 (StableHlo.after hostOps0_1 (StableHlo.after hostOps0 (W0 m ρ c))) (Proc.devRef .tc main_arg5) = _
  after_results_simp <;> rfl

theorem B3_arg6 : W3 m ρ c (Proc.devRef .tc main_arg6) = A6 m c := by
  show StableHlo.after hostOps0_2 (StableHlo.after hostOps0_1 (StableHlo.after hostOps0 (W0 m ρ c))) (Proc.devRef .tc main_arg6) = _
  after_results_simp <;> rfl

/-! ## The first region: x · W0 -/

theorem B4_v32 : W4 m ρ c (Proc.devRef .tc main_v32) = val_main_v9 (F := Ideal) (A0 m c) (A3 m c) := by
  refine (W4_arr m ρ c 2).trans ((Region0.final (V3 m ρ) c).trans ?_)
  rw [RefStages.dot0]
  show mm (M := 50000) (K := 128) (N := 64) (W3 m ρ c (Proc.devRef .tc main_arg0)) (W3 m ρ c (Proc.devRef .tc main_arg3)) = _
  rw [B3_arg0 m ρ c, B3_arg3 m ρ c]

theorem B4_v3 : W4 m ρ c (Proc.devRef .tc main_v3) = val_main_v3 (F := Ideal) (A1 m c) :=
  (W4_of_ne m ρ c main_v3 (by decide)).trans (B3_v3 m ρ c)
theorem B4_v6 : W4 m ρ c (Proc.devRef .tc main_v6) = val_main_v6 (F := Ideal) (A1 m c) :=
  (W4_of_ne m ρ c main_v6 (by decide)).trans (B3_v6 m ρ c)
theorem B4_v31 : W4 m ρ c (Proc.devRef .tc main_v31) = val_main_v32 (F := Ideal) (A1 m c) (A2 m c) :=
  (W4_of_ne m ρ c main_v31 (by decide)).trans (B3_v31 m ρ c)
theorem B4_arg4 : W4 m ρ c (Proc.devRef .tc main_arg4) = A4 m c :=
  (W4_of_ne m ρ c main_arg4 (by decide)).trans (B3_arg4 m ρ c)
theorem B4_arg5 : W4 m ρ c (Proc.devRef .tc main_arg5) = A5 m c :=
  (W4_of_ne m ρ c main_arg5 (by decide)).trans (B3_arg5 m ρ c)
theorem B4_arg6 : W4 m ρ c (Proc.devRef .tc main_arg6) = A6 m c :=
  (W4_of_ne m ρ c main_arg6 (by decide)).trans (B3_arg6 m ρ c)

/-! ## The stretch before the first layer region -/

theorem B5_v46 : W5 m ρ c (Proc.devRef .tc main_v46) = val_main_v45 (F := Ideal) (A0 m c) (A1 m c) (A2 m c) (A3 m c) := by
  show StableHlo.after hostOps1 (W4 m ρ c) (Proc.devRef .tc main_v46) = _
  after_results_simp
  rw [B4_v32 m ρ c, B4_v3 m ρ c, B4_v6 m ρ c, B4_v31 m ρ c]
  rfl

theorem B5_v67 : W5 m ρ c (Proc.devRef .tc main_v67) = shapeCast S1x64 (A4 m c) shapeCasts_S64_S1x64 := by
  show StableHlo.after hostOps1 (W4 m ρ c) (Proc.devRef .tc main_v67) = _
  after_results_simp
  rw [B4_arg4 m ρ c]
  rfl

theorem B5_v58 : W5 m ρ c (Proc.devRef .tc main_v58) = val_main_v51 (F := Ideal) (A5 m c) := by
  show StableHlo.after hostOps1 (W4 m ρ c) (Proc.devRef .tc main_v58) = _
  after_results_simp
  rw [B4_arg5 m ρ c]
  rfl

theorem B5_v60 : W5 m ρ c (Proc.devRef .tc main_v60) = val_main_v96 (F := Ideal) (A5 m c) := by
  show StableHlo.after hostOps1 (W4 m ρ c) (Proc.devRef .tc main_v60) = _
  after_results_simp
  rw [B4_arg5 m ρ c]
  rfl

theorem B5_v62 : W5 m ρ c (Proc.devRef .tc main_v62) = val_main_v141 (F := Ideal) (A5 m c) := by
  show StableHlo.after hostOps1 (W4 m ρ c) (Proc.devRef .tc main_v62) = _
  after_results_simp
  rw [B4_arg5 m ρ c]
  rfl

theorem B5_v64 : W5 m ρ c (Proc.devRef .tc main_v64) = val_main_v186 (F := Ideal) (A5 m c) := by
  show StableHlo.after hostOps1 (W4 m ρ c) (Proc.devRef .tc main_v64) = _
  after_results_simp
  rw [B4_arg5 m ρ c]
  rfl

theorem B5_v66 : W5 m ρ c (Proc.devRef .tc main_v66) = val_main_v231 (F := Ideal) (A5 m c) := by
  show StableHlo.after hostOps1 (W4 m ρ c) (Proc.devRef .tc main_v66) = _
  after_results_simp
  rw [B4_arg5 m ρ c]
  rfl

theorem B5_v48 : W5 m ρ c (Proc.devRef .tc main_v48) = val_main_v53 (F := Ideal) (A6 m c) := by
  show StableHlo.after hostOps1 (W4 m ρ c) (Proc.devRef .tc main_v48) = _
  after_results_simp
  rw [B4_arg6 m ρ c]
  rfl

theorem B5_v50 : W5 m ρ c (Proc.devRef .tc main_v50) = val_main_v98 (F := Ideal) (A6 m c) := by
  show StableHlo.after hostOps1 (W4 m ρ c) (Proc.devRef .tc main_v50) = _
  after_results_simp
  rw [B4_arg6 m ρ c]
  rfl

theorem B5_v52 : W5 m ρ c (Proc.devRef .tc main_v52) = val_main_v143 (F := Ideal) (A6 m c) := by
  show StableHlo.after hostOps1 (W4 m ρ c) (Proc.devRef .tc main_v52) = _
  after_results_simp
  rw [B4_arg6 m ρ c]
  rfl

theorem B5_v54 : W5 m ρ c (Proc.devRef .tc main_v54) = val_main_v188 (F := Ideal) (A6 m c) := by
  show StableHlo.after hostOps1 (W4 m ρ c) (Proc.devRef .tc main_v54) = _
  after_results_simp
  rw [B4_arg6 m ρ c]
  rfl

theorem B5_v56 : W5 m ρ c (Proc.devRef .tc main_v56) = val_main_v233 (F := Ideal) (A6 m c) := by
  show StableHlo.after hostOps1 (W4 m ρ c) (Proc.devRef .tc main_v56) = _
  after_results_simp
  rw [B4_arg6 m ρ c]
  rfl

theorem B5_v3 : W5 m ρ c (Proc.devRef .tc main_v3) = val_main_v3 (F := Ideal) (A1 m c) :=
  (by host_pass hostOps1 : W5 m ρ c (Proc.devRef .tc main_v3) = W4 m ρ c (Proc.devRef .tc main_v3)).trans (B4_v3 m ρ c)
theorem B5_v6 : W5 m ρ c (Proc.devRef .tc main_v6) = val_main_v6 (F := Ideal) (A1 m c) :=
  (by host_pass hostOps1 : W5 m ρ c (Proc.devRef .tc main_v6) = W4 m ρ c (Proc.devRef .tc main_v6)).trans (B4_v6 m ρ c)
theorem B5_v31 : W5 m ρ c (Proc.devRef .tc main_v31) = val_main_v32 (F := Ideal) (A1 m c) (A2 m c) :=
  (by host_pass hostOps1 : W5 m ρ c (Proc.devRef .tc main_v31) = W4 m ρ c (Proc.devRef .tc main_v31)).trans (B4_v31 m ρ c)

end Cert.JK.Chain

end
-- ==== Proof.Region1.lean ====
/-
  A layer region, whole: the two arrays its 25 grid points write.

  Point t stages rows 2000·t … 2000·t + 1999 of the aggregate, the bias row and the next weight matrix, and
  writes back, to the same rows of its two results, the aggregate plus the bias clamped at zero and that block
  times the weight matrix.  The blocks are disjoint and cover the 50000 rows, so the first result is the layer's
  output and the second is that output times the weight matrix.
-/
import proofs.«168511_j27419071218301_2_alg».proof.Proof.Gen.KernelIdeal.Frame
import proofs.«168511_j27419071218301_2_alg».proof.Proof.Pay

set_option maxRecDepth 16384

noncomputable section

open scoped BigOperators

namespace Cert.JK.Region1

open Cert.KernelIdeal Cert.KernelIdeal.Gen Cert.JK Cert.RowDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block of the aggregate and of both results is the point's number;
    the bias row and the weight matrix are staged whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The aggregate the region is handed. -/
abbrev A (c : Dev nD) : Mat 50000 64 := V c main_v46
/-- The bias, as a one-row array. -/
abbrev Bm (c : Dev nD) : Mat 1 64 := V c main_v67
/-- The next weight matrix. -/
abbrev Wm (c : Dev nD) : Mat 64 64 := V c main_v58

/-- The bias row the region is handed, as a function of the column. -/
abbrev bias (c : Dev nD) : Fin 64 → EReal := fun q => Bm V c (ix2 (0 : Fin 1) q)

/-- The layer's output: the aggregate plus the bias, clamped at zero. -/
abbrev H (c : Dev nD) : S50000x64.Idx → EReal := reluRow (M := 50000) (N := 64) (A V c) (bias V c)

/-- The layer's output times the next weight matrix. -/
abbrev HL (c : Dev nD) : S50000x64.Idx → EReal := mm (M := 50000) (K := 64) (N := 64) (H V c) (Wm V c)

/-- A block of the aggregate read where the result's block says. -/
theorem emb0 (t : Fin cfg1.N) (p : Fin 2000) (q : Fin 64) (j : S2000x64.Idx) (hp : (j 0).val = p.val) :
    (((cfg1.win 0).blk t).view.emb (ix2 p q) : S50000x64.Idx) = ix2 ((((cfg1.win 3).blk t).view.emb j) 0) q := by
  obtain ⟨e0, e1, e2, e3, e4, e5, e6, e7, e8, e9⟩ := idx_facts t
  funext a; apply Fin.ext
  match a with
  | ⟨0, _⟩ => show win1_0.index t (0 : Fin 2) * 2000 + 1 * p.val = win1_3.index t (0 : Fin 2) * 2000 + 1 * (j 0).val; omega
  | ⟨1, _⟩ => show win1_0.index t (1 : Fin 2) * 64 + 1 * q.val = q.val; omega

/-- The two results' blocks at a point are the same rows. -/
theorem emb34 (t : Fin cfg1.N) (j : S2000x64.Idx) :
    (((cfg1.win 4).blk t).view.emb j : S50000x64.Idx) = ((cfg1.win 3).blk t).view.emb j := by
  obtain ⟨e0, e1, e2, e3, e4, e5, e6, e7, e8, e9⟩ := idx_facts t
  funext a; apply Fin.ext
  match a with
  | ⟨0, _⟩ => show win1_4.index t (0 : Fin 2) * 2000 + 1 * (j 0).val = win1_3.index t (0 : Fin 2) * 2000 + 1 * (j 0).val; omega
  | ⟨1, _⟩ => show win1_4.index t (1 : Fin 2) * 64 + 1 * (j 1).val = win1_3.index t (1 : Fin 2) * 64 + 1 * (j 1).val; omega

/-- The staged bias row is the whole bias row. -/
theorem emb1 (t : Fin cfg1.N) (q : Fin 64) :
    (((cfg1.win 1).blk t).view.emb (ix2 (0 : Fin 1) q) : S1x64.Idx) = ix2 (0 : Fin 1) q := by
  obtain ⟨e0, e1, e2, e3, e4, e5, e6, e7, e8, e9⟩ := idx_facts t
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- The staged weight matrix is the whole weight matrix. -/
theorem emb2 (t : Fin cfg1.N) (r : Fin 64) (q : Fin 64) :
    (((cfg1.win 2).blk t).view.emb (ix2 r q) : S64x64.Idx) = ix2 r q := by
  obtain ⟨e0, e1, e2, e3, e4, e5, e6, e7, e8, e9⟩ := idx_facts t
  funext a; apply Fin.ext
  match a with
  | ⟨0, _⟩ => show win1_2.index t (0 : Fin 2) * 64 + 1 * r.val = r.val; omega
  | ⟨1, _⟩ => show win1_2.index t (1 : Fin 2) * 64 + 1 * q.val = q.val; omega

/-- The layer's output on a staged block is the layer's output at the block's place in the array. -/
theorem relu_blk (c : Dev nD) (t : Fin cfg1.N) (p : Fin 2000) (q : Fin 64) (j : S2000x64.Idx) (hp : (j 0).val = p.val) :
    reluRow (M := 2000) (N := 64) (iblk1 V c 0 t) (fun q => iblk1 V c 1 t (ix2 (0 : Fin 1) q)) (ix2 p q)
      = H V c (ix2 ((((cfg1.win 3).blk t).view.emb j) 0) q) := by
  show max (A V c (((cfg1.win 0).blk t).view.emb (ix2 p q)) + Bm V c (((cfg1.win 1).blk t).view.emb (ix2 (0 : Fin 1) q))) zeroF
    = max (A V c (ix2 ((((cfg1.win 3).blk t).view.emb j) 0) q) + Bm V c (ix2 (0 : Fin 1) q)) zeroF
  rw [emb0 t p q j hp, emb1 t q]
  rfl

/-- What point t writes back to the first result is block t of the layer's output. -/
theorem flushed3_eq (c : Dev nD) (t : Fin cfg1.N) :
    (dat1 V c).flushed 3 t = ((cfg1.win 3).blk t).view.read (Elt Ideal) (H V c) := by
  show (cfg1.win 3).cut (grid1.coords t) ((dat1 V c).after 3 t) = _
  rw [after1_3]
  unfold out1_3
  rw [View.canon_unit_zero hz]
  simp only [View.ld_unit_zero (S := S2000x64) hz, View.ld_unit_zero (S := S1x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  refine (Pay.pay1a (iblk1 V c 0 t) (iblk1 V c 1 t) p q).trans ?_
  refine (relu_blk V c t p q (ix2 p q) rfl).trans ?_
  refine congrArg (H V c) ?_
  funext a; apply Fin.ext
  match a with
  | ⟨0, _⟩ => rfl
  | ⟨1, _⟩ => show q.val = win1_3.index t (1 : Fin 2) * 64 + 1 * q.val; omega

/-- What point t writes back to the second result is block t of the layer's output times the weight matrix. -/
theorem flushed4_eq (c : Dev nD) (t : Fin cfg1.N) :
    (dat1 V c).flushed 4 t = ((cfg1.win 4).blk t).view.read (Elt Ideal) (HL V c) := by
  show (cfg1.win 4).cut (grid1.coords t) ((dat1 V c).after 4 t) = _
  rw [after1_4]
  unfold out1_4
  rw [View.canon_unit_zero hz]
  simp only [View.ld_unit_zero (S := S2000x64) hz, View.ld_unit_zero (S := S1x64) hz, View.ld_unit_zero (S := S64x64) hz]
  obtain ⟨e0, e1, e2, e3, e4, e5, e6, e7, e8, e9⟩ := idx_facts t
  funext j
  refine (Pay.pay1b (iblk1 V c 0 t) (iblk1 V c 1 t) (iblk1 V c 2 t) j).trans ?_
  show ∑ r : Fin 64, reluRow (M := 2000) (N := 64) (iblk1 V c 0 t) (fun q => iblk1 V c 1 t (ix2 (0 : Fin 1) q)) (ix2 (j 0) r)
        * Wm V c (((cfg1.win 2).blk t).view.emb (ix2 r (j 1)))
    = ∑ r : Fin 64, H V c (ix2 ((((cfg1.win 4).blk t).view.emb j) 0) r) * Wm V c (ix2 r ((((cfg1.win 4).blk t).view.emb j) 1))
  refine Finset.sum_congr rfl fun r _ => ?_
  rw [relu_blk V c t (j 0) r j rfl, emb2 t r (j 1), emb34 t j]
  refine congrArg (fun z => H V c (ix2 ((((cfg1.win 3).blk t).view.emb j) 0) r) * Wm V c z) ?_
  funext a; apply Fin.ext
  match a with
  | ⟨0, _⟩ => rfl
  | ⟨1, _⟩ => show (j 1).val = win1_3.index t (1 : Fin 2) * 64 + 1 * (j 1).val; omega

/-- An index of the first result is in point t's block iff each coordinate is in the block's range. -/
theorem mem_blk3 (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v68_0).slice (win1_3.rect t)).set ↔ _
  rw [View.set_slice_whole, Rect.mem_set_unit]
  exact Iff.rfl

/-- The same for the second result. -/
theorem mem_blk4 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v68_1).slice (win1_4.rect t)).set ↔ _
  rw [View.set_slice_whole, Rect.mem_set_unit]
  exact Iff.rfl

/-- Every row of the first result lies in the block of the point that is the row's number over 2000. -/
theorem cover3 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  let t : Fin cfg1.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush1_3 t, ?_⟩
  rw [mem_blk3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- The same for the second result. -/
theorem cover4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  let t : Fin cfg1.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush1_4 t, ?_⟩
  rw [mem_blk4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- The first result after the 25 points: the layer's output. -/
theorem final3 (c : Dev nD) : (dat1 V c).arrAt 3 cfg1.N = H V c :=
  (dat1 V c).arrAt_eq_of_cover 3 (H V c) (fun t _ => flushed3_eq V c t) cover3

/-- The second result after the 25 points: the layer's output times the next weight matrix. -/
theorem final4 (c : Dev nD) : (dat1 V c).arrAt 4 cfg1.N = HL V c :=
  (dat1 V c).arrAt_eq_of_cover 4 (HL V c) (fun t _ => flushed4_eq V c t) cover4

end Cert.JK.Region1

end
-- ==== Proof.Region2.lean ====
/-
  A layer region, whole: the two arrays its 25 grid points write.

  Point t stages rows 2000·t … 2000·t + 1999 of the aggregate, the bias row and the next weight matrix, and
  writes back, to the same rows of its two results, the aggregate plus the bias clamped at zero and that block
  times the weight matrix.  The blocks are disjoint and cover the 50000 rows, so the first result is the layer's
  output and the second is that output times the weight matrix.
-/
import proofs.«168511_j27419071218301_2_alg».proof.Proof.Gen.KernelIdeal.Frame
import proofs.«168511_j27419071218301_2_alg».proof.Proof.Pay

set_option maxRecDepth 16384

noncomputable section

open scoped BigOperators

namespace Cert.JK.Region2

open Cert.KernelIdeal Cert.KernelIdeal.Gen Cert.JK Cert.RowDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block of the aggregate and of both results is the point's number;
    the bias row and the weight matrix are staged whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The aggregate the region is handed. -/
abbrev A (c : Dev nD) : Mat 50000 64 := V c main_v82
/-- The bias, as a one-row array. -/
abbrev Bm (c : Dev nD) : Mat 1 64 := V c main_v83
/-- The next weight matrix. -/
abbrev Wm (c : Dev nD) : Mat 64 64 := V c main_v60

/-- The bias row the region is handed, as a function of the column. -/
abbrev bias (c : Dev nD) : Fin 64 → EReal := fun q => Bm V c (ix2 (0 : Fin 1) q)

/-- The layer's output: the aggregate plus the bias, clamped at zero. -/
abbrev H (c : Dev nD) : S50000x64.Idx → EReal := reluRow (M := 50000) (N := 64) (A V c) (bias V c)

/-- The layer's output times the next weight matrix. -/
abbrev HL (c : Dev nD) : S50000x64.Idx → EReal := mm (M := 50000) (K := 64) (N := 64) (H V c) (Wm V c)

/-- A block of the aggregate read where the result's block says. -/
theorem emb0 (t : Fin cfg2.N) (p : Fin 2000) (q : Fin 64) (j : S2000x64.Idx) (hp : (j 0).val = p.val) :
    (((cfg2.win 0).blk t).view.emb (ix2 p q) : S50000x64.Idx) = ix2 ((((cfg2.win 3).blk t).view.emb j) 0) q := by
  obtain ⟨e0, e1, e2, e3, e4, e5, e6, e7, e8, e9⟩ := idx_facts t
  funext a; apply Fin.ext
  match a with
  | ⟨0, _⟩ => show win2_0.index t (0 : Fin 2) * 2000 + 1 * p.val = win2_3.index t (0 : Fin 2) * 2000 + 1 * (j 0).val; omega
  | ⟨1, _⟩ => show win2_0.index t (1 : Fin 2) * 64 + 1 * q.val = q.val; omega

/-- The two results' blocks at a point are the same rows. -/
theorem emb34 (t : Fin cfg2.N) (j : S2000x64.Idx) :
    (((cfg2.win 4).blk t).view.emb j : S50000x64.Idx) = ((cfg2.win 3).blk t).view.emb j := by
  obtain ⟨e0, e1, e2, e3, e4, e5, e6, e7, e8, e9⟩ := idx_facts t
  funext a; apply Fin.ext
  match a with
  | ⟨0, _⟩ => show win2_4.index t (0 : Fin 2) * 2000 + 1 * (j 0).val = win2_3.index t (0 : Fin 2) * 2000 + 1 * (j 0).val; omega
  | ⟨1, _⟩ => show win2_4.index t (1 : Fin 2) * 64 + 1 * (j 1).val = win2_3.index t (1 : Fin 2) * 64 + 1 * (j 1).val; omega

/-- The staged bias row is the whole bias row. -/
theorem emb1 (t : Fin cfg2.N) (q : Fin 64) :
    (((cfg2.win 1).blk t).view.emb (ix2 (0 : Fin 1) q) : S1x64.Idx) = ix2 (0 : Fin 1) q := by
  obtain ⟨e0, e1, e2, e3, e4, e5, e6, e7, e8, e9⟩ := idx_facts t
  funext a; apply Fin.ext
  match a with
  | ⟨0, _⟩ => show win2_1.index t (0 : Fin 2) * 1 + 1 * 0 = 0; omega
  | ⟨1, _⟩ => show win2_1.index t (1 : Fin 2) * 64 + 1 * q.val = q.val; omega

/-- The staged weight matrix is the whole weight matrix. -/
theorem emb2 (t : Fin cfg2.N) (r : Fin 64) (q : Fin 64) :
    (((cfg2.win 2).blk t).view.emb (ix2 r q) : S64x64.Idx) = ix2 r q := by
  obtain ⟨e0, e1, e2, e3, e4, e5, e6, e7, e8, e9⟩ := idx_facts t
  funext a; apply Fin.ext
  match a with
  | ⟨0, _⟩ => show win2_2.index t (0 : Fin 2) * 64 + 1 * r.val = r.val; omega
  | ⟨1, _⟩ => show win2_2.index t (1 : Fin 2) * 64 + 1 * q.val = q.val; omega

/-- The layer's output on a staged block is the layer's output at the block's place in the array. -/
theorem relu_blk (c : Dev nD) (t : Fin cfg2.N) (p : Fin 2000) (q : Fin 64) (j : S2000x64.Idx) (hp : (j 0).val = p.val) :
    reluRow (M := 2000) (N := 64) (iblk2 V c 0 t) (fun q => iblk2 V c 1 t (ix2 (0 : Fin 1) q)) (ix2 p q)
      = H V c (ix2 ((((cfg2.win 3).blk t).view.emb j) 0) q) := by
  show max (A V c (((cfg2.win 0).blk t).view.emb (ix2 p q)) + Bm V c (((cfg2.win 1).blk t).view.emb (ix2 (0 : Fin 1) q))) zeroF
    = max (A V c (ix2 ((((cfg2.win 3).blk t).view.emb j) 0) q) + Bm V c (ix2 (0 : Fin 1) q)) zeroF
  rw [emb0 t p q j hp, emb1 t q]
  rfl

/-- What point t writes back to the first result is block t of the layer's output. -/
theorem flushed3_eq (c : Dev nD) (t : Fin cfg2.N) :
    (dat2 V c).flushed 3 t = ((cfg2.win 3).blk t).view.read (Elt Ideal) (H V c) := by
  show (cfg2.win 3).cut (grid2.coords t) ((dat2 V c).after 3 t) = _
  rw [after2_3]
  unfold out2_3
  rw [View.canon_unit_zero hz]
  simp only [View.ld_unit_zero (S := S2000x64) hz, View.ld_unit_zero (S := S1x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  refine (Pay.pay1a (iblk2 V c 0 t) (iblk2 V c 1 t) p q).trans ?_
  refine (relu_blk V c t p q (ix2 p q) rfl).trans ?_
  refine congrArg (H V c) ?_
  funext a; apply Fin.ext
  match a with
  | ⟨0, _⟩ => rfl
  | ⟨1, _⟩ => show q.val = win2_3.index t (1 : Fin 2) * 64 + 1 * q.val; omega

/-- What point t writes back to the second result is block t of the layer's output times the weight matrix. -/
theorem flushed4_eq (c : Dev nD) (t : Fin cfg2.N) :
    (dat2 V c).flushed 4 t = ((cfg2.win 4).blk t).view.read (Elt Ideal) (HL V c) := by
  show (cfg2.win 4).cut (grid2.coords t) ((dat2 V c).after 4 t) = _
  rw [after2_4]
  unfold out2_4
  rw [View.canon_unit_zero hz]
  simp only [View.ld_unit_zero (S := S2000x64) hz, View.ld_unit_zero (S := S1x64) hz, View.ld_unit_zero (S := S64x64) hz]
  obtain ⟨e0, e1, e2, e3, e4, e5, e6, e7, e8, e9⟩ := idx_facts t
  funext j
  refine (Pay.pay1b (iblk2 V c 0 t) (iblk2 V c 1 t) (iblk2 V c 2 t) j).trans ?_
  show ∑ r : Fin 64, reluRow (M := 2000) (N := 64) (iblk2 V c 0 t) (fun q => iblk2 V c 1 t (ix2 (0 : Fin 1) q)) (ix2 (j 0) r)
        * Wm V c (((cfg2.win 2).blk t).view.emb (ix2 r (j 1)))
    = ∑ r : Fin 64, H V c (ix2 ((((cfg2.win 4).blk t).view.emb j) 0) r) * Wm V c (ix2 r ((((cfg2.win 4).blk t).view.emb j) 1))
  refine Finset.sum_congr rfl fun r _ => ?_
  rw [relu_blk V c t (j 0) r j rfl, emb2 t r (j 1), emb34 t j]
  refine congrArg (fun z => H V c (ix2 ((((cfg2.win 3).blk t).view.emb j) 0) r) * Wm V c z) ?_
  funext a; apply Fin.ext
  match a with
  | ⟨0, _⟩ => rfl
  | ⟨1, _⟩ => show (j 1).val = win2_3.index t (1 : Fin 2) * 64 + 1 * (j 1).val; omega

/-- An index of the first result is in point t's block iff each coordinate is in the block's range. -/
theorem mem_blk3 (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v84_0).slice (win2_3.rect t)).set ↔ _
  rw [View.set_slice_whole, Rect.mem_set_unit]
  exact Iff.rfl

/-- The same for the second result. -/
theorem mem_blk4 (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v84_1).slice (win2_4.rect t)).set ↔ _
  rw [View.set_slice_whole, Rect.mem_set_unit]
  exact Iff.rfl

/-- Every row of the first result lies in the block of the point that is the row's number over 2000. -/
theorem cover3 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  let t : Fin cfg2.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush2_3 t, ?_⟩
  rw [mem_blk3]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- The same for the second result. -/
theorem cover4 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush2_4 t, ?_⟩
  rw [mem_blk4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 64 ≤ (i 1).val ∧ (i 1).val < win2_4.index t (1 : Fin 2) * 64 + 64; omega

/-- The first result after the 25 points: the layer's output. -/
theorem final3 (c : Dev nD) : (dat2 V c).arrAt 3 cfg2.N = H V c :=
  (dat2 V c).arrAt_eq_of_cover 3 (H V c) (fun t _ => flushed3_eq V c t) cover3

/-- The second result after the 25 points: the layer's output times the next weight matrix. -/
theorem final4 (c : Dev nD) : (dat2 V c).arrAt 4 cfg2.N = HL V c :=
  (dat2 V c).arrAt_eq_of_cover 4 (HL V c) (fun t _ => flushed4_eq V c t) cover4

end Cert.JK.Region2

end
-- ==== Proof.Region3.lean ====
/-
  A layer region, whole: the two arrays its 25 grid points write.

  Point t stages rows 2000·t … 2000·t + 1999 of the aggregate, the bias row and the next weight matrix, and
  writes back, to the same rows of its two results, the aggregate plus the bias clamped at zero and that block
  times the weight matrix.  The blocks are disjoint and cover the 50000 rows, so the first result is the layer's
  output and the second is that output times the weight matrix.
-/
import proofs.«168511_j27419071218301_2_alg».proof.Proof.Gen.KernelIdeal.Frame
import proofs.«168511_j27419071218301_2_alg».proof.Proof.Pay

set_option maxRecDepth 16384

noncomputable section

open scoped BigOperators

namespace Cert.JK.Region3

open Cert.KernelIdeal Cert.KernelIdeal.Gen Cert.JK Cert.RowDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block of the aggregate and of both results is the point's number;
    the bias row and the weight matrix are staged whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The aggregate the region is handed. -/
abbrev A (c : Dev nD) : Mat 50000 64 := V c main_v98
/-- The bias, as a one-row array. -/
abbrev Bm (c : Dev nD) : Mat 1 64 := V c main_v99
/-- The next weight matrix. -/
abbrev Wm (c : Dev nD) : Mat 64 64 := V c main_v62

/-- The bias row the region is handed, as a function of the column. -/
abbrev bias (c : Dev nD) : Fin 64 → EReal := fun q => Bm V c (ix2 (0 : Fin 1) q)

/-- The layer's output: the aggregate plus the bias, clamped at zero. -/
abbrev H (c : Dev nD) : S50000x64.Idx → EReal := reluRow (M := 50000) (N := 64) (A V c) (bias V c)

/-- The layer's output times the next weight matrix. -/
abbrev HL (c : Dev nD) : S50000x64.Idx → EReal := mm (M := 50000) (K := 64) (N := 64) (H V c) (Wm V c)

/-- A block of the aggregate read where the result's block says. -/
theorem emb0 (t : Fin cfg3.N) (p : Fin 2000) (q : Fin 64) (j : S2000x64.Idx) (hp : (j 0).val = p.val) :
    (((cfg3.win 0).blk t).view.emb (ix2 p q) : S50000x64.Idx) = ix2 ((((cfg3.win 3).blk t).view.emb j) 0) q := by
  obtain ⟨e0, e1, e2, e3, e4, e5, e6, e7, e8, e9⟩ := idx_facts t
  funext a; apply Fin.ext
  match a with
  | ⟨0, _⟩ => show win3_0.index t (0 : Fin 2) * 2000 + 1 * p.val = win3_3.index t (0 : Fin 2) * 2000 + 1 * (j 0).val; omega
  | ⟨1, _⟩ => show win3_0.index t (1 : Fin 2) * 64 + 1 * q.val = q.val; omega

/-- The two results' blocks at a point are the same rows. -/
theorem emb34 (t : Fin cfg3.N) (j : S2000x64.Idx) :
    (((cfg3.win 4).blk t).view.emb j : S50000x64.Idx) = ((cfg3.win 3).blk t).view.emb j := by
  obtain ⟨e0, e1, e2, e3, e4, e5, e6, e7, e8, e9⟩ := idx_facts t
  funext a; apply Fin.ext
  match a with
  | ⟨0, _⟩ => show win3_4.index t (0 : Fin 2) * 2000 + 1 * (j 0).val = win3_3.index t (0 : Fin 2) * 2000 + 1 * (j 0).val; omega
  | ⟨1, _⟩ => show win3_4.index t (1 : Fin 2) * 64 + 1 * (j 1).val = win3_3.index t (1 : Fin 2) * 64 + 1 * (j 1).val; omega

/-- The staged bias row is the whole bias row. -/
theorem emb1 (t : Fin cfg3.N) (q : Fin 64) :
    (((cfg3.win 1).blk t).view.emb (ix2 (0 : Fin 1) q) : S1x64.Idx) = ix2 (0 : Fin 1) q := by
  obtain ⟨e0, e1, e2, e3, e4, e5, e6, e7, e8, e9⟩ := idx_facts t
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- The staged weight matrix is the whole weight matrix. -/
theorem emb2 (t : Fin cfg3.N) (r : Fin 64) (q : Fin 64) :
    (((cfg3.win 2).blk t).view.emb (ix2 r q) : S64x64.Idx) = ix2 r q := by
  obtain ⟨e0, e1, e2, e3, e4, e5, e6, e7, e8, e9⟩ := idx_facts t
  funext a; apply Fin.ext
  match a with
  | ⟨0, _⟩ => show win3_2.index t (0 : Fin 2) * 64 + 1 * r.val = r.val; omega
  | ⟨1, _⟩ => show win3_2.index t (1 : Fin 2) * 64 + 1 * q.val = q.val; omega

/-- The layer's output on a staged block is the layer's output at the block's place in the array. -/
theorem relu_blk (c : Dev nD) (t : Fin cfg3.N) (p : Fin 2000) (q : Fin 64) (j : S2000x64.Idx) (hp : (j 0).val = p.val) :
    reluRow (M := 2000) (N := 64) (iblk3 V c 0 t) (fun q => iblk3 V c 1 t (ix2 (0 : Fin 1) q)) (ix2 p q)
      = H V c (ix2 ((((cfg3.win 3).blk t).view.emb j) 0) q) := by
  show max (A V c (((cfg3.win 0).blk t).view.emb (ix2 p q)) + Bm V c (((cfg3.win 1).blk t).view.emb (ix2 (0 : Fin 1) q))) zeroF
    = max (A V c (ix2 ((((cfg3.win 3).blk t).view.emb j) 0) q) + Bm V c (ix2 (0 : Fin 1) q)) zeroF
  rw [emb0 t p q j hp, emb1 t q]
  rfl

/-- What point t writes back to the first result is block t of the layer's output. -/
theorem flushed3_eq (c : Dev nD) (t : Fin cfg3.N) :
    (dat3 V c).flushed 3 t = ((cfg3.win 3).blk t).view.read (Elt Ideal) (H V c) := by
  show (cfg3.win 3).cut (grid3.coords t) ((dat3 V c).after 3 t) = _
  rw [after3_3]
  unfold out3_3
  rw [View.canon_unit_zero hz]
  simp only [View.ld_unit_zero (S := S2000x64) hz, View.ld_unit_zero (S := S1x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  refine (Pay.pay1a (iblk3 V c 0 t) (iblk3 V c 1 t) p q).trans ?_
  refine (relu_blk V c t p q (ix2 p q) rfl).trans ?_
  refine congrArg (H V c) ?_
  funext a; apply Fin.ext
  match a with
  | ⟨0, _⟩ => rfl
  | ⟨1, _⟩ => show q.val = win3_3.index t (1 : Fin 2) * 64 + 1 * q.val; omega

/-- What point t writes back to the second result is block t of the layer's output times the weight matrix. -/
theorem flushed4_eq (c : Dev nD) (t : Fin cfg3.N) :
    (dat3 V c).flushed 4 t = ((cfg3.win 4).blk t).view.read (Elt Ideal) (HL V c) := by
  show (cfg3.win 4).cut (grid3.coords t) ((dat3 V c).after 4 t) = _
  rw [after3_4]
  unfold out3_4
  rw [View.canon_unit_zero hz]
  simp only [View.ld_unit_zero (S := S2000x64) hz, View.ld_unit_zero (S := S1x64) hz, View.ld_unit_zero (S := S64x64) hz]
  obtain ⟨e0, e1, e2, e3, e4, e5, e6, e7, e8, e9⟩ := idx_facts t
  funext j
  refine (Pay.pay1b (iblk3 V c 0 t) (iblk3 V c 1 t) (iblk3 V c 2 t) j).trans ?_
  show ∑ r : Fin 64, reluRow (M := 2000) (N := 64) (iblk3 V c 0 t) (fun q => iblk3 V c 1 t (ix2 (0 : Fin 1) q)) (ix2 (j 0) r)
        * Wm V c (((cfg3.win 2).blk t).view.emb (ix2 r (j 1)))
    = ∑ r : Fin 64, H V c (ix2 ((((cfg3.win 4).blk t).view.emb j) 0) r) * Wm V c (ix2 r ((((cfg3.win 4).blk t).view.emb j) 1))
  refine Finset.sum_congr rfl fun r _ => ?_
  rw [relu_blk V c t (j 0) r j rfl, emb2 t r (j 1), emb34 t j]
  refine congrArg (fun z => H V c (ix2 ((((cfg3.win 3).blk t).view.emb j) 0) r) * Wm V c z) ?_
  funext a; apply Fin.ext
  match a with
  | ⟨0, _⟩ => rfl
  | ⟨1, _⟩ => show (j 1).val = win3_3.index t (1 : Fin 2) * 64 + 1 * (j 1).val; omega

/-- An index of the first result is in point t's block iff each coordinate is in the block's range. -/
theorem mem_blk3 (t : Fin cfg3.N) (i : S50000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v100_0).slice (win3_3.rect t)).set ↔ _
  rw [View.set_slice_whole, Rect.mem_set_unit]
  exact Iff.rfl

/-- The same for the second result. -/
theorem mem_blk4 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v100_1).slice (win3_4.rect t)).set ↔ _
  rw [View.set_slice_whole, Rect.mem_set_unit]
  exact Iff.rfl

/-- Every row of the first result lies in the block of the point that is the row's number over 2000. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  let t : Fin cfg3.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- The same for the second result. -/
theorem cover4 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  let t : Fin cfg3.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush3_4 t, ?_⟩
  rw [mem_blk4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- The first result after the 25 points: the layer's output. -/
theorem final3 (c : Dev nD) : (dat3 V c).arrAt 3 cfg3.N = H V c :=
  (dat3 V c).arrAt_eq_of_cover 3 (H V c) (fun t _ => flushed3_eq V c t) cover3

/-- The second result after the 25 points: the layer's output times the next weight matrix. -/
theorem final4 (c : Dev nD) : (dat3 V c).arrAt 4 cfg3.N = HL V c :=
  (dat3 V c).arrAt_eq_of_cover 4 (HL V c) (fun t _ => flushed4_eq V c t) cover4

end Cert.JK.Region3

end
-- ==== Proof.Region4.lean ====
/-
  A layer region, whole: the two arrays its 25 grid points write.

  Point t stages rows 2000·t … 2000·t + 1999 of the aggregate, the bias row and the next weight matrix, and
  writes back, to the same rows of its two results, the aggregate plus the bias clamped at zero and that block
  times the weight matrix.  The blocks are disjoint and cover the 50000 rows, so the first result is the layer's
  output and the second is that output times the weight matrix.
-/
import proofs.«168511_j27419071218301_2_alg».proof.Proof.Gen.KernelIdeal.Frame
import proofs.«168511_j27419071218301_2_alg».proof.Proof.Pay

set_option maxRecDepth 16384

noncomputable section

open scoped BigOperators

namespace Cert.JK.Region4

open Cert.KernelIdeal Cert.KernelIdeal.Gen Cert.JK Cert.RowDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block of the aggregate and of both results is the point's number;
    the bias row and the weight matrix are staged whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The aggregate the region is handed. -/
abbrev A (c : Dev nD) : Mat 50000 64 := V c main_v114
/-- The bias, as a one-row array. -/
abbrev Bm (c : Dev nD) : Mat 1 64 := V c main_v115
/-- The next weight matrix. -/
abbrev Wm (c : Dev nD) : Mat 64 64 := V c main_v64

/-- The bias row the region is handed, as a function of the column. -/
abbrev bias (c : Dev nD) : Fin 64 → EReal := fun q => Bm V c (ix2 (0 : Fin 1) q)

/-- The layer's output: the aggregate plus the bias, clamped at zero. -/
abbrev H (c : Dev nD) : S50000x64.Idx → EReal := reluRow (M := 50000) (N := 64) (A V c) (bias V c)

/-- The layer's output times the next weight matrix. -/
abbrev HL (c : Dev nD) : S50000x64.Idx → EReal := mm (M := 50000) (K := 64) (N := 64) (H V c) (Wm V c)

/-- A block of the aggregate read where the result's block says. -/
theorem emb0 (t : Fin cfg4.N) (p : Fin 2000) (q : Fin 64) (j : S2000x64.Idx) (hp : (j 0).val = p.val) :
    (((cfg4.win 0).blk t).view.emb (ix2 p q) : S50000x64.Idx) = ix2 ((((cfg4.win 3).blk t).view.emb j) 0) q := by
  obtain ⟨e0, e1, e2, e3, e4, e5, e6, e7, e8, e9⟩ := idx_facts t
  funext a; apply Fin.ext
  match a with
  | ⟨0, _⟩ => show win4_0.index t (0 : Fin 2) * 2000 + 1 * p.val = win4_3.index t (0 : Fin 2) * 2000 + 1 * (j 0).val; omega
  | ⟨1, _⟩ => show win4_0.index t (1 : Fin 2) * 64 + 1 * q.val = q.val; omega

/-- The two results' blocks at a point are the same rows. -/
theorem emb34 (t : Fin cfg4.N) (j : S2000x64.Idx) :
    (((cfg4.win 4).blk t).view.emb j : S50000x64.Idx) = ((cfg4.win 3).blk t).view.emb j := by
  obtain ⟨e0, e1, e2, e3, e4, e5, e6, e7, e8, e9⟩ := idx_facts t
  funext a; apply Fin.ext
  match a with
  | ⟨0, _⟩ => show win4_4.index t (0 : Fin 2) * 2000 + 1 * (j 0).val = win4_3.index t (0 : Fin 2) * 2000 + 1 * (j 0).val; omega
  | ⟨1, _⟩ => show win4_4.index t (1 : Fin 2) * 64 + 1 * (j 1).val = win4_3.index t (1 : Fin 2) * 64 + 1 * (j 1).val; omega

/-- The staged bias row is the whole bias row. -/
theorem emb1 (t : Fin cfg4.N) (q : Fin 64) :
    (((cfg4.win 1).blk t).view.emb (ix2 (0 : Fin 1) q) : S1x64.Idx) = ix2 (0 : Fin 1) q := by
  obtain ⟨e0, e1, e2, e3, e4, e5, e6, e7, e8, e9⟩ := idx_facts t
  funext a; apply Fin.ext
  match a with
  | ⟨0, _⟩ => show win4_1.index t (0 : Fin 2) * 1 + 1 * 0 = 0; omega
  | ⟨1, _⟩ => show win4_1.index t (1 : Fin 2) * 64 + 1 * q.val = q.val; omega

/-- The staged weight matrix is the whole weight matrix. -/
theorem emb2 (t : Fin cfg4.N) (r : Fin 64) (q : Fin 64) :
    (((cfg4.win 2).blk t).view.emb (ix2 r q) : S64x64.Idx) = ix2 r q := by
  obtain ⟨e0, e1, e2, e3, e4, e5, e6, e7, e8, e9⟩ := idx_facts t
  funext a; apply Fin.ext
  match a with
  | ⟨0, _⟩ => show win4_2.index t (0 : Fin 2) * 64 + 1 * r.val = r.val; omega
  | ⟨1, _⟩ => show win4_2.index t (1 : Fin 2) * 64 + 1 * q.val = q.val; omega

/-- The layer's output on a staged block is the layer's output at the block's place in the array. -/
theorem relu_blk (c : Dev nD) (t : Fin cfg4.N) (p : Fin 2000) (q : Fin 64) (j : S2000x64.Idx) (hp : (j 0).val = p.val) :
    reluRow (M := 2000) (N := 64) (iblk4 V c 0 t) (fun q => iblk4 V c 1 t (ix2 (0 : Fin 1) q)) (ix2 p q)
      = H V c (ix2 ((((cfg4.win 3).blk t).view.emb j) 0) q) := by
  show max (A V c (((cfg4.win 0).blk t).view.emb (ix2 p q)) + Bm V c (((cfg4.win 1).blk t).view.emb (ix2 (0 : Fin 1) q))) zeroF
    = max (A V c (ix2 ((((cfg4.win 3).blk t).view.emb j) 0) q) + Bm V c (ix2 (0 : Fin 1) q)) zeroF
  rw [emb0 t p q j hp, emb1 t q]
  rfl

/-- What point t writes back to the first result is block t of the layer's output. -/
theorem flushed3_eq (c : Dev nD) (t : Fin cfg4.N) :
    (dat4 V c).flushed 3 t = ((cfg4.win 3).blk t).view.read (Elt Ideal) (H V c) := by
  show (cfg4.win 3).cut (grid4.coords t) ((dat4 V c).after 3 t) = _
  rw [after4_3]
  unfold out4_3
  rw [View.canon_unit_zero hz]
  simp only [View.ld_unit_zero (S := S2000x64) hz, View.ld_unit_zero (S := S1x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  refine (Pay.pay1a (iblk4 V c 0 t) (iblk4 V c 1 t) p q).trans ?_
  refine (relu_blk V c t p q (ix2 p q) rfl).trans ?_
  refine congrArg (H V c) ?_
  funext a; apply Fin.ext
  match a with
  | ⟨0, _⟩ => rfl
  | ⟨1, _⟩ => show q.val = win4_3.index t (1 : Fin 2) * 64 + 1 * q.val; omega

/-- What point t writes back to the second result is block t of the layer's output times the weight matrix. -/
theorem flushed4_eq (c : Dev nD) (t : Fin cfg4.N) :
    (dat4 V c).flushed 4 t = ((cfg4.win 4).blk t).view.read (Elt Ideal) (HL V c) := by
  show (cfg4.win 4).cut (grid4.coords t) ((dat4 V c).after 4 t) = _
  rw [after4_4]
  unfold out4_4
  rw [View.canon_unit_zero hz]
  simp only [View.ld_unit_zero (S := S2000x64) hz, View.ld_unit_zero (S := S1x64) hz, View.ld_unit_zero (S := S64x64) hz]
  obtain ⟨e0, e1, e2, e3, e4, e5, e6, e7, e8, e9⟩ := idx_facts t
  funext j
  refine (Pay.pay1b (iblk4 V c 0 t) (iblk4 V c 1 t) (iblk4 V c 2 t) j).trans ?_
  show ∑ r : Fin 64, reluRow (M := 2000) (N := 64) (iblk4 V c 0 t) (fun q => iblk4 V c 1 t (ix2 (0 : Fin 1) q)) (ix2 (j 0) r)
        * Wm V c (((cfg4.win 2).blk t).view.emb (ix2 r (j 1)))
    = ∑ r : Fin 64, H V c (ix2 ((((cfg4.win 4).blk t).view.emb j) 0) r) * Wm V c (ix2 r ((((cfg4.win 4).blk t).view.emb j) 1))
  refine Finset.sum_congr rfl fun r _ => ?_
  rw [relu_blk V c t (j 0) r j rfl, emb2 t r (j 1), emb34 t j]
  refine congrArg (fun z => H V c (ix2 ((((cfg4.win 3).blk t).view.emb j) 0) r) * Wm V c z) ?_
  funext a; apply Fin.ext
  match a with
  | ⟨0, _⟩ => rfl
  | ⟨1, _⟩ => show (j 1).val = win4_3.index t (1 : Fin 2) * 64 + 1 * (j 1).val; omega

/-- An index of the first result is in point t's block iff each coordinate is in the block's range. -/
theorem mem_blk3 (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v116_0).slice (win4_3.rect t)).set ↔ _
  rw [View.set_slice_whole, Rect.mem_set_unit]
  exact Iff.rfl

/-- The same for the second result. -/
theorem mem_blk4 (t : Fin cfg4.N) (i : S50000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v116_1).slice (win4_4.rect t)).set ↔ _
  rw [View.set_slice_whole, Rect.mem_set_unit]
  exact Iff.rfl

/-- Every row of the first result lies in the block of the point that is the row's number over 2000. -/
theorem cover3 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  let t : Fin cfg4.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush4_3 t, ?_⟩
  rw [mem_blk3]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 64 ≤ (i 1).val ∧ (i 1).val < win4_3.index t (1 : Fin 2) * 64 + 64; omega

/-- The same for the second result. -/
theorem cover4 (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  let t : Fin cfg4.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush4_4 t, ?_⟩
  rw [mem_blk4]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 64 ≤ (i 1).val ∧ (i 1).val < win4_4.index t (1 : Fin 2) * 64 + 64; omega

/-- The first result after the 25 points: the layer's output. -/
theorem final3 (c : Dev nD) : (dat4 V c).arrAt 3 cfg4.N = H V c :=
  (dat4 V c).arrAt_eq_of_cover 3 (H V c) (fun t _ => flushed3_eq V c t) cover3

/-- The second result after the 25 points: the layer's output times the next weight matrix. -/
theorem final4 (c : Dev nD) : (dat4 V c).arrAt 4 cfg4.N = HL V c :=
  (dat4 V c).arrAt_eq_of_cover 4 (HL V c) (fun t _ => flushed4_eq V c t) cover4

end Cert.JK.Region4

end
-- ==== Proof.Region5.lean ====
/-
  A layer region, whole: the two arrays its 25 grid points write.

  Point t stages rows 2000·t … 2000·t + 1999 of the aggregate, the bias row and the next weight matrix, and
  writes back, to the same rows of its two results, the aggregate plus the bias clamped at zero and that block
  times the weight matrix.  The blocks are disjoint and cover the 50000 rows, so the first result is the layer's
  output and the second is that output times the weight matrix.
-/
import proofs.«168511_j27419071218301_2_alg».proof.Proof.Gen.KernelIdeal.Frame
import proofs.«168511_j27419071218301_2_alg».proof.Proof.Pay

set_option maxRecDepth 16384

noncomputable section

open scoped BigOperators

namespace Cert.JK.Region5

open Cert.KernelIdeal Cert.KernelIdeal.Gen Cert.JK Cert.RowDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block of the aggregate and of both results is the point's number;
    the bias row and the weight matrix are staged whole. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The aggregate the region is handed. -/
abbrev A (c : Dev nD) : Mat 50000 64 := V c main_v130
/-- The bias, as a one-row array. -/
abbrev Bm (c : Dev nD) : Mat 1 64 := V c main_v131
/-- The next weight matrix. -/
abbrev Wm (c : Dev nD) : Mat 64 64 := V c main_v66

/-- The bias row the region is handed, as a function of the column. -/
abbrev bias (c : Dev nD) : Fin 64 → EReal := fun q => Bm V c (ix2 (0 : Fin 1) q)

/-- The layer's output: the aggregate plus the bias, clamped at zero. -/
abbrev H (c : Dev nD) : S50000x64.Idx → EReal := reluRow (M := 50000) (N := 64) (A V c) (bias V c)

/-- The layer's output times the next weight matrix. -/
abbrev HL (c : Dev nD) : S50000x64.Idx → EReal := mm (M := 50000) (K := 64) (N := 64) (H V c) (Wm V c)

/-- A block of the aggregate read where the result's block says. -/
theorem emb0 (t : Fin cfg5.N) (p : Fin 2000) (q : Fin 64) (j : S2000x64.Idx) (hp : (j 0).val = p.val) :
    (((cfg5.win 0).blk t).view.emb (ix2 p q) : S50000x64.Idx) = ix2 ((((cfg5.win 3).blk t).view.emb j) 0) q := by
  obtain ⟨e0, e1, e2, e3, e4, e5, e6, e7, e8, e9⟩ := idx_facts t
  funext a; apply Fin.ext
  match a with
  | ⟨0, _⟩ => show win5_0.index t (0 : Fin 2) * 2000 + 1 * p.val = win5_3.index t (0 : Fin 2) * 2000 + 1 * (j 0).val; omega
  | ⟨1, _⟩ => show win5_0.index t (1 : Fin 2) * 64 + 1 * q.val = q.val; omega

/-- The two results' blocks at a point are the same rows. -/
theorem emb34 (t : Fin cfg5.N) (j : S2000x64.Idx) :
    (((cfg5.win 4).blk t).view.emb j : S50000x64.Idx) = ((cfg5.win 3).blk t).view.emb j := by
  obtain ⟨e0, e1, e2, e3, e4, e5, e6, e7, e8, e9⟩ := idx_facts t
  funext a; apply Fin.ext
  match a with
  | ⟨0, _⟩ => show win5_4.index t (0 : Fin 2) * 2000 + 1 * (j 0).val = win5_3.index t (0 : Fin 2) * 2000 + 1 * (j 0).val; omega
  | ⟨1, _⟩ => show win5_4.index t (1 : Fin 2) * 64 + 1 * (j 1).val = win5_3.index t (1 : Fin 2) * 64 + 1 * (j 1).val; omega

/-- The staged bias row is the whole bias row. -/
theorem emb1 (t : Fin cfg5.N) (q : Fin 64) :
    (((cfg5.win 1).blk t).view.emb (ix2 (0 : Fin 1) q) : S1x64.Idx) = ix2 (0 : Fin 1) q := by
  obtain ⟨e0, e1, e2, e3, e4, e5, e6, e7, e8, e9⟩ := idx_facts t
  funext a; apply Fin.ext
  match a with
  | ⟨0, _⟩ => show win5_1.index t (0 : Fin 2) * 1 + 1 * 0 = 0; omega
  | ⟨1, _⟩ => show win5_1.index t (1 : Fin 2) * 64 + 1 * q.val = q.val; omega

/-- The staged weight matrix is the whole weight matrix. -/
theorem emb2 (t : Fin cfg5.N) (r : Fin 64) (q : Fin 64) :
    (((cfg5.win 2).blk t).view.emb (ix2 r q) : S64x64.Idx) = ix2 r q := by
  obtain ⟨e0, e1, e2, e3, e4, e5, e6, e7, e8, e9⟩ := idx_facts t
  funext a; apply Fin.ext
  match a with
  | ⟨0, _⟩ => show win5_2.index t (0 : Fin 2) * 64 + 1 * r.val = r.val; omega
  | ⟨1, _⟩ => show win5_2.index t (1 : Fin 2) * 64 + 1 * q.val = q.val; omega

/-- The layer's output on a staged block is the layer's output at the block's place in the array. -/
theorem relu_blk (c : Dev nD) (t : Fin cfg5.N) (p : Fin 2000) (q : Fin 64) (j : S2000x64.Idx) (hp : (j 0).val = p.val) :
    reluRow (M := 2000) (N := 64) (iblk5 V c 0 t) (fun q => iblk5 V c 1 t (ix2 (0 : Fin 1) q)) (ix2 p q)
      = H V c (ix2 ((((cfg5.win 3).blk t).view.emb j) 0) q) := by
  show max (A V c (((cfg5.win 0).blk t).view.emb (ix2 p q)) + Bm V c (((cfg5.win 1).blk t).view.emb (ix2 (0 : Fin 1) q))) zeroF
    = max (A V c (ix2 ((((cfg5.win 3).blk t).view.emb j) 0) q) + Bm V c (ix2 (0 : Fin 1) q)) zeroF
  rw [emb0 t p q j hp, emb1 t q]
  rfl

/-- What point t writes back to the first result is block t of the layer's output. -/
theorem flushed3_eq (c : Dev nD) (t : Fin cfg5.N) :
    (dat5 V c).flushed 3 t = ((cfg5.win 3).blk t).view.read (Elt Ideal) (H V c) := by
  show (cfg5.win 3).cut (grid5.coords t) ((dat5 V c).after 3 t) = _
  rw [after5_3]
  unfold out5_3
  rw [View.canon_unit_zero hz]
  simp only [View.ld_unit_zero (S := S2000x64) hz, View.ld_unit_zero (S := S1x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  refine (Pay.pay1a (iblk5 V c 0 t) (iblk5 V c 1 t) p q).trans ?_
  refine (relu_blk V c t p q (ix2 p q) rfl).trans ?_
  refine congrArg (H V c) ?_
  funext a; apply Fin.ext
  match a with
  | ⟨0, _⟩ => rfl
  | ⟨1, _⟩ => show q.val = win5_3.index t (1 : Fin 2) * 64 + 1 * q.val; omega

/-- What point t writes back to the second result is block t of the layer's output times the weight matrix. -/
theorem flushed4_eq (c : Dev nD) (t : Fin cfg5.N) :
    (dat5 V c).flushed 4 t = ((cfg5.win 4).blk t).view.read (Elt Ideal) (HL V c) := by
  show (cfg5.win 4).cut (grid5.coords t) ((dat5 V c).after 4 t) = _
  rw [after5_4]
  unfold out5_4
  rw [View.canon_unit_zero hz]
  simp only [View.ld_unit_zero (S := S2000x64) hz, View.ld_unit_zero (S := S1x64) hz, View.ld_unit_zero (S := S64x64) hz]
  obtain ⟨e0, e1, e2, e3, e4, e5, e6, e7, e8, e9⟩ := idx_facts t
  funext j
  refine (Pay.pay1b (iblk5 V c 0 t) (iblk5 V c 1 t) (iblk5 V c 2 t) j).trans ?_
  show ∑ r : Fin 64, reluRow (M := 2000) (N := 64) (iblk5 V c 0 t) (fun q => iblk5 V c 1 t (ix2 (0 : Fin 1) q)) (ix2 (j 0) r)
        * Wm V c (((cfg5.win 2).blk t).view.emb (ix2 r (j 1)))
    = ∑ r : Fin 64, H V c (ix2 ((((cfg5.win 4).blk t).view.emb j) 0) r) * Wm V c (ix2 r ((((cfg5.win 4).blk t).view.emb j) 1))
  refine Finset.sum_congr rfl fun r _ => ?_
  rw [relu_blk V c t (j 0) r j rfl, emb2 t r (j 1), emb34 t j]
  refine congrArg (fun z => H V c (ix2 ((((cfg5.win 3).blk t).view.emb j) 0) r) * Wm V c z) ?_
  funext a; apply Fin.ext
  match a with
  | ⟨0, _⟩ => rfl
  | ⟨1, _⟩ => show (j 1).val = win5_3.index t (1 : Fin 2) * 64 + 1 * (j 1).val; omega

/-- An index of the first result is in point t's block iff each coordinate is in the block's range. -/
theorem mem_blk3 (t : Fin cfg5.N) (i : S50000x64.Idx) :
    i ∈ ((cfg5.win 3).blk t).view.set ↔ ∀ a : Fin 2, win5_3.index t a * S2000x64.size a ≤ (i a).val ∧ (i a).val < win5_3.index t a * S2000x64.size a + S2000x64.size a := by
  show i ∈ ((View.whole main_v132_0).slice (win5_3.rect t)).set ↔ _
  rw [View.set_slice_whole, Rect.mem_set_unit]
  exact Iff.rfl

/-- The same for the second result. -/
theorem mem_blk4 (t : Fin cfg5.N) (i : S50000x64.Idx) :
    i ∈ ((cfg5.win 4).blk t).view.set ↔ ∀ a : Fin 2, win5_4.index t a * S2000x64.size a ≤ (i a).val ∧ (i a).val < win5_4.index t a * S2000x64.size a + S2000x64.size a := by
  show i ∈ ((View.whole main_v132_1).slice (win5_4.rect t)).set ↔ _
  rw [View.set_slice_whole, Rect.mem_set_unit]
  exact Iff.rfl

/-- Every row of the first result lies in the block of the point that is the row's number over 2000. -/
theorem cover3 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  let t : Fin cfg5.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush5_3 t, ?_⟩
  rw [mem_blk3]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 64 ≤ (i 1).val ∧ (i 1).val < win5_3.index t (1 : Fin 2) * 64 + 64; omega

/-- The same for the second result. -/
theorem cover4 (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  let t : Fin cfg5.N := ⟨(i 0).val / 2000, by show (i 0).val / 2000 < 25; omega⟩
  obtain ⟨e0, e1, e2, e3, e4, e5, e6, e7, e8, e9⟩ := idx_facts t
  have ht : t.val = (i 0).val / 2000 := rfl
  refine ⟨t, flush5_4 t, ?_⟩
  rw [mem_blk4]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 64 ≤ (i 1).val ∧ (i 1).val < win5_4.index t (1 : Fin 2) * 64 + 64; omega

/-- The first result after the 25 points: the layer's output. -/
theorem final3 (c : Dev nD) : (dat5 V c).arrAt 3 cfg5.N = H V c :=
  (dat5 V c).arrAt_eq_of_cover 3 (H V c) (fun t _ => flushed3_eq V c t) cover3

/-- The second result after the 25 points: the layer's output times the next weight matrix. -/
theorem final4 (c : Dev nD) : (dat5 V c).arrAt 4 cfg5.N = HL V c :=
  (dat5 V c).arrAt_eq_of_cover 4 (HL V c) (fun t _ => flushed4_eq V c t) cover4

end Cert.JK.Region5

end
-- ==== Proof.ChainB.lean ====
/-
  The buffer contents of the kernel program through the five layer regions, as stages of the reference.

  Each layer region leaves the reference's layer output and the reference's next product (the region lemmas and
  the stage lemmas meet in the functions of Spec.lean); each stretch between two regions aggregates the product
  over the edges with the same operations the reference applies, so its result is the reference's next aggregate.
-/
import proofs.«168511_j27419071218301_2_alg».proof.Proof.ChainA
import proofs.«168511_j27419071218301_2_alg».proof.Proof.Region1
import proofs.«168511_j27419071218301_2_alg».proof.Proof.Region2
import proofs.«168511_j27419071218301_2_alg».proof.Proof.Region3
import proofs.«168511_j27419071218301_2_alg».proof.Proof.Region4
import proofs.«168511_j27419071218301_2_alg».proof.Proof.Region5

set_option maxRecDepth 16384

noncomputable section

open scoped BigOperators

namespace Cert.JK.Chain

open Cert.KernelIdeal Cert.KernelIdeal.Gen Cert.ReferenceIdeal.ReadP Cert.JK Cert.RowDot
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Layer region 1 -/

theorem B6_v68_0 : W6 m ρ c (Proc.devRef .tc main_v68_0) = val_main_v49 (F := Ideal) (A0 m c) (A1 m c) (A2 m c) (A3 m c) (A4 m c) := by
  refine (W6_arr m ρ c 3).trans ((Region1.final3 (V5 m ρ) c).trans ?_)
  rw [RefStages.relu0]
  show reluRow (M := 50000) (N := 64) (W5 m ρ c (Proc.devRef .tc main_v46)) (fun q => W5 m ρ c (Proc.devRef .tc main_v67) (ix2 (0 : Fin 1) q)) = _
  rw [B5_v46 m ρ c, B5_v67 m ρ c]
  exact congrArg (reluRow (M := 50000) (N := 64) (val_main_v45 (F := Ideal) (A0 m c) (A1 m c) (A2 m c) (A3 m c))) (funext fun q => shapeCast_a_1a_apply _ _ 0 q)

theorem B6_v68_1 : W6 m ρ c (Proc.devRef .tc main_v68_1) = val_main_v54 (F := Ideal) (A0 m c) (A1 m c) (A2 m c) (A3 m c) (A4 m c) (A5 m c) := by
  refine (W6_arr m ρ c 4).trans ((Region1.final4 (V5 m ρ) c).trans ?_)
  rw [RefStages.dot1, RefStages.relu0]
  show mm (M := 50000) (K := 64) (N := 64) (reluRow (M := 50000) (N := 64) (W5 m ρ c (Proc.devRef .tc main_v46)) (fun q => W5 m ρ c (Proc.devRef .tc main_v67) (ix2 (0 : Fin 1) q)))
    (W5 m ρ c (Proc.devRef .tc main_v58)) = _
  rw [B5_v46 m ρ c, B5_v67 m ρ c, B5_v58 m ρ c]
  exact congrArg (fun b => mm (M := 50000) (K := 64) (N := 64) (reluRow (M := 50000) (N := 64) (val_main_v45 (F := Ideal) (A0 m c) (A1 m c) (A2 m c) (A3 m c)) b) (val_main_v51 (F := Ideal) (A5 m c)))
    (funext fun q => shapeCast_a_1a_apply _ _ 0 q)

theorem B6_v3 : W6 m ρ c (Proc.devRef .tc main_v3) = val_main_v3 (F := Ideal) (A1 m c) :=
  (W6_of_ne m ρ c main_v3 (by decide)).trans (B5_v3 m ρ c)
theorem B6_v6 : W6 m ρ c (Proc.devRef .tc main_v6) = val_main_v6 (F := Ideal) (A1 m c) :=
  (W6_of_ne m ρ c main_v6 (by decide)).trans (B5_v6 m ρ c)
theorem B6_v31 : W6 m ρ c (Proc.devRef .tc main_v31) = val_main_v32 (F := Ideal) (A1 m c) (A2 m c) :=
  (W6_of_ne m ρ c main_v31 (by decide)).trans (B5_v31 m ρ c)
theorem B6_v48 : W6 m ρ c (Proc.devRef .tc main_v48) = val_main_v53 (F := Ideal) (A6 m c) :=
  (W6_of_ne m ρ c main_v48 (by decide)).trans (B5_v48 m ρ c)
theorem B6_v50 : W6 m ρ c (Proc.devRef .tc main_v50) = val_main_v98 (F := Ideal) (A6 m c) :=
  (W6_of_ne m ρ c main_v50 (by decide)).trans (B5_v50 m ρ c)
theorem B6_v52 : W6 m ρ c (Proc.devRef .tc main_v52) = val_main_v143 (F := Ideal) (A6 m c) :=
  (W6_of_ne m ρ c main_v52 (by decide)).trans (B5_v52 m ρ c)
theorem B6_v54 : W6 m ρ c (Proc.devRef .tc main_v54) = val_main_v188 (F := Ideal) (A6 m c) :=
  (W6_of_ne m ρ c main_v54 (by decide)).trans (B5_v54 m ρ c)
theorem B6_v56 : W6 m ρ c (Proc.devRef .tc main_v56) = val_main_v233 (F := Ideal) (A6 m c) :=
  (W6_of_ne m ρ c main_v56 (by decide)).trans (B5_v56 m ρ c)
theorem B6_v60 : W6 m ρ c (Proc.devRef .tc main_v60) = val_main_v96 (F := Ideal) (A5 m c) :=
  (W6_of_ne m ρ c main_v60 (by decide)).trans (B5_v60 m ρ c)
theorem B6_v62 : W6 m ρ c (Proc.devRef .tc main_v62) = val_main_v141 (F := Ideal) (A5 m c) :=
  (W6_of_ne m ρ c main_v62 (by decide)).trans (B5_v62 m ρ c)
theorem B6_v64 : W6 m ρ c (Proc.devRef .tc main_v64) = val_main_v186 (F := Ideal) (A5 m c) :=
  (W6_of_ne m ρ c main_v64 (by decide)).trans (B5_v64 m ρ c)
theorem B6_v66 : W6 m ρ c (Proc.devRef .tc main_v66) = val_main_v231 (F := Ideal) (A5 m c) :=
  (W6_of_ne m ρ c main_v66 (by decide)).trans (B5_v66 m ρ c)

/-! ## The stretch after layer region 1 -/

theorem B7_v82 : W7 m ρ c (Proc.devRef .tc main_v82) = val_main_v90 (F := Ideal) (A0 m c) (A1 m c) (A2 m c) (A3 m c) (A4 m c) (A5 m c) := by
  show StableHlo.after hostOps2 (W6 m ρ c) (Proc.devRef .tc main_v82) = _
  after_results_simp
  rw [B6_v68_1 m ρ c, B6_v3 m ρ c, B6_v6 m ρ c, B6_v31 m ρ c]
  rfl

theorem B7_v83 : W7 m ρ c (Proc.devRef .tc main_v83) = shapeCast S1x64 (val_main_v53 (F := Ideal) (A6 m c)) shapeCasts_S64_S1x64 := by
  show StableHlo.after hostOps2 (W6 m ρ c) (Proc.devRef .tc main_v83) = _
  after_results_simp
  rw [B6_v48 m ρ c]
  rfl

theorem B7_v3 : W7 m ρ c (Proc.devRef .tc main_v3) = val_main_v3 (F := Ideal) (A1 m c) :=
  (by host_pass hostOps2 : W7 m ρ c (Proc.devRef .tc main_v3) = W6 m ρ c (Proc.devRef .tc main_v3)).trans (B6_v3 m ρ c)
theorem B7_v6 : W7 m ρ c (Proc.devRef .tc main_v6) = val_main_v6 (F := Ideal) (A1 m c) :=
  (by host_pass hostOps2 : W7 m ρ c (Proc.devRef .tc main_v6) = W6 m ρ c (Proc.devRef .tc main_v6)).trans (B6_v6 m ρ c)
theorem B7_v31 : W7 m ρ c (Proc.devRef .tc main_v31) = val_main_v32 (F := Ideal) (A1 m c) (A2 m c) :=
  (by host_pass hostOps2 : W7 m ρ c (Proc.devRef .tc main_v31) = W6 m ρ c (Proc.devRef .tc main_v31)).trans (B6_v31 m ρ c)
theorem B7_v50 : W7 m ρ c (Proc.devRef .tc main_v50) = val_main_v98 (F := Ideal) (A6 m c) :=
  (by host_pass hostOps2 : W7 m ρ c (Proc.devRef .tc main_v50) = W6 m ρ c (Proc.devRef .tc main_v50)).trans (B6_v50 m ρ c)
theorem B7_v52 : W7 m ρ c (Proc.devRef .tc main_v52) = val_main_v143 (F := Ideal) (A6 m c) :=
  (by host_pass hostOps2 : W7 m ρ c (Proc.devRef .tc main_v52) = W6 m ρ c (Proc.devRef .tc main_v52)).trans (B6_v52 m ρ c)
theorem B7_v54 : W7 m ρ c (Proc.devRef .tc main_v54) = val_main_v188 (F := Ideal) (A6 m c) :=
  (by host_pass hostOps2 : W7 m ρ c (Proc.devRef .tc main_v54) = W6 m ρ c (Proc.devRef .tc main_v54)).trans (B6_v54 m ρ c)
theorem B7_v56 : W7 m ρ c (Proc.devRef .tc main_v56) = val_main_v233 (F := Ideal) (A6 m c) :=
  (by host_pass hostOps2 : W7 m ρ c (Proc.devRef .tc main_v56) = W6 m ρ c (Proc.devRef .tc main_v56)).trans (B6_v56 m ρ c)
theorem B7_v60 : W7 m ρ c (Proc.devRef .tc main_v60) = val_main_v96 (F := Ideal) (A5 m c) :=
  (by host_pass hostOps2 : W7 m ρ c (Proc.devRef .tc main_v60) = W6 m ρ c (Proc.devRef .tc main_v60)).trans (B6_v60 m ρ c)
theorem B7_v62 : W7 m ρ c (Proc.devRef .tc main_v62) = val_main_v141 (F := Ideal) (A5 m c) :=
  (by host_pass hostOps2 : W7 m ρ c (Proc.devRef .tc main_v62) = W6 m ρ c (Proc.devRef .tc main_v62)).trans (B6_v62 m ρ c)
theorem B7_v64 : W7 m ρ c (Proc.devRef .tc main_v64) = val_main_v186 (F := Ideal) (A5 m c) :=
  (by host_pass hostOps2 : W7 m ρ c (Proc.devRef .tc main_v64) = W6 m ρ c (Proc.devRef .tc main_v64)).trans (B6_v64 m ρ c)
theorem B7_v66 : W7 m ρ c (Proc.devRef .tc main_v66) = val_main_v231 (F := Ideal) (A5 m c) :=
  (by host_pass hostOps2 : W7 m ρ c (Proc.devRef .tc main_v66) = W6 m ρ c (Proc.devRef .tc main_v66)).trans (B6_v66 m ρ c)
theorem B7_v68_0 : W7 m ρ c (Proc.devRef .tc main_v68_0) = val_main_v49 (F := Ideal) (A0 m c) (A1 m c) (A2 m c) (A3 m c) (A4 m c) :=
  (by host_pass hostOps2 : W7 m ρ c (Proc.devRef .tc main_v68_0) = W6 m ρ c (Proc.devRef .tc main_v68_0)).trans (B6_v68_0 m ρ c)

/-! ## Layer region 2 -/

theorem B8_v84_0 : W8 m ρ c (Proc.devRef .tc main_v84_0) = val_main_v94 (F := Ideal) (A0 m c) (A1 m c) (A2 m c) (A3 m c) (A4 m c) (A5 m c) (A6 m c) := by
  refine (W8_arr m ρ c 3).trans ((Region2.final3 (V7 m ρ) c).trans ?_)
  rw [RefStages.relu1]
  show reluRow (M := 50000) (N := 64) (W7 m ρ c (Proc.devRef .tc main_v82)) (fun q => W7 m ρ c (Proc.devRef .tc main_v83) (ix2 (0 : Fin 1) q)) = _
  rw [B7_v82 m ρ c, B7_v83 m ρ c]
  exact congrArg (reluRow (M := 50000) (N := 64) (val_main_v90 (F := Ideal) (A0 m c) (A1 m c) (A2 m c) (A3 m c) (A4 m c) (A5 m c))) (funext fun q => shapeCast_a_1a_apply _ _ 0 q)

theorem B8_v84_1 : W8 m ρ c (Proc.devRef .tc main_v84_1) = val_main_v99 (F := Ideal) (A0 m c) (A1 m c) (A2 m c) (A3 m c) (A4 m c) (A5 m c) (A6 m c) := by
  refine (W8_arr m ρ c 4).trans ((Region2.final4 (V7 m ρ) c).trans ?_)
  rw [RefStages.dot2, RefStages.relu1]
  show mm (M := 50000) (K := 64) (N := 64) (reluRow (M := 50000) (N := 64) (W7 m ρ c (Proc.devRef .tc main_v82)) (fun q => W7 m ρ c (Proc.devRef .tc main_v83) (ix2 (0 : Fin 1) q)))
    (W7 m ρ c (Proc.devRef .tc main_v60)) = _
  rw [B7_v82 m ρ c, B7_v83 m ρ c, B7_v60 m ρ c]
  exact congrArg (fun b => mm (M := 50000) (K := 64) (N := 64) (reluRow (M := 50000) (N := 64) (val_main_v90 (F := Ideal) (A0 m c) (A1 m c) (A2 m c) (A3 m c) (A4 m c) (A5 m c)) b) (val_main_v96 (F := Ideal) (A5 m c)))
    (funext fun q => shapeCast_a_1a_apply _ _ 0 q)

theorem B8_v3 : W8 m ρ c (Proc.devRef .tc main_v3) = val_main_v3 (F := Ideal) (A1 m c) :=
  (W8_of_ne m ρ c main_v3 (by decide)).trans (B7_v3 m ρ c)
theorem B8_v6 : W8 m ρ c (Proc.devRef .tc main_v6) = val_main_v6 (F := Ideal) (A1 m c) :=
  (W8_of_ne m ρ c main_v6 (by decide)).trans (B7_v6 m ρ c)
theorem B8_v31 : W8 m ρ c (Proc.devRef .tc main_v31) = val_main_v32 (F := Ideal) (A1 m c) (A2 m c) :=
  (W8_of_ne m ρ c main_v31 (by decide)).trans (B7_v31 m ρ c)
theorem B8_v50 : W8 m ρ c (Proc.devRef .tc main_v50) = val_main_v98 (F := Ideal) (A6 m c) :=
  (W8_of_ne m ρ c main_v50 (by decide)).trans (B7_v50 m ρ c)
theorem B8_v52 : W8 m ρ c (Proc.devRef .tc main_v52) = val_main_v143 (F := Ideal) (A6 m c) :=
  (W8_of_ne m ρ c main_v52 (by decide)).trans (B7_v52 m ρ c)
theorem B8_v54 : W8 m ρ c (Proc.devRef .tc main_v54) = val_main_v188 (F := Ideal) (A6 m c) :=
  (W8_of_ne m ρ c main_v54 (by decide)).trans (B7_v54 m ρ c)
theorem B8_v56 : W8 m ρ c (Proc.devRef .tc main_v56) = val_main_v233 (F := Ideal) (A6 m c) :=
  (W8_of_ne m ρ c main_v56 (by decide)).trans (B7_v56 m ρ c)
theorem B8_v62 : W8 m ρ c (Proc.devRef .tc main_v62) = val_main_v141 (F := Ideal) (A5 m c) :=
  (W8_of_ne m ρ c main_v62 (by decide)).trans (B7_v62 m ρ c)
theorem B8_v64 : W8 m ρ c (Proc.devRef .tc main_v64) = val_main_v186 (F := Ideal) (A5 m c) :=
  (W8_of_ne m ρ c main_v64 (by decide)).trans (B7_v64 m ρ c)
theorem B8_v66 : W8 m ρ c (Proc.devRef .tc main_v66) = val_main_v231 (F := Ideal) (A5 m c) :=
  (W8_of_ne m ρ c main_v66 (by decide)).trans (B7_v66 m ρ c)
theorem B8_v68_0 : W8 m ρ c (Proc.devRef .tc main_v68_0) = val_main_v49 (F := Ideal) (A0 m c) (A1 m c) (A2 m c) (A3 m c) (A4 m c) :=
  (W8_of_ne m ρ c main_v68_0 (by decide)).trans (B7_v68_0 m ρ c)

/-! ## The stretch after layer region 2 -/

theorem B9_v98 : W9 m ρ c (Proc.devRef .tc main_v98) = val_main_v135 (F := Ideal) (A0 m c) (A1 m c) (A2 m c) (A3 m c) (A4 m c) (A5 m c) (A6 m c) := by
  show StableHlo.after hostOps3 (W8 m ρ c) (Proc.devRef .tc main_v98) = _
  after_results_simp
  rw [B8_v84_1 m ρ c, B8_v3 m ρ c, B8_v6 m ρ c, B8_v31 m ρ c]
  rfl

theorem B9_v99 : W9 m ρ c (Proc.devRef .tc main_v99) = shapeCast S1x64 (val_main_v98 (F := Ideal) (A6 m c)) shapeCasts_S64_S1x64 := by
  show StableHlo.after hostOps3 (W8 m ρ c) (Proc.devRef .tc main_v99) = _
  after_results_simp
  rw [B8_v50 m ρ c]
  rfl

theorem B9_v3 : W9 m ρ c (Proc.devRef .tc main_v3) = val_main_v3 (F := Ideal) (A1 m c) :=
  (by host_pass hostOps3 : W9 m ρ c (Proc.devRef .tc main_v3) = W8 m ρ c (Proc.devRef .tc main_v3)).trans (B8_v3 m ρ c)
theorem B9_v6 : W9 m ρ c (Proc.devRef .tc main_v6) = val_main_v6 (F := Ideal) (A1 m c) :=
  (by host_pass hostOps3 : W9 m ρ c (Proc.devRef .tc main_v6) = W8 m ρ c (Proc.devRef .tc main_v6)).trans (B8_v6 m ρ c)
theorem B9_v31 : W9 m ρ c (Proc.devRef .tc main_v31) = val_main_v32 (F := Ideal) (A1 m c) (A2 m c) :=
  (by host_pass hostOps3 : W9 m ρ c (Proc.devRef .tc main_v31) = W8 m ρ c (Proc.devRef .tc main_v31)).trans (B8_v31 m ρ c)
theorem B9_v52 : W9 m ρ c (Proc.devRef .tc main_v52) = val_main_v143 (F := Ideal) (A6 m c) :=
  (by host_pass hostOps3 : W9 m ρ c (Proc.devRef .tc main_v52) = W8 m ρ c (Proc.devRef .tc main_v52)).trans (B8_v52 m ρ c)
theorem B9_v54 : W9 m ρ c (Proc.devRef .tc main_v54) = val_main_v188 (F := Ideal) (A6 m c) :=
  (by host_pass hostOps3 : W9 m ρ c (Proc.devRef .tc main_v54) = W8 m ρ c (Proc.devRef .tc main_v54)).trans (B8_v54 m ρ c)
theorem B9_v56 : W9 m ρ c (Proc.devRef .tc main_v56) = val_main_v233 (F := Ideal) (A6 m c) :=
  (by host_pass hostOps3 : W9 m ρ c (Proc.devRef .tc main_v56) = W8 m ρ c (Proc.devRef .tc main_v56)).trans (B8_v56 m ρ c)
theorem B9_v62 : W9 m ρ c (Proc.devRef .tc main_v62) = val_main_v141 (F := Ideal) (A5 m c) :=
  (by host_pass hostOps3 : W9 m ρ c (Proc.devRef .tc main_v62) = W8 m ρ c (Proc.devRef .tc main_v62)).trans (B8_v62 m ρ c)
theorem B9_v64 : W9 m ρ c (Proc.devRef .tc main_v64) = val_main_v186 (F := Ideal) (A5 m c) :=
  (by host_pass hostOps3 : W9 m ρ c (Proc.devRef .tc main_v64) = W8 m ρ c (Proc.devRef .tc main_v64)).trans (B8_v64 m ρ c)
theorem B9_v66 : W9 m ρ c (Proc.devRef .tc main_v66) = val_main_v231 (F := Ideal) (A5 m c) :=
  (by host_pass hostOps3 : W9 m ρ c (Proc.devRef .tc main_v66) = W8 m ρ c (Proc.devRef .tc main_v66)).trans (B8_v66 m ρ c)
theorem B9_v68_0 : W9 m ρ c (Proc.devRef .tc main_v68_0) = val_main_v49 (F := Ideal) (A0 m c) (A1 m c) (A2 m c) (A3 m c) (A4 m c) :=
  (by host_pass hostOps3 : W9 m ρ c (Proc.devRef .tc main_v68_0) = W8 m ρ c (Proc.devRef .tc main_v68_0)).trans (B8_v68_0 m ρ c)
theorem B9_v84_0 : W9 m ρ c (Proc.devRef .tc main_v84_0) = val_main_v94 (F := Ideal) (A0 m c) (A1 m c) (A2 m c) (A3 m c) (A4 m c) (A5 m c) (A6 m c) :=
  (by host_pass hostOps3 : W9 m ρ c (Proc.devRef .tc main_v84_0) = W8 m ρ c (Proc.devRef .tc main_v84_0)).trans (B8_v84_0 m ρ c)

/-! ## Layer region 3 -/

theorem B10_v100_0 : W10 m ρ c (Proc.devRef .tc main_v100_0) = val_main_v139 (F := Ideal) (A0 m c) (A1 m c) (A2 m c) (A3 m c) (A4 m c) (A5 m c) (A6 m c) := by
  refine (W10_arr m ρ c 3).trans ((Region3.final3 (V9 m ρ) c).trans ?_)
  rw [RefStages.relu2]
  show reluRow (M := 50000) (N := 64) (W9 m ρ c (Proc.devRef .tc main_v98)) (fun q => W9 m ρ c (Proc.devRef .tc main_v99) (ix2 (0 : Fin 1) q)) = _
  rw [B9_v98 m ρ c, B9_v99 m ρ c]
  exact congrArg (reluRow (M := 50000) (N := 64) (val_main_v135 (F := Ideal) (A0 m c) (A1 m c) (A2 m c) (A3 m c) (A4 m c) (A5 m c) (A6 m c))) (funext fun q => shapeCast_a_1a_apply _ _ 0 q)

theorem B10_v100_1 : W10 m ρ c (Proc.devRef .tc main_v100_1) = val_main_v144 (F := Ideal) (A0 m c) (A1 m c) (A2 m c) (A3 m c) (A4 m c) (A5 m c) (A6 m c) := by
  refine (W10_arr m ρ c 4).trans ((Region3.final4 (V9 m ρ) c).trans ?_)
  rw [RefStages.dot3, RefStages.relu2]
  show mm (M := 50000) (K := 64) (N := 64) (reluRow (M := 50000) (N := 64) (W9 m ρ c (Proc.devRef .tc main_v98)) (fun q => W9 m ρ c (Proc.devRef .tc main_v99) (ix2 (0 : Fin 1) q)))
    (W9 m ρ c (Proc.devRef .tc main_v62)) = _
  rw [B9_v98 m ρ c, B9_v99 m ρ c, B9_v62 m ρ c]
  exact congrArg (fun b => mm (M := 50000) (K := 64) (N := 64) (reluRow (M := 50000) (N := 64) (val_main_v135 (F := Ideal) (A0 m c) (A1 m c) (A2 m c) (A3 m c) (A4 m c) (A5 m c) (A6 m c)) b) (val_main_v141 (F := Ideal) (A5 m c)))
    (funext fun q => shapeCast_a_1a_apply _ _ 0 q)

theorem B10_v3 : W10 m ρ c (Proc.devRef .tc main_v3) = val_main_v3 (F := Ideal) (A1 m c) :=
  (W10_of_ne m ρ c main_v3 (by decide)).trans (B9_v3 m ρ c)
theorem B10_v6 : W10 m ρ c (Proc.devRef .tc main_v6) = val_main_v6 (F := Ideal) (A1 m c) :=
  (W10_of_ne m ρ c main_v6 (by decide)).trans (B9_v6 m ρ c)
theorem B10_v31 : W10 m ρ c (Proc.devRef .tc main_v31) = val_main_v32 (F := Ideal) (A1 m c) (A2 m c) :=
  (W10_of_ne m ρ c main_v31 (by decide)).trans (B9_v31 m ρ c)
theorem B10_v52 : W10 m ρ c (Proc.devRef .tc main_v52) = val_main_v143 (F := Ideal) (A6 m c) :=
  (W10_of_ne m ρ c main_v52 (by decide)).trans (B9_v52 m ρ c)
theorem B10_v54 : W10 m ρ c (Proc.devRef .tc main_v54) = val_main_v188 (F := Ideal) (A6 m c) :=
  (W10_of_ne m ρ c main_v54 (by decide)).trans (B9_v54 m ρ c)
theorem B10_v56 : W10 m ρ c (Proc.devRef .tc main_v56) = val_main_v233 (F := Ideal) (A6 m c) :=
  (W10_of_ne m ρ c main_v56 (by decide)).trans (B9_v56 m ρ c)
theorem B10_v64 : W10 m ρ c (Proc.devRef .tc main_v64) = val_main_v186 (F := Ideal) (A5 m c) :=
  (W10_of_ne m ρ c main_v64 (by decide)).trans (B9_v64 m ρ c)
theorem B10_v66 : W10 m ρ c (Proc.devRef .tc main_v66) = val_main_v231 (F := Ideal) (A5 m c) :=
  (W10_of_ne m ρ c main_v66 (by decide)).trans (B9_v66 m ρ c)
theorem B10_v68_0 : W10 m ρ c (Proc.devRef .tc main_v68_0) = val_main_v49 (F := Ideal) (A0 m c) (A1 m c) (A2 m c) (A3 m c) (A4 m c) :=
  (W10_of_ne m ρ c main_v68_0 (by decide)).trans (B9_v68_0 m ρ c)
theorem B10_v84_0 : W10 m ρ c (Proc.devRef .tc main_v84_0) = val_main_v94 (F := Ideal) (A0 m c) (A1 m c) (A2 m c) (A3 m c) (A4 m c) (A5 m c) (A6 m c) :=
  (W10_of_ne m ρ c main_v84_0 (by decide)).trans (B9_v84_0 m ρ c)

/-! ## The stretch after layer region 3 -/

theorem B11_v114 : W11 m ρ c (Proc.devRef .tc main_v114) = val_main_v180 (F := Ideal) (A0 m c) (A1 m c) (A2 m c) (A3 m c) (A4 m c) (A5 m c) (A6 m c) := by
  show StableHlo.after hostOps4 (W10 m ρ c) (Proc.devRef .tc main_v114) = _
  after_results_simp
  rw [B10_v100_1 m ρ c, B10_v3 m ρ c, B10_v6 m ρ c, B10_v31 m ρ c]
  rfl

theorem B11_v115 : W11 m ρ c (Proc.devRef .tc main_v115) = shapeCast S1x64 (val_main_v143 (F := Ideal) (A6 m c)) shapeCasts_S64_S1x64 := by
  show StableHlo.after hostOps4 (W10 m ρ c) (Proc.devRef .tc main_v115) = _
  after_results_simp
  rw [B10_v52 m ρ c]
  rfl

theorem B11_v3 : W11 m ρ c (Proc.devRef .tc main_v3) = val_main_v3 (F := Ideal) (A1 m c) :=
  (by host_pass hostOps4 : W11 m ρ c (Proc.devRef .tc main_v3) = W10 m ρ c (Proc.devRef .tc main_v3)).trans (B10_v3 m ρ c)
theorem B11_v6 : W11 m ρ c (Proc.devRef .tc main_v6) = val_main_v6 (F := Ideal) (A1 m c) :=
  (by host_pass hostOps4 : W11 m ρ c (Proc.devRef .tc main_v6) = W10 m ρ c (Proc.devRef .tc main_v6)).trans (B10_v6 m ρ c)
theorem B11_v31 : W11 m ρ c (Proc.devRef .tc main_v31) = val_main_v32 (F := Ideal) (A1 m c) (A2 m c) :=
  (by host_pass hostOps4 : W11 m ρ c (Proc.devRef .tc main_v31) = W10 m ρ c (Proc.devRef .tc main_v31)).trans (B10_v31 m ρ c)
theorem B11_v54 : W11 m ρ c (Proc.devRef .tc main_v54) = val_main_v188 (F := Ideal) (A6 m c) :=
  (by host_pass hostOps4 : W11 m ρ c (Proc.devRef .tc main_v54) = W10 m ρ c (Proc.devRef .tc main_v54)).trans (B10_v54 m ρ c)
theorem B11_v56 : W11 m ρ c (Proc.devRef .tc main_v56) = val_main_v233 (F := Ideal) (A6 m c) :=
  (by host_pass hostOps4 : W11 m ρ c (Proc.devRef .tc main_v56) = W10 m ρ c (Proc.devRef .tc main_v56)).trans (B10_v56 m ρ c)
theorem B11_v64 : W11 m ρ c (Proc.devRef .tc main_v64) = val_main_v186 (F := Ideal) (A5 m c) :=
  (by host_pass hostOps4 : W11 m ρ c (Proc.devRef .tc main_v64) = W10 m ρ c (Proc.devRef .tc main_v64)).trans (B10_v64 m ρ c)
theorem B11_v66 : W11 m ρ c (Proc.devRef .tc main_v66) = val_main_v231 (F := Ideal) (A5 m c) :=
  (by host_pass hostOps4 : W11 m ρ c (Proc.devRef .tc main_v66) = W10 m ρ c (Proc.devRef .tc main_v66)).trans (B10_v66 m ρ c)
theorem B11_v68_0 : W11 m ρ c (Proc.devRef .tc main_v68_0) = val_main_v49 (F := Ideal) (A0 m c) (A1 m c) (A2 m c) (A3 m c) (A4 m c) :=
  (by host_pass hostOps4 : W11 m ρ c (Proc.devRef .tc main_v68_0) = W10 m ρ c (Proc.devRef .tc main_v68_0)).trans (B10_v68_0 m ρ c)
theorem B11_v84_0 : W11 m ρ c (Proc.devRef .tc main_v84_0) = val_main_v94 (F := Ideal) (A0 m c) (A1 m c) (A2 m c) (A3 m c) (A4 m c) (A5 m c) (A6 m c) :=
  (by host_pass hostOps4 : W11 m ρ c (Proc.devRef .tc main_v84_0) = W10 m ρ c (Proc.devRef .tc main_v84_0)).trans (B10_v84_0 m ρ c)
theorem B11_v100_0 : W11 m ρ c (Proc.devRef .tc main_v100_0) = val_main_v139 (F := Ideal) (A0 m c) (A1 m c) (A2 m c) (A3 m c) (A4 m c) (A5 m c) (A6 m c) :=
  (by host_pass hostOps4 : W11 m ρ c (Proc.devRef .tc main_v100_0) = W10 m ρ c (Proc.devRef .tc main_v100_0)).trans (B10_v100_0 m ρ c)

/-! ## Layer region 4 -/

theorem B12_v116_0 : W12 m ρ c (Proc.devRef .tc main_v116_0) = val_main_v184 (F := Ideal) (A0 m c) (A1 m c) (A2 m c) (A3 m c) (A4 m c) (A5 m c) (A6 m c) := by
  refine (W12_arr m ρ c 3).trans ((Region4.final3 (V11 m ρ) c).trans ?_)
  rw [RefStages.relu3]
  show reluRow (M := 50000) (N := 64) (W11 m ρ c (Proc.devRef .tc main_v114)) (fun q => W11 m ρ c (Proc.devRef .tc main_v115) (ix2 (0 : Fin 1) q)) = _
  rw [B11_v114 m ρ c, B11_v115 m ρ c]
  exact congrArg (reluRow (M := 50000) (N := 64) (val_main_v180 (F := Ideal) (A0 m c) (A1 m c) (A2 m c) (A3 m c) (A4 m c) (A5 m c) (A6 m c))) (funext fun q => shapeCast_a_1a_apply _ _ 0 q)

theorem B12_v116_1 : W12 m ρ c (Proc.devRef .tc main_v116_1) = val_main_v189 (F := Ideal) (A0 m c) (A1 m c) (A2 m c) (A3 m c) (A4 m c) (A5 m c) (A6 m c) := by
  refine (W12_arr m ρ c 4).trans ((Region4.final4 (V11 m ρ) c).trans ?_)
  rw [RefStages.dot4, RefStages.relu3]
  show mm (M := 50000) (K := 64) (N := 64) (reluRow (M := 50000) (N := 64) (W11 m ρ c (Proc.devRef .tc main_v114)) (fun q => W11 m ρ c (Proc.devRef .tc main_v115) (ix2 (0 : Fin 1) q)))
    (W11 m ρ c (Proc.devRef .tc main_v64)) = _
  rw [B11_v114 m ρ c, B11_v115 m ρ c, B11_v64 m ρ c]
  exact congrArg (fun b => mm (M := 50000) (K := 64) (N := 64) (reluRow (M := 50000) (N := 64) (val_main_v180 (F := Ideal) (A0 m c) (A1 m c) (A2 m c) (A3 m c) (A4 m c) (A5 m c) (A6 m c)) b) (val_main_v186 (F := Ideal) (A5 m c)))
    (funext fun q => shapeCast_a_1a_apply _ _ 0 q)

theorem B12_v3 : W12 m ρ c (Proc.devRef .tc main_v3) = val_main_v3 (F := Ideal) (A1 m c) :=
  (W12_of_ne m ρ c main_v3 (by decide)).trans (B11_v3 m ρ c)
theorem B12_v6 : W12 m ρ c (Proc.devRef .tc main_v6) = val_main_v6 (F := Ideal) (A1 m c) :=
  (W12_of_ne m ρ c main_v6 (by decide)).trans (B11_v6 m ρ c)
theorem B12_v31 : W12 m ρ c (Proc.devRef .tc main_v31) = val_main_v32 (F := Ideal) (A1 m c) (A2 m c) :=
  (W12_of_ne m ρ c main_v31 (by decide)).trans (B11_v31 m ρ c)
theorem B12_v54 : W12 m ρ c (Proc.devRef .tc main_v54) = val_main_v188 (F := Ideal) (A6 m c) :=
  (W12_of_ne m ρ c main_v54 (by decide)).trans (B11_v54 m ρ c)
theorem B12_v56 : W12 m ρ c (Proc.devRef .tc main_v56) = val_main_v233 (F := Ideal) (A6 m c) :=
  (W12_of_ne m ρ c main_v56 (by decide)).trans (B11_v56 m ρ c)
theorem B12_v66 : W12 m ρ c (Proc.devRef .tc main_v66) = val_main_v231 (F := Ideal) (A5 m c) :=
  (W12_of_ne m ρ c main_v66 (by decide)).trans (B11_v66 m ρ c)
theorem B12_v68_0 : W12 m ρ c (Proc.devRef .tc main_v68_0) = val_main_v49 (F := Ideal) (A0 m c) (A1 m c) (A2 m c) (A3 m c) (A4 m c) :=
  (W12_of_ne m ρ c main_v68_0 (by decide)).trans (B11_v68_0 m ρ c)
theorem B12_v84_0 : W12 m ρ c (Proc.devRef .tc main_v84_0) = val_main_v94 (F := Ideal) (A0 m c) (A1 m c) (A2 m c) (A3 m c) (A4 m c) (A5 m c) (A6 m c) :=
  (W12_of_ne m ρ c main_v84_0 (by decide)).trans (B11_v84_0 m ρ c)
theorem B12_v100_0 : W12 m ρ c (Proc.devRef .tc main_v100_0) = val_main_v139 (F := Ideal) (A0 m c) (A1 m c) (A2 m c) (A3 m c) (A4 m c) (A5 m c) (A6 m c) :=
  (W12_of_ne m ρ c main_v100_0 (by decide)).trans (B11_v100_0 m ρ c)

/-! ## The stretch after layer region 4 -/

theorem B13_v130 : W13 m ρ c (Proc.devRef .tc main_v130) = val_main_v225 (F := Ideal) (A0 m c) (A1 m c) (A2 m c) (A3 m c) (A4 m c) (A5 m c) (A6 m c) := by
  show StableHlo.after hostOps5 (W12 m ρ c) (Proc.devRef .tc main_v130) = _
  after_results_simp
  rw [B12_v116_1 m ρ c, B12_v3 m ρ c, B12_v6 m ρ c, B12_v31 m ρ c]
  rfl

theorem B13_v131 : W13 m ρ c (Proc.devRef .tc main_v131) = shapeCast S1x64 (val_main_v188 (F := Ideal) (A6 m c)) shapeCasts_S64_S1x64 := by
  show StableHlo.after hostOps5 (W12 m ρ c) (Proc.devRef .tc main_v131) = _
  after_results_simp
  rw [B12_v54 m ρ c]
  rfl

theorem B13_v3 : W13 m ρ c (Proc.devRef .tc main_v3) = val_main_v3 (F := Ideal) (A1 m c) :=
  (by host_pass hostOps5 : W13 m ρ c (Proc.devRef .tc main_v3) = W12 m ρ c (Proc.devRef .tc main_v3)).trans (B12_v3 m ρ c)
theorem B13_v6 : W13 m ρ c (Proc.devRef .tc main_v6) = val_main_v6 (F := Ideal) (A1 m c) :=
  (by host_pass hostOps5 : W13 m ρ c (Proc.devRef .tc main_v6) = W12 m ρ c (Proc.devRef .tc main_v6)).trans (B12_v6 m ρ c)
theorem B13_v31 : W13 m ρ c (Proc.devRef .tc main_v31) = val_main_v32 (F := Ideal) (A1 m c) (A2 m c) :=
  (by host_pass hostOps5 : W13 m ρ c (Proc.devRef .tc main_v31) = W12 m ρ c (Proc.devRef .tc main_v31)).trans (B12_v31 m ρ c)
theorem B13_v56 : W13 m ρ c (Proc.devRef .tc main_v56) = val_main_v233 (F := Ideal) (A6 m c) :=
  (by host_pass hostOps5 : W13 m ρ c (Proc.devRef .tc main_v56) = W12 m ρ c (Proc.devRef .tc main_v56)).trans (B12_v56 m ρ c)
theorem B13_v66 : W13 m ρ c (Proc.devRef .tc main_v66) = val_main_v231 (F := Ideal) (A5 m c) :=
  (by host_pass hostOps5 : W13 m ρ c (Proc.devRef .tc main_v66) = W12 m ρ c (Proc.devRef .tc main_v66)).trans (B12_v66 m ρ c)
theorem B13_v68_0 : W13 m ρ c (Proc.devRef .tc main_v68_0) = val_main_v49 (F := Ideal) (A0 m c) (A1 m c) (A2 m c) (A3 m c) (A4 m c) :=
  (by host_pass hostOps5 : W13 m ρ c (Proc.devRef .tc main_v68_0) = W12 m ρ c (Proc.devRef .tc main_v68_0)).trans (B12_v68_0 m ρ c)
theorem B13_v84_0 : W13 m ρ c (Proc.devRef .tc main_v84_0) = val_main_v94 (F := Ideal) (A0 m c) (A1 m c) (A2 m c) (A3 m c) (A4 m c) (A5 m c) (A6 m c) :=
  (by host_pass hostOps5 : W13 m ρ c (Proc.devRef .tc main_v84_0) = W12 m ρ c (Proc.devRef .tc main_v84_0)).trans (B12_v84_0 m ρ c)
theorem B13_v100_0 : W13 m ρ c (Proc.devRef .tc main_v100_0) = val_main_v139 (F := Ideal) (A0 m c) (A1 m c) (A2 m c) (A3 m c) (A4 m c) (A5 m c) (A6 m c) :=
  (by host_pass hostOps5 : W13 m ρ c (Proc.devRef .tc main_v100_0) = W12 m ρ c (Proc.devRef .tc main_v100_0)).trans (B12_v100_0 m ρ c)
theorem B13_v116_0 : W13 m ρ c (Proc.devRef .tc main_v116_0) = val_main_v184 (F := Ideal) (A0 m c) (A1 m c) (A2 m c) (A3 m c) (A4 m c) (A5 m c) (A6 m c) :=
  (by host_pass hostOps5 : W13 m ρ c (Proc.devRef .tc main_v116_0) = W12 m ρ c (Proc.devRef .tc main_v116_0)).trans (B12_v116_0 m ρ c)

/-! ## Layer region 5 -/

theorem B14_v132_0 : W14 m ρ c (Proc.devRef .tc main_v132_0) = val_main_v229 (F := Ideal) (A0 m c) (A1 m c) (A2 m c) (A3 m c) (A4 m c) (A5 m c) (A6 m c) := by
  refine (W14_arr m ρ c 3).trans ((Region5.final3 (V13 m ρ) c).trans ?_)
  rw [RefStages.relu4]
  show reluRow (M := 50000) (N := 64) (W13 m ρ c (Proc.devRef .tc main_v130)) (fun q => W13 m ρ c (Proc.devRef .tc main_v131) (ix2 (0 : Fin 1) q)) = _
  rw [B13_v130 m ρ c, B13_v131 m ρ c]
  exact congrArg (reluRow (M := 50000) (N := 64) (val_main_v225 (F := Ideal) (A0 m c) (A1 m c) (A2 m c) (A3 m c) (A4 m c) (A5 m c) (A6 m c))) (funext fun q => shapeCast_a_1a_apply _ _ 0 q)

theorem B14_v132_1 : W14 m ρ c (Proc.devRef .tc main_v132_1) = val_main_v234 (F := Ideal) (A0 m c) (A1 m c) (A2 m c) (A3 m c) (A4 m c) (A5 m c) (A6 m c) := by
  refine (W14_arr m ρ c 4).trans ((Region5.final4 (V13 m ρ) c).trans ?_)
  rw [RefStages.dot5, RefStages.relu4]
  show mm (M := 50000) (K := 64) (N := 64) (reluRow (M := 50000) (N := 64) (W13 m ρ c (Proc.devRef .tc main_v130)) (fun q => W13 m ρ c (Proc.devRef .tc main_v131) (ix2 (0 : Fin 1) q)))
    (W13 m ρ c (Proc.devRef .tc main_v66)) = _
  rw [B13_v130 m ρ c, B13_v131 m ρ c, B13_v66 m ρ c]
  exact congrArg (fun b => mm (M := 50000) (K := 64) (N := 64) (reluRow (M := 50000) (N := 64) (val_main_v225 (F := Ideal) (A0 m c) (A1 m c) (A2 m c) (A3 m c) (A4 m c) (A5 m c) (A6 m c)) b) (val_main_v231 (F := Ideal) (A5 m c)))
    (funext fun q => shapeCast_a_1a_apply _ _ 0 q)

theorem B14_v3 : W14 m ρ c (Proc.devRef .tc main_v3) = val_main_v3 (F := Ideal) (A1 m c) :=
  (W14_of_ne m ρ c main_v3 (by decide)).trans (B13_v3 m ρ c)
theorem B14_v6 : W14 m ρ c (Proc.devRef .tc main_v6) = val_main_v6 (F := Ideal) (A1 m c) :=
  (W14_of_ne m ρ c main_v6 (by decide)).trans (B13_v6 m ρ c)
theorem B14_v31 : W14 m ρ c (Proc.devRef .tc main_v31) = val_main_v32 (F := Ideal) (A1 m c) (A2 m c) :=
  (W14_of_ne m ρ c main_v31 (by decide)).trans (B13_v31 m ρ c)
theorem B14_v56 : W14 m ρ c (Proc.devRef .tc main_v56) = val_main_v233 (F := Ideal) (A6 m c) :=
  (W14_of_ne m ρ c main_v56 (by decide)).trans (B13_v56 m ρ c)
theorem B14_v68_0 : W14 m ρ c (Proc.devRef .tc main_v68_0) = val_main_v49 (F := Ideal) (A0 m c) (A1 m c) (A2 m c) (A3 m c) (A4 m c) :=
  (W14_of_ne m ρ c main_v68_0 (by decide)).trans (B13_v68_0 m ρ c)
theorem B14_v84_0 : W14 m ρ c (Proc.devRef .tc main_v84_0) = val_main_v94 (F := Ideal) (A0 m c) (A1 m c) (A2 m c) (A3 m c) (A4 m c) (A5 m c) (A6 m c) :=
  (W14_of_ne m ρ c main_v84_0 (by decide)).trans (B13_v84_0 m ρ c)
theorem B14_v100_0 : W14 m ρ c (Proc.devRef .tc main_v100_0) = val_main_v139 (F := Ideal) (A0 m c) (A1 m c) (A2 m c) (A3 m c) (A4 m c) (A5 m c) (A6 m c) :=
  (W14_of_ne m ρ c main_v100_0 (by decide)).trans (B13_v100_0 m ρ c)
theorem B14_v116_0 : W14 m ρ c (Proc.devRef .tc main_v116_0) = val_main_v184 (F := Ideal) (A0 m c) (A1 m c) (A2 m c) (A3 m c) (A4 m c) (A5 m c) (A6 m c) :=
  (W14_of_ne m ρ c main_v116_0 (by decide)).trans (B13_v116_0 m ρ c)

end Cert.JK.Chain

end
-- ==== Proof.Region6.lean ====
/-
  The last region, whole: the array its 25 grid points write is the row-wise log-softmax of the classifier's output.

  Point t stages rows 2000·t … 2000·t + 1999 of the six layers' outputs, the six 64-row slices of the classifier's
  matrix and the bias row, and writes back, to the same rows of the result, the log-softmax of the six products' sum
  plus the bias.  A row of the result depends on the same row of the six outputs only, so the 25 blocks, which are
  disjoint and cover the 50000 rows, are the blocks of one whole-array function.
-/
import proofs.«168511_j27419071218301_2_alg».proof.Proof.Gen.KernelIdeal.Frame
import proofs.«168511_j27419071218301_2_alg».proof.Proof.Pay

set_option maxRecDepth 16384

noncomputable section

open scoped BigOperators

namespace Cert.JK.Region6

open Cert.KernelIdeal Cert.KernelIdeal.Gen Cert.JK Cert.RowDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row block of each layer's output and of the result is the point's
    number; the slices of the classifier's matrix and the bias row are staged whole. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0
    ∧ win6_11.index t (0 : Fin 2) = 0 ∧ win6_11.index t (1 : Fin 2) = 0
    ∧ win6_12.index t (0 : Fin 2) = 0 ∧ win6_12.index t (1 : Fin 2) = 0
    ∧ win6_13.index t (0 : Fin 2) = t.val ∧ win6_13.index t (1 : Fin 2) = 0 :=
  (by decide +kernel : ∀ t : Fin grid6.N, _)

/-- Row p of point t's block is row 2000·t + p of the array. -/
def row (t : Fin cfg6.N) (p : Fin 2000) : Fin 50000 := ⟨t.val * 2000 + p.val, by
  have ht : t.val < 25 := t.isLt
  have := p.isLt; omega⟩

/-- Layer 0's output as the region finds it. -/
abbrev Hh0 (c : Dev nD) : Mat 50000 64 := V c main_v68_0
/-- Layer 1's output as the region finds it. -/
abbrev Hh1 (c : Dev nD) : Mat 50000 64 := V c main_v84_0
/-- Layer 2's output as the region finds it. -/
abbrev Hh2 (c : Dev nD) : Mat 50000 64 := V c main_v100_0
/-- Layer 3's output as the region finds it. -/
abbrev Hh3 (c : Dev nD) : Mat 50000 64 := V c main_v116_0
/-- Layer 4's output as the region finds it. -/
abbrev Hh4 (c : Dev nD) : Mat 50000 64 := V c main_v132_0
/-- Layer 5's output as the region finds it. -/
abbrev Hh5 (c : Dev nD) : Mat 50000 64 := V c main_v150
/-- Slice 0 of the classifier's matrix. -/
abbrev Ww0 (c : Dev nD) : Mat 64 40 := V c main_v151
/-- Slice 1 of the classifier's matrix. -/
abbrev Ww1 (c : Dev nD) : Mat 64 40 := V c main_v152
/-- Slice 2 of the classifier's matrix. -/
abbrev Ww2 (c : Dev nD) : Mat 64 40 := V c main_v153
/-- Slice 3 of the classifier's matrix. -/
abbrev Ww3 (c : Dev nD) : Mat 64 40 := V c main_v154
/-- Slice 4 of the classifier's matrix. -/
abbrev Ww4 (c : Dev nD) : Mat 64 40 := V c main_v155
/-- Slice 5 of the classifier's matrix. -/
abbrev Ww5 (c : Dev nD) : Mat 64 40 := V c main_v156
/-- The classifier's bias, as a one-row array. -/
abbrev Bb (c : Dev nD) : Mat 1 40 := V c main_v157

/-- The bias row the region is handed, as a function of the column. -/
abbrev bias (c : Dev nD) : Fin 40 → EReal := fun q => Bb V c (ix2 (0 : Fin 1) q)

/-- The classifier's output, formed slice by slice from the arrays the region is handed. -/
abbrev Z (c : Dev nD) : S50000x40.Idx → EReal :=
  zK (M := 50000) (Hh0 V c) (Hh1 V c) (Hh2 V c) (Hh3 V c) (Hh4 V c) (Hh5 V c)
    (Ww0 V c) (Ww1 V c) (Ww2 V c) (Ww3 V c) (Ww4 V c) (Ww5 V c) (bias V c)

/-- The whole array the region leaves in its output: the log-softmax of each row of the classifier's output. -/
abbrev G (c : Dev nD) : S50000x40.Idx → EReal := fun i => lsm (fun k : Fin 40 => Z V c (ix2 (i 0) k)) (i 1)

/-- A block of layer 0's output read where the result's block says. -/
theorem embH0 (t : Fin cfg6.N) (p : Fin 2000) (r : Fin 64) :
    (((cfg6.win 0).blk t).view.emb (ix2 p r) : S50000x64.Idx) = ix2 (row t p) r := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_0.index t (0 : Fin 2) * 2000 + 1 * p.val = t.val * 2000 + p.val; omega
  | ⟨1, _⟩ => show win6_0.index t (1 : Fin 2) * 64 + 1 * r.val = r.val; omega

/-- A block of layer 1's output read where the result's block says. -/
theorem embH1 (t : Fin cfg6.N) (p : Fin 2000) (r : Fin 64) :
    (((cfg6.win 1).blk t).view.emb (ix2 p r) : S50000x64.Idx) = ix2 (row t p) r := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_1.index t (0 : Fin 2) * 2000 + 1 * p.val = t.val * 2000 + p.val; omega
  | ⟨1, _⟩ => show win6_1.index t (1 : Fin 2) * 64 + 1 * r.val = r.val; omega

/-- A block of layer 2's output read where the result's block says. -/
theorem embH2 (t : Fin cfg6.N) (p : Fin 2000) (r : Fin 64) :
    (((cfg6.win 2).blk t).view.emb (ix2 p r) : S50000x64.Idx) = ix2 (row t p) r := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_2.index t (0 : Fin 2) * 2000 + 1 * p.val = t.val * 2000 + p.val; omega
  | ⟨1, _⟩ => show win6_2.index t (1 : Fin 2) * 64 + 1 * r.val = r.val; omega

/-- A block of layer 3's output read where the result's block says. -/
theorem embH3 (t : Fin cfg6.N) (p : Fin 2000) (r : Fin 64) :
    (((cfg6.win 3).blk t).view.emb (ix2 p r) : S50000x64.Idx) = ix2 (row t p) r := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_3.index t (0 : Fin 2) * 2000 + 1 * p.val = t.val * 2000 + p.val; omega
  | ⟨1, _⟩ => show win6_3.index t (1 : Fin 2) * 64 + 1 * r.val = r.val; omega

/-- A block of layer 4's output read where the result's block says. -/
theorem embH4 (t : Fin cfg6.N) (p : Fin 2000) (r : Fin 64) :
    (((cfg6.win 4).blk t).view.emb (ix2 p r) : S50000x64.Idx) = ix2 (row t p) r := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_4.index t (0 : Fin 2) * 2000 + 1 * p.val = t.val * 2000 + p.val; omega
  | ⟨1, _⟩ => show win6_4.index t (1 : Fin 2) * 64 + 1 * r.val = r.val; omega

/-- A block of layer 5's output read where the result's block says. -/
theorem embH5 (t : Fin cfg6.N) (p : Fin 2000) (r : Fin 64) :
    (((cfg6.win 5).blk t).view.emb (ix2 p r) : S50000x64.Idx) = ix2 (row t p) r := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_5.index t (0 : Fin 2) * 2000 + 1 * p.val = t.val * 2000 + p.val; omega
  | ⟨1, _⟩ => show win6_5.index t (1 : Fin 2) * 64 + 1 * r.val = r.val; omega

/-- The staged slice 0 of the classifier's matrix is the whole slice. -/
theorem embW6 (t : Fin cfg6.N) (r : Fin 64) (k : Fin 40) :
    (((cfg6.win 6).blk t).view.emb (ix2 r k) : S64x40.Idx) = ix2 r k := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_6.index t (0 : Fin 2) * 64 + 1 * r.val = r.val; omega
  | ⟨1, _⟩ => show win6_6.index t (1 : Fin 2) * 40 + 1 * k.val = k.val; omega

/-- The staged slice 1 of the classifier's matrix is the whole slice. -/
theorem embW7 (t : Fin cfg6.N) (r : Fin 64) (k : Fin 40) :
    (((cfg6.win 7).blk t).view.emb (ix2 r k) : S64x40.Idx) = ix2 r k := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_7.index t (0 : Fin 2) * 64 + 1 * r.val = r.val; omega
  | ⟨1, _⟩ => show win6_7.index t (1 : Fin 2) * 40 + 1 * k.val = k.val; omega

/-- The staged slice 2 of the classifier's matrix is the whole slice. -/
theorem embW8 (t : Fin cfg6.N) (r : Fin 64) (k : Fin 40) :
    (((cfg6.win 8).blk t).view.emb (ix2 r k) : S64x40.Idx) = ix2 r k := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_8.index t (0 : Fin 2) * 64 + 1 * r.val = r.val; omega
  | ⟨1, _⟩ => show win6_8.index t (1 : Fin 2) * 40 + 1 * k.val = k.val; omega

/-- The staged slice 3 of the classifier's matrix is the whole slice. -/
theorem embW9 (t : Fin cfg6.N) (r : Fin 64) (k : Fin 40) :
    (((cfg6.win 9).blk t).view.emb (ix2 r k) : S64x40.Idx) = ix2 r k := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_9.index t (0 : Fin 2) * 64 + 1 * r.val = r.val; omega
  | ⟨1, _⟩ => show win6_9.index t (1 : Fin 2) * 40 + 1 * k.val = k.val; omega

/-- The staged slice 4 of the classifier's matrix is the whole slice. -/
theorem embW10 (t : Fin cfg6.N) (r : Fin 64) (k : Fin 40) :
    (((cfg6.win 10).blk t).view.emb (ix2 r k) : S64x40.Idx) = ix2 r k := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_10.index t (0 : Fin 2) * 64 + 1 * r.val = r.val; omega
  | ⟨1, _⟩ => show win6_10.index t (1 : Fin 2) * 40 + 1 * k.val = k.val; omega

/-- The staged slice 5 of the classifier's matrix is the whole slice. -/
theorem embW11 (t : Fin cfg6.N) (r : Fin 64) (k : Fin 40) :
    (((cfg6.win 11).blk t).view.emb (ix2 r k) : S64x40.Idx) = ix2 r k := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_11.index t (0 : Fin 2) * 64 + 1 * r.val = r.val; omega
  | ⟨1, _⟩ => show win6_11.index t (1 : Fin 2) * 40 + 1 * k.val = k.val; omega

/-- The staged bias row is the whole bias row. -/
theorem embB (t : Fin cfg6.N) (k : Fin 40) :
    (((cfg6.win 12).blk t).view.emb (ix2 (0 : Fin 1) k) : S1x40.Idx) = ix2 (0 : Fin 1) k := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_12.index t (0 : Fin 2) * 1 + 1 * 0 = 0; omega
  | ⟨1, _⟩ => show win6_12.index t (1 : Fin 2) * 40 + 1 * k.val = k.val; omega

/-- The result's block at a point: row p of the block is row 2000·t + p of the array, the columns are the array's. -/
theorem embO (t : Fin cfg6.N) (p : Fin 2000) (q : Fin 40) :
    (((cfg6.win 13).blk t).view.emb (ix2 p q) : S50000x40.Idx) = ix2 (row t p) q := by
  obtain ⟨e0, e1, e2, e3, e4, e5, e6, e7, e8, e9, e10, e11, e12, e13, e14, e15, e16, e17, e18, e19, e20, e21, e22, e23, e24, e25, e26, e27⟩ := idx_facts t
  funext a; apply Fin.ext
  match a with
  | ⟨0, _⟩ => show win6_13.index t (0 : Fin 2) * 2000 + 1 * p.val = t.val * 2000 + p.val; omega
  | ⟨1, _⟩ => show win6_13.index t (1 : Fin 2) * 40 + 1 * q.val = q.val; omega

/-- Product 0 on the staged blocks is product 0 of the whole arrays at the block's row. -/
theorem mm_blk0 (c : Dev nD) (t : Fin cfg6.N) (p : Fin 2000) (k : Fin 40) :
    mm (M := 2000) (K := 64) (N := 40) (iblk6 V c 0 t) (iblk6 V c 6 t) (ix2 p k)
      = mm (M := 50000) (K := 64) (N := 40) (Hh0 V c) (Ww0 V c) (ix2 (row t p) k) := by
  show ∑ r : Fin 64, Hh0 V c (((cfg6.win 0).blk t).view.emb (ix2 p r)) * Ww0 V c (((cfg6.win 6).blk t).view.emb (ix2 r k))
    = ∑ r : Fin 64, Hh0 V c (ix2 (row t p) r) * Ww0 V c (ix2 r k)
  refine Finset.sum_congr rfl fun r _ => ?_
  rw [embH0 t p r, embW6 t r k]

/-- Product 1 on the staged blocks is product 1 of the whole arrays at the block's row. -/
theorem mm_blk1 (c : Dev nD) (t : Fin cfg6.N) (p : Fin 2000) (k : Fin 40) :
    mm (M := 2000) (K := 64) (N := 40) (iblk6 V c 1 t) (iblk6 V c 7 t) (ix2 p k)
      = mm (M := 50000) (K := 64) (N := 40) (Hh1 V c) (Ww1 V c) (ix2 (row t p) k) := by
  show ∑ r : Fin 64, Hh1 V c (((cfg6.win 1).blk t).view.emb (ix2 p r)) * Ww1 V c (((cfg6.win 7).blk t).view.emb (ix2 r k))
    = ∑ r : Fin 64, Hh1 V c (ix2 (row t p) r) * Ww1 V c (ix2 r k)
  refine Finset.sum_congr rfl fun r _ => ?_
  rw [embH1 t p r, embW7 t r k]

/-- Product 2 on the staged blocks is product 2 of the whole arrays at the block's row. -/
theorem mm_blk2 (c : Dev nD) (t : Fin cfg6.N) (p : Fin 2000) (k : Fin 40) :
    mm (M := 2000) (K := 64) (N := 40) (iblk6 V c 2 t) (iblk6 V c 8 t) (ix2 p k)
      = mm (M := 50000) (K := 64) (N := 40) (Hh2 V c) (Ww2 V c) (ix2 (row t p) k) := by
  show ∑ r : Fin 64, Hh2 V c (((cfg6.win 2).blk t).view.emb (ix2 p r)) * Ww2 V c (((cfg6.win 8).blk t).view.emb (ix2 r k))
    = ∑ r : Fin 64, Hh2 V c (ix2 (row t p) r) * Ww2 V c (ix2 r k)
  refine Finset.sum_congr rfl fun r _ => ?_
  rw [embH2 t p r, embW8 t r k]

/-- Product 3 on the staged blocks is product 3 of the whole arrays at the block's row. -/
theorem mm_blk3 (c : Dev nD) (t : Fin cfg6.N) (p : Fin 2000) (k : Fin 40) :
    mm (M := 2000) (K := 64) (N := 40) (iblk6 V c 3 t) (iblk6 V c 9 t) (ix2 p k)
      = mm (M := 50000) (K := 64) (N := 40) (Hh3 V c) (Ww3 V c) (ix2 (row t p) k) := by
  show ∑ r : Fin 64, Hh3 V c (((cfg6.win 3).blk t).view.emb (ix2 p r)) * Ww3 V c (((cfg6.win 9).blk t).view.emb (ix2 r k))
    = ∑ r : Fin 64, Hh3 V c (ix2 (row t p) r) * Ww3 V c (ix2 r k)
  refine Finset.sum_congr rfl fun r _ => ?_
  rw [embH3 t p r, embW9 t r k]

/-- Product 4 on the staged blocks is product 4 of the whole arrays at the block's row. -/
theorem mm_blk4 (c : Dev nD) (t : Fin cfg6.N) (p : Fin 2000) (k : Fin 40) :
    mm (M := 2000) (K := 64) (N := 40) (iblk6 V c 4 t) (iblk6 V c 10 t) (ix2 p k)
      = mm (M := 50000) (K := 64) (N := 40) (Hh4 V c) (Ww4 V c) (ix2 (row t p) k) := by
  show ∑ r : Fin 64, Hh4 V c (((cfg6.win 4).blk t).view.emb (ix2 p r)) * Ww4 V c (((cfg6.win 10).blk t).view.emb (ix2 r k))
    = ∑ r : Fin 64, Hh4 V c (ix2 (row t p) r) * Ww4 V c (ix2 r k)
  refine Finset.sum_congr rfl fun r _ => ?_
  rw [embH4 t p r, embW10 t r k]

/-- Product 5 on the staged blocks is product 5 of the whole arrays at the block's row. -/
theorem mm_blk5 (c : Dev nD) (t : Fin cfg6.N) (p : Fin 2000) (k : Fin 40) :
    mm (M := 2000) (K := 64) (N := 40) (iblk6 V c 5 t) (iblk6 V c 11 t) (ix2 p k)
      = mm (M := 50000) (K := 64) (N := 40) (Hh5 V c) (Ww5 V c) (ix2 (row t p) k) := by
  show ∑ r : Fin 64, Hh5 V c (((cfg6.win 5).blk t).view.emb (ix2 p r)) * Ww5 V c (((cfg6.win 11).blk t).view.emb (ix2 r k))
    = ∑ r : Fin 64, Hh5 V c (ix2 (row t p) r) * Ww5 V c (ix2 r k)
  refine Finset.sum_congr rfl fun r _ => ?_
  rw [embH5 t p r, embW11 t r k]

/-- The classifier's output on the staged blocks is the classifier's output at the block's row. -/
theorem z_blk (c : Dev nD) (t : Fin cfg6.N) (p : Fin 2000) (k : Fin 40) :
    zK (M := 2000) (iblk6 V c 0 t) (iblk6 V c 1 t) (iblk6 V c 2 t) (iblk6 V c 3 t) (iblk6 V c 4 t) (iblk6 V c 5 t)
      (iblk6 V c 6 t) (iblk6 V c 7 t) (iblk6 V c 8 t) (iblk6 V c 9 t) (iblk6 V c 10 t) (iblk6 V c 11 t)
      (fun q => iblk6 V c 12 t (ix2 (0 : Fin 1) q)) (ix2 p k) = Z V c (ix2 (row t p) k) := by
  have hb : iblk6 V c 12 t (ix2 (0 : Fin 1) k) = Bb V c (ix2 (0 : Fin 1) k) := by
    show Bb V c (((cfg6.win 12).blk t).view.emb (ix2 (0 : Fin 1) k)) = _
    rw [embB t k]
  unfold zK
  show (((((mm (M := 2000) (K := 64) (N := 40) (iblk6 V c 0 t) (iblk6 V c 6 t) (ix2 p k) + mm (M := 2000) (K := 64) (N := 40) (iblk6 V c 1 t) (iblk6 V c 7 t) (ix2 p k))
      + mm (M := 2000) (K := 64) (N := 40) (iblk6 V c 2 t) (iblk6 V c 8 t) (ix2 p k)) + mm (M := 2000) (K := 64) (N := 40) (iblk6 V c 3 t) (iblk6 V c 9 t) (ix2 p k))
      + mm (M := 2000) (K := 64) (N := 40) (iblk6 V c 4 t) (iblk6 V c 10 t) (ix2 p k)) + mm (M := 2000) (K := 64) (N := 40) (iblk6 V c 5 t) (iblk6 V c 11 t) (ix2 p k))
      + iblk6 V c 12 t (ix2 (0 : Fin 1) k) = _
  rw [mm_blk0 V c t p k, mm_blk1 V c t p k, mm_blk2 V c t p k, mm_blk3 V c t p k, mm_blk4 V c t p k, mm_blk5 V c t p k, hb]
  rfl

/-- What point t writes back is block t of the log-softmax of the classifier's output. -/
theorem flushed_eq (c : Dev nD) (t : Fin cfg6.N) :
    (dat6 V c).flushed 13 t = ((cfg6.win 13).blk t).view.read (Elt Ideal) (G V c) := by
  show (cfg6.win 13).cut (grid6.coords t) ((dat6 V c).after 13 t) = _
  rw [after6_13]
  unfold out6_13
  rw [View.canon_unit_zero hz]
  simp only [View.ld_unit_zero (S := S2000x64) hz, View.ld_unit_zero (S := S64x40) hz, View.ld_unit_zero (S := S1x40) hz]
  funext j
  obtain ⟨p, q, rfl⟩ : ∃ (p : Fin 2000) (q : Fin 40), j = ix2 p q := ⟨j 0, j 1, eq_ix2 j⟩
  refine (Pay.pay6 (iblk6 V c 0 t) (iblk6 V c 1 t) (iblk6 V c 2 t) (iblk6 V c 3 t) (iblk6 V c 4 t) (iblk6 V c 5 t)
    (iblk6 V c 6 t) (iblk6 V c 7 t) (iblk6 V c 8 t) (iblk6 V c 9 t) (iblk6 V c 10 t) (iblk6 V c 11 t) (iblk6 V c 12 t) p q).trans ?_
  show _ = G V c (((cfg6.win 13).blk t).view.emb (ix2 p q))
  rw [embO t p q]
  show lsm _ q = lsm (fun k : Fin 40 => Z V c (ix2 (row t p) k)) q
  exact congrArg (fun z => lsm z q) (funext fun k => z_blk V c t p k)

/-- An index of the result is in point t's block iff each coordinate is in the block's range. -/
theorem mem_blk (t : Fin cfg6.N) (i : S50000x40.Idx) :
    i ∈ ((cfg6.win 13).blk t).view.set ↔ ∀ a : Fin 2, win6_13.index t a * S2000x40.size a ≤ (i a).val ∧ (i a).val < win6_13.index t a * S2000x40.size a + S2000x40.size a := by
  show i ∈ ((View.whole main_v158).slice (win6_13.rect t)).set ↔ _
  rw [View.set_slice_whole, Rect.mem_set_unit]
  exact Iff.rfl

/-- Every row of the result lies in the block of the point that is the row's number over 2000. -/
theorem cover (i : S50000x40.Idx) : ∃ t : Fin cfg6.N, (cfg6.win 13).flush t = true ∧ i ∈ ((cfg6.win 13).blk t).view.set := by
  have hi0 : (i 0).val < 50000 := (i 0).isLt
  have hi1 : (i 1).val < 40 := (i 1).isLt
  let t : Fin cfg6.N := ⟨(i 0).val / 2000, by show (i 0).val / 2000 < 25; omega⟩
  obtain ⟨e0, e1, e2, e3, e4, e5, e6, e7, e8, e9, e10, e11, e12, e13, e14, e15, e16, e17, e18, e19, e20, e21, e22, e23, e24, e25, e26, e27⟩ := idx_facts t
  have ht : t.val = (i 0).val / 2000 := rfl
  refine ⟨t, flush6_13 t, ?_⟩
  rw [mem_blk]
  intro a
  match a with
  | ⟨0, _⟩ => show win6_13.index t (0 : Fin 2) * 2000 ≤ (i 0).val ∧ (i 0).val < win6_13.index t (0 : Fin 2) * 2000 + 2000; omega
  | ⟨1, _⟩ => show win6_13.index t (1 : Fin 2) * 40 ≤ (i 1).val ∧ (i 1).val < win6_13.index t (1 : Fin 2) * 40 + 40; omega

/-- The region's output array after its 25 points. -/
theorem final (c : Dev nD) : (dat6 V c).arrAt 13 cfg6.N = G V c :=
  (dat6 V c).arrAt_eq_of_cover 13 (G V c) (fun t _ => flushed_eq V c t) cover

end Cert.JK.Region6

end
-- ==== Proof.RefFinal.lean ====
/-
  The end of the reference as mathematics: the classifier's output is the six products of the layers' outputs with
  the 64-row slices of its matrix, added left to right, plus the bias; the result is the log-softmax of its rows.
-/
import proofs.«168511_j27419071218301_2_alg».proof.Proof.RefStages
import proofs.«168511_j27419071218301_2_alg».proof.Proof.HostOps
import proofs.«168511_j27419071218301_2_alg».proof.Proof.HostSoft

noncomputable section

open scoped BigOperators

namespace Cert.JK.RefFinal

open Cert.ReferenceIdeal Cert.ReferenceIdeal.Gen Cert.ReferenceIdeal.ReadP Idealize.ShloMosaic Idealize.ShloMosaic.ValueIdx Cert.RowDot Cert.JK

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x64, .f32⟩ : BufTy).Contents (Elt Ideal))
  (x4 : (⟨S64, .f32⟩ : BufTy).Contents (Elt Ideal)) (x5 : (⟨S5x64x64, .f32⟩ : BufTy).Contents (Elt Ideal))
  (x6 : (⟨S5x64, .f32⟩ : BufTy).Contents (Elt Ideal)) (x7 : (⟨S384x40, .f32⟩ : BufTy).Contents (Elt Ideal))
  (x8 : (⟨S40, .f32⟩ : BufTy).Contents (Elt Ideal))

/-- The six layers' outputs, as the reference has them. -/
abbrev hs : Fin 6 → Mat 50000 64 :=
  ![val_main_v49 (F := Ideal) x0 x1 x2 x3 x4, val_main_v94 (F := Ideal) x0 x1 x2 x3 x4 x5 x6, val_main_v139 (F := Ideal) x0 x1 x2 x3 x4 x5 x6,
    val_main_v184 (F := Ideal) x0 x1 x2 x3 x4 x5 x6, val_main_v229 (F := Ideal) x0 x1 x2 x3 x4 x5 x6, val_main_v274 (F := Ideal) x0 x1 x2 x3 x4 x5 x6]

/-- The classifier's output as the reference forms it: the side-by-side array times the 384-row matrix, plus the bias. -/
theorem z_ref (i : S50000x40.Idx) : val_main_v279 (F := Ideal) x0 x1 x2 x3 x4 x5 x6 x7 x8 i
    = mm (M := 50000) (K := 384) (N := 40) (sideBySide (M := 50000) (hs x0 x1 x2 x3 x4 x5 x6)) x7 i + x8 (ix1 (i 1)) := by
  obtain ⟨p, q, rfl⟩ : ∃ (p : Fin 50000) (q : Fin 40), i = ix2 p q := ⟨i 0, i 1, eq_ix2 i⟩
  refine Eq.trans ?_ (rfl : mm (M := 50000) (K := 384) (N := 40) (sideBySide (M := 50000) (hs x0 x1 x2 x3 x4 x5 x6)) x7 (ix2 p q) + x8 (ix1 q) = _)
  unfold val_main_v279 val_main_v278 val_main_v277 val_main_v276 val_main_v275
  rw [addf_apply, HostOps.bcastRow_two, HostSoft.concat_eq]
  exact congrArg (· + x8 (ix1 q)) (congrFun (HostOps.dot_eq_mm (M := 50000) (K := 384) (N := 40) none _ x7) (ix2 p q))

/-- The same slice by slice: the six products added left to right, plus the bias. -/
theorem z_ref' : val_main_v279 (F := Ideal) x0 x1 x2 x3 x4 x5 x6 x7 x8
    = zK (M := 50000) (val_main_v49 (F := Ideal) x0 x1 x2 x3 x4) (val_main_v94 (F := Ideal) x0 x1 x2 x3 x4 x5 x6) (val_main_v139 (F := Ideal) x0 x1 x2 x3 x4 x5 x6)
        (val_main_v184 (F := Ideal) x0 x1 x2 x3 x4 x5 x6) (val_main_v229 (F := Ideal) x0 x1 x2 x3 x4 x5 x6) (val_main_v274 (F := Ideal) x0 x1 x2 x3 x4 x5 x6)
        (slice64 x7 0) (slice64 x7 1) (slice64 x7 2) (slice64 x7 3) (slice64 x7 4) (slice64 x7 5) (fun q => x8 (ix1 q)) := funext fun i => by
  rw [z_ref, mm_sideBySide, sum_six]
  rfl

/-! ## The reference's log-softmax, one stage at a time -/

/-- The classifier's output, named. -/
abbrev zR : (⟨S50000x40, .f32⟩ : BufTy).Contents (Elt Ideal) := val_main_v279 (F := Ideal) x0 x1 x2 x3 x4 x5 x6 x7 x8

/-- The row maxima, from minus infinity (and once more against minus infinity). -/
theorem max_at (p : Fin 50000) : val_main_call12_v2 (F := Ideal) x0 x1 x2 x3 x4 x5 x6 x7 x8 (ix1 p) = rowMax (fun k : Fin 40 => zR x0 x1 x2 x3 x4 x5 x6 x7 x8 (ix2 p k)) := by
  unfold val_main_call12_v2
  refine (maximumf_apply _ _ (ix1 p)).trans ?_
  unfold val_main_call12_v1 val_main_call12_cst_0 val_main_call12_v0 val_main_call12_cst
  rw [broadcastInDim_apply ![] bcast_S_S50000 _ (ix1 p) ix0 (fun a => a.elim0), constant_apply, HostSoft.max_negInf]
  exact HostSoft.hostRowMax _ _ _ p

/-- The maxima repeated along the columns. -/
theorem maxb_at (p : Fin 50000) (q : Fin 40) : val_main_call12_v4 (F := Ideal) x0 x1 x2 x3 x4 x5 x6 x7 x8 (ix2 p q) = rowMax (fun k : Fin 40 => zR x0 x1 x2 x3 x4 x5 x6 x7 x8 (ix2 p k)) := by
  unfold val_main_call12_v4 val_main_call12_v3
  exact (HostSoft.bcastCol _ _ _ p q).trans (max_at x0 x1 x2 x3 x4 x5 x6 x7 x8 p)

/-- The output less its row's maximum. -/
theorem shift_at (p : Fin 50000) (q : Fin 40) : val_main_call12_v5 (F := Ideal) x0 x1 x2 x3 x4 x5 x6 x7 x8 (ix2 p q)
    = zR x0 x1 x2 x3 x4 x5 x6 x7 x8 (ix2 p q) - rowMax (fun k : Fin 40 => zR x0 x1 x2 x3 x4 x5 x6 x7 x8 (ix2 p k)) := by
  unfold val_main_call12_v5
  rw [subf_apply, maxb_at]

/-- The sums of the exponentials over the columns. -/
theorem sum_at (p : Fin 50000) : val_main_call12_v7 (F := Ideal) x0 x1 x2 x3 x4 x5 x6 x7 x8 (ix1 p)
    = ∑ k : Fin 40, Ideal.exp (zR x0 x1 x2 x3 x4 x5 x6 x7 x8 (ix2 p k) - rowMax (fun k : Fin 40 => zR x0 x1 x2 x3 x4 x5 x6 x7 x8 (ix2 p k))) := by
  unfold val_main_call12_v7 val_main_call12_cst_1
  refine (HostSoft.hostRowSum _ _ _ p).trans (Finset.sum_congr rfl fun k _ => ?_)
  unfold val_main_call12_v6
  rw [HostSoft.hostExp_apply, shift_at]

/-- Their logarithms repeated along the columns. -/
theorem logb_at (p : Fin 50000) (q : Fin 40) : val_main_call12_v10 (F := Ideal) x0 x1 x2 x3 x4 x5 x6 x7 x8 (ix2 p q)
    = Ideal.log (∑ k : Fin 40, Ideal.exp (zR x0 x1 x2 x3 x4 x5 x6 x7 x8 (ix2 p k) - rowMax (fun k : Fin 40 => zR x0 x1 x2 x3 x4 x5 x6 x7 x8 (ix2 p k)))) := by
  unfold val_main_call12_v10 val_main_call12_v9 val_main_call12_v8
  refine (HostSoft.bcastCol2 _ _ p q).trans ?_
  rw [HostSoft.hostLog_apply]
  exact congrArg Ideal.log ((HostSoft.bcastCol1 _ _ p 0).trans (sum_at x0 x1 x2 x3 x4 x5 x6 x7 x8 p))

/-- The reference's result: the log-softmax of each row of the classifier's output. -/
theorem out_ref (i : S50000x40.Idx) : val_main_v280 (F := Ideal) x0 x1 x2 x3 x4 x5 x6 x7 x8 i
    = lsm (fun k : Fin 40 => val_main_v279 (F := Ideal) x0 x1 x2 x3 x4 x5 x6 x7 x8 (ix2 (i 0) k)) (i 1) := by
  obtain ⟨p, q, rfl⟩ : ∃ (p : Fin 50000) (q : Fin 40), i = ix2 p q := ⟨i 0, i 1, eq_ix2 i⟩
  unfold val_main_v280
  rw [subf_apply, shift_at, logb_at]
  rfl

end Cert.JK.RefFinal

end
-- ==== Proof.ChainC.lean ====
/-
  The buffer contents of the kernel program from the last layer region to the result, as stages of the reference.

  The last layer's output is formed on the host with the bias cast to a row where the reference broadcasts it to
  a row: the same array.  The last region is handed the six layers' outputs, the six 64-row slices of the
  classifier's matrix and the bias row, and leaves the log-softmax of the six products' sum plus the bias; the
  reference multiplies the side-by-side array by the whole matrix: the same sum, taken slice by slice.
-/
import proofs.«168511_j27419071218301_2_alg».proof.Proof.ChainB
import proofs.«168511_j27419071218301_2_alg».proof.Proof.Region6
import proofs.«168511_j27419071218301_2_alg».proof.Proof.RefFinal

set_option maxRecDepth 16384

noncomputable section

open scoped BigOperators

namespace Cert.JK.Chain

open Cert.KernelIdeal Cert.KernelIdeal.Gen Cert.ReferenceIdeal.ReadP Cert.JK Cert.RowDot
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The layers' outputs reach the last region unchanged -/

theorem B15_v68_0 : W15 m ρ c (Proc.devRef .tc main_v68_0) = val_main_v49 (F := Ideal) (A0 m c) (A1 m c) (A2 m c) (A3 m c) (A4 m c) :=
  (by host_pass hostOps6 : W15 m ρ c (Proc.devRef .tc main_v68_0) = W14 m ρ c (Proc.devRef .tc main_v68_0)).trans (B14_v68_0 m ρ c)
theorem B16_v68_0 : W16 m ρ c (Proc.devRef .tc main_v68_0) = val_main_v49 (F := Ideal) (A0 m c) (A1 m c) (A2 m c) (A3 m c) (A4 m c) :=
  (by host_pass hostOps6_1 : W16 m ρ c (Proc.devRef .tc main_v68_0) = W15 m ρ c (Proc.devRef .tc main_v68_0)).trans (B15_v68_0 m ρ c)
theorem B17_v68_0 : W17 m ρ c (Proc.devRef .tc main_v68_0) = val_main_v49 (F := Ideal) (A0 m c) (A1 m c) (A2 m c) (A3 m c) (A4 m c) :=
  (by host_pass hostOps6_2 : W17 m ρ c (Proc.devRef .tc main_v68_0) = W16 m ρ c (Proc.devRef .tc main_v68_0)).trans (B16_v68_0 m ρ c)
theorem B15_v84_0 : W15 m ρ c (Proc.devRef .tc main_v84_0) = val_main_v94 (F := Ideal) (A0 m c) (A1 m c) (A2 m c) (A3 m c) (A4 m c) (A5 m c) (A6 m c) :=
  (by host_pass hostOps6 : W15 m ρ c (Proc.devRef .tc main_v84_0) = W14 m ρ c (Proc.devRef .tc main_v84_0)).trans (B14_v84_0 m ρ c)
theorem B16_v84_0 : W16 m ρ c (Proc.devRef .tc main_v84_0) = val_main_v94 (F := Ideal) (A0 m c) (A1 m c) (A2 m c) (A3 m c) (A4 m c) (A5 m c) (A6 m c) :=
  (by host_pass hostOps6_1 : W16 m ρ c (Proc.devRef .tc main_v84_0) = W15 m ρ c (Proc.devRef .tc main_v84_0)).trans (B15_v84_0 m ρ c)
theorem B17_v84_0 : W17 m ρ c (Proc.devRef .tc main_v84_0) = val_main_v94 (F := Ideal) (A0 m c) (A1 m c) (A2 m c) (A3 m c) (A4 m c) (A5 m c) (A6 m c) :=
  (by host_pass hostOps6_2 : W17 m ρ c (Proc.devRef .tc main_v84_0) = W16 m ρ c (Proc.devRef .tc main_v84_0)).trans (B16_v84_0 m ρ c)
theorem B15_v100_0 : W15 m ρ c (Proc.devRef .tc main_v100_0) = val_main_v139 (F := Ideal) (A0 m c) (A1 m c) (A2 m c) (A3 m c) (A4 m c) (A5 m c) (A6 m c) :=
  (by host_pass hostOps6 : W15 m ρ c (Proc.devRef .tc main_v100_0) = W14 m ρ c (Proc.devRef .tc main_v100_0)).trans (B14_v100_0 m ρ c)
theorem B16_v100_0 : W16 m ρ c (Proc.devRef .tc main_v100_0) = val_main_v139 (F := Ideal) (A0 m c) (A1 m c) (A2 m c) (A3 m c) (A4 m c) (A5 m c) (A6 m c) :=
  (by host_pass hostOps6_1 : W16 m ρ c (Proc.devRef .tc main_v100_0) = W15 m ρ c (Proc.devRef .tc main_v100_0)).trans (B15_v100_0 m ρ c)
theorem B17_v100_0 : W17 m ρ c (Proc.devRef .tc main_v100_0) = val_main_v139 (F := Ideal) (A0 m c) (A1 m c) (A2 m c) (A3 m c) (A4 m c) (A5 m c) (A6 m c) :=
  (by host_pass hostOps6_2 : W17 m ρ c (Proc.devRef .tc main_v100_0) = W16 m ρ c (Proc.devRef .tc main_v100_0)).trans (B16_v100_0 m ρ c)
theorem B15_v116_0 : W15 m ρ c (Proc.devRef .tc main_v116_0) = val_main_v184 (F := Ideal) (A0 m c) (A1 m c) (A2 m c) (A3 m c) (A4 m c) (A5 m c) (A6 m c) :=
  (by host_pass hostOps6 : W15 m ρ c (Proc.devRef .tc main_v116_0) = W14 m ρ c (Proc.devRef .tc main_v116_0)).trans (B14_v116_0 m ρ c)
theorem B16_v116_0 : W16 m ρ c (Proc.devRef .tc main_v116_0) = val_main_v184 (F := Ideal) (A0 m c) (A1 m c) (A2 m c) (A3 m c) (A4 m c) (A5 m c) (A6 m c) :=
  (by host_pass hostOps6_1 : W16 m ρ c (Proc.devRef .tc main_v116_0) = W15 m ρ c (Proc.devRef .tc main_v116_0)).trans (B15_v116_0 m ρ c)
theorem B17_v116_0 : W17 m ρ c (Proc.devRef .tc main_v116_0) = val_main_v184 (F := Ideal) (A0 m c) (A1 m c) (A2 m c) (A3 m c) (A4 m c) (A5 m c) (A6 m c) :=
  (by host_pass hostOps6_2 : W17 m ρ c (Proc.devRef .tc main_v116_0) = W16 m ρ c (Proc.devRef .tc main_v116_0)).trans (B16_v116_0 m ρ c)
theorem B15_v132_0 : W15 m ρ c (Proc.devRef .tc main_v132_0) = val_main_v229 (F := Ideal) (A0 m c) (A1 m c) (A2 m c) (A3 m c) (A4 m c) (A5 m c) (A6 m c) :=
  (by host_pass hostOps6 : W15 m ρ c (Proc.devRef .tc main_v132_0) = W14 m ρ c (Proc.devRef .tc main_v132_0)).trans (B14_v132_0 m ρ c)
theorem B16_v132_0 : W16 m ρ c (Proc.devRef .tc main_v132_0) = val_main_v229 (F := Ideal) (A0 m c) (A1 m c) (A2 m c) (A3 m c) (A4 m c) (A5 m c) (A6 m c) :=
  (by host_pass hostOps6_1 : W16 m ρ c (Proc.devRef .tc main_v132_0) = W15 m ρ c (Proc.devRef .tc main_v132_0)).trans (B15_v132_0 m ρ c)
theorem B17_v132_0 : W17 m ρ c (Proc.devRef .tc main_v132_0) = val_main_v229 (F := Ideal) (A0 m c) (A1 m c) (A2 m c) (A3 m c) (A4 m c) (A5 m c) (A6 m c) :=
  (by host_pass hostOps6_2 : W17 m ρ c (Proc.devRef .tc main_v132_0) = W16 m ρ c (Proc.devRef .tc main_v132_0)).trans (B16_v132_0 m ρ c)

/-! ## The last layer's output, formed on the host -/

theorem B16_v150 : W16 m ρ c (Proc.devRef .tc main_v150) = val_main_v274 (F := Ideal) (A0 m c) (A1 m c) (A2 m c) (A3 m c) (A4 m c) (A5 m c) (A6 m c) := by
  show StableHlo.after hostOps6_1 (StableHlo.after hostOps6 (W14 m ρ c)) (Proc.devRef .tc main_v150) = _
  after_results_simp
  rw [B14_v132_1 m ρ c, B14_v3 m ρ c, B14_v6 m ρ c, B14_v31 m ρ c, B14_v56 m ρ c]
  refine eq_of_heq ((cast_heq _ _).trans (heq_of_eq ?_))
  rw [ofBuf_toBuf, ofBuf_toBuf]
  refine (congr (congrArg maximumf (eq_of_heq (cast_heq _ _))) rfl).trans ?_
  rw [RefStages.relu5]
  refine (HostOps.relu_cast _ _ _ _ _).trans ?_
  rfl

theorem B17_v150 : W17 m ρ c (Proc.devRef .tc main_v150) = val_main_v274 (F := Ideal) (A0 m c) (A1 m c) (A2 m c) (A3 m c) (A4 m c) (A5 m c) (A6 m c) :=
  (by host_pass hostOps6_2 : W17 m ρ c (Proc.devRef .tc main_v150) = W16 m ρ c (Proc.devRef .tc main_v150)).trans (B16_v150 m ρ c)

/-! ## The classifier's matrix and bias at the last region's entry -/

theorem B16_arg7 : W16 m ρ c (Proc.devRef .tc main_arg7) = A7 m c :=
  ((by host_pass hostOps6_2 : W17 m ρ c (Proc.devRef .tc main_arg7) = W16 m ρ c (Proc.devRef .tc main_arg7)).symm.trans
    ((W18_of_ne m ρ c main_arg7 (by decide)).symm.trans (W18_main_arg7 m ρ c)))

theorem B16_arg8 : W16 m ρ c (Proc.devRef .tc main_arg8) = A8 m c :=
  ((by host_pass hostOps6_2 : W17 m ρ c (Proc.devRef .tc main_arg8) = W16 m ρ c (Proc.devRef .tc main_arg8)).symm.trans
    ((W18_of_ne m ρ c main_arg8 (by decide)).symm.trans (W18_main_arg8 m ρ c)))

theorem B17_v151 : W17 m ρ c (Proc.devRef .tc main_v151) = slice64 (A7 m c) 0 := by
  have h7 := B16_arg7 m ρ c
  show StableHlo.after hostOps6_2 (W16 m ρ c) (Proc.devRef .tc main_v151) = _
  generalize W16 m ρ c = V at h7 ⊢
  after_results_simp
  rw [h7]
  exact HostOps.slice_eq (A7 m c) 0 slices_S384x40_S64x40_0_0

theorem B17_v152 : W17 m ρ c (Proc.devRef .tc main_v152) = slice64 (A7 m c) 1 := by
  have h7 := B16_arg7 m ρ c
  show StableHlo.after hostOps6_2 (W16 m ρ c) (Proc.devRef .tc main_v152) = _
  generalize W16 m ρ c = V at h7 ⊢
  after_results_simp
  rw [h7]
  exact HostOps.slice_eq (A7 m c) 1 slices_S384x40_S64x40_64_0

theorem B17_v153 : W17 m ρ c (Proc.devRef .tc main_v153) = slice64 (A7 m c) 2 := by
  have h7 := B16_arg7 m ρ c
  show StableHlo.after hostOps6_2 (W16 m ρ c) (Proc.devRef .tc main_v153) = _
  generalize W16 m ρ c = V at h7 ⊢
  after_results_simp
  rw [h7]
  exact HostOps.slice_eq (A7 m c) 2 slices_S384x40_S64x40_128_0

theorem B17_v154 : W17 m ρ c (Proc.devRef .tc main_v154) = slice64 (A7 m c) 3 := by
  have h7 := B16_arg7 m ρ c
  show StableHlo.after hostOps6_2 (W16 m ρ c) (Proc.devRef .tc main_v154) = _
  generalize W16 m ρ c = V at h7 ⊢
  after_results_simp
  rw [h7]
  exact HostOps.slice_eq (A7 m c) 3 slices_S384x40_S64x40_192_0

theorem B17_v155 : W17 m ρ c (Proc.devRef .tc main_v155) = slice64 (A7 m c) 4 := by
  have h7 := B16_arg7 m ρ c
  show StableHlo.after hostOps6_2 (W16 m ρ c) (Proc.devRef .tc main_v155) = _
  generalize W16 m ρ c = V at h7 ⊢
  after_results_simp
  rw [h7]
  exact HostOps.slice_eq (A7 m c) 4 slices_S384x40_S64x40_256_0

theorem B17_v156 : W17 m ρ c (Proc.devRef .tc main_v156) = slice64 (A7 m c) 5 := by
  have h7 := B16_arg7 m ρ c
  show StableHlo.after hostOps6_2 (W16 m ρ c) (Proc.devRef .tc main_v156) = _
  generalize W16 m ρ c = V at h7 ⊢
  after_results_simp
  rw [h7]
  exact HostOps.slice_eq (A7 m c) 5 slices_S384x40_S64x40_320_0

theorem B17_v157 : W17 m ρ c (Proc.devRef .tc main_v157) = shapeCast S1x40 (A8 m c) shapeCasts_S40_S1x40 := by
  have h8 := B16_arg8 m ρ c
  show StableHlo.after hostOps6_2 (W16 m ρ c) (Proc.devRef .tc main_v157) = _
  generalize W16 m ρ c = V at h8 ⊢
  after_results_simp
  rw [h8]
  rfl

/-! ## The result -/

/-- The classifier's output as the last region forms it is the reference's. -/
theorem z_eq : Region6.Z (V17 m ρ) c = val_main_v279 (F := Ideal) (A0 m c) (A1 m c) (A2 m c) (A3 m c) (A4 m c) (A5 m c) (A6 m c) (A7 m c) (A8 m c) := by
  rw [RefFinal.z_ref']
  show zK (M := 50000) (W17 m ρ c (Proc.devRef .tc main_v68_0)) (W17 m ρ c (Proc.devRef .tc main_v84_0)) (W17 m ρ c (Proc.devRef .tc main_v100_0))
      (W17 m ρ c (Proc.devRef .tc main_v116_0)) (W17 m ρ c (Proc.devRef .tc main_v132_0)) (W17 m ρ c (Proc.devRef .tc main_v150))
      (W17 m ρ c (Proc.devRef .tc main_v151)) (W17 m ρ c (Proc.devRef .tc main_v152)) (W17 m ρ c (Proc.devRef .tc main_v153))
      (W17 m ρ c (Proc.devRef .tc main_v154)) (W17 m ρ c (Proc.devRef .tc main_v155)) (W17 m ρ c (Proc.devRef .tc main_v156))
      (fun q => W17 m ρ c (Proc.devRef .tc main_v157) (ix2 (0 : Fin 1) q)) = _
  rw [B17_v68_0 m ρ c, B17_v84_0 m ρ c, B17_v100_0 m ρ c, B17_v116_0 m ρ c, B17_v132_0 m ρ c, B17_v150 m ρ c,
    B17_v151 m ρ c, B17_v152 m ρ c, B17_v153 m ρ c, B17_v154 m ρ c, B17_v155 m ρ c, B17_v156 m ρ c, B17_v157 m ρ c]
  exact congrArg (zK (M := 50000) (val_main_v49 (F := Ideal) (A0 m c) (A1 m c) (A2 m c) (A3 m c) (A4 m c)) (val_main_v94 (F := Ideal) (A0 m c) (A1 m c) (A2 m c) (A3 m c) (A4 m c) (A5 m c) (A6 m c)) (val_main_v139 (F := Ideal) (A0 m c) (A1 m c) (A2 m c) (A3 m c) (A4 m c) (A5 m c) (A6 m c))
      (val_main_v184 (F := Ideal) (A0 m c) (A1 m c) (A2 m c) (A3 m c) (A4 m c) (A5 m c) (A6 m c)) (val_main_v229 (F := Ideal) (A0 m c) (A1 m c) (A2 m c) (A3 m c) (A4 m c) (A5 m c) (A6 m c)) (val_main_v274 (F := Ideal) (A0 m c) (A1 m c) (A2 m c) (A3 m c) (A4 m c) (A5 m c) (A6 m c))
      (slice64 (A7 m c) 0) (slice64 (A7 m c) 1) (slice64 (A7 m c) 2) (slice64 (A7 m c) 3) (slice64 (A7 m c) 4) (slice64 (A7 m c) 5))
    (funext fun q => shapeCast_a_1a_apply _ _ 0 q)

/-- The kernel program's result buffer after its last region holds the reference's last stage. -/
theorem final_value : W18 m ρ c (Proc.devRef .tc main_v158) = val_main_v280 (F := Ideal) (A0 m c) (A1 m c) (A2 m c) (A3 m c) (A4 m c) (A5 m c) (A6 m c) (A7 m c) (A8 m c) := by
  refine (W18_arr m ρ c 13).trans ((Region6.final (V17 m ρ) c).trans ?_)
  funext i
  rw [RefFinal.out_ref, ← z_eq m ρ c]

end Cert.JK.Chain

end
-- ==== Proof.RefChunks.lean ====
/-
  The reference's run, read group by group.

  The reference's 380 host operations are cut where a called function begins or ends (the where of the
  normalisation, the clamp at zero of each layer, the final log-softmax): 26 groups.  After each group, every buffer a
  later group reads holds the reference's stage of that name — the value its operation writes as a function of the
  arguments: a buffer the group writes by the group's operations applied to the stages before it (the stage's own
  definition), a buffer it does not write by what it held before.  A called function's operations read and write
  through typed references, which change nothing of the values.  So the result buffer ends at the last stage.
-/
import proofs.«168511_j27419071218301_2_alg».proof.Proof.RefRun
import proofs.«168511_j27419071218301_2_alg».proof.Proof.RefRead

set_option maxRecDepth 16384

noncomputable section

namespace Cert.ReferenceIdeal.Chunks

open Cert.ReferenceIdeal Cert.ReferenceIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (c : Dev nD)

/-- Argument 0 as launched. -/
abbrev A0 : Buf (Elt Ideal) ((c.tc : Thread nD τ).loc main_arg0) := m ((c.tc : Thread nD τ).loc main_arg0)
/-- Argument 1 as launched. -/
abbrev A1 : Buf (Elt Ideal) ((c.tc : Thread nD τ).loc main_arg1) := m ((c.tc : Thread nD τ).loc main_arg1)
/-- Argument 2 as launched. -/
abbrev A2 : Buf (Elt Ideal) ((c.tc : Thread nD τ).loc main_arg2) := m ((c.tc : Thread nD τ).loc main_arg2)
/-- Argument 3 as launched. -/
abbrev A3 : Buf (Elt Ideal) ((c.tc : Thread nD τ).loc main_arg3) := m ((c.tc : Thread nD τ).loc main_arg3)
/-- Argument 4 as launched. -/
abbrev A4 : Buf (Elt Ideal) ((c.tc : Thread nD τ).loc main_arg4) := m ((c.tc : Thread nD τ).loc main_arg4)
/-- Argument 5 as launched. -/
abbrev A5 : Buf (Elt Ideal) ((c.tc : Thread nD τ).loc main_arg5) := m ((c.tc : Thread nD τ).loc main_arg5)
/-- Argument 6 as launched. -/
abbrev A6 : Buf (Elt Ideal) ((c.tc : Thread nD τ).loc main_arg6) := m ((c.tc : Thread nD τ).loc main_arg6)
/-- Argument 7 as launched. -/
abbrev A7 : Buf (Elt Ideal) ((c.tc : Thread nD τ).loc main_arg7) := m ((c.tc : Thread nD τ).loc main_arg7)
/-- Argument 8 as launched. -/
abbrev A8 : Buf (Elt Ideal) ((c.tc : Thread nD τ).loc main_arg8) := m ((c.tc : Thread nD τ).loc main_arg8)

/-- A buffer none of a group's operations writes keeps its contents across the group. -/
macro "host_pass" ops:ident : tactic =>
  `(tactic| exact StableHlo.after_of_forall_not_mem _ _ (List.forall_iff_forall_mem.mp (by
      simp only [$ops:ident, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))))

/-- A value written through a typed reference and read back through it is the value. -/
theorem ofBuf_toBuf {T : BufTy} (x : TRef sig T) (v : T.Contents (Elt Ideal)) : x.ofBuf (x.toBuf v) = v := by
  unfold TRef.ofBuf TRef.toBuf
  exact eq_of_heq ((cast_heq _ _).trans (cast_heq _ _))

/-- Two lines of operations run one after the other. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => exact ih _

section Groups

variable {F : FTy → Type} [FloatOps F]

/-- Operations 1 … 20 of the reference. -/
abbrev c1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    binary main_arg0 main_arg3 main_v9 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_cst_0 (constant S_ .f32 0x00000000#32),
    unary main_cst_0 main_v10 (broadcastInDim S50000 ![] bcast_S_S50000 : (⟨S_, .f32⟩ : BufTy).Contents (Elt F) → (⟨S50000, .f32⟩ : BufTy).Contents (Elt F)),
    unary main_v6 main_v11 (broadcastInDim S850000x1 ![0] bcast_S850000_S850000x1_0 : (⟨S850000, .i32⟩ : BufTy).Contents (Elt F) → (⟨S850000x1, .i32⟩ : BufTy).Contents (Elt F)),
    ternary main_v10 main_v11 main_v8 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v13 (broadcastInDim S50000 ![] bcast_S_S50000 : (⟨S_, .f32⟩ : BufTy).Contents (Elt F) → (⟨S50000, .f32⟩ : BufTy).Contents (Elt F)),
    binary main_v12 main_v13 main_v14 (cmpf .ogt : (⟨S50000, .f32⟩ : BufTy).Contents (Elt F) → (⟨S50000, .f32⟩ : BufTy).Contents (Elt F) → (⟨S50000, .i1⟩ : BufTy).Contents (Elt F)),
    unary main_v12 main_v15 (Host.rsqrt : (⟨S50000, .f32⟩ : BufTy).Contents (Elt F) → (⟨S50000, .f32⟩ : BufTy).Contents (Elt F)),
    nullary main_cst_2 (constant S_ .f32 0x00000000#32) ]

/-- Operations 21 … 23 of the reference. -/
abbrev c2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v14) (TRef.of (T := ⟨S50000, .f32⟩) main_v15) (TRef.of (T := ⟨S50000, .f32⟩) main_call0_v1) (TRef.of (T := ⟨S50000, .f32⟩) main_v16) select ]

/-- Operations 24 … 62 of the reference. -/
abbrev c3 : List (HloOp τ sig (Elt F)) :=
  [ nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v8 main_v24 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v9 main_v38 main_v39 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x64 ![0, 1] bcast_S850000x1_S850000x64_0_1 : (⟨S850000x1, .f32⟩ : BufTy).Contents (Elt F) → (⟨S850000x64, .f32⟩ : BufTy).Contents (Elt F)),
    binary main_v39 main_v41 main_v42 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v43 (broadcastInDim S50000x64 ![] bcast_S_S50000x64 : (⟨S_, .f32⟩ : BufTy).Contents (Elt F) → (⟨S50000x64, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg4 main_v46 (broadcastInDim S1x64 ![1] bcast_S64_S1x64_1 : (⟨S64, .f32⟩ : BufTy).Contents (Elt F) → (⟨S1x64, .f32⟩ : BufTy).Contents (Elt F)),
    unary main_v46 main_v47 (broadcastInDim S50000x64 ![0, 1] bcast_S1x64_S50000x64_0_1 : (⟨S1x64, .f32⟩ : BufTy).Contents (Elt F) → (⟨S50000x64, .f32⟩ : BufTy).Contents (Elt F)),
    binary main_v45 main_v47 main_v48 (addf : (⟨S50000x64, .f32⟩ : BufTy).Contents (Elt F) → (⟨S50000x64, .f32⟩ : BufTy).Contents (Elt F) → (⟨S50000x64, .f32⟩ : BufTy).Contents (Elt F)) ]

/-- Operations 63 … 65 of the reference. -/
abbrev c4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v48) (TRef.of (T := ⟨S50000x64, .f32⟩) main_call1_v0) (TRef.of (T := ⟨S50000x64, .f32⟩) main_v49) maximumf ]

/-- Operations 66 … 79 of the reference. -/
abbrev c5 : List (HloOp τ sig (Elt F)) :=
  [ unary main_arg5 main_v50 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v50 main_v51 rfl shapeCasts_S1x64x64_S64x64,
    unary main_arg6 main_v52 ((extractStridedSlice S1x64 ![0, 0] · slices_S5x64_S1x64_0_0) : (⟨S5x64, .f32⟩ : BufTy).Contents (Elt F) → (⟨S1x64, .f32⟩ : BufTy).Contents (Elt F)),
    reshape main_v52 main_v53 rfl shapeCasts_S1x64_S64,
    binary main_v49 main_v51 main_v54 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_9 (constant S_ .f32 0x00000000#32),
    unary main_cst_9 main_v55 (broadcastInDim S50000 ![] bcast_S_S50000 : (⟨S_, .f32⟩ : BufTy).Contents (Elt F) → (⟨S50000, .f32⟩ : BufTy).Contents (Elt F)),
    unary main_v6 main_v56 (broadcastInDim S850000x1 ![0] bcast_S850000_S850000x1_0 : (⟨S850000, .i32⟩ : BufTy).Contents (Elt F) → (⟨S850000x1, .i32⟩ : BufTy).Contents (Elt F)),
    ternary main_v55 main_v56 main_v8 main_v57 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_10 (constant S_ .f32 0x00000000#32),
    unary main_cst_10 main_v58 (broadcastInDim S50000 ![] bcast_S_S50000 : (⟨S_, .f32⟩ : BufTy).Contents (Elt F) → (⟨S50000, .f32⟩ : BufTy).Contents (Elt F)),
    binary main_v57 main_v58 main_v59 (cmpf .ogt : (⟨S50000, .f32⟩ : BufTy).Contents (Elt F) → (⟨S50000, .f32⟩ : BufTy).Contents (Elt F) → (⟨S50000, .i1⟩ : BufTy).Contents (Elt F)),
    unary main_v57 main_v60 (Host.rsqrt : (⟨S50000, .f32⟩ : BufTy).Contents (Elt F) → (⟨S50000, .f32⟩ : BufTy).Contents (Elt F)),
    nullary main_cst_11 (constant S_ .f32 0x00000000#32) ]

/-- Operations 80 … 82 of the reference. -/
abbrev c6 : List (HloOp τ sig (Elt F)) :=
  [ TRef.unary (TRef.of (T := ⟨S_, .f32⟩) main_cst_11) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v59) (TRef.of (T := ⟨S50000, .f32⟩) main_v60) (TRef.of (T := ⟨S50000, .f32⟩) main_call2_v1) (TRef.of (T := ⟨S50000, .f32⟩) main_v61) select ]

/-- Operations 83 … 121 of the reference. -/
abbrev c7 : List (HloOp τ sig (Elt F)) :=
  [ nullary main_c_12 (constantI S_ 32 0#32),
    unary main_c_12 main_v62 (broadcastInDim S850000 ![] bcast_S_S850000 : (⟨S_, .i32⟩ : BufTy).Contents (Elt F) → (⟨S850000, .i32⟩ : BufTy).Contents (Elt F)),
    binary main_v3 main_v62 main_v63 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v64 (broadcastInDim S850000 ![] bcast_S_S850000 : (⟨S_, .i32⟩ : BufTy).Contents (Elt F) → (⟨S850000, .i32⟩ : BufTy).Contents (Elt F)),
    binary main_v3 main_v64 main_v65 (addi : (⟨S850000, .i32⟩ : BufTy).Contents (Elt F) → (⟨S850000, .i32⟩ : BufTy).Contents (Elt F) → (⟨S850000, .i32⟩ : BufTy).Contents (Elt F)),
    ternary main_v63 main_v65 main_v3 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v66 main_v67 (broadcastInDim S850000x1 ![0] bcast_S850000_S850000x1_0 : (⟨S850000, .i32⟩ : BufTy).Contents (Elt F) → (⟨S850000x1, .i32⟩ : BufTy).Contents (Elt F)),
    binary main_v61 main_v67 main_v68 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v68 main_v8 main_v69 (mulf : (⟨S850000, .f32⟩ : BufTy).Contents (Elt F) → (⟨S850000, .f32⟩ : BufTy).Contents (Elt F) → (⟨S850000, .f32⟩ : BufTy).Contents (Elt F)),
    nullary main_c_14 (constantI S_ 32 0#32),
    unary main_c_14 main_v70 (broadcastInDim S850000 ![] bcast_S_S850000 : (⟨S_, .i32⟩ : BufTy).Contents (Elt F) → (⟨S850000, .i32⟩ : BufTy).Contents (Elt F)),
    binary main_v6 main_v70 main_v71 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v72 (broadcastInDim S850000 ![] bcast_S_S850000 : (⟨S_, .i32⟩ : BufTy).Contents (Elt F) → (⟨S850000, .i32⟩ : BufTy).Contents (Elt F)),
    binary main_v6 main_v72 main_v73 (addi : (⟨S850000, .i32⟩ : BufTy).Contents (Elt F) → (⟨S850000, .i32⟩ : BufTy).Contents (Elt F) → (⟨S850000, .i32⟩ : BufTy).Contents (Elt F)),
    ternary main_v71 main_v73 main_v6 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v74 main_v75 (broadcastInDim S850000x1 ![0] bcast_S850000_S850000x1_0 : (⟨S850000, .i32⟩ : BufTy).Contents (Elt F) → (⟨S850000x1, .i32⟩ : BufTy).Contents (Elt F)),
    binary main_v61 main_v75 main_v76 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v69 main_v76 main_v77 (mulf : (⟨S850000, .f32⟩ : BufTy).Contents (Elt F) → (⟨S850000, .f32⟩ : BufTy).Contents (Elt F) → (⟨S850000, .f32⟩ : BufTy).Contents (Elt F)),
    nullary main_c_16 (constantI S_ 32 0#32),
    unary main_c_16 main_v78 (broadcastInDim S850000 ![] bcast_S_S850000 : (⟨S_, .i32⟩ : BufTy).Contents (Elt F) → (⟨S850000, .i32⟩ : BufTy).Contents (Elt F)),
    binary main_v3 main_v78 main_v79 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v80 (broadcastInDim S850000 ![] bcast_S_S850000 : (⟨S_, .i32⟩ : BufTy).Contents (Elt F) → (⟨S850000, .i32⟩ : BufTy).Contents (Elt F)),
    binary main_v3 main_v80 main_v81 (addi : (⟨S850000, .i32⟩ : BufTy).Contents (Elt F) → (⟨S850000, .i32⟩ : BufTy).Contents (Elt F) → (⟨S850000, .i32⟩ : BufTy).Contents (Elt F)),
    ternary main_v79 main_v81 main_v3 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v82 main_v83 (broadcastInDim S850000x1 ![0] bcast_S850000_S850000x1_0 : (⟨S850000, .i32⟩ : BufTy).Contents (Elt F) → (⟨S850000x1, .i32⟩ : BufTy).Contents (Elt F)),
    binary main_v54 main_v83 main_v84 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v77 main_v85 (broadcastInDim S850000x1 ![0] bcast_S850000_S850000x1_0 : (⟨S850000, .f32⟩ : BufTy).Contents (Elt F) → (⟨S850000x1, .f32⟩ : BufTy).Contents (Elt F)),
    unary main_v85 main_v86 (broadcastInDim S850000x64 ![0, 1] bcast_S850000x1_S850000x64_0_1 : (⟨S850000x1, .f32⟩ : BufTy).Contents (Elt F) → (⟨S850000x64, .f32⟩ : BufTy).Contents (Elt F)),
    binary main_v84 main_v86 main_v87 (mulf : (⟨S850000x64, .f32⟩ : BufTy).Contents (Elt F) → (⟨S850000x64, .f32⟩ : BufTy).Contents (Elt F) → (⟨S850000x64, .f32⟩ : BufTy).Contents (Elt F)),
    nullary main_cst_18 (constant S_ .f32 0x00000000#32),
    unary main_cst_18 main_v88 (broadcastInDim S50000x64 ![] bcast_S_S50000x64 : (⟨S_, .f32⟩ : BufTy).Contents (Elt F) → (⟨S50000x64, .f32⟩ : BufTy).Contents (Elt F)),
    unary main_v6 main_v89 (broadcastInDim S850000x1 ![0] bcast_S850000_S850000x1_0 : (⟨S850000, .i32⟩ : BufTy).Contents (Elt F) → (⟨S850000x1, .i32⟩ : BufTy).Contents (Elt F)),
    ternary main_v88 main_v89 main_v87 main_v90 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_v53 main_v91 (broadcastInDim S1x64 ![1] bcast_S64_S1x64_1 : (⟨S64, .f32⟩ : BufTy).Contents (Elt F) → (⟨S1x64, .f32⟩ : BufTy).Contents (Elt F)),
    unary main_v91 main_v92 (broadcastInDim S50000x64 ![0, 1] bcast_S1x64_S50000x64_0_1 : (⟨S1x64, .f32⟩ : BufTy).Contents (Elt F) → (⟨S50000x64, .f32⟩ : BufTy).Contents (Elt F)),
    binary main_v90 main_v92 main_v93 (addf : (⟨S50000x64, .f32⟩ : BufTy).Contents (Elt F) → (⟨S50000x64, .f32⟩ : BufTy).Contents (Elt F) → (⟨S50000x64, .f32⟩ : BufTy).Contents (Elt F)) ]

/-- Operations 122 … 124 of the reference. -/
abbrev c8 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v93) (TRef.of (T := ⟨S50000x64, .f32⟩) main_call3_v0) (TRef.of (T := ⟨S50000x64, .f32⟩) main_v94) maximumf ]

/-- Operations 125 … 138 of the reference. -/
abbrev c9 : List (HloOp τ sig (Elt F)) :=
  [ unary main_arg5 main_v95 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v95 main_v96 rfl shapeCasts_S1x64x64_S64x64,
    unary main_arg6 main_v97 ((extractStridedSlice S1x64 ![1, 0] · slices_S5x64_S1x64_1_0) : (⟨S5x64, .f32⟩ : BufTy).Contents (Elt F) → (⟨S1x64, .f32⟩ : BufTy).Contents (Elt F)),
    reshape main_v97 main_v98 rfl shapeCasts_S1x64_S64,
    binary main_v94 main_v96 main_v99 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_19 (constant S_ .f32 0x00000000#32),
    unary main_cst_19 main_v100 (broadcastInDim S50000 ![] bcast_S_S50000 : (⟨S_, .f32⟩ : BufTy).Contents (Elt F) → (⟨S50000, .f32⟩ : BufTy).Contents (Elt F)),
    unary main_v6 main_v101 (broadcastInDim S850000x1 ![0] bcast_S850000_S850000x1_0 : (⟨S850000, .i32⟩ : BufTy).Contents (Elt F) → (⟨S850000x1, .i32⟩ : BufTy).Contents (Elt F)),
    ternary main_v100 main_v101 main_v8 main_v102 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_20 (constant S_ .f32 0x00000000#32),
    unary main_cst_20 main_v103 (broadcastInDim S50000 ![] bcast_S_S50000 : (⟨S_, .f32⟩ : BufTy).Contents (Elt F) → (⟨S50000, .f32⟩ : BufTy).Contents (Elt F)),
    binary main_v102 main_v103 main_v104 (cmpf .ogt : (⟨S50000, .f32⟩ : BufTy).Contents (Elt F) → (⟨S50000, .f32⟩ : BufTy).Contents (Elt F) → (⟨S50000, .i1⟩ : BufTy).Contents (Elt F)),
    unary main_v102 main_v105 (Host.rsqrt : (⟨S50000, .f32⟩ : BufTy).Contents (Elt F) → (⟨S50000, .f32⟩ : BufTy).Contents (Elt F)),
    nullary main_cst_21 (constant S_ .f32 0x00000000#32) ]

/-- Operations 139 … 141 of the reference. -/
abbrev c10 : List (HloOp τ sig (Elt F)) :=
  [ TRef.unary (TRef.of (T := ⟨S_, .f32⟩) main_cst_21) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v104) (TRef.of (T := ⟨S50000, .f32⟩) main_v105) (TRef.of (T := ⟨S50000, .f32⟩) main_call4_v1) (TRef.of (T := ⟨S50000, .f32⟩) main_v106) select ]

/-- Operations 142 … 180 of the reference. -/
abbrev c11 : List (HloOp τ sig (Elt F)) :=
  [ nullary main_c_22 (constantI S_ 32 0#32),
    unary main_c_22 main_v107 (broadcastInDim S850000 ![] bcast_S_S850000 : (⟨S_, .i32⟩ : BufTy).Contents (Elt F) → (⟨S850000, .i32⟩ : BufTy).Contents (Elt F)),
    binary main_v3 main_v107 main_v108 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v109 (broadcastInDim S850000 ![] bcast_S_S850000 : (⟨S_, .i32⟩ : BufTy).Contents (Elt F) → (⟨S850000, .i32⟩ : BufTy).Contents (Elt F)),
    binary main_v3 main_v109 main_v110 (addi : (⟨S850000, .i32⟩ : BufTy).Contents (Elt F) → (⟨S850000, .i32⟩ : BufTy).Contents (Elt F) → (⟨S850000, .i32⟩ : BufTy).Contents (Elt F)),
    ternary main_v108 main_v110 main_v3 main_v111 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v111 main_v112 (broadcastInDim S850000x1 ![0] bcast_S850000_S850000x1_0 : (⟨S850000, .i32⟩ : BufTy).Contents (Elt F) → (⟨S850000x1, .i32⟩ : BufTy).Contents (Elt F)),
    binary main_v106 main_v112 main_v113 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v113 main_v8 main_v114 (mulf : (⟨S850000, .f32⟩ : BufTy).Contents (Elt F) → (⟨S850000, .f32⟩ : BufTy).Contents (Elt F) → (⟨S850000, .f32⟩ : BufTy).Contents (Elt F)),
    nullary main_c_24 (constantI S_ 32 0#32),
    unary main_c_24 main_v115 (broadcastInDim S850000 ![] bcast_S_S850000 : (⟨S_, .i32⟩ : BufTy).Contents (Elt F) → (⟨S850000, .i32⟩ : BufTy).Contents (Elt F)),
    binary main_v6 main_v115 main_v116 (cmpi .slt : (⟨S850000, .i32⟩ : BufTy).Contents (Elt F) → (⟨S850000, .i32⟩ : BufTy).Contents (Elt F) → (⟨S850000, .i1⟩ : BufTy).Contents (Elt F)),
    nullary main_c_25 (constantI S_ 32 50000#32),
    unary main_c_25 main_v117 (broadcastInDim S850000 ![] bcast_S_S850000 : (⟨S_, .i32⟩ : BufTy).Contents (Elt F) → (⟨S850000, .i32⟩ : BufTy).Contents (Elt F)),
    binary main_v6 main_v117 main_v118 (addi : (⟨S850000, .i32⟩ : BufTy).Contents (Elt F) → (⟨S850000, .i32⟩ : BufTy).Contents (Elt F) → (⟨S850000, .i32⟩ : BufTy).Contents (Elt F)),
    ternary main_v116 main_v118 main_v6 main_v119 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v119 main_v120 (broadcastInDim S850000x1 ![0] bcast_S850000_S850000x1_0 : (⟨S850000, .i32⟩ : BufTy).Contents (Elt F) → (⟨S850000x1, .i32⟩ : BufTy).Contents (Elt F)),
    binary main_v106 main_v120 main_v121 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v114 main_v121 main_v122 (mulf : (⟨S850000, .f32⟩ : BufTy).Contents (Elt F) → (⟨S850000, .f32⟩ : BufTy).Contents (Elt F) → (⟨S850000, .f32⟩ : BufTy).Contents (Elt F)),
    nullary main_c_26 (constantI S_ 32 0#32),
    unary main_c_26 main_v123 (broadcastInDim S850000 ![] bcast_S_S850000 : (⟨S_, .i32⟩ : BufTy).Contents (Elt F) → (⟨S850000, .i32⟩ : BufTy).Contents (Elt F)),
    binary main_v3 main_v123 main_v124 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v125 (broadcastInDim S850000 ![] bcast_S_S850000 : (⟨S_, .i32⟩ : BufTy).Contents (Elt F) → (⟨S850000, .i32⟩ : BufTy).Contents (Elt F)),
    binary main_v3 main_v125 main_v126 (addi : (⟨S850000, .i32⟩ : BufTy).Contents (Elt F) → (⟨S850000, .i32⟩ : BufTy).Contents (Elt F) → (⟨S850000, .i32⟩ : BufTy).Contents (Elt F)),
    ternary main_v124 main_v126 main_v3 main_v127 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v127 main_v128 (broadcastInDim S850000x1 ![0] bcast_S850000_S850000x1_0 : (⟨S850000, .i32⟩ : BufTy).Contents (Elt F) → (⟨S850000x1, .i32⟩ : BufTy).Contents (Elt F)),
    binary main_v99 main_v128 main_v129 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v122 main_v130 (broadcastInDim S850000x1 ![0] bcast_S850000_S850000x1_0 : (⟨S850000, .f32⟩ : BufTy).Contents (Elt F) → (⟨S850000x1, .f32⟩ : BufTy).Contents (Elt F)),
    unary main_v130 main_v131 (broadcastInDim S850000x64 ![0, 1] bcast_S850000x1_S850000x64_0_1 : (⟨S850000x1, .f32⟩ : BufTy).Contents (Elt F) → (⟨S850000x64, .f32⟩ : BufTy).Contents (Elt F)),
    binary main_v129 main_v131 main_v132 (mulf : (⟨S850000x64, .f32⟩ : BufTy).Contents (Elt F) → (⟨S850000x64, .f32⟩ : BufTy).Contents (Elt F) → (⟨S850000x64, .f32⟩ : BufTy).Contents (Elt F)),
    nullary main_cst_28 (constant S_ .f32 0x00000000#32),
    unary main_cst_28 main_v133 (broadcastInDim S50000x64 ![] bcast_S_S50000x64 : (⟨S_, .f32⟩ : BufTy).Contents (Elt F) → (⟨S50000x64, .f32⟩ : BufTy).Contents (Elt F)),
    unary main_v6 main_v134 (broadcastInDim S850000x1 ![0] bcast_S850000_S850000x1_0 : (⟨S850000, .i32⟩ : BufTy).Contents (Elt F) → (⟨S850000x1, .i32⟩ : BufTy).Contents (Elt F)),
    ternary main_v133 main_v134 main_v132 main_v135 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_v98 main_v136 (broadcastInDim S1x64 ![1] bcast_S64_S1x64_1 : (⟨S64, .f32⟩ : BufTy).Contents (Elt F) → (⟨S1x64, .f32⟩ : BufTy).Contents (Elt F)),
    unary main_v136 main_v137 (broadcastInDim S50000x64 ![0, 1] bcast_S1x64_S50000x64_0_1 : (⟨S1x64, .f32⟩ : BufTy).Contents (Elt F) → (⟨S50000x64, .f32⟩ : BufTy).Contents (Elt F)),
    binary main_v135 main_v137 main_v138 (addf : (⟨S50000x64, .f32⟩ : BufTy).Contents (Elt F) → (⟨S50000x64, .f32⟩ : BufTy).Contents (Elt F) → (⟨S50000x64, .f32⟩ : BufTy).Contents (Elt F)) ]

/-- Operations 181 … 183 of the reference. -/
abbrev c12 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v138) (TRef.of (T := ⟨S50000x64, .f32⟩) main_call5_v0) (TRef.of (T := ⟨S50000x64, .f32⟩) main_v139) maximumf ]

/-- Operations 184 … 197 of the reference. -/
abbrev c13 : List (HloOp τ sig (Elt F)) :=
  [ unary main_arg5 main_v140 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v140 main_v141 rfl shapeCasts_S1x64x64_S64x64,
    unary main_arg6 main_v142 ((extractStridedSlice S1x64 ![2, 0] · slices_S5x64_S1x64_2_0) : (⟨S5x64, .f32⟩ : BufTy).Contents (Elt F) → (⟨S1x64, .f32⟩ : BufTy).Contents (Elt F)),
    reshape main_v142 main_v143 rfl shapeCasts_S1x64_S64,
    binary main_v139 main_v141 main_v144 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_29 (constant S_ .f32 0x00000000#32),
    unary main_cst_29 main_v145 (broadcastInDim S50000 ![] bcast_S_S50000 : (⟨S_, .f32⟩ : BufTy).Contents (Elt F) → (⟨S50000, .f32⟩ : BufTy).Contents (Elt F)),
    unary main_v6 main_v146 (broadcastInDim S850000x1 ![0] bcast_S850000_S850000x1_0 : (⟨S850000, .i32⟩ : BufTy).Contents (Elt F) → (⟨S850000x1, .i32⟩ : BufTy).Contents (Elt F)),
    ternary main_v145 main_v146 main_v8 main_v147 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_30 (constant S_ .f32 0x00000000#32),
    unary main_cst_30 main_v148 (broadcastInDim S50000 ![] bcast_S_S50000 : (⟨S_, .f32⟩ : BufTy).Contents (Elt F) → (⟨S50000, .f32⟩ : BufTy).Contents (Elt F)),
    binary main_v147 main_v148 main_v149 (cmpf .ogt : (⟨S50000, .f32⟩ : BufTy).Contents (Elt F) → (⟨S50000, .f32⟩ : BufTy).Contents (Elt F) → (⟨S50000, .i1⟩ : BufTy).Contents (Elt F)),
    unary main_v147 main_v150 (Host.rsqrt : (⟨S50000, .f32⟩ : BufTy).Contents (Elt F) → (⟨S50000, .f32⟩ : BufTy).Contents (Elt F)),
    nullary main_cst_31 (constant S_ .f32 0x00000000#32) ]

/-- Operations 198 … 200 of the reference. -/
abbrev c14 : List (HloOp τ sig (Elt F)) :=
  [ TRef.unary (TRef.of (T := ⟨S_, .f32⟩) main_cst_31) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.ternary (TRef.of (T := ⟨S50000, .i1⟩) main_v149) (TRef.of (T := ⟨S50000, .f32⟩) main_v150) (TRef.of (T := ⟨S50000, .f32⟩) main_call6_v1) (TRef.of (T := ⟨S50000, .f32⟩) main_v151) select ]

/-- Operations 201 … 239 of the reference. -/
abbrev c15 : List (HloOp τ sig (Elt F)) :=
  [ nullary main_c_32 (constantI S_ 32 0#32),
    unary main_c_32 main_v152 (broadcastInDim S850000 ![] bcast_S_S850000 : (⟨S_, .i32⟩ : BufTy).Contents (Elt F) → (⟨S850000, .i32⟩ : BufTy).Contents (Elt F)),
    binary main_v3 main_v152 main_v153 (cmpi .slt : (⟨S850000, .i32⟩ : BufTy).Contents (Elt F) → (⟨S850000, .i32⟩ : BufTy).Contents (Elt F) → (⟨S850000, .i1⟩ : BufTy).Contents (Elt F)),
    nullary main_c_33 (constantI S_ 32 50000#32),
    unary main_c_33 main_v154 (broadcastInDim S850000 ![] bcast_S_S850000 : (⟨S_, .i32⟩ : BufTy).Contents (Elt F) → (⟨S850000, .i32⟩ : BufTy).Contents (Elt F)),
    binary main_v3 main_v154 main_v155 (addi : (⟨S850000, .i32⟩ : BufTy).Contents (Elt F) → (⟨S850000, .i32⟩ : BufTy).Contents (Elt F) → (⟨S850000, .i32⟩ : BufTy).Contents (Elt F)),
    ternary main_v153 main_v155 main_v3 main_v156 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v156 main_v157 (broadcastInDim S850000x1 ![0] bcast_S850000_S850000x1_0 : (⟨S850000, .i32⟩ : BufTy).Contents (Elt F) → (⟨S850000x1, .i32⟩ : BufTy).Contents (Elt F)),
    binary main_v151 main_v157 main_v158 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v158 main_v8 main_v159 (mulf : (⟨S850000, .f32⟩ : BufTy).Contents (Elt F) → (⟨S850000, .f32⟩ : BufTy).Contents (Elt F) → (⟨S850000, .f32⟩ : BufTy).Contents (Elt F)),
    nullary main_c_34 (constantI S_ 32 0#32),
    unary main_c_34 main_v160 (broadcastInDim S850000 ![] bcast_S_S850000 : (⟨S_, .i32⟩ : BufTy).Contents (Elt F) → (⟨S850000, .i32⟩ : BufTy).Contents (Elt F)),
    binary main_v6 main_v160 main_v161 (cmpi .slt : (⟨S850000, .i32⟩ : BufTy).Contents (Elt F) → (⟨S850000, .i32⟩ : BufTy).Contents (Elt F) → (⟨S850000, .i1⟩ : BufTy).Contents (Elt F)),
    nullary main_c_35 (constantI S_ 32 50000#32),
    unary main_c_35 main_v162 (broadcastInDim S850000 ![] bcast_S_S850000 : (⟨S_, .i32⟩ : BufTy).Contents (Elt F) → (⟨S850000, .i32⟩ : BufTy).Contents (Elt F)),
    binary main_v6 main_v162 main_v163 (addi : (⟨S850000, .i32⟩ : BufTy).Contents (Elt F) → (⟨S850000, .i32⟩ : BufTy).Contents (Elt F) → (⟨S850000, .i32⟩ : BufTy).Contents (Elt F)),
    ternary main_v161 main_v163 main_v6 main_v164 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v164 main_v165 (broadcastInDim S850000x1 ![0] bcast_S850000_S850000x1_0 : (⟨S850000, .i32⟩ : BufTy).Contents (Elt F) → (⟨S850000x1, .i32⟩ : BufTy).Contents (Elt F)),
    binary main_v151 main_v165 main_v166 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v159 main_v166 main_v167 (mulf : (⟨S850000, .f32⟩ : BufTy).Contents (Elt F) → (⟨S850000, .f32⟩ : BufTy).Contents (Elt F) → (⟨S850000, .f32⟩ : BufTy).Contents (Elt F)),
    nullary main_c_36 (constantI S_ 32 0#32),
    unary main_c_36 main_v168 (broadcastInDim S850000 ![] bcast_S_S850000 : (⟨S_, .i32⟩ : BufTy).Contents (Elt F) → (⟨S850000, .i32⟩ : BufTy).Contents (Elt F)),
    binary main_v3 main_v168 main_v169 (cmpi .slt : (⟨S850000, .i32⟩ : BufTy).Contents (Elt F) → (⟨S850000, .i32⟩ : BufTy).Contents (Elt F) → (⟨S850000, .i1⟩ : BufTy).Contents (Elt F)),
    nullary main_c_37 (constantI S_ 32 50000#32),
    unary main_c_37 main_v170 (broadcastInDim S850000 ![] bcast_S_S850000 : (⟨S_, .i32⟩ : BufTy).Contents (Elt F) → (⟨S850000, .i32⟩ : BufTy).Contents (Elt F)),
    binary main_v3 main_v170 main_v171 (addi : (⟨S850000, .i32⟩ : BufTy).Contents (Elt F) → (⟨S850000, .i32⟩ : BufTy).Contents (Elt F) → (⟨S850000, .i32⟩ : BufTy).Contents (Elt F)),
    ternary main_v169 main_v171 main_v3 main_v172 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v172 main_v173 (broadcastInDim S850000x1 ![0] bcast_S850000_S850000x1_0 : (⟨S850000, .i32⟩ : BufTy).Contents (Elt F) → (⟨S850000x1, .i32⟩ : BufTy).Contents (Elt F)),
    binary main_v144 main_v173 main_v174 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v167 main_v175 (broadcastInDim S850000x1 ![0] bcast_S850000_S850000x1_0 : (⟨S850000, .f32⟩ : BufTy).Contents (Elt F) → (⟨S850000x1, .f32⟩ : BufTy).Contents (Elt F)),
    unary main_v175 main_v176 (broadcastInDim S850000x64 ![0, 1] bcast_S850000x1_S850000x64_0_1 : (⟨S850000x1, .f32⟩ : BufTy).Contents (Elt F) → (⟨S850000x64, .f32⟩ : BufTy).Contents (Elt F)),
    binary main_v174 main_v176 main_v177 (mulf : (⟨S850000x64, .f32⟩ : BufTy).Contents (Elt F) → (⟨S850000x64, .f32⟩ : BufTy).Contents (Elt F) → (⟨S850000x64, .f32⟩ : BufTy).Contents (Elt F)),
    nullary main_cst_38 (constant S_ .f32 0x00000000#32),
    unary main_cst_38 main_v178 (broadcastInDim S50000x64 ![] bcast_S_S50000x64 : (⟨S_, .f32⟩ : BufTy).Contents (Elt F) → (⟨S50000x64, .f32⟩ : BufTy).Contents (Elt F)),
    unary main_v6 main_v179 (broadcastInDim S850000x1 ![0] bcast_S850000_S850000x1_0 : (⟨S850000, .i32⟩ : BufTy).Contents (Elt F) → (⟨S850000x1, .i32⟩ : BufTy).Contents (Elt F)),
    ternary main_v178 main_v179 main_v177 main_v180 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_v143 main_v181 (broadcastInDim S1x64 ![1] bcast_S64_S1x64_1 : (⟨S64, .f32⟩ : BufTy).Contents (Elt F) → (⟨S1x64, .f32⟩ : BufTy).Contents (Elt F)),
    unary main_v181 main_v182 (broadcastInDim S50000x64 ![0, 1] bcast_S1x64_S50000x64_0_1 : (⟨S1x64, .f32⟩ : BufTy).Contents (Elt F) → (⟨S50000x64, .f32⟩ : BufTy).Contents (Elt F)),
    binary main_v180 main_v182 main_v183 (addf : (⟨S50000x64, .f32⟩ : BufTy).Contents (Elt F) → (⟨S50000x64, .f32⟩ : BufTy).Contents (Elt F) → (⟨S50000x64, .f32⟩ : BufTy).Contents (Elt F)) ]

/-- Operations 240 … 242 of the reference. -/
abbrev c16 : List (HloOp τ sig (Elt F)) :=
  [ TRef.nullary (TRef.of (T := ⟨S_, .f32⟩) main_call7_cst) (constant S_ .f32 0x00000000#32),
    TRef.unary (TRef.of (T := ⟨S_, .f32⟩) main_call7_cst) (TRef.of (T := ⟨S50000x64, .f32⟩) main_call7_v0) (broadcastInDim S50000x64 ![] bcast_S_S50000x64),
    TRef.binary (TRef.of (T := ⟨S50000x64, .f32⟩) main_v183) (TRef.of (T := ⟨S50000x64, .f32⟩) main_call7_v0) (TRef.of (T := ⟨S50000x64, .f32⟩) main_v184) maximumf ]

/-- Operations 243 … 256 of the reference. -/
abbrev c17 : List (HloOp τ sig (Elt F)) :=
  [ unary main_arg5 main_v185 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v185 main_v186 rfl shapeCasts_S1x64x64_S64x64,
    unary main_arg6 main_v187 ((extractStridedSlice S1x64 ![3, 0] · slices_S5x64_S1x64_3_0) : (⟨S5x64, .f32⟩ : BufTy).Contents (Elt F) → (⟨S1x64, .f32⟩ : BufTy).Contents (Elt F)),
    reshape main_v187 main_v188 rfl shapeCasts_S1x64_S64,
    binary main_v184 main_v186 main_v189 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_39 (constant S_ .f32 0x00000000#32),
    unary main_cst_39 main_v190 (broadcastInDim S50000 ![] bcast_S_S50000 : (⟨S_, .f32⟩ : BufTy).Contents (Elt F) → (⟨S50000, .f32⟩ : BufTy).Contents (Elt F)),
    unary main_v6 main_v191 (broadcastInDim S850000x1 ![0] bcast_S850000_S850000x1_0 : (⟨S850000, .i32⟩ : BufTy).Contents (Elt F) → (⟨S850000x1, .i32⟩ : BufTy).Contents (Elt F)),
    ternary main_v190 main_v191 main_v8 main_v192 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_40 (constant S_ .f32 0x00000000#32),
    unary main_cst_40 main_v193 (broadcastInDim S50000 ![] bcast_S_S50000 : (⟨S_, .f32⟩ : BufTy).Contents (Elt F) → (⟨S50000, .f32⟩ : BufTy).Contents (Elt F)),
    binary main_v192 main_v193 main_v194 (cmpf .ogt : (⟨S50000, .f32⟩ : BufTy).Contents (Elt F) → (⟨S50000, .f32⟩ : BufTy).Contents (Elt F) → (⟨S50000, .i1⟩ : BufTy).Contents (Elt F)),
    unary main_v192 main_v195 (Host.rsqrt : (⟨S50000, .f32⟩ : BufTy).Contents (Elt F) → (⟨S50000, .f32⟩ : BufTy).Contents (Elt F)),
    nullary main_cst_41 (constant S_ .f32 0x00000000#32) ]

/-- Operations 257 … 259 of the reference. -/
abbrev c18 : List (HloOp τ sig (Elt F)) :=
  [ TRef.unary (TRef.of (T := ⟨S_, .f32⟩) main_cst_41) (TRef.of (T := ⟨S_, .f32⟩) main_call8_v0) id,
    TRef.unary (TRef.of (T := ⟨S_, .f32⟩) main_call8_v0) (TRef.of (T := ⟨S50000, .f32⟩) main_call8_v1) (broadcastInDim S50000 ![] bcast_S_S50000),
    TRef.ternary (TRef.of (T := ⟨S50000, .i1⟩) main_v194) (TRef.of (T := ⟨S50000, .f32⟩) main_v195) (TRef.of (T := ⟨S50000, .f32⟩) main_call8_v1) (TRef.of (T := ⟨S50000, .f32⟩) main_v196) select ]

/-- Operations 260 … 298 of the reference. -/
abbrev c19 : List (HloOp τ sig (Elt F)) :=
  [ nullary main_c_42 (constantI S_ 32 0#32),
    unary main_c_42 main_v197 (broadcastInDim S850000 ![] bcast_S_S850000 : (⟨S_, .i32⟩ : BufTy).Contents (Elt F) → (⟨S850000, .i32⟩ : BufTy).Contents (Elt F)),
    binary main_v3 main_v197 main_v198 (cmpi .slt : (⟨S850000, .i32⟩ : BufTy).Contents (Elt F) → (⟨S850000, .i32⟩ : BufTy).Contents (Elt F) → (⟨S850000, .i1⟩ : BufTy).Contents (Elt F)),
    nullary main_c_43 (constantI S_ 32 50000#32),
    unary main_c_43 main_v199 (broadcastInDim S850000 ![] bcast_S_S850000 : (⟨S_, .i32⟩ : BufTy).Contents (Elt F) → (⟨S850000, .i32⟩ : BufTy).Contents (Elt F)),
    binary main_v3 main_v199 main_v200 (addi : (⟨S850000, .i32⟩ : BufTy).Contents (Elt F) → (⟨S850000, .i32⟩ : BufTy).Contents (Elt F) → (⟨S850000, .i32⟩ : BufTy).Contents (Elt F)),
    ternary main_v198 main_v200 main_v3 main_v201 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v201 main_v202 (broadcastInDim S850000x1 ![0] bcast_S850000_S850000x1_0 : (⟨S850000, .i32⟩ : BufTy).Contents (Elt F) → (⟨S850000x1, .i32⟩ : BufTy).Contents (Elt F)),
    binary main_v196 main_v202 main_v203 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v203 main_v8 main_v204 (mulf : (⟨S850000, .f32⟩ : BufTy).Contents (Elt F) → (⟨S850000, .f32⟩ : BufTy).Contents (Elt F) → (⟨S850000, .f32⟩ : BufTy).Contents (Elt F)),
    nullary main_c_44 (constantI S_ 32 0#32),
    unary main_c_44 main_v205 (broadcastInDim S850000 ![] bcast_S_S850000 : (⟨S_, .i32⟩ : BufTy).Contents (Elt F) → (⟨S850000, .i32⟩ : BufTy).Contents (Elt F)),
    binary main_v6 main_v205 main_v206 (cmpi .slt : (⟨S850000, .i32⟩ : BufTy).Contents (Elt F) → (⟨S850000, .i32⟩ : BufTy).Contents (Elt F) → (⟨S850000, .i1⟩ : BufTy).Contents (Elt F)),
    nullary main_c_45 (constantI S_ 32 50000#32),
    unary main_c_45 main_v207 (broadcastInDim S850000 ![] bcast_S_S850000 : (⟨S_, .i32⟩ : BufTy).Contents (Elt F) → (⟨S850000, .i32⟩ : BufTy).Contents (Elt F)),
    binary main_v6 main_v207 main_v208 (addi : (⟨S850000, .i32⟩ : BufTy).Contents (Elt F) → (⟨S850000, .i32⟩ : BufTy).Contents (Elt F) → (⟨S850000, .i32⟩ : BufTy).Contents (Elt F)),
    ternary main_v206 main_v208 main_v6 main_v209 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v209 main_v210 (broadcastInDim S850000x1 ![0] bcast_S850000_S850000x1_0 : (⟨S850000, .i32⟩ : BufTy).Contents (Elt F) → (⟨S850000x1, .i32⟩ : BufTy).Contents (Elt F)),
    binary main_v196 main_v210 main_v211 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v204 main_v211 main_v212 (mulf : (⟨S850000, .f32⟩ : BufTy).Contents (Elt F) → (⟨S850000, .f32⟩ : BufTy).Contents (Elt F) → (⟨S850000, .f32⟩ : BufTy).Contents (Elt F)),
    nullary main_c_46 (constantI S_ 32 0#32),
    unary main_c_46 main_v213 (broadcastInDim S850000 ![] bcast_S_S850000 : (⟨S_, .i32⟩ : BufTy).Contents (Elt F) → (⟨S850000, .i32⟩ : BufTy).Contents (Elt F)),
    binary main_v3 main_v213 main_v214 (cmpi .slt : (⟨S850000, .i32⟩ : BufTy).Contents (Elt F) → (⟨S850000, .i32⟩ : BufTy).Contents (Elt F) → (⟨S850000, .i1⟩ : BufTy).Contents (Elt F)),
    nullary main_c_47 (constantI S_ 32 50000#32),
    unary main_c_47 main_v215 (broadcastInDim S850000 ![] bcast_S_S850000 : (⟨S_, .i32⟩ : BufTy).Contents (Elt F) → (⟨S850000, .i32⟩ : BufTy).Contents (Elt F)),
    binary main_v3 main_v215 main_v216 (addi : (⟨S850000, .i32⟩ : BufTy).Contents (Elt F) → (⟨S850000, .i32⟩ : BufTy).Contents (Elt F) → (⟨S850000, .i32⟩ : BufTy).Contents (Elt F)),
    ternary main_v214 main_v216 main_v3 main_v217 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v217 main_v218 (broadcastInDim S850000x1 ![0] bcast_S850000_S850000x1_0 : (⟨S850000, .i32⟩ : BufTy).Contents (Elt F) → (⟨S850000x1, .i32⟩ : BufTy).Contents (Elt F)),
    binary main_v189 main_v218 main_v219 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v212 main_v220 (broadcastInDim S850000x1 ![0] bcast_S850000_S850000x1_0 : (⟨S850000, .f32⟩ : BufTy).Contents (Elt F) → (⟨S850000x1, .f32⟩ : BufTy).Contents (Elt F)),
    unary main_v220 main_v221 (broadcastInDim S850000x64 ![0, 1] bcast_S850000x1_S850000x64_0_1 : (⟨S850000x1, .f32⟩ : BufTy).Contents (Elt F) → (⟨S850000x64, .f32⟩ : BufTy).Contents (Elt F)),
    binary main_v219 main_v221 main_v222 (mulf : (⟨S850000x64, .f32⟩ : BufTy).Contents (Elt F) → (⟨S850000x64, .f32⟩ : BufTy).Contents (Elt F) → (⟨S850000x64, .f32⟩ : BufTy).Contents (Elt F)),
    nullary main_cst_48 (constant S_ .f32 0x00000000#32),
    unary main_cst_48 main_v223 (broadcastInDim S50000x64 ![] bcast_S_S50000x64 : (⟨S_, .f32⟩ : BufTy).Contents (Elt F) → (⟨S50000x64, .f32⟩ : BufTy).Contents (Elt F)),
    unary main_v6 main_v224 (broadcastInDim S850000x1 ![0] bcast_S850000_S850000x1_0 : (⟨S850000, .i32⟩ : BufTy).Contents (Elt F) → (⟨S850000x1, .i32⟩ : BufTy).Contents (Elt F)),
    ternary main_v223 main_v224 main_v222 main_v225 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_v188 main_v226 (broadcastInDim S1x64 ![1] bcast_S64_S1x64_1 : (⟨S64, .f32⟩ : BufTy).Contents (Elt F) → (⟨S1x64, .f32⟩ : BufTy).Contents (Elt F)),
    unary main_v226 main_v227 (broadcastInDim S50000x64 ![0, 1] bcast_S1x64_S50000x64_0_1 : (⟨S1x64, .f32⟩ : BufTy).Contents (Elt F) → (⟨S50000x64, .f32⟩ : BufTy).Contents (Elt F)),
    binary main_v225 main_v227 main_v228 (addf : (⟨S50000x64, .f32⟩ : BufTy).Contents (Elt F) → (⟨S50000x64, .f32⟩ : BufTy).Contents (Elt F) → (⟨S50000x64, .f32⟩ : BufTy).Contents (Elt F)) ]

/-- Operations 299 … 301 of the reference. -/
abbrev c20 : List (HloOp τ sig (Elt F)) :=
  [ TRef.nullary (TRef.of (T := ⟨S_, .f32⟩) main_call9_cst) (constant S_ .f32 0x00000000#32),
    TRef.unary (TRef.of (T := ⟨S_, .f32⟩) main_call9_cst) (TRef.of (T := ⟨S50000x64, .f32⟩) main_call9_v0) (broadcastInDim S50000x64 ![] bcast_S_S50000x64),
    TRef.binary (TRef.of (T := ⟨S50000x64, .f32⟩) main_v228) (TRef.of (T := ⟨S50000x64, .f32⟩) main_call9_v0) (TRef.of (T := ⟨S50000x64, .f32⟩) main_v229) maximumf ]

/-- Operations 302 … 315 of the reference. -/
abbrev c21 : List (HloOp τ sig (Elt F)) :=
  [ unary main_arg5 main_v230 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v230 main_v231 rfl shapeCasts_S1x64x64_S64x64,
    unary main_arg6 main_v232 ((extractStridedSlice S1x64 ![4, 0] · slices_S5x64_S1x64_4_0) : (⟨S5x64, .f32⟩ : BufTy).Contents (Elt F) → (⟨S1x64, .f32⟩ : BufTy).Contents (Elt F)),
    reshape main_v232 main_v233 rfl shapeCasts_S1x64_S64,
    binary main_v229 main_v231 main_v234 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_49 (constant S_ .f32 0x00000000#32),
    unary main_cst_49 main_v235 (broadcastInDim S50000 ![] bcast_S_S50000 : (⟨S_, .f32⟩ : BufTy).Contents (Elt F) → (⟨S50000, .f32⟩ : BufTy).Contents (Elt F)),
    unary main_v6 main_v236 (broadcastInDim S850000x1 ![0] bcast_S850000_S850000x1_0 : (⟨S850000, .i32⟩ : BufTy).Contents (Elt F) → (⟨S850000x1, .i32⟩ : BufTy).Contents (Elt F)),
    ternary main_v235 main_v236 main_v8 main_v237 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_50 (constant S_ .f32 0x00000000#32),
    unary main_cst_50 main_v238 (broadcastInDim S50000 ![] bcast_S_S50000 : (⟨S_, .f32⟩ : BufTy).Contents (Elt F) → (⟨S50000, .f32⟩ : BufTy).Contents (Elt F)),
    binary main_v237 main_v238 main_v239 (cmpf .ogt : (⟨S50000, .f32⟩ : BufTy).Contents (Elt F) → (⟨S50000, .f32⟩ : BufTy).Contents (Elt F) → (⟨S50000, .i1⟩ : BufTy).Contents (Elt F)),
    unary main_v237 main_v240 (Host.rsqrt : (⟨S50000, .f32⟩ : BufTy).Contents (Elt F) → (⟨S50000, .f32⟩ : BufTy).Contents (Elt F)),
    nullary main_cst_51 (constant S_ .f32 0x00000000#32) ]

/-- Operations 316 … 318 of the reference. -/
abbrev c22 : List (HloOp τ sig (Elt F)) :=
  [ TRef.unary (TRef.of (T := ⟨S_, .f32⟩) main_cst_51) (TRef.of (T := ⟨S_, .f32⟩) main_call10_v0) id,
    TRef.unary (TRef.of (T := ⟨S_, .f32⟩) main_call10_v0) (TRef.of (T := ⟨S50000, .f32⟩) main_call10_v1) (broadcastInDim S50000 ![] bcast_S_S50000),
    TRef.ternary (TRef.of (T := ⟨S50000, .i1⟩) main_v239) (TRef.of (T := ⟨S50000, .f32⟩) main_v240) (TRef.of (T := ⟨S50000, .f32⟩) main_call10_v1) (TRef.of (T := ⟨S50000, .f32⟩) main_v241) select ]

/-- Operations 319 … 357 of the reference. -/
abbrev c23 : List (HloOp τ sig (Elt F)) :=
  [ nullary main_c_52 (constantI S_ 32 0#32),
    unary main_c_52 main_v242 (broadcastInDim S850000 ![] bcast_S_S850000 : (⟨S_, .i32⟩ : BufTy).Contents (Elt F) → (⟨S850000, .i32⟩ : BufTy).Contents (Elt F)),
    binary main_v3 main_v242 main_v243 (cmpi .slt : (⟨S850000, .i32⟩ : BufTy).Contents (Elt F) → (⟨S850000, .i32⟩ : BufTy).Contents (Elt F) → (⟨S850000, .i1⟩ : BufTy).Contents (Elt F)),
    nullary main_c_53 (constantI S_ 32 50000#32),
    unary main_c_53 main_v244 (broadcastInDim S850000 ![] bcast_S_S850000 : (⟨S_, .i32⟩ : BufTy).Contents (Elt F) → (⟨S850000, .i32⟩ : BufTy).Contents (Elt F)),
    binary main_v3 main_v244 main_v245 (addi : (⟨S850000, .i32⟩ : BufTy).Contents (Elt F) → (⟨S850000, .i32⟩ : BufTy).Contents (Elt F) → (⟨S850000, .i32⟩ : BufTy).Contents (Elt F)),
    ternary main_v243 main_v245 main_v3 main_v246 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v246 main_v247 (broadcastInDim S850000x1 ![0] bcast_S850000_S850000x1_0 : (⟨S850000, .i32⟩ : BufTy).Contents (Elt F) → (⟨S850000x1, .i32⟩ : BufTy).Contents (Elt F)),
    binary main_v241 main_v247 main_v248 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v248 main_v8 main_v249 (mulf : (⟨S850000, .f32⟩ : BufTy).Contents (Elt F) → (⟨S850000, .f32⟩ : BufTy).Contents (Elt F) → (⟨S850000, .f32⟩ : BufTy).Contents (Elt F)),
    nullary main_c_54 (constantI S_ 32 0#32),
    unary main_c_54 main_v250 (broadcastInDim S850000 ![] bcast_S_S850000 : (⟨S_, .i32⟩ : BufTy).Contents (Elt F) → (⟨S850000, .i32⟩ : BufTy).Contents (Elt F)),
    binary main_v6 main_v250 main_v251 (cmpi .slt : (⟨S850000, .i32⟩ : BufTy).Contents (Elt F) → (⟨S850000, .i32⟩ : BufTy).Contents (Elt F) → (⟨S850000, .i1⟩ : BufTy).Contents (Elt F)),
    nullary main_c_55 (constantI S_ 32 50000#32),
    unary main_c_55 main_v252 (broadcastInDim S850000 ![] bcast_S_S850000 : (⟨S_, .i32⟩ : BufTy).Contents (Elt F) → (⟨S850000, .i32⟩ : BufTy).Contents (Elt F)),
    binary main_v6 main_v252 main_v253 (addi : (⟨S850000, .i32⟩ : BufTy).Contents (Elt F) → (⟨S850000, .i32⟩ : BufTy).Contents (Elt F) → (⟨S850000, .i32⟩ : BufTy).Contents (Elt F)),
    ternary main_v251 main_v253 main_v6 main_v254 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v254 main_v255 (broadcastInDim S850000x1 ![0] bcast_S850000_S850000x1_0 : (⟨S850000, .i32⟩ : BufTy).Contents (Elt F) → (⟨S850000x1, .i32⟩ : BufTy).Contents (Elt F)),
    binary main_v241 main_v255 main_v256 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v249 main_v256 main_v257 (mulf : (⟨S850000, .f32⟩ : BufTy).Contents (Elt F) → (⟨S850000, .f32⟩ : BufTy).Contents (Elt F) → (⟨S850000, .f32⟩ : BufTy).Contents (Elt F)),
    nullary main_c_56 (constantI S_ 32 0#32),
    unary main_c_56 main_v258 (broadcastInDim S850000 ![] bcast_S_S850000 : (⟨S_, .i32⟩ : BufTy).Contents (Elt F) → (⟨S850000, .i32⟩ : BufTy).Contents (Elt F)),
    binary main_v3 main_v258 main_v259 (cmpi .slt : (⟨S850000, .i32⟩ : BufTy).Contents (Elt F) → (⟨S850000, .i32⟩ : BufTy).Contents (Elt F) → (⟨S850000, .i1⟩ : BufTy).Contents (Elt F)),
    nullary main_c_57 (constantI S_ 32 50000#32),
    unary main_c_57 main_v260 (broadcastInDim S850000 ![] bcast_S_S850000 : (⟨S_, .i32⟩ : BufTy).Contents (Elt F) → (⟨S850000, .i32⟩ : BufTy).Contents (Elt F)),
    binary main_v3 main_v260 main_v261 (addi : (⟨S850000, .i32⟩ : BufTy).Contents (Elt F) → (⟨S850000, .i32⟩ : BufTy).Contents (Elt F) → (⟨S850000, .i32⟩ : BufTy).Contents (Elt F)),
    ternary main_v259 main_v261 main_v3 main_v262 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v262 main_v263 (broadcastInDim S850000x1 ![0] bcast_S850000_S850000x1_0 : (⟨S850000, .i32⟩ : BufTy).Contents (Elt F) → (⟨S850000x1, .i32⟩ : BufTy).Contents (Elt F)),
    binary main_v234 main_v263 main_v264 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v257 main_v265 (broadcastInDim S850000x1 ![0] bcast_S850000_S850000x1_0 : (⟨S850000, .f32⟩ : BufTy).Contents (Elt F) → (⟨S850000x1, .f32⟩ : BufTy).Contents (Elt F)),
    unary main_v265 main_v266 (broadcastInDim S850000x64 ![0, 1] bcast_S850000x1_S850000x64_0_1 : (⟨S850000x1, .f32⟩ : BufTy).Contents (Elt F) → (⟨S850000x64, .f32⟩ : BufTy).Contents (Elt F)),
    binary main_v264 main_v266 main_v267 (mulf : (⟨S850000x64, .f32⟩ : BufTy).Contents (Elt F) → (⟨S850000x64, .f32⟩ : BufTy).Contents (Elt F) → (⟨S850000x64, .f32⟩ : BufTy).Contents (Elt F)),
    nullary main_cst_58 (constant S_ .f32 0x00000000#32),
    unary main_cst_58 main_v268 (broadcastInDim S50000x64 ![] bcast_S_S50000x64 : (⟨S_, .f32⟩ : BufTy).Contents (Elt F) → (⟨S50000x64, .f32⟩ : BufTy).Contents (Elt F)),
    unary main_v6 main_v269 (broadcastInDim S850000x1 ![0] bcast_S850000_S850000x1_0 : (⟨S850000, .i32⟩ : BufTy).Contents (Elt F) → (⟨S850000x1, .i32⟩ : BufTy).Contents (Elt F)),
    ternary main_v268 main_v269 main_v267 main_v270 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_v233 main_v271 (broadcastInDim S1x64 ![1] bcast_S64_S1x64_1 : (⟨S64, .f32⟩ : BufTy).Contents (Elt F) → (⟨S1x64, .f32⟩ : BufTy).Contents (Elt F)),
    unary main_v271 main_v272 (broadcastInDim S50000x64 ![0, 1] bcast_S1x64_S50000x64_0_1 : (⟨S1x64, .f32⟩ : BufTy).Contents (Elt F) → (⟨S50000x64, .f32⟩ : BufTy).Contents (Elt F)),
    binary main_v270 main_v272 main_v273 (addf : (⟨S50000x64, .f32⟩ : BufTy).Contents (Elt F) → (⟨S50000x64, .f32⟩ : BufTy).Contents (Elt F) → (⟨S50000x64, .f32⟩ : BufTy).Contents (Elt F)) ]

/-- Operations 358 … 360 of the reference. -/
abbrev c24 : List (HloOp τ sig (Elt F)) :=
  [ TRef.nullary (TRef.of (T := ⟨S_, .f32⟩) main_call11_cst) (constant S_ .f32 0x00000000#32),
    TRef.unary (TRef.of (T := ⟨S_, .f32⟩) main_call11_cst) (TRef.of (T := ⟨S50000x64, .f32⟩) main_call11_v0) (broadcastInDim S50000x64 ![] bcast_S_S50000x64),
    TRef.binary (TRef.of (T := ⟨S50000x64, .f32⟩) main_v273) (TRef.of (T := ⟨S50000x64, .f32⟩) main_call11_v0) (TRef.of (T := ⟨S50000x64, .f32⟩) main_v274) maximumf ]

/-- Operations 361 … 365 of the reference. -/
abbrev c25 : List (HloOp τ sig (Elt F)) :=
  [ nary ![main_v49, main_v94, main_v139, main_v184, main_v229, main_v274] main_v275 (fun u => concatenate S50000x384 1 [⟨S50000x64, u 0⟩, ⟨S50000x64, u 1⟩, ⟨S50000x64, u 2⟩, ⟨S50000x64, u 3⟩, ⟨S50000x64, u 4⟩, ⟨S50000x64, u 5⟩] concatenates_S50000x64_S50000x64_S50000x64_S50000x64_S50000x64_S50000x64_S50000x384_d1),
    binary main_v275 main_arg7 main_v276 ((fun l r => Host.dotGeneral dot_S50000x384_S384x40_S50000x40_1_0_0_1_n_n none l r) : (⟨S50000x384, .f32⟩ : BufTy).Contents (Elt F) → (⟨S384x40, .f32⟩ : BufTy).Contents (Elt F) → (⟨S50000x40, .f32⟩ : BufTy).Contents (Elt F)),
    unary main_arg8 main_v277 (broadcastInDim S1x40 ![1] bcast_S40_S1x40_1 : (⟨S40, .f32⟩ : BufTy).Contents (Elt F) → (⟨S1x40, .f32⟩ : BufTy).Contents (Elt F)),
    unary main_v277 main_v278 (broadcastInDim S50000x40 ![0, 1] bcast_S1x40_S50000x40_0_1 : (⟨S1x40, .f32⟩ : BufTy).Contents (Elt F) → (⟨S50000x40, .f32⟩ : BufTy).Contents (Elt F)),
    binary main_v276 main_v278 main_v279 (addf : (⟨S50000x40, .f32⟩ : BufTy).Contents (Elt F) → (⟨S50000x40, .f32⟩ : BufTy).Contents (Elt F) → (⟨S50000x40, .f32⟩ : BufTy).Contents (Elt F)) ]

/-- Operations 366 … 380 of the reference. -/
abbrev c26 : List (HloOp τ sig (Elt F)) :=
  [ TRef.nullary (TRef.of (T := ⟨S_, .f32⟩) main_call12_cst) (constant S_ .f32 0xFF800000#32),
    TRef.binary (TRef.of (T := ⟨S50000x40, .f32⟩) main_v279) (TRef.of (T := ⟨S_, .f32⟩) main_call12_cst) (TRef.of (T := ⟨S50000, .f32⟩) main_call12_v0) (fun x v => Host.reduce FloatOps.maximumf x v reducesTo_S50000x40_S50000_d1 h_S_),
    TRef.nullary (TRef.of (T := ⟨S_, .f32⟩) main_call12_cst_0) (constant S_ .f32 0xFF800000#32),
    TRef.unary (TRef.of (T := ⟨S_, .f32⟩) main_call12_cst_0) (TRef.of (T := ⟨S50000, .f32⟩) main_call12_v1) (broadcastInDim S50000 ![] bcast_S_S50000),
    TRef.binary (TRef.of (T := ⟨S50000, .f32⟩) main_call12_v1) (TRef.of (T := ⟨S50000, .f32⟩) main_call12_v0) (TRef.of (T := ⟨S50000, .f32⟩) main_call12_v2) maximumf,
    TRef.unary (TRef.of (T := ⟨S50000, .f32⟩) main_call12_v2) (TRef.of (T := ⟨S50000x1, .f32⟩) main_call12_v3) (broadcastInDim S50000x1 ![0] bcast_S50000_S50000x1_0),
    TRef.unary (TRef.of (T := ⟨S50000x1, .f32⟩) main_call12_v3) (TRef.of (T := ⟨S50000x40, .f32⟩) main_call12_v4) (broadcastInDim S50000x40 ![0, 1] bcast_S50000x1_S50000x40_0_1),
    TRef.binary (TRef.of (T := ⟨S50000x40, .f32⟩) main_v279) (TRef.of (T := ⟨S50000x40, .f32⟩) main_call12_v4) (TRef.of (T := ⟨S50000x40, .f32⟩) main_call12_v5) subf,
    TRef.unary (TRef.of (T := ⟨S50000x40, .f32⟩) main_call12_v5) (TRef.of (T := ⟨S50000x40, .f32⟩) main_call12_v6) Host.exp,
    TRef.nullary (TRef.of (T := ⟨S_, .f32⟩) main_call12_cst_1) (constant S_ .f32 0x00000000#32),
    TRef.binary (TRef.of (T := ⟨S50000x40, .f32⟩) main_call12_v6) (TRef.of (T := ⟨S_, .f32⟩) main_call12_cst_1) (TRef.of (T := ⟨S50000, .f32⟩) main_call12_v7) (fun x v => Host.reduceAdd x v reducesTo_S50000x40_S50000_d1 h_S_),
    TRef.unary (TRef.of (T := ⟨S50000, .f32⟩) main_call12_v7) (TRef.of (T := ⟨S50000x1, .f32⟩) main_call12_v8) (broadcastInDim S50000x1 ![0] bcast_S50000_S50000x1_0),
    TRef.unary (TRef.of (T := ⟨S50000x1, .f32⟩) main_call12_v8) (TRef.of (T := ⟨S50000x1, .f32⟩) main_call12_v9) Host.log,
    TRef.unary (TRef.of (T := ⟨S50000x1, .f32⟩) main_call12_v9) (TRef.of (T := ⟨S50000x40, .f32⟩) main_call12_v10) (broadcastInDim S50000x40 ![0, 1] bcast_S50000x1_S50000x40_0_1),
    TRef.binary (TRef.of (T := ⟨S50000x40, .f32⟩) main_call12_v5) (TRef.of (T := ⟨S50000x40, .f32⟩) main_call12_v10) (TRef.of (T := ⟨S50000x40, .f32⟩) main_v280) subf ]

end Groups

/-- The buffer contents at launch. -/
def U0 : Valuation τ sig (Elt Ideal) := launchContents m c
/-- After the first 1 groups of operations. -/
def U1 : Valuation τ sig (Elt Ideal) := StableHlo.after (c1 (F := Ideal)) (U0 m c)
/-- After the first 2 groups of operations. -/
def U2 : Valuation τ sig (Elt Ideal) := StableHlo.after (c2 (F := Ideal)) (U1 m c)
/-- After the first 3 groups of operations. -/
def U3 : Valuation τ sig (Elt Ideal) := StableHlo.after (c3 (F := Ideal)) (U2 m c)
/-- After the first 4 groups of operations. -/
def U4 : Valuation τ sig (Elt Ideal) := StableHlo.after (c4 (F := Ideal)) (U3 m c)
/-- After the first 5 groups of operations. -/
def U5 : Valuation τ sig (Elt Ideal) := StableHlo.after (c5 (F := Ideal)) (U4 m c)
/-- After the first 6 groups of operations. -/
def U6 : Valuation τ sig (Elt Ideal) := StableHlo.after (c6 (F := Ideal)) (U5 m c)
/-- After the first 7 groups of operations. -/
def U7 : Valuation τ sig (Elt Ideal) := StableHlo.after (c7 (F := Ideal)) (U6 m c)
/-- After the first 8 groups of operations. -/
def U8 : Valuation τ sig (Elt Ideal) := StableHlo.after (c8 (F := Ideal)) (U7 m c)
/-- After the first 9 groups of operations. -/
def U9 : Valuation τ sig (Elt Ideal) := StableHlo.after (c9 (F := Ideal)) (U8 m c)
/-- After the first 10 groups of operations. -/
def U10 : Valuation τ sig (Elt Ideal) := StableHlo.after (c10 (F := Ideal)) (U9 m c)
/-- After the first 11 groups of operations. -/
def U11 : Valuation τ sig (Elt Ideal) := StableHlo.after (c11 (F := Ideal)) (U10 m c)
/-- After the first 12 groups of operations. -/
def U12 : Valuation τ sig (Elt Ideal) := StableHlo.after (c12 (F := Ideal)) (U11 m c)
/-- After the first 13 groups of operations. -/
def U13 : Valuation τ sig (Elt Ideal) := StableHlo.after (c13 (F := Ideal)) (U12 m c)
/-- After the first 14 groups of operations. -/
def U14 : Valuation τ sig (Elt Ideal) := StableHlo.after (c14 (F := Ideal)) (U13 m c)
/-- After the first 15 groups of operations. -/
def U15 : Valuation τ sig (Elt Ideal) := StableHlo.after (c15 (F := Ideal)) (U14 m c)
/-- After the first 16 groups of operations. -/
def U16 : Valuation τ sig (Elt Ideal) := StableHlo.after (c16 (F := Ideal)) (U15 m c)
/-- After the first 17 groups of operations. -/
def U17 : Valuation τ sig (Elt Ideal) := StableHlo.after (c17 (F := Ideal)) (U16 m c)
/-- After the first 18 groups of operations. -/
def U18 : Valuation τ sig (Elt Ideal) := StableHlo.after (c18 (F := Ideal)) (U17 m c)
/-- After the first 19 groups of operations. -/
def U19 : Valuation τ sig (Elt Ideal) := StableHlo.after (c19 (F := Ideal)) (U18 m c)
/-- After the first 20 groups of operations. -/
def U20 : Valuation τ sig (Elt Ideal) := StableHlo.after (c20 (F := Ideal)) (U19 m c)
/-- After the first 21 groups of operations. -/
def U21 : Valuation τ sig (Elt Ideal) := StableHlo.after (c21 (F := Ideal)) (U20 m c)
/-- After the first 22 groups of operations. -/
def U22 : Valuation τ sig (Elt Ideal) := StableHlo.after (c22 (F := Ideal)) (U21 m c)
/-- After the first 23 groups of operations. -/
def U23 : Valuation τ sig (Elt Ideal) := StableHlo.after (c23 (F := Ideal)) (U22 m c)
/-- After the first 24 groups of operations. -/
def U24 : Valuation τ sig (Elt Ideal) := StableHlo.after (c24 (F := Ideal)) (U23 m c)
/-- After the first 25 groups of operations. -/
def U25 : Valuation τ sig (Elt Ideal) := StableHlo.after (c25 (F := Ideal)) (U24 m c)
/-- After the first 26 groups of operations. -/
def U26 : Valuation τ sig (Elt Ideal) := StableHlo.after (c26 (F := Ideal)) (U25 m c)

theorem R0_arg7 : U0 m c (Proc.devRef .tc main_arg7) = A7 m c := rfl
theorem R0_arg8 : U0 m c (Proc.devRef .tc main_arg8) = A8 m c := rfl
theorem R0_arg5 : U0 m c (Proc.devRef .tc main_arg5) = A5 m c := rfl
theorem R0_arg6 : U0 m c (Proc.devRef .tc main_arg6) = A6 m c := rfl
theorem R0_arg4 : U0 m c (Proc.devRef .tc main_arg4) = A4 m c := rfl
theorem R0_arg1 : U0 m c (Proc.devRef .tc main_arg1) = A1 m c := rfl
theorem R0_arg2 : U0 m c (Proc.devRef .tc main_arg2) = A2 m c := rfl
theorem R0_arg0 : U0 m c (Proc.devRef .tc main_arg0) = A0 m c := rfl
theorem R0_arg3 : U0 m c (Proc.devRef .tc main_arg3) = A3 m c := rfl

/-! ## Group 1 -/

theorem R1_arg7 : U1 m c (Proc.devRef .tc main_arg7) = A7 m c :=
  (by host_pass c1 : U1 m c (Proc.devRef .tc main_arg7) = U0 m c (Proc.devRef .tc main_arg7)).trans (R0_arg7 m c)

theorem R1_arg8 : U1 m c (Proc.devRef .tc main_arg8) = A8 m c :=
  (by host_pass c1 : U1 m c (Proc.devRef .tc main_arg8) = U0 m c (Proc.devRef .tc main_arg8)).trans (R0_arg8 m c)

theorem R1_v3 : U1 m c (Proc.devRef .tc main_v3) = val_main_v3 (F := Ideal) (A1 m c) := by
  show StableHlo.after (c1 (F := Ideal)) (U0 m c) (Proc.devRef .tc main_v3) = _
  after_results_simp
  try simp only [R0_arg1 m c, R0_arg2 m c, R0_arg0 m c, R0_arg3 m c]
  rfl

theorem R1_v8 : U1 m c (Proc.devRef .tc main_v8) = val_main_v8 (F := Ideal) (A2 m c) := by
  show StableHlo.after (c1 (F := Ideal)) (U0 m c) (Proc.devRef .tc main_v8) = _
  after_results_simp
  try simp only [R0_arg1 m c, R0_arg2 m c, R0_arg0 m c, R0_arg3 m c]
  rfl

theorem R1_v6 : U1 m c (Proc.devRef .tc main_v6) = val_main_v6 (F := Ideal) (A1 m c) := by
  show StableHlo.after (c1 (F := Ideal)) (U0 m c) (Proc.devRef .tc main_v6) = _
  after_results_simp
  try simp only [R0_arg1 m c, R0_arg2 m c, R0_arg0 m c, R0_arg3 m c]
  rfl

theorem R1_arg5 : U1 m c (Proc.devRef .tc main_arg5) = A5 m c :=
  (by host_pass c1 : U1 m c (Proc.devRef .tc main_arg5) = U0 m c (Proc.devRef .tc main_arg5)).trans (R0_arg5 m c)

theorem R1_arg6 : U1 m c (Proc.devRef .tc main_arg6) = A6 m c :=
  (by host_pass c1 : U1 m c (Proc.devRef .tc main_arg6) = U0 m c (Proc.devRef .tc main_arg6)).trans (R0_arg6 m c)

theorem R1_v9 : U1 m c (Proc.devRef .tc main_v9) = val_main_v9 (F := Ideal) (A0 m c) (A3 m c) := by
  show StableHlo.after (c1 (F := Ideal)) (U0 m c) (Proc.devRef .tc main_v9) = _
  after_results_simp
  try simp only [R0_arg1 m c, R0_arg2 m c, R0_arg0 m c, R0_arg3 m c]
  rfl

theorem R1_arg4 : U1 m c (Proc.devRef .tc main_arg4) = A4 m c :=
  (by host_pass c1 : U1 m c (Proc.devRef .tc main_arg4) = U0 m c (Proc.devRef .tc main_arg4)).trans (R0_arg4 m c)

theorem R1_cst_2 : U1 m c (Proc.devRef .tc main_cst_2) = val_main_cst_2 (F := Ideal) := by
  show StableHlo.after (c1 (F := Ideal)) (U0 m c) (Proc.devRef .tc main_cst_2) = _
  after_results_simp
  try simp only [R0_arg1 m c, R0_arg2 m c, R0_arg0 m c, R0_arg3 m c]
  rfl

theorem R1_v14 : U1 m c (Proc.devRef .tc main_v14) = val_main_v14 (F := Ideal) (A1 m c) (A2 m c) := by
  show StableHlo.after (c1 (F := Ideal)) (U0 m c) (Proc.devRef .tc main_v14) = _
  after_results_simp
  try simp only [R0_arg1 m c, R0_arg2 m c, R0_arg0 m c, R0_arg3 m c]
  rfl

theorem R1_v15 : U1 m c (Proc.devRef .tc main_v15) = val_main_v15 (F := Ideal) (A1 m c) (A2 m c) := by
  show StableHlo.after (c1 (F := Ideal)) (U0 m c) (Proc.devRef .tc main_v15) = _
  after_results_simp
  try simp only [R0_arg1 m c, R0_arg2 m c, R0_arg0 m c, R0_arg3 m c]
  rfl

/-! ## Group 2 -/

theorem R2_arg7 : U2 m c (Proc.devRef .tc main_arg7) = A7 m c :=
  (by host_pass c2 : U2 m c (Proc.devRef .tc main_arg7) = U1 m c (Proc.devRef .tc main_arg7)).trans (R1_arg7 m c)

theorem R2_arg8 : U2 m c (Proc.devRef .tc main_arg8) = A8 m c :=
  (by host_pass c2 : U2 m c (Proc.devRef .tc main_arg8) = U1 m c (Proc.devRef .tc main_arg8)).trans (R1_arg8 m c)

theorem R2_v3 : U2 m c (Proc.devRef .tc main_v3) = val_main_v3 (F := Ideal) (A1 m c) :=
  (by host_pass c2 : U2 m c (Proc.devRef .tc main_v3) = U1 m c (Proc.devRef .tc main_v3)).trans (R1_v3 m c)

theorem R2_v8 : U2 m c (Proc.devRef .tc main_v8) = val_main_v8 (F := Ideal) (A2 m c) :=
  (by host_pass c2 : U2 m c (Proc.devRef .tc main_v8) = U1 m c (Proc.devRef .tc main_v8)).trans (R1_v8 m c)

theorem R2_v6 : U2 m c (Proc.devRef .tc main_v6) = val_main_v6 (F := Ideal) (A1 m c) :=
  (by host_pass c2 : U2 m c (Proc.devRef .tc main_v6) = U1 m c (Proc.devRef .tc main_v6)).trans (R1_v6 m c)

theorem R2_arg5 : U2 m c (Proc.devRef .tc main_arg5) = A5 m c :=
  (by host_pass c2 : U2 m c (Proc.devRef .tc main_arg5) = U1 m c (Proc.devRef .tc main_arg5)).trans (R1_arg5 m c)

theorem R2_arg6 : U2 m c (Proc.devRef .tc main_arg6) = A6 m c :=
  (by host_pass c2 : U2 m c (Proc.devRef .tc main_arg6) = U1 m c (Proc.devRef .tc main_arg6)).trans (R1_arg6 m c)

theorem R2_v16 : U2 m c (Proc.devRef .tc main_v16) = val_main_v16 (F := Ideal) (A1 m c) (A2 m c) := by
  have ha := R1_v14 m c
  have hb := R1_v15 m c
  have hc := R1_cst_2 m c
  show StableHlo.after (c2 (F := Ideal)) (U1 m c) (Proc.devRef .tc main_v16) = _
  generalize U1 m c = V at ha hb hc ⊢
  after_results_simp
  refine eq_of_heq ((cast_heq _ _).trans (heq_of_eq ?_))
  unfold val_main_v16 val_main_call0_v1 val_main_call0_v0
  refine congr (congr (congrArg select ?_) ?_) ?_
  · exact eq_of_heq ((cast_heq _ _).trans (heq_of_eq ha))
  · exact eq_of_heq ((cast_heq _ _).trans (heq_of_eq hb))
  · exact (ofBuf_toBuf _ _).trans (congrArg (broadcastInDim S50000 ![] bcast_S_S50000)
      ((ofBuf_toBuf _ _).trans (congrArg id (eq_of_heq ((cast_heq _ _).trans (heq_of_eq hc))))))

theorem R2_v9 : U2 m c (Proc.devRef .tc main_v9) = val_main_v9 (F := Ideal) (A0 m c) (A3 m c) :=
  (by host_pass c2 : U2 m c (Proc.devRef .tc main_v9) = U1 m c (Proc.devRef .tc main_v9)).trans (R1_v9 m c)

theorem R2_arg4 : U2 m c (Proc.devRef .tc main_arg4) = A4 m c :=
  (by host_pass c2 : U2 m c (Proc.devRef .tc main_arg4) = U1 m c (Proc.devRef .tc main_arg4)).trans (R1_arg4 m c)

/-! ## Group 3 -/

theorem R3_arg7 : U3 m c (Proc.devRef .tc main_arg7) = A7 m c :=
  (by host_pass c3 : U3 m c (Proc.devRef .tc main_arg7) = U2 m c (Proc.devRef .tc main_arg7)).trans (R2_arg7 m c)

theorem R3_arg8 : U3 m c (Proc.devRef .tc main_arg8) = A8 m c :=
  (by host_pass c3 : U3 m c (Proc.devRef .tc main_arg8) = U2 m c (Proc.devRef .tc main_arg8)).trans (R2_arg8 m c)

theorem R3_v3 : U3 m c (Proc.devRef .tc main_v3) = val_main_v3 (F := Ideal) (A1 m c) :=
  (by host_pass c3 : U3 m c (Proc.devRef .tc main_v3) = U2 m c (Proc.devRef .tc main_v3)).trans (R2_v3 m c)

theorem R3_v8 : U3 m c (Proc.devRef .tc main_v8) = val_main_v8 (F := Ideal) (A2 m c) :=
  (by host_pass c3 : U3 m c (Proc.devRef .tc main_v8) = U2 m c (Proc.devRef .tc main_v8)).trans (R2_v8 m c)

theorem R3_v6 : U3 m c (Proc.devRef .tc main_v6) = val_main_v6 (F := Ideal) (A1 m c) :=
  (by host_pass c3 : U3 m c (Proc.devRef .tc main_v6) = U2 m c (Proc.devRef .tc main_v6)).trans (R2_v6 m c)

theorem R3_arg5 : U3 m c (Proc.devRef .tc main_arg5) = A5 m c :=
  (by host_pass c3 : U3 m c (Proc.devRef .tc main_arg5) = U2 m c (Proc.devRef .tc main_arg5)).trans (R2_arg5 m c)

theorem R3_arg6 : U3 m c (Proc.devRef .tc main_arg6) = A6 m c :=
  (by host_pass c3 : U3 m c (Proc.devRef .tc main_arg6) = U2 m c (Proc.devRef .tc main_arg6)).trans (R2_arg6 m c)

theorem R3_v48 : U3 m c (Proc.devRef .tc main_v48) = val_main_v48 (F := Ideal) (A0 m c) (A1 m c) (A2 m c) (A3 m c) (A4 m c) := by
  show StableHlo.after (c3 (F := Ideal)) (U2 m c) (Proc.devRef .tc main_v48) = _
  after_results_simp
  try simp only [R2_v3 m c, R2_v16 m c, R2_v8 m c, R2_v6 m c, R2_v9 m c, R2_arg4 m c]
  rfl

/-! ## Group 4 -/

theorem R4_v49 : U4 m c (Proc.devRef .tc main_v49) = val_main_v49 (F := Ideal) (A0 m c) (A1 m c) (A2 m c) (A3 m c) (A4 m c) := by
  have hx := R3_v48 m c
  show StableHlo.after (c4 (F := Ideal)) (U3 m c) (Proc.devRef .tc main_v49) = _
  generalize U3 m c = V at hx ⊢
  after_results_simp
  refine eq_of_heq ((cast_heq _ _).trans (heq_of_eq ?_))
  rw [ofBuf_toBuf, ofBuf_toBuf]
  unfold val_main_v49 val_main_call1_v0 val_main_call1_cst
  exact congr (congrArg maximumf (eq_of_heq ((cast_heq _ _).trans (heq_of_eq hx)))) rfl

theorem R4_arg7 : U4 m c (Proc.devRef .tc main_arg7) = A7 m c :=
  (by host_pass c4 : U4 m c (Proc.devRef .tc main_arg7) = U3 m c (Proc.devRef .tc main_arg7)).trans (R3_arg7 m c)

theorem R4_arg8 : U4 m c (Proc.devRef .tc main_arg8) = A8 m c :=
  (by host_pass c4 : U4 m c (Proc.devRef .tc main_arg8) = U3 m c (Proc.devRef .tc main_arg8)).trans (R3_arg8 m c)

theorem R4_v3 : U4 m c (Proc.devRef .tc main_v3) = val_main_v3 (F := Ideal) (A1 m c) :=
  (by host_pass c4 : U4 m c (Proc.devRef .tc main_v3) = U3 m c (Proc.devRef .tc main_v3)).trans (R3_v3 m c)

theorem R4_v8 : U4 m c (Proc.devRef .tc main_v8) = val_main_v8 (F := Ideal) (A2 m c) :=
  (by host_pass c4 : U4 m c (Proc.devRef .tc main_v8) = U3 m c (Proc.devRef .tc main_v8)).trans (R3_v8 m c)

theorem R4_v6 : U4 m c (Proc.devRef .tc main_v6) = val_main_v6 (F := Ideal) (A1 m c) :=
  (by host_pass c4 : U4 m c (Proc.devRef .tc main_v6) = U3 m c (Proc.devRef .tc main_v6)).trans (R3_v6 m c)

theorem R4_arg5 : U4 m c (Proc.devRef .tc main_arg5) = A5 m c :=
  (by host_pass c4 : U4 m c (Proc.devRef .tc main_arg5) = U3 m c (Proc.devRef .tc main_arg5)).trans (R3_arg5 m c)

theorem R4_arg6 : U4 m c (Proc.devRef .tc main_arg6) = A6 m c :=
  (by host_pass c4 : U4 m c (Proc.devRef .tc main_arg6) = U3 m c (Proc.devRef .tc main_arg6)).trans (R3_arg6 m c)

/-! ## Group 5 -/

theorem R5_v49 : U5 m c (Proc.devRef .tc main_v49) = val_main_v49 (F := Ideal) (A0 m c) (A1 m c) (A2 m c) (A3 m c) (A4 m c) :=
  (by host_pass c5 : U5 m c (Proc.devRef .tc main_v49) = U4 m c (Proc.devRef .tc main_v49)).trans (R4_v49 m c)

theorem R5_arg7 : U5 m c (Proc.devRef .tc main_arg7) = A7 m c :=
  (by host_pass c5 : U5 m c (Proc.devRef .tc main_arg7) = U4 m c (Proc.devRef .tc main_arg7)).trans (R4_arg7 m c)

theorem R5_arg8 : U5 m c (Proc.devRef .tc main_arg8) = A8 m c :=
  (by host_pass c5 : U5 m c (Proc.devRef .tc main_arg8) = U4 m c (Proc.devRef .tc main_arg8)).trans (R4_arg8 m c)

theorem R5_v3 : U5 m c (Proc.devRef .tc main_v3) = val_main_v3 (F := Ideal) (A1 m c) :=
  (by host_pass c5 : U5 m c (Proc.devRef .tc main_v3) = U4 m c (Proc.devRef .tc main_v3)).trans (R4_v3 m c)

theorem R5_v8 : U5 m c (Proc.devRef .tc main_v8) = val_main_v8 (F := Ideal) (A2 m c) :=
  (by host_pass c5 : U5 m c (Proc.devRef .tc main_v8) = U4 m c (Proc.devRef .tc main_v8)).trans (R4_v8 m c)

theorem R5_v6 : U5 m c (Proc.devRef .tc main_v6) = val_main_v6 (F := Ideal) (A1 m c) :=
  (by host_pass c5 : U5 m c (Proc.devRef .tc main_v6) = U4 m c (Proc.devRef .tc main_v6)).trans (R4_v6 m c)

theorem R5_arg5 : U5 m c (Proc.devRef .tc main_arg5) = A5 m c :=
  (by host_pass c5 : U5 m c (Proc.devRef .tc main_arg5) = U4 m c (Proc.devRef .tc main_arg5)).trans (R4_arg5 m c)

theorem R5_arg6 : U5 m c (Proc.devRef .tc main_arg6) = A6 m c :=
  (by host_pass c5 : U5 m c (Proc.devRef .tc main_arg6) = U4 m c (Proc.devRef .tc main_arg6)).trans (R4_arg6 m c)

theorem R5_v54 : U5 m c (Proc.devRef .tc main_v54) = val_main_v54 (F := Ideal) (A0 m c) (A1 m c) (A2 m c) (A3 m c) (A4 m c) (A5 m c) := by
  show StableHlo.after (c5 (F := Ideal)) (U4 m c) (Proc.devRef .tc main_v54) = _
  after_results_simp
  try simp only [R4_arg5 m c, R4_arg6 m c, R4_v49 m c, R4_v6 m c, R4_v8 m c]
  rfl

theorem R5_v53 : U5 m c (Proc.devRef .tc main_v53) = val_main_v53 (F := Ideal) (A6 m c) := by
  show StableHlo.after (c5 (F := Ideal)) (U4 m c) (Proc.devRef .tc main_v53) = _
  after_results_simp
  try simp only [R4_arg5 m c, R4_arg6 m c, R4_v49 m c, R4_v6 m c, R4_v8 m c]
  rfl

theorem R5_cst_11 : U5 m c (Proc.devRef .tc main_cst_11) = val_main_cst_11 (F := Ideal) := by
  show StableHlo.after (c5 (F := Ideal)) (U4 m c) (Proc.devRef .tc main_cst_11) = _
  after_results_simp
  try simp only [R4_arg5 m c, R4_arg6 m c, R4_v49 m c, R4_v6 m c, R4_v8 m c]
  rfl

theorem R5_v59 : U5 m c (Proc.devRef .tc main_v59) = val_main_v59 (F := Ideal) (A1 m c) (A2 m c) := by
  show StableHlo.after (c5 (F := Ideal)) (U4 m c) (Proc.devRef .tc main_v59) = _
  after_results_simp
  try simp only [R4_arg5 m c, R4_arg6 m c, R4_v49 m c, R4_v6 m c, R4_v8 m c]
  rfl

theorem R5_v60 : U5 m c (Proc.devRef .tc main_v60) = val_main_v60 (F := Ideal) (A1 m c) (A2 m c) := by
  show StableHlo.after (c5 (F := Ideal)) (U4 m c) (Proc.devRef .tc main_v60) = _
  after_results_simp
  try simp only [R4_arg5 m c, R4_arg6 m c, R4_v49 m c, R4_v6 m c, R4_v8 m c]
  rfl

/-! ## Group 6 -/

theorem R6_v49 : U6 m c (Proc.devRef .tc main_v49) = val_main_v49 (F := Ideal) (A0 m c) (A1 m c) (A2 m c) (A3 m c) (A4 m c) :=
  (by host_pass c6 : U6 m c (Proc.devRef .tc main_v49) = U5 m c (Proc.devRef .tc main_v49)).trans (R5_v49 m c)

theorem R6_arg7 : U6 m c (Proc.devRef .tc main_arg7) = A7 m c :=
  (by host_pass c6 : U6 m c (Proc.devRef .tc main_arg7) = U5 m c (Proc.devRef .tc main_arg7)).trans (R5_arg7 m c)

theorem R6_arg8 : U6 m c (Proc.devRef .tc main_arg8) = A8 m c :=
  (by host_pass c6 : U6 m c (Proc.devRef .tc main_arg8) = U5 m c (Proc.devRef .tc main_arg8)).trans (R5_arg8 m c)

theorem R6_v3 : U6 m c (Proc.devRef .tc main_v3) = val_main_v3 (F := Ideal) (A1 m c) :=
  (by host_pass c6 : U6 m c (Proc.devRef .tc main_v3) = U5 m c (Proc.devRef .tc main_v3)).trans (R5_v3 m c)

theorem R6_v8 : U6 m c (Proc.devRef .tc main_v8) = val_main_v8 (F := Ideal) (A2 m c) :=
  (by host_pass c6 : U6 m c (Proc.devRef .tc main_v8) = U5 m c (Proc.devRef .tc main_v8)).trans (R5_v8 m c)

theorem R6_v6 : U6 m c (Proc.devRef .tc main_v6) = val_main_v6 (F := Ideal) (A1 m c) :=
  (by host_pass c6 : U6 m c (Proc.devRef .tc main_v6) = U5 m c (Proc.devRef .tc main_v6)).trans (R5_v6 m c)

theorem R6_arg5 : U6 m c (Proc.devRef .tc main_arg5) = A5 m c :=
  (by host_pass c6 : U6 m c (Proc.devRef .tc main_arg5) = U5 m c (Proc.devRef .tc main_arg5)).trans (R5_arg5 m c)

theorem R6_arg6 : U6 m c (Proc.devRef .tc main_arg6) = A6 m c :=
  (by host_pass c6 : U6 m c (Proc.devRef .tc main_arg6) = U5 m c (Proc.devRef .tc main_arg6)).trans (R5_arg6 m c)

theorem R6_v61 : U6 m c (Proc.devRef .tc main_v61) = val_main_v61 (F := Ideal) (A1 m c) (A2 m c) := by
  have ha := R5_v59 m c
  have hb := R5_v60 m c
  have hc := R5_cst_11 m c
  show StableHlo.after (c6 (F := Ideal)) (U5 m c) (Proc.devRef .tc main_v61) = _
  generalize U5 m c = V at ha hb hc ⊢
  after_results_simp
  refine eq_of_heq ((cast_heq _ _).trans (heq_of_eq ?_))
  unfold val_main_v61 val_main_call2_v1 val_main_call2_v0
  refine congr (congr (congrArg select ?_) ?_) ?_
  · exact eq_of_heq ((cast_heq _ _).trans (heq_of_eq ha))
  · exact eq_of_heq ((cast_heq _ _).trans (heq_of_eq hb))
  · exact (ofBuf_toBuf _ _).trans (congrArg (broadcastInDim S50000 ![] bcast_S_S50000)
      ((ofBuf_toBuf _ _).trans (congrArg id (eq_of_heq ((cast_heq _ _).trans (heq_of_eq hc))))))

theorem R6_v54 : U6 m c (Proc.devRef .tc main_v54) = val_main_v54 (F := Ideal) (A0 m c) (A1 m c) (A2 m c) (A3 m c) (A4 m c) (A5 m c) :=
  (by host_pass c6 : U6 m c (Proc.devRef .tc main_v54) = U5 m c (Proc.devRef .tc main_v54)).trans (R5_v54 m c)

theorem R6_v53 : U6 m c (Proc.devRef .tc main_v53) = val_main_v53 (F := Ideal) (A6 m c) :=
  (by host_pass c6 : U6 m c (Proc.devRef .tc main_v53) = U5 m c (Proc.devRef .tc main_v53)).trans (R5_v53 m c)

/-! ## Group 7 -/

theorem R7_v49 : U7 m c (Proc.devRef .tc main_v49) = val_main_v49 (F := Ideal) (A0 m c) (A1 m c) (A2 m c) (A3 m c) (A4 m c) :=
  (by host_pass c7 : U7 m c (Proc.devRef .tc main_v49) = U6 m c (Proc.devRef .tc main_v49)).trans (R6_v49 m c)

theorem R7_arg7 : U7 m c (Proc.devRef .tc main_arg7) = A7 m c :=
  (by host_pass c7 : U7 m c (Proc.devRef .tc main_arg7) = U6 m c (Proc.devRef .tc main_arg7)).trans (R6_arg7 m c)

theorem R7_arg8 : U7 m c (Proc.devRef .tc main_arg8) = A8 m c :=
  (by host_pass c7 : U7 m c (Proc.devRef .tc main_arg8) = U6 m c (Proc.devRef .tc main_arg8)).trans (R6_arg8 m c)

theorem R7_v3 : U7 m c (Proc.devRef .tc main_v3) = val_main_v3 (F := Ideal) (A1 m c) :=
  (by host_pass c7 : U7 m c (Proc.devRef .tc main_v3) = U6 m c (Proc.devRef .tc main_v3)).trans (R6_v3 m c)

theorem R7_v8 : U7 m c (Proc.devRef .tc main_v8) = val_main_v8 (F := Ideal) (A2 m c) :=
  (by host_pass c7 : U7 m c (Proc.devRef .tc main_v8) = U6 m c (Proc.devRef .tc main_v8)).trans (R6_v8 m c)

theorem R7_v6 : U7 m c (Proc.devRef .tc main_v6) = val_main_v6 (F := Ideal) (A1 m c) :=
  (by host_pass c7 : U7 m c (Proc.devRef .tc main_v6) = U6 m c (Proc.devRef .tc main_v6)).trans (R6_v6 m c)

theorem R7_arg5 : U7 m c (Proc.devRef .tc main_arg5) = A5 m c :=
  (by host_pass c7 : U7 m c (Proc.devRef .tc main_arg5) = U6 m c (Proc.devRef .tc main_arg5)).trans (R6_arg5 m c)

theorem R7_arg6 : U7 m c (Proc.devRef .tc main_arg6) = A6 m c :=
  (by host_pass c7 : U7 m c (Proc.devRef .tc main_arg6) = U6 m c (Proc.devRef .tc main_arg6)).trans (R6_arg6 m c)

theorem R7_v93 : U7 m c (Proc.devRef .tc main_v93) = val_main_v93 (F := Ideal) (A0 m c) (A1 m c) (A2 m c) (A3 m c) (A4 m c) (A5 m c) (A6 m c) := by
  show StableHlo.after (c7 (F := Ideal)) (U6 m c) (Proc.devRef .tc main_v93) = _
  after_results_simp
  try simp only [R6_v3 m c, R6_v61 m c, R6_v8 m c, R6_v6 m c, R6_v54 m c, R6_v53 m c]
  rfl

/-! ## Group 8 -/

theorem R8_v49 : U8 m c (Proc.devRef .tc main_v49) = val_main_v49 (F := Ideal) (A0 m c) (A1 m c) (A2 m c) (A3 m c) (A4 m c) :=
  (by host_pass c8 : U8 m c (Proc.devRef .tc main_v49) = U7 m c (Proc.devRef .tc main_v49)).trans (R7_v49 m c)

theorem R8_v94 : U8 m c (Proc.devRef .tc main_v94) = val_main_v94 (F := Ideal) (A0 m c) (A1 m c) (A2 m c) (A3 m c) (A4 m c) (A5 m c) (A6 m c) := by
  have hx := R7_v93 m c
  show StableHlo.after (c8 (F := Ideal)) (U7 m c) (Proc.devRef .tc main_v94) = _
  generalize U7 m c = V at hx ⊢
  after_results_simp
  refine eq_of_heq ((cast_heq _ _).trans (heq_of_eq ?_))
  rw [ofBuf_toBuf, ofBuf_toBuf]
  unfold val_main_v94 val_main_call3_v0 val_main_call3_cst
  exact congr (congrArg maximumf (eq_of_heq ((cast_heq _ _).trans (heq_of_eq hx)))) rfl

theorem R8_arg7 : U8 m c (Proc.devRef .tc main_arg7) = A7 m c :=
  (by host_pass c8 : U8 m c (Proc.devRef .tc main_arg7) = U7 m c (Proc.devRef .tc main_arg7)).trans (R7_arg7 m c)

theorem R8_arg8 : U8 m c (Proc.devRef .tc main_arg8) = A8 m c :=
  (by host_pass c8 : U8 m c (Proc.devRef .tc main_arg8) = U7 m c (Proc.devRef .tc main_arg8)).trans (R7_arg8 m c)

theorem R8_v3 : U8 m c (Proc.devRef .tc main_v3) = val_main_v3 (F := Ideal) (A1 m c) :=
  (by host_pass c8 : U8 m c (Proc.devRef .tc main_v3) = U7 m c (Proc.devRef .tc main_v3)).trans (R7_v3 m c)

theorem R8_v8 : U8 m c (Proc.devRef .tc main_v8) = val_main_v8 (F := Ideal) (A2 m c) :=
  (by host_pass c8 : U8 m c (Proc.devRef .tc main_v8) = U7 m c (Proc.devRef .tc main_v8)).trans (R7_v8 m c)

theorem R8_v6 : U8 m c (Proc.devRef .tc main_v6) = val_main_v6 (F := Ideal) (A1 m c) :=
  (by host_pass c8 : U8 m c (Proc.devRef .tc main_v6) = U7 m c (Proc.devRef .tc main_v6)).trans (R7_v6 m c)

theorem R8_arg5 : U8 m c (Proc.devRef .tc main_arg5) = A5 m c :=
  (by host_pass c8 : U8 m c (Proc.devRef .tc main_arg5) = U7 m c (Proc.devRef .tc main_arg5)).trans (R7_arg5 m c)

theorem R8_arg6 : U8 m c (Proc.devRef .tc main_arg6) = A6 m c :=
  (by host_pass c8 : U8 m c (Proc.devRef .tc main_arg6) = U7 m c (Proc.devRef .tc main_arg6)).trans (R7_arg6 m c)

/-! ## Group 9 -/

theorem R9_v49 : U9 m c (Proc.devRef .tc main_v49) = val_main_v49 (F := Ideal) (A0 m c) (A1 m c) (A2 m c) (A3 m c) (A4 m c) :=
  (by host_pass c9 : U9 m c (Proc.devRef .tc main_v49) = U8 m c (Proc.devRef .tc main_v49)).trans (R8_v49 m c)

theorem R9_v94 : U9 m c (Proc.devRef .tc main_v94) = val_main_v94 (F := Ideal) (A0 m c) (A1 m c) (A2 m c) (A3 m c) (A4 m c) (A5 m c) (A6 m c) :=
  (by host_pass c9 : U9 m c (Proc.devRef .tc main_v94) = U8 m c (Proc.devRef .tc main_v94)).trans (R8_v94 m c)

theorem R9_arg7 : U9 m c (Proc.devRef .tc main_arg7) = A7 m c :=
  (by host_pass c9 : U9 m c (Proc.devRef .tc main_arg7) = U8 m c (Proc.devRef .tc main_arg7)).trans (R8_arg7 m c)

theorem R9_arg8 : U9 m c (Proc.devRef .tc main_arg8) = A8 m c :=
  (by host_pass c9 : U9 m c (Proc.devRef .tc main_arg8) = U8 m c (Proc.devRef .tc main_arg8)).trans (R8_arg8 m c)

theorem R9_v3 : U9 m c (Proc.devRef .tc main_v3) = val_main_v3 (F := Ideal) (A1 m c) :=
  (by host_pass c9 : U9 m c (Proc.devRef .tc main_v3) = U8 m c (Proc.devRef .tc main_v3)).trans (R8_v3 m c)

theorem R9_v8 : U9 m c (Proc.devRef .tc main_v8) = val_main_v8 (F := Ideal) (A2 m c) :=
  (by host_pass c9 : U9 m c (Proc.devRef .tc main_v8) = U8 m c (Proc.devRef .tc main_v8)).trans (R8_v8 m c)

theorem R9_v6 : U9 m c (Proc.devRef .tc main_v6) = val_main_v6 (F := Ideal) (A1 m c) :=
  (by host_pass c9 : U9 m c (Proc.devRef .tc main_v6) = U8 m c (Proc.devRef .tc main_v6)).trans (R8_v6 m c)

theorem R9_arg5 : U9 m c (Proc.devRef .tc main_arg5) = A5 m c :=
  (by host_pass c9 : U9 m c (Proc.devRef .tc main_arg5) = U8 m c (Proc.devRef .tc main_arg5)).trans (R8_arg5 m c)

theorem R9_arg6 : U9 m c (Proc.devRef .tc main_arg6) = A6 m c :=
  (by host_pass c9 : U9 m c (Proc.devRef .tc main_arg6) = U8 m c (Proc.devRef .tc main_arg6)).trans (R8_arg6 m c)

theorem R9_v99 : U9 m c (Proc.devRef .tc main_v99) = val_main_v99 (F := Ideal) (A0 m c) (A1 m c) (A2 m c) (A3 m c) (A4 m c) (A5 m c) (A6 m c) := by
  show StableHlo.after (c9 (F := Ideal)) (U8 m c) (Proc.devRef .tc main_v99) = _
  after_results_simp
  try simp only [R8_arg5 m c, R8_arg6 m c, R8_v94 m c, R8_v6 m c, R8_v8 m c]
  rfl

theorem R9_v98 : U9 m c (Proc.devRef .tc main_v98) = val_main_v98 (F := Ideal) (A6 m c) := by
  show StableHlo.after (c9 (F := Ideal)) (U8 m c) (Proc.devRef .tc main_v98) = _
  after_results_simp
  try simp only [R8_arg5 m c, R8_arg6 m c, R8_v94 m c, R8_v6 m c, R8_v8 m c]
  rfl

theorem R9_cst_21 : U9 m c (Proc.devRef .tc main_cst_21) = val_main_cst_21 (F := Ideal) := by
  show StableHlo.after (c9 (F := Ideal)) (U8 m c) (Proc.devRef .tc main_cst_21) = _
  after_results_simp
  try simp only [R8_arg5 m c, R8_arg6 m c, R8_v94 m c, R8_v6 m c, R8_v8 m c]
  rfl

theorem R9_v104 : U9 m c (Proc.devRef .tc main_v104) = val_main_v104 (F := Ideal) (A1 m c) (A2 m c) := by
  show StableHlo.after (c9 (F := Ideal)) (U8 m c) (Proc.devRef .tc main_v104) = _
  after_results_simp
  try simp only [R8_arg5 m c, R8_arg6 m c, R8_v94 m c, R8_v6 m c, R8_v8 m c]
  rfl

theorem R9_v105 : U9 m c (Proc.devRef .tc main_v105) = val_main_v105 (F := Ideal) (A1 m c) (A2 m c) := by
  show StableHlo.after (c9 (F := Ideal)) (U8 m c) (Proc.devRef .tc main_v105) = _
  after_results_simp
  try simp only [R8_arg5 m c, R8_arg6 m c, R8_v94 m c, R8_v6 m c, R8_v8 m c]
  rfl

/-! ## Group 10 -/

theorem R10_v49 : U10 m c (Proc.devRef .tc main_v49) = val_main_v49 (F := Ideal) (A0 m c) (A1 m c) (A2 m c) (A3 m c) (A4 m c) :=
  (by host_pass c10 : U10 m c (Proc.devRef .tc main_v49) = U9 m c (Proc.devRef .tc main_v49)).trans (R9_v49 m c)

theorem R10_v94 : U10 m c (Proc.devRef .tc main_v94) = val_main_v94 (F := Ideal) (A0 m c) (A1 m c) (A2 m c) (A3 m c) (A4 m c) (A5 m c) (A6 m c) :=
  (by host_pass c10 : U10 m c (Proc.devRef .tc main_v94) = U9 m c (Proc.devRef .tc main_v94)).trans (R9_v94 m c)

theorem R10_arg7 : U10 m c (Proc.devRef .tc main_arg7) = A7 m c :=
  (by host_pass c10 : U10 m c (Proc.devRef .tc main_arg7) = U9 m c (Proc.devRef .tc main_arg7)).trans (R9_arg7 m c)

theorem R10_arg8 : U10 m c (Proc.devRef .tc main_arg8) = A8 m c :=
  (by host_pass c10 : U10 m c (Proc.devRef .tc main_arg8) = U9 m c (Proc.devRef .tc main_arg8)).trans (R9_arg8 m c)

theorem R10_v3 : U10 m c (Proc.devRef .tc main_v3) = val_main_v3 (F := Ideal) (A1 m c) :=
  (by host_pass c10 : U10 m c (Proc.devRef .tc main_v3) = U9 m c (Proc.devRef .tc main_v3)).trans (R9_v3 m c)

theorem R10_v8 : U10 m c (Proc.devRef .tc main_v8) = val_main_v8 (F := Ideal) (A2 m c) :=
  (by host_pass c10 : U10 m c (Proc.devRef .tc main_v8) = U9 m c (Proc.devRef .tc main_v8)).trans (R9_v8 m c)

theorem R10_v6 : U10 m c (Proc.devRef .tc main_v6) = val_main_v6 (F := Ideal) (A1 m c) :=
  (by host_pass c10 : U10 m c (Proc.devRef .tc main_v6) = U9 m c (Proc.devRef .tc main_v6)).trans (R9_v6 m c)

theorem R10_arg5 : U10 m c (Proc.devRef .tc main_arg5) = A5 m c :=
  (by host_pass c10 : U10 m c (Proc.devRef .tc main_arg5) = U9 m c (Proc.devRef .tc main_arg5)).trans (R9_arg5 m c)

theorem R10_arg6 : U10 m c (Proc.devRef .tc main_arg6) = A6 m c :=
  (by host_pass c10 : U10 m c (Proc.devRef .tc main_arg6) = U9 m c (Proc.devRef .tc main_arg6)).trans (R9_arg6 m c)

theorem R10_v106 : U10 m c (Proc.devRef .tc main_v106) = val_main_v106 (F := Ideal) (A1 m c) (A2 m c) := by
  have ha := R9_v104 m c
  have hb := R9_v105 m c
  have hc := R9_cst_21 m c
  show StableHlo.after (c10 (F := Ideal)) (U9 m c) (Proc.devRef .tc main_v106) = _
  generalize U9 m c = V at ha hb hc ⊢
  after_results_simp
  refine eq_of_heq ((cast_heq _ _).trans (heq_of_eq ?_))
  unfold val_main_v106 val_main_call4_v1 val_main_call4_v0
  refine congr (congr (congrArg select ?_) ?_) ?_
  · exact eq_of_heq ((cast_heq _ _).trans (heq_of_eq ha))
  · exact eq_of_heq ((cast_heq _ _).trans (heq_of_eq hb))
  · exact (ofBuf_toBuf _ _).trans (congrArg (broadcastInDim S50000 ![] bcast_S_S50000)
      ((ofBuf_toBuf _ _).trans (congrArg id (eq_of_heq ((cast_heq _ _).trans (heq_of_eq hc))))))

theorem R10_v99 : U10 m c (Proc.devRef .tc main_v99) = val_main_v99 (F := Ideal) (A0 m c) (A1 m c) (A2 m c) (A3 m c) (A4 m c) (A5 m c) (A6 m c) :=
  (by host_pass c10 : U10 m c (Proc.devRef .tc main_v99) = U9 m c (Proc.devRef .tc main_v99)).trans (R9_v99 m c)

theorem R10_v98 : U10 m c (Proc.devRef .tc main_v98) = val_main_v98 (F := Ideal) (A6 m c) :=
  (by host_pass c10 : U10 m c (Proc.devRef .tc main_v98) = U9 m c (Proc.devRef .tc main_v98)).trans (R9_v98 m c)

/-! ## Group 11 -/

theorem R11_v49 : U11 m c (Proc.devRef .tc main_v49) = val_main_v49 (F := Ideal) (A0 m c) (A1 m c) (A2 m c) (A3 m c) (A4 m c) :=
  (by host_pass c11 : U11 m c (Proc.devRef .tc main_v49) = U10 m c (Proc.devRef .tc main_v49)).trans (R10_v49 m c)

theorem R11_v94 : U11 m c (Proc.devRef .tc main_v94) = val_main_v94 (F := Ideal) (A0 m c) (A1 m c) (A2 m c) (A3 m c) (A4 m c) (A5 m c) (A6 m c) :=
  (by host_pass c11 : U11 m c (Proc.devRef .tc main_v94) = U10 m c (Proc.devRef .tc main_v94)).trans (R10_v94 m c)

theorem R11_arg7 : U11 m c (Proc.devRef .tc main_arg7) = A7 m c :=
  (by host_pass c11 : U11 m c (Proc.devRef .tc main_arg7) = U10 m c (Proc.devRef .tc main_arg7)).trans (R10_arg7 m c)

theorem R11_arg8 : U11 m c (Proc.devRef .tc main_arg8) = A8 m c :=
  (by host_pass c11 : U11 m c (Proc.devRef .tc main_arg8) = U10 m c (Proc.devRef .tc main_arg8)).trans (R10_arg8 m c)

theorem R11_v3 : U11 m c (Proc.devRef .tc main_v3) = val_main_v3 (F := Ideal) (A1 m c) :=
  (by host_pass c11 : U11 m c (Proc.devRef .tc main_v3) = U10 m c (Proc.devRef .tc main_v3)).trans (R10_v3 m c)

theorem R11_v8 : U11 m c (Proc.devRef .tc main_v8) = val_main_v8 (F := Ideal) (A2 m c) :=
  (by host_pass c11 : U11 m c (Proc.devRef .tc main_v8) = U10 m c (Proc.devRef .tc main_v8)).trans (R10_v8 m c)

theorem R11_v6 : U11 m c (Proc.devRef .tc main_v6) = val_main_v6 (F := Ideal) (A1 m c) :=
  (by host_pass c11 : U11 m c (Proc.devRef .tc main_v6) = U10 m c (Proc.devRef .tc main_v6)).trans (R10_v6 m c)

theorem R11_arg5 : U11 m c (Proc.devRef .tc main_arg5) = A5 m c :=
  (by host_pass c11 : U11 m c (Proc.devRef .tc main_arg5) = U10 m c (Proc.devRef .tc main_arg5)).trans (R10_arg5 m c)

theorem R11_arg6 : U11 m c (Proc.devRef .tc main_arg6) = A6 m c :=
  (by host_pass c11 : U11 m c (Proc.devRef .tc main_arg6) = U10 m c (Proc.devRef .tc main_arg6)).trans (R10_arg6 m c)

theorem R11_v138 : U11 m c (Proc.devRef .tc main_v138) = val_main_v138 (F := Ideal) (A0 m c) (A1 m c) (A2 m c) (A3 m c) (A4 m c) (A5 m c) (A6 m c) := by
  show StableHlo.after (c11 (F := Ideal)) (U10 m c) (Proc.devRef .tc main_v138) = _
  after_results_simp
  try simp only [R10_v3 m c, R10_v106 m c, R10_v8 m c, R10_v6 m c, R10_v99 m c, R10_v98 m c]
  rfl

/-! ## Group 12 -/

theorem R12_v49 : U12 m c (Proc.devRef .tc main_v49) = val_main_v49 (F := Ideal) (A0 m c) (A1 m c) (A2 m c) (A3 m c) (A4 m c) :=
  (by host_pass c12 : U12 m c (Proc.devRef .tc main_v49) = U11 m c (Proc.devRef .tc main_v49)).trans (R11_v49 m c)

theorem R12_v94 : U12 m c (Proc.devRef .tc main_v94) = val_main_v94 (F := Ideal) (A0 m c) (A1 m c) (A2 m c) (A3 m c) (A4 m c) (A5 m c) (A6 m c) :=
  (by host_pass c12 : U12 m c (Proc.devRef .tc main_v94) = U11 m c (Proc.devRef .tc main_v94)).trans (R11_v94 m c)

theorem R12_v139 : U12 m c (Proc.devRef .tc main_v139) = val_main_v139 (F := Ideal) (A0 m c) (A1 m c) (A2 m c) (A3 m c) (A4 m c) (A5 m c) (A6 m c) := by
  have hx := R11_v138 m c
  show StableHlo.after (c12 (F := Ideal)) (U11 m c) (Proc.devRef .tc main_v139) = _
  generalize U11 m c = V at hx ⊢
  after_results_simp
  refine eq_of_heq ((cast_heq _ _).trans (heq_of_eq ?_))
  rw [ofBuf_toBuf, ofBuf_toBuf]
  unfold val_main_v139 val_main_call5_v0 val_main_call5_cst
  exact congr (congrArg maximumf (eq_of_heq ((cast_heq _ _).trans (heq_of_eq hx)))) rfl

theorem R12_arg7 : U12 m c (Proc.devRef .tc main_arg7) = A7 m c :=
  (by host_pass c12 : U12 m c (Proc.devRef .tc main_arg7) = U11 m c (Proc.devRef .tc main_arg7)).trans (R11_arg7 m c)

theorem R12_arg8 : U12 m c (Proc.devRef .tc main_arg8) = A8 m c :=
  (by host_pass c12 : U12 m c (Proc.devRef .tc main_arg8) = U11 m c (Proc.devRef .tc main_arg8)).trans (R11_arg8 m c)

theorem R12_v3 : U12 m c (Proc.devRef .tc main_v3) = val_main_v3 (F := Ideal) (A1 m c) :=
  (by host_pass c12 : U12 m c (Proc.devRef .tc main_v3) = U11 m c (Proc.devRef .tc main_v3)).trans (R11_v3 m c)

theorem R12_v8 : U12 m c (Proc.devRef .tc main_v8) = val_main_v8 (F := Ideal) (A2 m c) :=
  (by host_pass c12 : U12 m c (Proc.devRef .tc main_v8) = U11 m c (Proc.devRef .tc main_v8)).trans (R11_v8 m c)

theorem R12_v6 : U12 m c (Proc.devRef .tc main_v6) = val_main_v6 (F := Ideal) (A1 m c) :=
  (by host_pass c12 : U12 m c (Proc.devRef .tc main_v6) = U11 m c (Proc.devRef .tc main_v6)).trans (R11_v6 m c)

theorem R12_arg5 : U12 m c (Proc.devRef .tc main_arg5) = A5 m c :=
  (by host_pass c12 : U12 m c (Proc.devRef .tc main_arg5) = U11 m c (Proc.devRef .tc main_arg5)).trans (R11_arg5 m c)

theorem R12_arg6 : U12 m c (Proc.devRef .tc main_arg6) = A6 m c :=
  (by host_pass c12 : U12 m c (Proc.devRef .tc main_arg6) = U11 m c (Proc.devRef .tc main_arg6)).trans (R11_arg6 m c)

/-! ## Group 13 -/

theorem R13_v49 : U13 m c (Proc.devRef .tc main_v49) = val_main_v49 (F := Ideal) (A0 m c) (A1 m c) (A2 m c) (A3 m c) (A4 m c) :=
  (by host_pass c13 : U13 m c (Proc.devRef .tc main_v49) = U12 m c (Proc.devRef .tc main_v49)).trans (R12_v49 m c)

theorem R13_v94 : U13 m c (Proc.devRef .tc main_v94) = val_main_v94 (F := Ideal) (A0 m c) (A1 m c) (A2 m c) (A3 m c) (A4 m c) (A5 m c) (A6 m c) :=
  (by host_pass c13 : U13 m c (Proc.devRef .tc main_v94) = U12 m c (Proc.devRef .tc main_v94)).trans (R12_v94 m c)

theorem R13_v139 : U13 m c (Proc.devRef .tc main_v139) = val_main_v139 (F := Ideal) (A0 m c) (A1 m c) (A2 m c) (A3 m c) (A4 m c) (A5 m c) (A6 m c) :=
  (by host_pass c13 : U13 m c (Proc.devRef .tc main_v139) = U12 m c (Proc.devRef .tc main_v139)).trans (R12_v139 m c)

theorem R13_arg7 : U13 m c (Proc.devRef .tc main_arg7) = A7 m c :=
  (by host_pass c13 : U13 m c (Proc.devRef .tc main_arg7) = U12 m c (Proc.devRef .tc main_arg7)).trans (R12_arg7 m c)

theorem R13_arg8 : U13 m c (Proc.devRef .tc main_arg8) = A8 m c :=
  (by host_pass c13 : U13 m c (Proc.devRef .tc main_arg8) = U12 m c (Proc.devRef .tc main_arg8)).trans (R12_arg8 m c)

theorem R13_v3 : U13 m c (Proc.devRef .tc main_v3) = val_main_v3 (F := Ideal) (A1 m c) :=
  (by host_pass c13 : U13 m c (Proc.devRef .tc main_v3) = U12 m c (Proc.devRef .tc main_v3)).trans (R12_v3 m c)

theorem R13_v8 : U13 m c (Proc.devRef .tc main_v8) = val_main_v8 (F := Ideal) (A2 m c) :=
  (by host_pass c13 : U13 m c (Proc.devRef .tc main_v8) = U12 m c (Proc.devRef .tc main_v8)).trans (R12_v8 m c)

theorem R13_v6 : U13 m c (Proc.devRef .tc main_v6) = val_main_v6 (F := Ideal) (A1 m c) :=
  (by host_pass c13 : U13 m c (Proc.devRef .tc main_v6) = U12 m c (Proc.devRef .tc main_v6)).trans (R12_v6 m c)

theorem R13_arg5 : U13 m c (Proc.devRef .tc main_arg5) = A5 m c :=
  (by host_pass c13 : U13 m c (Proc.devRef .tc main_arg5) = U12 m c (Proc.devRef .tc main_arg5)).trans (R12_arg5 m c)

theorem R13_arg6 : U13 m c (Proc.devRef .tc main_arg6) = A6 m c :=
  (by host_pass c13 : U13 m c (Proc.devRef .tc main_arg6) = U12 m c (Proc.devRef .tc main_arg6)).trans (R12_arg6 m c)

theorem R13_v144 : U13 m c (Proc.devRef .tc main_v144) = val_main_v144 (F := Ideal) (A0 m c) (A1 m c) (A2 m c) (A3 m c) (A4 m c) (A5 m c) (A6 m c) := by
  show StableHlo.after (c13 (F := Ideal)) (U12 m c) (Proc.devRef .tc main_v144) = _
  after_results_simp
  try simp only [R12_arg5 m c, R12_arg6 m c, R12_v139 m c, R12_v6 m c, R12_v8 m c]
  rfl

theorem R13_v143 : U13 m c (Proc.devRef .tc main_v143) = val_main_v143 (F := Ideal) (A6 m c) := by
  show StableHlo.after (c13 (F := Ideal)) (U12 m c) (Proc.devRef .tc main_v143) = _
  after_results_simp
  try simp only [R12_arg5 m c, R12_arg6 m c, R12_v139 m c, R12_v6 m c, R12_v8 m c]
  rfl

theorem R13_cst_31 : U13 m c (Proc.devRef .tc main_cst_31) = val_main_cst_31 (F := Ideal) := by
  show StableHlo.after (c13 (F := Ideal)) (U12 m c) (Proc.devRef .tc main_cst_31) = _
  after_results_simp
  try simp only [R12_arg5 m c, R12_arg6 m c, R12_v139 m c, R12_v6 m c, R12_v8 m c]
  rfl

theorem R13_v149 : U13 m c (Proc.devRef .tc main_v149) = val_main_v149 (F := Ideal) (A1 m c) (A2 m c) := by
  show StableHlo.after (c13 (F := Ideal)) (U12 m c) (Proc.devRef .tc main_v149) = _
  after_results_simp
  try simp only [R12_arg5 m c, R12_arg6 m c, R12_v139 m c, R12_v6 m c, R12_v8 m c]
  rfl

theorem R13_v150 : U13 m c (Proc.devRef .tc main_v150) = val_main_v150 (F := Ideal) (A1 m c) (A2 m c) := by
  show StableHlo.after (c13 (F := Ideal)) (U12 m c) (Proc.devRef .tc main_v150) = _
  after_results_simp
  try simp only [R12_arg5 m c, R12_arg6 m c, R12_v139 m c, R12_v6 m c, R12_v8 m c]
  rfl

/-! ## Group 14 -/

theorem R14_v49 : U14 m c (Proc.devRef .tc main_v49) = val_main_v49 (F := Ideal) (A0 m c) (A1 m c) (A2 m c) (A3 m c) (A4 m c) :=
  (by host_pass c14 : U14 m c (Proc.devRef .tc main_v49) = U13 m c (Proc.devRef .tc main_v49)).trans (R13_v49 m c)

theorem R14_v94 : U14 m c (Proc.devRef .tc main_v94) = val_main_v94 (F := Ideal) (A0 m c) (A1 m c) (A2 m c) (A3 m c) (A4 m c) (A5 m c) (A6 m c) :=
  (by host_pass c14 : U14 m c (Proc.devRef .tc main_v94) = U13 m c (Proc.devRef .tc main_v94)).trans (R13_v94 m c)

theorem R14_v139 : U14 m c (Proc.devRef .tc main_v139) = val_main_v139 (F := Ideal) (A0 m c) (A1 m c) (A2 m c) (A3 m c) (A4 m c) (A5 m c) (A6 m c) :=
  (by host_pass c14 : U14 m c (Proc.devRef .tc main_v139) = U13 m c (Proc.devRef .tc main_v139)).trans (R13_v139 m c)

theorem R14_arg7 : U14 m c (Proc.devRef .tc main_arg7) = A7 m c :=
  (by host_pass c14 : U14 m c (Proc.devRef .tc main_arg7) = U13 m c (Proc.devRef .tc main_arg7)).trans (R13_arg7 m c)

theorem R14_arg8 : U14 m c (Proc.devRef .tc main_arg8) = A8 m c :=
  (by host_pass c14 : U14 m c (Proc.devRef .tc main_arg8) = U13 m c (Proc.devRef .tc main_arg8)).trans (R13_arg8 m c)

theorem R14_v3 : U14 m c (Proc.devRef .tc main_v3) = val_main_v3 (F := Ideal) (A1 m c) :=
  (by host_pass c14 : U14 m c (Proc.devRef .tc main_v3) = U13 m c (Proc.devRef .tc main_v3)).trans (R13_v3 m c)

theorem R14_v8 : U14 m c (Proc.devRef .tc main_v8) = val_main_v8 (F := Ideal) (A2 m c) :=
  (by host_pass c14 : U14 m c (Proc.devRef .tc main_v8) = U13 m c (Proc.devRef .tc main_v8)).trans (R13_v8 m c)

theorem R14_v6 : U14 m c (Proc.devRef .tc main_v6) = val_main_v6 (F := Ideal) (A1 m c) :=
  (by host_pass c14 : U14 m c (Proc.devRef .tc main_v6) = U13 m c (Proc.devRef .tc main_v6)).trans (R13_v6 m c)

theorem R14_arg5 : U14 m c (Proc.devRef .tc main_arg5) = A5 m c :=
  (by host_pass c14 : U14 m c (Proc.devRef .tc main_arg5) = U13 m c (Proc.devRef .tc main_arg5)).trans (R13_arg5 m c)

theorem R14_arg6 : U14 m c (Proc.devRef .tc main_arg6) = A6 m c :=
  (by host_pass c14 : U14 m c (Proc.devRef .tc main_arg6) = U13 m c (Proc.devRef .tc main_arg6)).trans (R13_arg6 m c)

theorem R14_v151 : U14 m c (Proc.devRef .tc main_v151) = val_main_v151 (F := Ideal) (A1 m c) (A2 m c) := by
  have ha := R13_v149 m c
  have hb := R13_v150 m c
  have hc := R13_cst_31 m c
  show StableHlo.after (c14 (F := Ideal)) (U13 m c) (Proc.devRef .tc main_v151) = _
  generalize U13 m c = V at ha hb hc ⊢
  after_results_simp
  refine eq_of_heq ((cast_heq _ _).trans (heq_of_eq ?_))
  unfold val_main_v151 val_main_call6_v1 val_main_call6_v0
  refine congr (congr (congrArg select ?_) ?_) ?_
  · exact eq_of_heq ((cast_heq _ _).trans (heq_of_eq ha))
  · exact eq_of_heq ((cast_heq _ _).trans (heq_of_eq hb))
  · exact (ofBuf_toBuf _ _).trans (congrArg (broadcastInDim S50000 ![] bcast_S_S50000)
      ((ofBuf_toBuf _ _).trans (congrArg id (eq_of_heq ((cast_heq _ _).trans (heq_of_eq hc))))))

theorem R14_v144 : U14 m c (Proc.devRef .tc main_v144) = val_main_v144 (F := Ideal) (A0 m c) (A1 m c) (A2 m c) (A3 m c) (A4 m c) (A5 m c) (A6 m c) :=
  (by host_pass c14 : U14 m c (Proc.devRef .tc main_v144) = U13 m c (Proc.devRef .tc main_v144)).trans (R13_v144 m c)

theorem R14_v143 : U14 m c (Proc.devRef .tc main_v143) = val_main_v143 (F := Ideal) (A6 m c) :=
  (by host_pass c14 : U14 m c (Proc.devRef .tc main_v143) = U13 m c (Proc.devRef .tc main_v143)).trans (R13_v143 m c)

/-! ## Group 15 -/

theorem R15_v49 : U15 m c (Proc.devRef .tc main_v49) = val_main_v49 (F := Ideal) (A0 m c) (A1 m c) (A2 m c) (A3 m c) (A4 m c) :=
  (by host_pass c15 : U15 m c (Proc.devRef .tc main_v49) = U14 m c (Proc.devRef .tc main_v49)).trans (R14_v49 m c)

theorem R15_v94 : U15 m c (Proc.devRef .tc main_v94) = val_main_v94 (F := Ideal) (A0 m c) (A1 m c) (A2 m c) (A3 m c) (A4 m c) (A5 m c) (A6 m c) :=
  (by host_pass c15 : U15 m c (Proc.devRef .tc main_v94) = U14 m c (Proc.devRef .tc main_v94)).trans (R14_v94 m c)

theorem R15_v139 : U15 m c (Proc.devRef .tc main_v139) = val_main_v139 (F := Ideal) (A0 m c) (A1 m c) (A2 m c) (A3 m c) (A4 m c) (A5 m c) (A6 m c) :=
  (by host_pass c15 : U15 m c (Proc.devRef .tc main_v139) = U14 m c (Proc.devRef .tc main_v139)).trans (R14_v139 m c)

theorem R15_arg7 : U15 m c (Proc.devRef .tc main_arg7) = A7 m c :=
  (by host_pass c15 : U15 m c (Proc.devRef .tc main_arg7) = U14 m c (Proc.devRef .tc main_arg7)).trans (R14_arg7 m c)

theorem R15_arg8 : U15 m c (Proc.devRef .tc main_arg8) = A8 m c :=
  (by host_pass c15 : U15 m c (Proc.devRef .tc main_arg8) = U14 m c (Proc.devRef .tc main_arg8)).trans (R14_arg8 m c)

theorem R15_v3 : U15 m c (Proc.devRef .tc main_v3) = val_main_v3 (F := Ideal) (A1 m c) :=
  (by host_pass c15 : U15 m c (Proc.devRef .tc main_v3) = U14 m c (Proc.devRef .tc main_v3)).trans (R14_v3 m c)

theorem R15_v8 : U15 m c (Proc.devRef .tc main_v8) = val_main_v8 (F := Ideal) (A2 m c) :=
  (by host_pass c15 : U15 m c (Proc.devRef .tc main_v8) = U14 m c (Proc.devRef .tc main_v8)).trans (R14_v8 m c)

theorem R15_v6 : U15 m c (Proc.devRef .tc main_v6) = val_main_v6 (F := Ideal) (A1 m c) :=
  (by host_pass c15 : U15 m c (Proc.devRef .tc main_v6) = U14 m c (Proc.devRef .tc main_v6)).trans (R14_v6 m c)

theorem R15_arg5 : U15 m c (Proc.devRef .tc main_arg5) = A5 m c :=
  (by host_pass c15 : U15 m c (Proc.devRef .tc main_arg5) = U14 m c (Proc.devRef .tc main_arg5)).trans (R14_arg5 m c)

theorem R15_arg6 : U15 m c (Proc.devRef .tc main_arg6) = A6 m c :=
  (by host_pass c15 : U15 m c (Proc.devRef .tc main_arg6) = U14 m c (Proc.devRef .tc main_arg6)).trans (R14_arg6 m c)

theorem R15_v183 : U15 m c (Proc.devRef .tc main_v183) = val_main_v183 (F := Ideal) (A0 m c) (A1 m c) (A2 m c) (A3 m c) (A4 m c) (A5 m c) (A6 m c) := by
  show StableHlo.after (c15 (F := Ideal)) (U14 m c) (Proc.devRef .tc main_v183) = _
  after_results_simp
  try simp only [R14_v3 m c, R14_v151 m c, R14_v8 m c, R14_v6 m c, R14_v144 m c, R14_v143 m c]
  rfl

/-! ## Group 16 -/

theorem R16_v49 : U16 m c (Proc.devRef .tc main_v49) = val_main_v49 (F := Ideal) (A0 m c) (A1 m c) (A2 m c) (A3 m c) (A4 m c) :=
  (by host_pass c16 : U16 m c (Proc.devRef .tc main_v49) = U15 m c (Proc.devRef .tc main_v49)).trans (R15_v49 m c)

theorem R16_v94 : U16 m c (Proc.devRef .tc main_v94) = val_main_v94 (F := Ideal) (A0 m c) (A1 m c) (A2 m c) (A3 m c) (A4 m c) (A5 m c) (A6 m c) :=
  (by host_pass c16 : U16 m c (Proc.devRef .tc main_v94) = U15 m c (Proc.devRef .tc main_v94)).trans (R15_v94 m c)

theorem R16_v139 : U16 m c (Proc.devRef .tc main_v139) = val_main_v139 (F := Ideal) (A0 m c) (A1 m c) (A2 m c) (A3 m c) (A4 m c) (A5 m c) (A6 m c) :=
  (by host_pass c16 : U16 m c (Proc.devRef .tc main_v139) = U15 m c (Proc.devRef .tc main_v139)).trans (R15_v139 m c)

theorem R16_v184 : U16 m c (Proc.devRef .tc main_v184) = val_main_v184 (F := Ideal) (A0 m c) (A1 m c) (A2 m c) (A3 m c) (A4 m c) (A5 m c) (A6 m c) := by
  have hx := R15_v183 m c
  show StableHlo.after (c16 (F := Ideal)) (U15 m c) (Proc.devRef .tc main_v184) = _
  generalize U15 m c = V at hx ⊢
  after_results_simp
  refine eq_of_heq ((cast_heq _ _).trans (heq_of_eq ?_))
  rw [ofBuf_toBuf, ofBuf_toBuf]
  unfold val_main_v184 val_main_call7_v0 val_main_call7_cst
  exact congr (congrArg maximumf (eq_of_heq ((cast_heq _ _).trans (heq_of_eq hx)))) rfl

theorem R16_arg7 : U16 m c (Proc.devRef .tc main_arg7) = A7 m c :=
  (by host_pass c16 : U16 m c (Proc.devRef .tc main_arg7) = U15 m c (Proc.devRef .tc main_arg7)).trans (R15_arg7 m c)

theorem R16_arg8 : U16 m c (Proc.devRef .tc main_arg8) = A8 m c :=
  (by host_pass c16 : U16 m c (Proc.devRef .tc main_arg8) = U15 m c (Proc.devRef .tc main_arg8)).trans (R15_arg8 m c)

theorem R16_v3 : U16 m c (Proc.devRef .tc main_v3) = val_main_v3 (F := Ideal) (A1 m c) :=
  (by host_pass c16 : U16 m c (Proc.devRef .tc main_v3) = U15 m c (Proc.devRef .tc main_v3)).trans (R15_v3 m c)

theorem R16_v8 : U16 m c (Proc.devRef .tc main_v8) = val_main_v8 (F := Ideal) (A2 m c) :=
  (by host_pass c16 : U16 m c (Proc.devRef .tc main_v8) = U15 m c (Proc.devRef .tc main_v8)).trans (R15_v8 m c)

theorem R16_v6 : U16 m c (Proc.devRef .tc main_v6) = val_main_v6 (F := Ideal) (A1 m c) :=
  (by host_pass c16 : U16 m c (Proc.devRef .tc main_v6) = U15 m c (Proc.devRef .tc main_v6)).trans (R15_v6 m c)

theorem R16_arg5 : U16 m c (Proc.devRef .tc main_arg5) = A5 m c :=
  (by host_pass c16 : U16 m c (Proc.devRef .tc main_arg5) = U15 m c (Proc.devRef .tc main_arg5)).trans (R15_arg5 m c)

theorem R16_arg6 : U16 m c (Proc.devRef .tc main_arg6) = A6 m c :=
  (by host_pass c16 : U16 m c (Proc.devRef .tc main_arg6) = U15 m c (Proc.devRef .tc main_arg6)).trans (R15_arg6 m c)

/-! ## Group 17 -/

theorem R17_v49 : U17 m c (Proc.devRef .tc main_v49) = val_main_v49 (F := Ideal) (A0 m c) (A1 m c) (A2 m c) (A3 m c) (A4 m c) :=
  (by host_pass c17 : U17 m c (Proc.devRef .tc main_v49) = U16 m c (Proc.devRef .tc main_v49)).trans (R16_v49 m c)

theorem R17_v94 : U17 m c (Proc.devRef .tc main_v94) = val_main_v94 (F := Ideal) (A0 m c) (A1 m c) (A2 m c) (A3 m c) (A4 m c) (A5 m c) (A6 m c) :=
  (by host_pass c17 : U17 m c (Proc.devRef .tc main_v94) = U16 m c (Proc.devRef .tc main_v94)).trans (R16_v94 m c)

theorem R17_v139 : U17 m c (Proc.devRef .tc main_v139) = val_main_v139 (F := Ideal) (A0 m c) (A1 m c) (A2 m c) (A3 m c) (A4 m c) (A5 m c) (A6 m c) :=
  (by host_pass c17 : U17 m c (Proc.devRef .tc main_v139) = U16 m c (Proc.devRef .tc main_v139)).trans (R16_v139 m c)

theorem R17_v184 : U17 m c (Proc.devRef .tc main_v184) = val_main_v184 (F := Ideal) (A0 m c) (A1 m c) (A2 m c) (A3 m c) (A4 m c) (A5 m c) (A6 m c) :=
  (by host_pass c17 : U17 m c (Proc.devRef .tc main_v184) = U16 m c (Proc.devRef .tc main_v184)).trans (R16_v184 m c)

theorem R17_arg7 : U17 m c (Proc.devRef .tc main_arg7) = A7 m c :=
  (by host_pass c17 : U17 m c (Proc.devRef .tc main_arg7) = U16 m c (Proc.devRef .tc main_arg7)).trans (R16_arg7 m c)

theorem R17_arg8 : U17 m c (Proc.devRef .tc main_arg8) = A8 m c :=
  (by host_pass c17 : U17 m c (Proc.devRef .tc main_arg8) = U16 m c (Proc.devRef .tc main_arg8)).trans (R16_arg8 m c)

theorem R17_v3 : U17 m c (Proc.devRef .tc main_v3) = val_main_v3 (F := Ideal) (A1 m c) :=
  (by host_pass c17 : U17 m c (Proc.devRef .tc main_v3) = U16 m c (Proc.devRef .tc main_v3)).trans (R16_v3 m c)

theorem R17_v8 : U17 m c (Proc.devRef .tc main_v8) = val_main_v8 (F := Ideal) (A2 m c) :=
  (by host_pass c17 : U17 m c (Proc.devRef .tc main_v8) = U16 m c (Proc.devRef .tc main_v8)).trans (R16_v8 m c)

theorem R17_v6 : U17 m c (Proc.devRef .tc main_v6) = val_main_v6 (F := Ideal) (A1 m c) :=
  (by host_pass c17 : U17 m c (Proc.devRef .tc main_v6) = U16 m c (Proc.devRef .tc main_v6)).trans (R16_v6 m c)

theorem R17_arg5 : U17 m c (Proc.devRef .tc main_arg5) = A5 m c :=
  (by host_pass c17 : U17 m c (Proc.devRef .tc main_arg5) = U16 m c (Proc.devRef .tc main_arg5)).trans (R16_arg5 m c)

theorem R17_arg6 : U17 m c (Proc.devRef .tc main_arg6) = A6 m c :=
  (by host_pass c17 : U17 m c (Proc.devRef .tc main_arg6) = U16 m c (Proc.devRef .tc main_arg6)).trans (R16_arg6 m c)

theorem R17_v189 : U17 m c (Proc.devRef .tc main_v189) = val_main_v189 (F := Ideal) (A0 m c) (A1 m c) (A2 m c) (A3 m c) (A4 m c) (A5 m c) (A6 m c) := by
  show StableHlo.after (c17 (F := Ideal)) (U16 m c) (Proc.devRef .tc main_v189) = _
  after_results_simp
  try simp only [R16_arg5 m c, R16_arg6 m c, R16_v184 m c, R16_v6 m c, R16_v8 m c]
  rfl

theorem R17_v188 : U17 m c (Proc.devRef .tc main_v188) = val_main_v188 (F := Ideal) (A6 m c) := by
  show StableHlo.after (c17 (F := Ideal)) (U16 m c) (Proc.devRef .tc main_v188) = _
  after_results_simp
  try simp only [R16_arg5 m c, R16_arg6 m c, R16_v184 m c, R16_v6 m c, R16_v8 m c]
  rfl

theorem R17_cst_41 : U17 m c (Proc.devRef .tc main_cst_41) = val_main_cst_41 (F := Ideal) := by
  show StableHlo.after (c17 (F := Ideal)) (U16 m c) (Proc.devRef .tc main_cst_41) = _
  after_results_simp
  try simp only [R16_arg5 m c, R16_arg6 m c, R16_v184 m c, R16_v6 m c, R16_v8 m c]
  rfl

theorem R17_v194 : U17 m c (Proc.devRef .tc main_v194) = val_main_v194 (F := Ideal) (A1 m c) (A2 m c) := by
  show StableHlo.after (c17 (F := Ideal)) (U16 m c) (Proc.devRef .tc main_v194) = _
  after_results_simp
  try simp only [R16_arg5 m c, R16_arg6 m c, R16_v184 m c, R16_v6 m c, R16_v8 m c]
  rfl

theorem R17_v195 : U17 m c (Proc.devRef .tc main_v195) = val_main_v195 (F := Ideal) (A1 m c) (A2 m c) := by
  show StableHlo.after (c17 (F := Ideal)) (U16 m c) (Proc.devRef .tc main_v195) = _
  after_results_simp
  try simp only [R16_arg5 m c, R16_arg6 m c, R16_v184 m c, R16_v6 m c, R16_v8 m c]
  rfl

/-! ## Group 18 -/

theorem R18_v49 : U18 m c (Proc.devRef .tc main_v49) = val_main_v49 (F := Ideal) (A0 m c) (A1 m c) (A2 m c) (A3 m c) (A4 m c) :=
  (by host_pass c18 : U18 m c (Proc.devRef .tc main_v49) = U17 m c (Proc.devRef .tc main_v49)).trans (R17_v49 m c)

theorem R18_v94 : U18 m c (Proc.devRef .tc main_v94) = val_main_v94 (F := Ideal) (A0 m c) (A1 m c) (A2 m c) (A3 m c) (A4 m c) (A5 m c) (A6 m c) :=
  (by host_pass c18 : U18 m c (Proc.devRef .tc main_v94) = U17 m c (Proc.devRef .tc main_v94)).trans (R17_v94 m c)

theorem R18_v139 : U18 m c (Proc.devRef .tc main_v139) = val_main_v139 (F := Ideal) (A0 m c) (A1 m c) (A2 m c) (A3 m c) (A4 m c) (A5 m c) (A6 m c) :=
  (by host_pass c18 : U18 m c (Proc.devRef .tc main_v139) = U17 m c (Proc.devRef .tc main_v139)).trans (R17_v139 m c)

theorem R18_v184 : U18 m c (Proc.devRef .tc main_v184) = val_main_v184 (F := Ideal) (A0 m c) (A1 m c) (A2 m c) (A3 m c) (A4 m c) (A5 m c) (A6 m c) :=
  (by host_pass c18 : U18 m c (Proc.devRef .tc main_v184) = U17 m c (Proc.devRef .tc main_v184)).trans (R17_v184 m c)

theorem R18_arg7 : U18 m c (Proc.devRef .tc main_arg7) = A7 m c :=
  (by host_pass c18 : U18 m c (Proc.devRef .tc main_arg7) = U17 m c (Proc.devRef .tc main_arg7)).trans (R17_arg7 m c)

theorem R18_arg8 : U18 m c (Proc.devRef .tc main_arg8) = A8 m c :=
  (by host_pass c18 : U18 m c (Proc.devRef .tc main_arg8) = U17 m c (Proc.devRef .tc main_arg8)).trans (R17_arg8 m c)

theorem R18_v3 : U18 m c (Proc.devRef .tc main_v3) = val_main_v3 (F := Ideal) (A1 m c) :=
  (by host_pass c18 : U18 m c (Proc.devRef .tc main_v3) = U17 m c (Proc.devRef .tc main_v3)).trans (R17_v3 m c)

theorem R18_v8 : U18 m c (Proc.devRef .tc main_v8) = val_main_v8 (F := Ideal) (A2 m c) :=
  (by host_pass c18 : U18 m c (Proc.devRef .tc main_v8) = U17 m c (Proc.devRef .tc main_v8)).trans (R17_v8 m c)

theorem R18_v6 : U18 m c (Proc.devRef .tc main_v6) = val_main_v6 (F := Ideal) (A1 m c) :=
  (by host_pass c18 : U18 m c (Proc.devRef .tc main_v6) = U17 m c (Proc.devRef .tc main_v6)).trans (R17_v6 m c)

theorem R18_arg5 : U18 m c (Proc.devRef .tc main_arg5) = A5 m c :=
  (by host_pass c18 : U18 m c (Proc.devRef .tc main_arg5) = U17 m c (Proc.devRef .tc main_arg5)).trans (R17_arg5 m c)

theorem R18_arg6 : U18 m c (Proc.devRef .tc main_arg6) = A6 m c :=
  (by host_pass c18 : U18 m c (Proc.devRef .tc main_arg6) = U17 m c (Proc.devRef .tc main_arg6)).trans (R17_arg6 m c)

theorem R18_v196 : U18 m c (Proc.devRef .tc main_v196) = val_main_v196 (F := Ideal) (A1 m c) (A2 m c) := by
  have ha := R17_v194 m c
  have hb := R17_v195 m c
  have hc := R17_cst_41 m c
  show StableHlo.after (c18 (F := Ideal)) (U17 m c) (Proc.devRef .tc main_v196) = _
  generalize U17 m c = V at ha hb hc ⊢
  after_results_simp
  refine eq_of_heq ((cast_heq _ _).trans (heq_of_eq ?_))
  unfold val_main_v196 val_main_call8_v1 val_main_call8_v0
  refine congr (congr (congrArg select ?_) ?_) ?_
  · exact eq_of_heq ((cast_heq _ _).trans (heq_of_eq ha))
  · exact eq_of_heq ((cast_heq _ _).trans (heq_of_eq hb))
  · exact (ofBuf_toBuf _ _).trans (congrArg (broadcastInDim S50000 ![] bcast_S_S50000)
      ((ofBuf_toBuf _ _).trans (congrArg id (eq_of_heq ((cast_heq _ _).trans (heq_of_eq hc))))))

theorem R18_v189 : U18 m c (Proc.devRef .tc main_v189) = val_main_v189 (F := Ideal) (A0 m c) (A1 m c) (A2 m c) (A3 m c) (A4 m c) (A5 m c) (A6 m c) :=
  (by host_pass c18 : U18 m c (Proc.devRef .tc main_v189) = U17 m c (Proc.devRef .tc main_v189)).trans (R17_v189 m c)

theorem R18_v188 : U18 m c (Proc.devRef .tc main_v188) = val_main_v188 (F := Ideal) (A6 m c) :=
  (by host_pass c18 : U18 m c (Proc.devRef .tc main_v188) = U17 m c (Proc.devRef .tc main_v188)).trans (R17_v188 m c)

/-! ## Group 19 -/

theorem R19_v49 : U19 m c (Proc.devRef .tc main_v49) = val_main_v49 (F := Ideal) (A0 m c) (A1 m c) (A2 m c) (A3 m c) (A4 m c) :=
  (by host_pass c19 : U19 m c (Proc.devRef .tc main_v49) = U18 m c (Proc.devRef .tc main_v49)).trans (R18_v49 m c)

theorem R19_v94 : U19 m c (Proc.devRef .tc main_v94) = val_main_v94 (F := Ideal) (A0 m c) (A1 m c) (A2 m c) (A3 m c) (A4 m c) (A5 m c) (A6 m c) :=
  (by host_pass c19 : U19 m c (Proc.devRef .tc main_v94) = U18 m c (Proc.devRef .tc main_v94)).trans (R18_v94 m c)

theorem R19_v139 : U19 m c (Proc.devRef .tc main_v139) = val_main_v139 (F := Ideal) (A0 m c) (A1 m c) (A2 m c) (A3 m c) (A4 m c) (A5 m c) (A6 m c) :=
  (by host_pass c19 : U19 m c (Proc.devRef .tc main_v139) = U18 m c (Proc.devRef .tc main_v139)).trans (R18_v139 m c)

theorem R19_v184 : U19 m c (Proc.devRef .tc main_v184) = val_main_v184 (F := Ideal) (A0 m c) (A1 m c) (A2 m c) (A3 m c) (A4 m c) (A5 m c) (A6 m c) :=
  (by host_pass c19 : U19 m c (Proc.devRef .tc main_v184) = U18 m c (Proc.devRef .tc main_v184)).trans (R18_v184 m c)

theorem R19_arg7 : U19 m c (Proc.devRef .tc main_arg7) = A7 m c :=
  (by host_pass c19 : U19 m c (Proc.devRef .tc main_arg7) = U18 m c (Proc.devRef .tc main_arg7)).trans (R18_arg7 m c)

theorem R19_arg8 : U19 m c (Proc.devRef .tc main_arg8) = A8 m c :=
  (by host_pass c19 : U19 m c (Proc.devRef .tc main_arg8) = U18 m c (Proc.devRef .tc main_arg8)).trans (R18_arg8 m c)

theorem R19_v3 : U19 m c (Proc.devRef .tc main_v3) = val_main_v3 (F := Ideal) (A1 m c) :=
  (by host_pass c19 : U19 m c (Proc.devRef .tc main_v3) = U18 m c (Proc.devRef .tc main_v3)).trans (R18_v3 m c)

theorem R19_v8 : U19 m c (Proc.devRef .tc main_v8) = val_main_v8 (F := Ideal) (A2 m c) :=
  (by host_pass c19 : U19 m c (Proc.devRef .tc main_v8) = U18 m c (Proc.devRef .tc main_v8)).trans (R18_v8 m c)

theorem R19_v6 : U19 m c (Proc.devRef .tc main_v6) = val_main_v6 (F := Ideal) (A1 m c) :=
  (by host_pass c19 : U19 m c (Proc.devRef .tc main_v6) = U18 m c (Proc.devRef .tc main_v6)).trans (R18_v6 m c)

theorem R19_arg5 : U19 m c (Proc.devRef .tc main_arg5) = A5 m c :=
  (by host_pass c19 : U19 m c (Proc.devRef .tc main_arg5) = U18 m c (Proc.devRef .tc main_arg5)).trans (R18_arg5 m c)

theorem R19_arg6 : U19 m c (Proc.devRef .tc main_arg6) = A6 m c :=
  (by host_pass c19 : U19 m c (Proc.devRef .tc main_arg6) = U18 m c (Proc.devRef .tc main_arg6)).trans (R18_arg6 m c)

theorem R19_v228 : U19 m c (Proc.devRef .tc main_v228) = val_main_v228 (F := Ideal) (A0 m c) (A1 m c) (A2 m c) (A3 m c) (A4 m c) (A5 m c) (A6 m c) := by
  show StableHlo.after (c19 (F := Ideal)) (U18 m c) (Proc.devRef .tc main_v228) = _
  after_results_simp
  try simp only [R18_v3 m c, R18_v196 m c, R18_v8 m c, R18_v6 m c, R18_v189 m c, R18_v188 m c]
  rfl

/-! ## Group 20 -/

theorem R20_v49 : U20 m c (Proc.devRef .tc main_v49) = val_main_v49 (F := Ideal) (A0 m c) (A1 m c) (A2 m c) (A3 m c) (A4 m c) :=
  (by host_pass c20 : U20 m c (Proc.devRef .tc main_v49) = U19 m c (Proc.devRef .tc main_v49)).trans (R19_v49 m c)

theorem R20_v94 : U20 m c (Proc.devRef .tc main_v94) = val_main_v94 (F := Ideal) (A0 m c) (A1 m c) (A2 m c) (A3 m c) (A4 m c) (A5 m c) (A6 m c) :=
  (by host_pass c20 : U20 m c (Proc.devRef .tc main_v94) = U19 m c (Proc.devRef .tc main_v94)).trans (R19_v94 m c)

theorem R20_v139 : U20 m c (Proc.devRef .tc main_v139) = val_main_v139 (F := Ideal) (A0 m c) (A1 m c) (A2 m c) (A3 m c) (A4 m c) (A5 m c) (A6 m c) :=
  (by host_pass c20 : U20 m c (Proc.devRef .tc main_v139) = U19 m c (Proc.devRef .tc main_v139)).trans (R19_v139 m c)

theorem R20_v184 : U20 m c (Proc.devRef .tc main_v184) = val_main_v184 (F := Ideal) (A0 m c) (A1 m c) (A2 m c) (A3 m c) (A4 m c) (A5 m c) (A6 m c) :=
  (by host_pass c20 : U20 m c (Proc.devRef .tc main_v184) = U19 m c (Proc.devRef .tc main_v184)).trans (R19_v184 m c)

theorem R20_v229 : U20 m c (Proc.devRef .tc main_v229) = val_main_v229 (F := Ideal) (A0 m c) (A1 m c) (A2 m c) (A3 m c) (A4 m c) (A5 m c) (A6 m c) := by
  have hx := R19_v228 m c
  show StableHlo.after (c20 (F := Ideal)) (U19 m c) (Proc.devRef .tc main_v229) = _
  generalize U19 m c = V at hx ⊢
  after_results_simp
  refine eq_of_heq ((cast_heq _ _).trans (heq_of_eq ?_))
  rw [ofBuf_toBuf, ofBuf_toBuf]
  unfold val_main_v229 val_main_call9_v0 val_main_call9_cst
  exact congr (congrArg maximumf (eq_of_heq ((cast_heq _ _).trans (heq_of_eq hx)))) rfl

theorem R20_arg7 : U20 m c (Proc.devRef .tc main_arg7) = A7 m c :=
  (by host_pass c20 : U20 m c (Proc.devRef .tc main_arg7) = U19 m c (Proc.devRef .tc main_arg7)).trans (R19_arg7 m c)

theorem R20_arg8 : U20 m c (Proc.devRef .tc main_arg8) = A8 m c :=
  (by host_pass c20 : U20 m c (Proc.devRef .tc main_arg8) = U19 m c (Proc.devRef .tc main_arg8)).trans (R19_arg8 m c)

theorem R20_v3 : U20 m c (Proc.devRef .tc main_v3) = val_main_v3 (F := Ideal) (A1 m c) :=
  (by host_pass c20 : U20 m c (Proc.devRef .tc main_v3) = U19 m c (Proc.devRef .tc main_v3)).trans (R19_v3 m c)

theorem R20_v8 : U20 m c (Proc.devRef .tc main_v8) = val_main_v8 (F := Ideal) (A2 m c) :=
  (by host_pass c20 : U20 m c (Proc.devRef .tc main_v8) = U19 m c (Proc.devRef .tc main_v8)).trans (R19_v8 m c)

theorem R20_v6 : U20 m c (Proc.devRef .tc main_v6) = val_main_v6 (F := Ideal) (A1 m c) :=
  (by host_pass c20 : U20 m c (Proc.devRef .tc main_v6) = U19 m c (Proc.devRef .tc main_v6)).trans (R19_v6 m c)

theorem R20_arg5 : U20 m c (Proc.devRef .tc main_arg5) = A5 m c :=
  (by host_pass c20 : U20 m c (Proc.devRef .tc main_arg5) = U19 m c (Proc.devRef .tc main_arg5)).trans (R19_arg5 m c)

theorem R20_arg6 : U20 m c (Proc.devRef .tc main_arg6) = A6 m c :=
  (by host_pass c20 : U20 m c (Proc.devRef .tc main_arg6) = U19 m c (Proc.devRef .tc main_arg6)).trans (R19_arg6 m c)

/-! ## Group 21 -/

theorem R21_v49 : U21 m c (Proc.devRef .tc main_v49) = val_main_v49 (F := Ideal) (A0 m c) (A1 m c) (A2 m c) (A3 m c) (A4 m c) :=
  (by host_pass c21 : U21 m c (Proc.devRef .tc main_v49) = U20 m c (Proc.devRef .tc main_v49)).trans (R20_v49 m c)

theorem R21_v94 : U21 m c (Proc.devRef .tc main_v94) = val_main_v94 (F := Ideal) (A0 m c) (A1 m c) (A2 m c) (A3 m c) (A4 m c) (A5 m c) (A6 m c) :=
  (by host_pass c21 : U21 m c (Proc.devRef .tc main_v94) = U20 m c (Proc.devRef .tc main_v94)).trans (R20_v94 m c)

theorem R21_v139 : U21 m c (Proc.devRef .tc main_v139) = val_main_v139 (F := Ideal) (A0 m c) (A1 m c) (A2 m c) (A3 m c) (A4 m c) (A5 m c) (A6 m c) :=
  (by host_pass c21 : U21 m c (Proc.devRef .tc main_v139) = U20 m c (Proc.devRef .tc main_v139)).trans (R20_v139 m c)

theorem R21_v184 : U21 m c (Proc.devRef .tc main_v184) = val_main_v184 (F := Ideal) (A0 m c) (A1 m c) (A2 m c) (A3 m c) (A4 m c) (A5 m c) (A6 m c) :=
  (by host_pass c21 : U21 m c (Proc.devRef .tc main_v184) = U20 m c (Proc.devRef .tc main_v184)).trans (R20_v184 m c)

theorem R21_v229 : U21 m c (Proc.devRef .tc main_v229) = val_main_v229 (F := Ideal) (A0 m c) (A1 m c) (A2 m c) (A3 m c) (A4 m c) (A5 m c) (A6 m c) :=
  (by host_pass c21 : U21 m c (Proc.devRef .tc main_v229) = U20 m c (Proc.devRef .tc main_v229)).trans (R20_v229 m c)

theorem R21_arg7 : U21 m c (Proc.devRef .tc main_arg7) = A7 m c :=
  (by host_pass c21 : U21 m c (Proc.devRef .tc main_arg7) = U20 m c (Proc.devRef .tc main_arg7)).trans (R20_arg7 m c)

theorem R21_arg8 : U21 m c (Proc.devRef .tc main_arg8) = A8 m c :=
  (by host_pass c21 : U21 m c (Proc.devRef .tc main_arg8) = U20 m c (Proc.devRef .tc main_arg8)).trans (R20_arg8 m c)

theorem R21_v3 : U21 m c (Proc.devRef .tc main_v3) = val_main_v3 (F := Ideal) (A1 m c) :=
  (by host_pass c21 : U21 m c (Proc.devRef .tc main_v3) = U20 m c (Proc.devRef .tc main_v3)).trans (R20_v3 m c)

theorem R21_v8 : U21 m c (Proc.devRef .tc main_v8) = val_main_v8 (F := Ideal) (A2 m c) :=
  (by host_pass c21 : U21 m c (Proc.devRef .tc main_v8) = U20 m c (Proc.devRef .tc main_v8)).trans (R20_v8 m c)

theorem R21_v6 : U21 m c (Proc.devRef .tc main_v6) = val_main_v6 (F := Ideal) (A1 m c) :=
  (by host_pass c21 : U21 m c (Proc.devRef .tc main_v6) = U20 m c (Proc.devRef .tc main_v6)).trans (R20_v6 m c)

theorem R21_v234 : U21 m c (Proc.devRef .tc main_v234) = val_main_v234 (F := Ideal) (A0 m c) (A1 m c) (A2 m c) (A3 m c) (A4 m c) (A5 m c) (A6 m c) := by
  show StableHlo.after (c21 (F := Ideal)) (U20 m c) (Proc.devRef .tc main_v234) = _
  after_results_simp
  try simp only [R20_arg5 m c, R20_arg6 m c, R20_v229 m c, R20_v6 m c, R20_v8 m c]
  rfl

theorem R21_v233 : U21 m c (Proc.devRef .tc main_v233) = val_main_v233 (F := Ideal) (A6 m c) := by
  show StableHlo.after (c21 (F := Ideal)) (U20 m c) (Proc.devRef .tc main_v233) = _
  after_results_simp
  try simp only [R20_arg5 m c, R20_arg6 m c, R20_v229 m c, R20_v6 m c, R20_v8 m c]
  rfl

theorem R21_cst_51 : U21 m c (Proc.devRef .tc main_cst_51) = val_main_cst_51 (F := Ideal) := by
  show StableHlo.after (c21 (F := Ideal)) (U20 m c) (Proc.devRef .tc main_cst_51) = _
  after_results_simp
  try simp only [R20_arg5 m c, R20_arg6 m c, R20_v229 m c, R20_v6 m c, R20_v8 m c]
  rfl

theorem R21_v239 : U21 m c (Proc.devRef .tc main_v239) = val_main_v239 (F := Ideal) (A1 m c) (A2 m c) := by
  show StableHlo.after (c21 (F := Ideal)) (U20 m c) (Proc.devRef .tc main_v239) = _
  after_results_simp
  try simp only [R20_arg5 m c, R20_arg6 m c, R20_v229 m c, R20_v6 m c, R20_v8 m c]
  rfl

theorem R21_v240 : U21 m c (Proc.devRef .tc main_v240) = val_main_v240 (F := Ideal) (A1 m c) (A2 m c) := by
  show StableHlo.after (c21 (F := Ideal)) (U20 m c) (Proc.devRef .tc main_v240) = _
  after_results_simp
  try simp only [R20_arg5 m c, R20_arg6 m c, R20_v229 m c, R20_v6 m c, R20_v8 m c]
  rfl

/-! ## Group 22 -/

theorem R22_v49 : U22 m c (Proc.devRef .tc main_v49) = val_main_v49 (F := Ideal) (A0 m c) (A1 m c) (A2 m c) (A3 m c) (A4 m c) :=
  (by host_pass c22 : U22 m c (Proc.devRef .tc main_v49) = U21 m c (Proc.devRef .tc main_v49)).trans (R21_v49 m c)

theorem R22_v94 : U22 m c (Proc.devRef .tc main_v94) = val_main_v94 (F := Ideal) (A0 m c) (A1 m c) (A2 m c) (A3 m c) (A4 m c) (A5 m c) (A6 m c) :=
  (by host_pass c22 : U22 m c (Proc.devRef .tc main_v94) = U21 m c (Proc.devRef .tc main_v94)).trans (R21_v94 m c)

theorem R22_v139 : U22 m c (Proc.devRef .tc main_v139) = val_main_v139 (F := Ideal) (A0 m c) (A1 m c) (A2 m c) (A3 m c) (A4 m c) (A5 m c) (A6 m c) :=
  (by host_pass c22 : U22 m c (Proc.devRef .tc main_v139) = U21 m c (Proc.devRef .tc main_v139)).trans (R21_v139 m c)

theorem R22_v184 : U22 m c (Proc.devRef .tc main_v184) = val_main_v184 (F := Ideal) (A0 m c) (A1 m c) (A2 m c) (A3 m c) (A4 m c) (A5 m c) (A6 m c) :=
  (by host_pass c22 : U22 m c (Proc.devRef .tc main_v184) = U21 m c (Proc.devRef .tc main_v184)).trans (R21_v184 m c)

theorem R22_v229 : U22 m c (Proc.devRef .tc main_v229) = val_main_v229 (F := Ideal) (A0 m c) (A1 m c) (A2 m c) (A3 m c) (A4 m c) (A5 m c) (A6 m c) :=
  (by host_pass c22 : U22 m c (Proc.devRef .tc main_v229) = U21 m c (Proc.devRef .tc main_v229)).trans (R21_v229 m c)

theorem R22_arg7 : U22 m c (Proc.devRef .tc main_arg7) = A7 m c :=
  (by host_pass c22 : U22 m c (Proc.devRef .tc main_arg7) = U21 m c (Proc.devRef .tc main_arg7)).trans (R21_arg7 m c)

theorem R22_arg8 : U22 m c (Proc.devRef .tc main_arg8) = A8 m c :=
  (by host_pass c22 : U22 m c (Proc.devRef .tc main_arg8) = U21 m c (Proc.devRef .tc main_arg8)).trans (R21_arg8 m c)

theorem R22_v3 : U22 m c (Proc.devRef .tc main_v3) = val_main_v3 (F := Ideal) (A1 m c) :=
  (by host_pass c22 : U22 m c (Proc.devRef .tc main_v3) = U21 m c (Proc.devRef .tc main_v3)).trans (R21_v3 m c)

theorem R22_v241 : U22 m c (Proc.devRef .tc main_v241) = val_main_v241 (F := Ideal) (A1 m c) (A2 m c) := by
  have ha := R21_v239 m c
  have hb := R21_v240 m c
  have hc := R21_cst_51 m c
  show StableHlo.after (c22 (F := Ideal)) (U21 m c) (Proc.devRef .tc main_v241) = _
  generalize U21 m c = V at ha hb hc ⊢
  after_results_simp
  refine eq_of_heq ((cast_heq _ _).trans (heq_of_eq ?_))
  unfold val_main_v241 val_main_call10_v1 val_main_call10_v0
  refine congr (congr (congrArg select ?_) ?_) ?_
  · exact eq_of_heq ((cast_heq _ _).trans (heq_of_eq ha))
  · exact eq_of_heq ((cast_heq _ _).trans (heq_of_eq hb))
  · exact (ofBuf_toBuf _ _).trans (congrArg (broadcastInDim S50000 ![] bcast_S_S50000)
      ((ofBuf_toBuf _ _).trans (congrArg id (eq_of_heq ((cast_heq _ _).trans (heq_of_eq hc))))))

theorem R22_v8 : U22 m c (Proc.devRef .tc main_v8) = val_main_v8 (F := Ideal) (A2 m c) :=
  (by host_pass c22 : U22 m c (Proc.devRef .tc main_v8) = U21 m c (Proc.devRef .tc main_v8)).trans (R21_v8 m c)

theorem R22_v6 : U22 m c (Proc.devRef .tc main_v6) = val_main_v6 (F := Ideal) (A1 m c) :=
  (by host_pass c22 : U22 m c (Proc.devRef .tc main_v6) = U21 m c (Proc.devRef .tc main_v6)).trans (R21_v6 m c)

theorem R22_v234 : U22 m c (Proc.devRef .tc main_v234) = val_main_v234 (F := Ideal) (A0 m c) (A1 m c) (A2 m c) (A3 m c) (A4 m c) (A5 m c) (A6 m c) :=
  (by host_pass c22 : U22 m c (Proc.devRef .tc main_v234) = U21 m c (Proc.devRef .tc main_v234)).trans (R21_v234 m c)

theorem R22_v233 : U22 m c (Proc.devRef .tc main_v233) = val_main_v233 (F := Ideal) (A6 m c) :=
  (by host_pass c22 : U22 m c (Proc.devRef .tc main_v233) = U21 m c (Proc.devRef .tc main_v233)).trans (R21_v233 m c)

/-! ## Group 23 -/

theorem R23_v49 : U23 m c (Proc.devRef .tc main_v49) = val_main_v49 (F := Ideal) (A0 m c) (A1 m c) (A2 m c) (A3 m c) (A4 m c) :=
  (by host_pass c23 : U23 m c (Proc.devRef .tc main_v49) = U22 m c (Proc.devRef .tc main_v49)).trans (R22_v49 m c)

theorem R23_v94 : U23 m c (Proc.devRef .tc main_v94) = val_main_v94 (F := Ideal) (A0 m c) (A1 m c) (A2 m c) (A3 m c) (A4 m c) (A5 m c) (A6 m c) :=
  (by host_pass c23 : U23 m c (Proc.devRef .tc main_v94) = U22 m c (Proc.devRef .tc main_v94)).trans (R22_v94 m c)

theorem R23_v139 : U23 m c (Proc.devRef .tc main_v139) = val_main_v139 (F := Ideal) (A0 m c) (A1 m c) (A2 m c) (A3 m c) (A4 m c) (A5 m c) (A6 m c) :=
  (by host_pass c23 : U23 m c (Proc.devRef .tc main_v139) = U22 m c (Proc.devRef .tc main_v139)).trans (R22_v139 m c)

theorem R23_v184 : U23 m c (Proc.devRef .tc main_v184) = val_main_v184 (F := Ideal) (A0 m c) (A1 m c) (A2 m c) (A3 m c) (A4 m c) (A5 m c) (A6 m c) :=
  (by host_pass c23 : U23 m c (Proc.devRef .tc main_v184) = U22 m c (Proc.devRef .tc main_v184)).trans (R22_v184 m c)

theorem R23_v229 : U23 m c (Proc.devRef .tc main_v229) = val_main_v229 (F := Ideal) (A0 m c) (A1 m c) (A2 m c) (A3 m c) (A4 m c) (A5 m c) (A6 m c) :=
  (by host_pass c23 : U23 m c (Proc.devRef .tc main_v229) = U22 m c (Proc.devRef .tc main_v229)).trans (R22_v229 m c)

theorem R23_arg7 : U23 m c (Proc.devRef .tc main_arg7) = A7 m c :=
  (by host_pass c23 : U23 m c (Proc.devRef .tc main_arg7) = U22 m c (Proc.devRef .tc main_arg7)).trans (R22_arg7 m c)

theorem R23_arg8 : U23 m c (Proc.devRef .tc main_arg8) = A8 m c :=
  (by host_pass c23 : U23 m c (Proc.devRef .tc main_arg8) = U22 m c (Proc.devRef .tc main_arg8)).trans (R22_arg8 m c)

theorem R23_v273 : U23 m c (Proc.devRef .tc main_v273) = val_main_v273 (F := Ideal) (A0 m c) (A1 m c) (A2 m c) (A3 m c) (A4 m c) (A5 m c) (A6 m c) := by
  show StableHlo.after (c23 (F := Ideal)) (U22 m c) (Proc.devRef .tc main_v273) = _
  after_results_simp
  try simp only [R22_v3 m c, R22_v241 m c, R22_v8 m c, R22_v6 m c, R22_v234 m c, R22_v233 m c]
  rfl

/-! ## Group 24 -/

theorem R24_v49 : U24 m c (Proc.devRef .tc main_v49) = val_main_v49 (F := Ideal) (A0 m c) (A1 m c) (A2 m c) (A3 m c) (A4 m c) :=
  (by host_pass c24 : U24 m c (Proc.devRef .tc main_v49) = U23 m c (Proc.devRef .tc main_v49)).trans (R23_v49 m c)

theorem R24_v94 : U24 m c (Proc.devRef .tc main_v94) = val_main_v94 (F := Ideal) (A0 m c) (A1 m c) (A2 m c) (A3 m c) (A4 m c) (A5 m c) (A6 m c) :=
  (by host_pass c24 : U24 m c (Proc.devRef .tc main_v94) = U23 m c (Proc.devRef .tc main_v94)).trans (R23_v94 m c)

theorem R24_v139 : U24 m c (Proc.devRef .tc main_v139) = val_main_v139 (F := Ideal) (A0 m c) (A1 m c) (A2 m c) (A3 m c) (A4 m c) (A5 m c) (A6 m c) :=
  (by host_pass c24 : U24 m c (Proc.devRef .tc main_v139) = U23 m c (Proc.devRef .tc main_v139)).trans (R23_v139 m c)

theorem R24_v184 : U24 m c (Proc.devRef .tc main_v184) = val_main_v184 (F := Ideal) (A0 m c) (A1 m c) (A2 m c) (A3 m c) (A4 m c) (A5 m c) (A6 m c) :=
  (by host_pass c24 : U24 m c (Proc.devRef .tc main_v184) = U23 m c (Proc.devRef .tc main_v184)).trans (R23_v184 m c)

theorem R24_v229 : U24 m c (Proc.devRef .tc main_v229) = val_main_v229 (F := Ideal) (A0 m c) (A1 m c) (A2 m c) (A3 m c) (A4 m c) (A5 m c) (A6 m c) :=
  (by host_pass c24 : U24 m c (Proc.devRef .tc main_v229) = U23 m c (Proc.devRef .tc main_v229)).trans (R23_v229 m c)

theorem R24_v274 : U24 m c (Proc.devRef .tc main_v274) = val_main_v274 (F := Ideal) (A0 m c) (A1 m c) (A2 m c) (A3 m c) (A4 m c) (A5 m c) (A6 m c) := by
  have hx := R23_v273 m c
  show StableHlo.after (c24 (F := Ideal)) (U23 m c) (Proc.devRef .tc main_v274) = _
  generalize U23 m c = V at hx ⊢
  after_results_simp
  refine eq_of_heq ((cast_heq _ _).trans (heq_of_eq ?_))
  rw [ofBuf_toBuf, ofBuf_toBuf]
  unfold val_main_v274 val_main_call11_v0 val_main_call11_cst
  exact congr (congrArg maximumf (eq_of_heq ((cast_heq _ _).trans (heq_of_eq hx)))) rfl

theorem R24_arg7 : U24 m c (Proc.devRef .tc main_arg7) = A7 m c :=
  (by host_pass c24 : U24 m c (Proc.devRef .tc main_arg7) = U23 m c (Proc.devRef .tc main_arg7)).trans (R23_arg7 m c)

theorem R24_arg8 : U24 m c (Proc.devRef .tc main_arg8) = A8 m c :=
  (by host_pass c24 : U24 m c (Proc.devRef .tc main_arg8) = U23 m c (Proc.devRef .tc main_arg8)).trans (R23_arg8 m c)

/-! ## Group 25 -/

theorem R25_v279 : U25 m c (Proc.devRef .tc main_v279) = val_main_v279 (F := Ideal) (A0 m c) (A1 m c) (A2 m c) (A3 m c) (A4 m c) (A5 m c) (A6 m c) (A7 m c) (A8 m c) := by
  show StableHlo.after (c25 (F := Ideal)) (U24 m c) (Proc.devRef .tc main_v279) = _
  after_results_simp
  unfold val_main_v279 val_main_v278 val_main_v277 val_main_v276 val_main_v275
  rw [← R24_v49 m c, ← R24_v94 m c, ← R24_v139 m c, ← R24_v184 m c, ← R24_v229 m c, ← R24_v274 m c, ← R24_arg7 m c, ← R24_arg8 m c]
  rfl

/-! ## Group 26 -/

theorem R26_v280 : U26 m c (Proc.devRef .tc main_v280) = val_main_v280 (F := Ideal) (A0 m c) (A1 m c) (A2 m c) (A3 m c) (A4 m c) (A5 m c) (A6 m c) (A7 m c) (A8 m c) := by
  have hx := R25_v279 m c
  show StableHlo.after (c26 (F := Ideal)) (U25 m c) (Proc.devRef .tc main_v280) = _
  generalize U25 m c = V at hx ⊢
  after_results_simp
  refine eq_of_heq ((cast_heq _ _).trans (heq_of_eq ?_))
  simp only [ofBuf_toBuf]
  rw [show ∀ h1 h2 h3, (TRef.of (T := ⟨S50000x40, .f32⟩) main_v279 h1 h2 h3).ofBuf (V (Proc.devRef .tc main_v279)) = val_main_v279 (F := Ideal) (A0 m c) (A1 m c) (A2 m c) (A3 m c) (A4 m c) (A5 m c) (A6 m c) (A7 m c) (A8 m c) from
    fun _ _ _ => eq_of_heq ((cast_heq _ _).trans (heq_of_eq hx))]
  unfold val_main_v280 val_main_call12_v10 val_main_call12_v9 val_main_call12_v8 val_main_call12_v7 val_main_call12_cst_1 val_main_call12_v6 val_main_call12_v5 val_main_call12_v4 val_main_call12_v3 val_main_call12_v2 val_main_call12_v1 val_main_call12_cst_0 val_main_call12_v0 val_main_call12_cst
  rfl

/-! ## The run -/

/-- The reference's operations are the 26 groups in order. -/
theorem ops_eq : (Cert.ReferenceIdeal.ValueP.ops (F := Ideal)) = (c1 (F := Ideal)) ++ ((c2 (F := Ideal)) ++ ((c3 (F := Ideal)) ++ ((c4 (F := Ideal)) ++ ((c5 (F := Ideal)) ++ ((c6 (F := Ideal)) ++ ((c7 (F := Ideal)) ++ ((c8 (F := Ideal)) ++ ((c9 (F := Ideal)) ++ ((c10 (F := Ideal)) ++ ((c11 (F := Ideal)) ++ ((c12 (F := Ideal)) ++ ((c13 (F := Ideal)) ++ ((c14 (F := Ideal)) ++ ((c15 (F := Ideal)) ++ ((c16 (F := Ideal)) ++ ((c17 (F := Ideal)) ++ ((c18 (F := Ideal)) ++ ((c19 (F := Ideal)) ++ ((c20 (F := Ideal)) ++ ((c21 (F := Ideal)) ++ ((c22 (F := Ideal)) ++ ((c23 (F := Ideal)) ++ ((c24 (F := Ideal)) ++ ((c25 (F := Ideal)) ++ ((c26 (F := Ideal))))))))))))))))))))))))))) := rfl

/-- The result buffer after all the operations holds the reference's last stage. -/
theorem value : StableHlo.after (Cert.ReferenceIdeal.ValueP.ops (F := Ideal)) (launchContents m c) (Proc.devRef .tc main_v280)
    = val_main_v280 (F := Ideal) (A0 m c) (A1 m c) (A2 m c) (A3 m c) (A4 m c) (A5 m c) (A6 m c) (A7 m c) (A8 m c) := by
  rw [ops_eq]
  simp only [after_append]
  exact R26_v280 m c

/-- No operation writes argument 0. -/
theorem argpass0 : StableHlo.after (Cert.ReferenceIdeal.ValueP.ops (F := Ideal)) (launchContents m c) (Proc.devRef .tc main_arg0)
    = m ((c.tc : Thread nD τ).loc main_arg0) :=
  (by host_pass Cert.ReferenceIdeal.ValueP.ops : StableHlo.after (Cert.ReferenceIdeal.ValueP.ops (F := Ideal)) (launchContents m c) (Proc.devRef .tc main_arg0)
    = launchContents m c (Proc.devRef .tc main_arg0)).trans rfl

/-- No operation writes argument 1. -/
theorem argpass1 : StableHlo.after (Cert.ReferenceIdeal.ValueP.ops (F := Ideal)) (launchContents m c) (Proc.devRef .tc main_arg1)
    = m ((c.tc : Thread nD τ).loc main_arg1) :=
  (by host_pass Cert.ReferenceIdeal.ValueP.ops : StableHlo.after (Cert.ReferenceIdeal.ValueP.ops (F := Ideal)) (launchContents m c) (Proc.devRef .tc main_arg1)
    = launchContents m c (Proc.devRef .tc main_arg1)).trans rfl

/-- No operation writes argument 2. -/
theorem argpass2 : StableHlo.after (Cert.ReferenceIdeal.ValueP.ops (F := Ideal)) (launchContents m c) (Proc.devRef .tc main_arg2)
    = m ((c.tc : Thread nD τ).loc main_arg2) :=
  (by host_pass Cert.ReferenceIdeal.ValueP.ops : StableHlo.after (Cert.ReferenceIdeal.ValueP.ops (F := Ideal)) (launchContents m c) (Proc.devRef .tc main_arg2)
    = launchContents m c (Proc.devRef .tc main_arg2)).trans rfl

/-- No operation writes argument 3. -/
theorem argpass3 : StableHlo.after (Cert.ReferenceIdeal.ValueP.ops (F := Ideal)) (launchContents m c) (Proc.devRef .tc main_arg3)
    = m ((c.tc : Thread nD τ).loc main_arg3) :=
  (by host_pass Cert.ReferenceIdeal.ValueP.ops : StableHlo.after (Cert.ReferenceIdeal.ValueP.ops (F := Ideal)) (launchContents m c) (Proc.devRef .tc main_arg3)
    = launchContents m c (Proc.devRef .tc main_arg3)).trans rfl

/-- No operation writes argument 4. -/
theorem argpass4 : StableHlo.after (Cert.ReferenceIdeal.ValueP.ops (F := Ideal)) (launchContents m c) (Proc.devRef .tc main_arg4)
    = m ((c.tc : Thread nD τ).loc main_arg4) :=
  (by host_pass Cert.ReferenceIdeal.ValueP.ops : StableHlo.after (Cert.ReferenceIdeal.ValueP.ops (F := Ideal)) (launchContents m c) (Proc.devRef .tc main_arg4)
    = launchContents m c (Proc.devRef .tc main_arg4)).trans rfl

/-- No operation writes argument 5. -/
theorem argpass5 : StableHlo.after (Cert.ReferenceIdeal.ValueP.ops (F := Ideal)) (launchContents m c) (Proc.devRef .tc main_arg5)
    = m ((c.tc : Thread nD τ).loc main_arg5) :=
  (by host_pass Cert.ReferenceIdeal.ValueP.ops : StableHlo.after (Cert.ReferenceIdeal.ValueP.ops (F := Ideal)) (launchContents m c) (Proc.devRef .tc main_arg5)
    = launchContents m c (Proc.devRef .tc main_arg5)).trans rfl

/-- No operation writes argument 6. -/
theorem argpass6 : StableHlo.after (Cert.ReferenceIdeal.ValueP.ops (F := Ideal)) (launchContents m c) (Proc.devRef .tc main_arg6)
    = m ((c.tc : Thread nD τ).loc main_arg6) :=
  (by host_pass Cert.ReferenceIdeal.ValueP.ops : StableHlo.after (Cert.ReferenceIdeal.ValueP.ops (F := Ideal)) (launchContents m c) (Proc.devRef .tc main_arg6)
    = launchContents m c (Proc.devRef .tc main_arg6)).trans rfl

/-- No operation writes argument 7. -/
theorem argpass7 : StableHlo.after (Cert.ReferenceIdeal.ValueP.ops (F := Ideal)) (launchContents m c) (Proc.devRef .tc main_arg7)
    = m ((c.tc : Thread nD τ).loc main_arg7) :=
  (by host_pass Cert.ReferenceIdeal.ValueP.ops : StableHlo.after (Cert.ReferenceIdeal.ValueP.ops (F := Ideal)) (launchContents m c) (Proc.devRef .tc main_arg7)
    = launchContents m c (Proc.devRef .tc main_arg7)).trans rfl

/-- No operation writes argument 8. -/
theorem argpass8 : StableHlo.after (Cert.ReferenceIdeal.ValueP.ops (F := Ideal)) (launchContents m c) (Proc.devRef .tc main_arg8)
    = m ((c.tc : Thread nD τ).loc main_arg8) :=
  (by host_pass Cert.ReferenceIdeal.ValueP.ops : StableHlo.after (Cert.ReferenceIdeal.ValueP.ops (F := Ideal)) (launchContents m c) (Proc.devRef .tc main_arg8)
    = launchContents m c (Proc.devRef .tc main_arg8)).trans rfl

/-- Every weakly fair execution of the reference terminates with its result at the last stage of the arguments
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v280) = val_main_v280 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v280).trans (value m c),
      (h c main_arg0).trans (argpass0 m c),
      (h c main_arg1).trans (argpass1 m c),
      (h c main_arg2).trans (argpass2 m c),
      (h c main_arg3).trans (argpass3 m c),
      (h c main_arg4).trans (argpass4 m c),
      (h c main_arg5).trans (argpass5 m c),
      (h c main_arg6).trans (argpass6 m c),
      (h c main_arg7).trans (argpass7 m c),
      (h c main_arg8).trans (argpass8 m c)⟩)
    (run_seq Cert.ReferenceIdeal.ValueP.scopedRefs_eq Cert.ReferenceIdeal.ValueP.scopedSems_eq defs main (fun _ => Cert.ReferenceIdeal.ValueP.ops)
      Cert.ReferenceIdeal.ValueP.main_eq (fun _ => Cert.ReferenceIdeal.ValueP.ops_sub) m ρ)

end Cert.ReferenceIdeal.Chunks

end
-- ==== Proof.lean ====
/-
  Equivalence, over the extended reals, of a six-layer graph network with a jumping-knowledge classifier written as
  seven kernel regions among host operations, and its plain reference.

  Both programs add the self-loops to the edge lists, take the weighted degrees and the symmetric normalisation
  with the same host operations.  A layer multiplies the node features by a weight matrix, gathers the products along
  the edges, scales them, adds them up at the edges' targets, adds a bias row and clamps at zero.  The kernel program
  does the product of the first layer in one region, the "bias, clamp, next product" of the following layers in one
  region each, and the gather and the sum on the host between the regions, with the very operations of the
  reference; a region works on blocks of 2000 rows, and since a row of a product depends on the same row of its
  left operand only, the blocks it writes are the blocks of the whole-array product.  The classifier multiplies the
  six layers' outputs, laid side by side, by a 384-row matrix; the last region adds six products of the outputs with
  the six 64-row slices of that matrix, the same sum taken slice by slice, then the bias row, and takes the row-wise
  log-softmax as the reference does.  Changes of float format are the identity on the extended reals, a matrix product
  is the plain sum of products on both sides, and only commutativity and associativity of addition are used, so
  the finiteness of the inputs is never needed.

  The modules: Spec (the mathematics), Pay (what each kernel body stores), Region0 … Region6 (each region's output
  arrays, whole), RunVal (the kernel program's run with its result named), HostOps and HostSoft (host operations read
  at an entry), RefStages (the reference's stages as that mathematics), ChainA … ChainC (the kernel program's buffers at
  every boundary are stages of the reference), RefChunks (the reference's run, group by group, ends at its last stage).
-/
import proofs.«168511_j27419071218301_2_alg».proof.Defs
import proofs.«168511_j27419071218301_2_alg».proof.Proof.Gen.Kernel
import proofs.«168511_j27419071218301_2_alg».proof.Proof.Gen.Kernel.Skeleton
import proofs.«168511_j27419071218301_2_alg».proof.Proof.Gen.Kernel.Launch
import proofs.«168511_j27419071218301_2_alg».proof.Proof.Gen.Kernel.Points
import proofs.«168511_j27419071218301_2_alg».proof.Proof.Gen.Kernel.Frame
import proofs.«168511_j27419071218301_2_alg».proof.Proof.Gen.KernelIdeal
import proofs.«168511_j27419071218301_2_alg».proof.Proof.Gen.KernelIdeal.Skeleton
import proofs.«168511_j27419071218301_2_alg».proof.Proof.Gen.KernelIdeal.Launch
import proofs.«168511_j27419071218301_2_alg».proof.Proof.Gen.KernelIdeal.Points
import proofs.«168511_j27419071218301_2_alg».proof.Proof.Gen.KernelIdeal.Frame
import proofs.«168511_j27419071218301_2_alg».proof.Proof.Gen.ReferenceIdeal
import proofs.«168511_j27419071218301_2_alg».proof.Proof.Gen.Pre_finite_inputs
import proofs.«168511_j27419071218301_2_alg».proof.Proof.RunVal
import proofs.«168511_j27419071218301_2_alg».proof.Proof.ChainC
import proofs.«168511_j27419071218301_2_alg».proof.Proof.RefChunks
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Chunks.run m ρ)

/-- From memories agreeing on the nine arguments both programs end with the same result array: the reference's last
    stage at the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v280 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.JK.Chain.final_value m ρ c), (h c).2⟩)
      (Cert.KernelIdeal.RunVal.run (F := Ideal) m ρ)
  · refine (θ_run Cert.ReferenceIdeal.defs _ _).mono (fun _ h c => ⟨(h c).1.trans ?_, (h c).2⟩)
      (Cert.ReferenceIdeal.Chunks.run m' ρ')
    obtain ⟨g0, g1, g2, g3, g4, g5, g6, g7, g8⟩ := hagree c
    rw [g0, g1, g2, g3, g4, g5, g6, g7, g8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
